-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12000x32x4 : Shape := ⟨4, ![4, 12000, 32, 4]⟩
abbrev S4x12000x4 : Shape := ⟨3, ![4, 12000, 4]⟩
abbrev S4x12000 : Shape := ⟨2, ![4, 12000]⟩
abbrev S9x64 : Shape := ⟨2, ![9, 64]⟩
abbrev S64 : Shape := ⟨1, ![64]⟩
abbrev S64x64 : Shape := ⟨2, ![64, 64]⟩
abbrev S_ : Shape := ⟨0, ![]⟩

class Facts : Prop where
  bcast_S_S4x12000x32x4 : S_.BroadcastsInDim S4x12000x32x4 (![] : Fin 0 → Fin S4x12000x32x4.rank)
  reducesTo_S4x12000x32x4_S_d0_1_2_3 : S4x12000x32x4.ReducesTo [0, 1, 2, 3] S_
  h_S_ : 0 < S_.numel
  bcast_S_S9x64 : S_.BroadcastsInDim S9x64 (![] : Fin 0 → Fin S9x64.rank)
  reducesTo_S9x64_S_d0_1 : S9x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64x64 .f32) (main_arg7 : FVec F S64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S4x12000x32x4 .f32) (main_arg1 : IVec S4x12000x4 32) (main_arg2 : IVec S4x12000 32) (main_arg3 : FVec F S9x64 .f32) (main_arg4 : FVec F S64 .f32) (main_arg5 : FVec F S64 .f32) (main_arg6 : FVec F S64x64 .f32) (main_arg7 : FVec F S64 .f32) (main_arg8 : FVec F S64 .f32) : IVec S_ 1 :=
  let main_v0 : FVec F S4x12000x32x4 .f32 := Host.absf main_arg0
  let main_cst : FVec F S_ .f32 := constant S_ .f32 0x7F800000#32
  let main_v1 : FVec F S4x12000x32x4 .f32 := broadcastInDim S4x12000x32x4 ![] bcast_S_S4x12000x32x4 main_cst
  let main_v2 : IVec S4x12000x32x4 1 := cmpf .olt main_v0 main_v1
  let main_c : IVec S_ 1 := constantI S_ 1 1#1
  let main_v3 : IVec S_ 1 := (fun x v => Host.reduce IntOp.andi x v reducesTo_S4x12000x32x4_S_d0_1_2_3 h_S_) main_v2 main_c
  let main_v4 : FVec F S9x64 .f32 := Host.absf main_arg3
  let main_cst_0 : FVec F S_ .f32 := constant S_ .f32 0x7F800000#32
  let main_v5 : FVec F S9x64 .f32 := broadcastInDim S9x64 ![] bcast_S_S9x64 main_cst_0
  let main_v6 : IVec S9x64 1 := cmpf .olt main_v4 main_v5
  let main_c_1 : IVec S_ 1 := constantI S_ 1 1#1
  let main_v7 : IVec S_ 1 := (fun x v => Host.reduce IntOp.andi x v reducesTo_S9x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_v13 main_v16
-- ==== Kernel.lean ====
abbrev S4x12000x32x4 : Shape := ⟨4, ![4, 12000, 32, 4]⟩
abbrev S4x12000x4 : Shape := ⟨3, ![4, 12000, 4]⟩
abbrev S4x12000 : Shape := ⟨2, ![4, 12000]⟩
abbrev S9x64 : Shape := ⟨2, ![9, 64]⟩
abbrev S64 : Shape := ⟨1, ![64]⟩
abbrev S64x64 : Shape := ⟨2, ![64, 64]⟩
abbrev S4x12000x1 : Shape := ⟨3, ![4, 12000, 1]⟩
abbrev S_ : Shape := ⟨0, ![]⟩
abbrev S4x12000x3 : Shape := ⟨3, ![4, 12000, 3]⟩
abbrev S1x64 : Shape := ⟨2, ![1, 64]⟩
abbrev S4x64 : Shape := ⟨2, ![4, 64]⟩
abbrev S3x64 : Shape := ⟨2, ![3, 64]⟩
abbrev S4x200x32x4 : Shape := ⟨4, ![4, 200, 32, 4]⟩
abbrev S4x200x3 : Shape := ⟨3, ![4, 200, 3]⟩
abbrev S4x200x32x1 : Shape := ⟨4, ![4, 200, 32, 1]⟩
abbrev S4x200x32 : Shape := ⟨3, ![4, 200, 32]⟩
abbrev S4x200x1 : Shape := ⟨3, ![4, 200, 1]⟩
abbrev S4x200 : Shape := ⟨2, ![4, 200]⟩
abbrev S1x1x1x64 : Shape := ⟨4, ![1, 1, 1, 64]⟩
abbrev S4x200x32x64 : Shape := ⟨4, ![4, 200, 32, 64]⟩
abbrev S1x1x64 : Shape := ⟨3, ![1, 1, 64]⟩
abbrev S4x200x64 : Shape := ⟨3, ![4, 200, 64]⟩
abbrev S4x200x1x64 : Shape := ⟨4, ![4, 200, 1, 64]⟩
abbrev S25600x64 : Shape := ⟨2, ![25600, 64]⟩
abbrev S4x12000x64 : Shape := ⟨3, ![4, 12000, 64]⟩

abbrev nBuf : Space → Nat
  | .hbm => 94
  | .vmem => 38
  | .smem => 0
  | _ => 0

abbrev bufTy : (tb : Table) → Fin (tcTables nBuf tb) → BufTy
  | .hbm, ⟨0, _⟩ => ⟨S4x12000x32x4, .f32⟩
  | .hbm, ⟨1, _⟩ => ⟨S4x12000x4, .i32⟩
  | .hbm, ⟨2, _⟩ => ⟨S4x12000, .i32⟩
  | .hbm, ⟨3, _⟩ => ⟨S9x64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S4x12000x1, .i32⟩
  | .hbm, ⟨10, _⟩ => ⟨S4x12000, .i32⟩
  | .hbm, ⟨11, _⟩ => ⟨S4x12000, .f32⟩
  | .hbm, ⟨12, _⟩ => ⟨S4x12000x1, .i32⟩
  | .hbm, ⟨13, _⟩ => ⟨S4x12000, .i32⟩
  | .hbm, ⟨14, _⟩ => ⟨S4x12000, .f32⟩
  | .hbm, ⟨15, _⟩ => ⟨S_, .f32⟩
  | .hbm, ⟨16, _⟩ => ⟨S4x12000, .f32⟩
  | .hbm, ⟨17, _⟩ => ⟨S4x12000, .f32⟩
  | .hbm, ⟨18, _⟩ => ⟨S_, .f32⟩
  | .hbm, ⟨19, _⟩ => ⟨S4x12000, .f32⟩
  | .hbm, ⟨20, _⟩ => ⟨S4x12000, .f32⟩
  | .hbm, ⟨21, _⟩ => ⟨S_, .f32⟩
  | .hbm, ⟨22, _⟩ => ⟨S4x12000, .f32⟩
  | .hbm, ⟨23, _⟩ => ⟨S4x12000, .f32⟩
  | .hbm, ⟨24, _⟩ => ⟨S_, .f32⟩
  | .hbm, ⟨25, _⟩ => ⟨S4x12000, .f32⟩
  | .hbm, ⟨26, _⟩ => ⟨S4x12000, .f32⟩
  | .hbm, ⟨27, _⟩ => ⟨S_, .f32⟩
  | .hbm, ⟨28, _⟩ => ⟨S4x12000, .f32⟩
  | .hbm, ⟨29, _⟩ => ⟨S4x12000, .f32⟩
  | .hbm, ⟨30, _⟩ => ⟨S_, .f32⟩
  | .hbm, ⟨31, _⟩ => ⟨S4x12000, .f32⟩
  | .hbm, ⟨32, _⟩ => ⟨S4x12000, .f32⟩
  | .hbm, ⟨33, _⟩ => ⟨S4x12000, .f32⟩
  | .hbm, ⟨34, _⟩ => ⟨S4x12000x1, .f32⟩
  | .hbm, ⟨35, _⟩ => ⟨S4x12000x1, .f32⟩
  | .hbm, ⟨36, _⟩ => ⟨S4x12000x1, .f32⟩
  | .hbm, ⟨37, _⟩ => ⟨S4x12000x3, .f32⟩
  | .hbm, ⟨38, _⟩ => ⟨S1x64, .f32⟩
  | .hbm, ⟨39, _⟩ => ⟨S64, .f32⟩
  | .hbm, ⟨40, _⟩ => ⟨S1x64, .f32⟩
  | .hbm, ⟨41, _⟩ => ⟨S64, .f32⟩
  | .hbm, ⟨42, _⟩ => ⟨S64, .f32⟩
  | .hbm, ⟨43, _⟩ => ⟨S1x64, .f32⟩
  | .hbm, ⟨44, _⟩ => ⟨S64, .f32⟩
  | .hbm, ⟨45, _⟩ => ⟨S1x64, .f32⟩
  | .hbm, ⟨46, _⟩ => ⟨S64, .f32⟩
  | .hbm, ⟨47, _⟩ => ⟨S64, .f32⟩
  | .hbm, ⟨48, _⟩ => ⟨S1x64, .f32⟩
  | .hbm, ⟨49, _⟩ => ⟨S64, .f32⟩
  | .hbm, ⟨50, _⟩ => ⟨S1x64, .f32⟩
  | .hbm, ⟨51, _⟩ => ⟨S64, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S4x64, .f32⟩
  | .hbm, ⟨57, _⟩ => ⟨S1x64, .f32⟩
  | .hbm, ⟨58, _⟩ => ⟨S64, .f32⟩
  | .hbm, ⟨59, _⟩ => ⟨S1x64, .f32⟩
  | .hbm, ⟨60, _⟩ => ⟨S64, .f32⟩
  | .hbm, ⟨61, _⟩ => ⟨S64, .f32⟩
  | .hbm, ⟨62, _⟩ => ⟨S1x64, .f32⟩
  | .hbm, ⟨63, _⟩ => ⟨S64, .f32⟩
  | .hbm, ⟨64, _⟩ => ⟨S1x64, .f32⟩
  | .hbm, ⟨65, _⟩ => ⟨S64, .f32⟩
  | .hbm, ⟨66, _⟩ => ⟨S64, .f32⟩
  | .hbm, ⟨67, _⟩ => ⟨S1x64, .f32⟩
  | .hbm, ⟨68, _⟩ => ⟨S64, .f32⟩
  | .hbm, ⟨69, _⟩ => ⟨S1x64, .f32⟩
  | .hbm, ⟨70, _⟩ => ⟨S1x64, .f32⟩
  | .hbm, ⟨71, _⟩ => ⟨S1x64, .f32⟩
  | .hbm, ⟨72, _⟩ => ⟨S3x64, .f32⟩
  | .hbm, ⟨73, _⟩ => ⟨S64, .f32⟩
  | .hbm, ⟨74, _⟩ => ⟨S64, .f32⟩
  | .hbm, ⟨75, _⟩ => ⟨S_, .f32⟩
  | .hbm, ⟨76, _⟩ => ⟨S64, .f32⟩
  | .hbm, ⟨77, _⟩ => ⟨S64, .f32⟩
  | .hbm, ⟨78, _⟩ => ⟨S_, .f32⟩
  | .hbm, ⟨79, _⟩ => ⟨S64, .f32⟩
  | .hbm, ⟨80, _⟩ => ⟨S64, .f32⟩
  | .hbm, ⟨81, _⟩ => ⟨S64, .f32⟩
  | .hbm, ⟨82, _⟩ => ⟨S64, .f32⟩
  | .hbm, ⟨83, _⟩ => ⟨S64, .f32⟩
  | .hbm, ⟨84, _⟩ => ⟨S64, .f32⟩
  | .hbm, ⟨85, _⟩ => ⟨S_, .f32⟩
  | .hbm, ⟨86, _⟩ => ⟨S64, .f32⟩
  | .hbm, ⟨87, _⟩ => ⟨S64, .f32⟩
  | .hbm, ⟨88, _⟩ => ⟨S_, .f32⟩
  | .hbm, ⟨89, _⟩ => ⟨S64, .f32⟩
  | .hbm, ⟨90, _⟩ => ⟨S64, .f32⟩
  | .hbm, ⟨91, _⟩ => ⟨S64, .f32⟩
  | .hbm, ⟨92, _⟩ => ⟨S64, .f32⟩
  | .hbm, ⟨93, _⟩ => ⟨S4x12000x64, .f32⟩
  | .local _ .vmem, ⟨0, _⟩ => ⟨S4x200x32x4, .f32⟩
  | .local _ .vmem, ⟨1, _⟩ => ⟨S4x200x32x4, .f32⟩
  | .local _ .vmem, ⟨2, _⟩ => ⟨S4x200x3, .f32⟩
  | .local _ .vmem, ⟨3, _⟩ => ⟨S4x200x3, .f32⟩
  | .local _ .vmem, ⟨4, _⟩ => ⟨S4x64, .f32⟩
  | .local _ .vmem, ⟨5, _⟩ => ⟨S3x64, .f32⟩
  | .local _ .vmem, ⟨6, _⟩ => ⟨S64, .f32⟩
  | .local _ .vmem, ⟨7, _⟩ => ⟨S64, .f32⟩
  | .local _ .vmem, ⟨8, _⟩ => ⟨S4x200x32x4, .f32⟩
  | .local _ .vmem, ⟨9, _⟩ => ⟨S4x200x32x4, .f32⟩
  | .local _ .vmem, ⟨10, _⟩ => ⟨S4x200x3, .f32⟩
  | .local _ .vmem, ⟨11, _⟩ => ⟨S4x200x3, .f32⟩
  | .local _ .vmem, ⟨12, _⟩ => ⟨S4x64, .f32⟩
  | .local _ .vmem, ⟨13, _⟩ => ⟨S3x64, .f32⟩
  | .local _ .vmem, ⟨14, _⟩ => ⟨S64, .f32⟩
  | .local _ .vmem, ⟨15, _⟩ => ⟨S64, .f32⟩
  | .local _ .vmem, ⟨16, _⟩ => ⟨S64, .f32⟩
  | .local _ .vmem, ⟨17, _⟩ => ⟨S64, .f32⟩
  | .local _ .vmem, ⟨18, _⟩ => ⟨S64x64, .f32⟩
  | .local _ .vmem, ⟨19, _⟩ => ⟨S64, .f32⟩
  | .local _ .vmem, ⟨20, _⟩ => ⟨S64, .f32⟩
  | .local _ .vmem, ⟨21, _⟩ => ⟨S4x200x32x4, .f32⟩
  | .local _ .vmem, ⟨22, _⟩ => ⟨S4x200x32x4, .f32⟩
  | .local _ .vmem, ⟨23, _⟩ => ⟨S4x200x3, .f32⟩
  | .local _ .vmem, ⟨24, _⟩ => ⟨S4x200x3, .f32⟩
  | .local _ .vmem, ⟨25, _⟩ => ⟨S4x64, .f32⟩
  | .local _ .vmem, ⟨26, _⟩ => ⟨S3x64, .f32⟩
  | .local _ .vmem, ⟨27, _⟩ => ⟨S64, .f32⟩
  | .local _ .vmem, ⟨28, _⟩ => ⟨S64, .f32⟩
  | .local _ .vmem, ⟨29, _⟩ => ⟨S64, .f32⟩
  | .local _ .vmem, ⟨30, _⟩ => ⟨S64, .f32⟩
  | .local _ .vmem, ⟨31, _⟩ => ⟨S64x64, .f32⟩
  | .local _ .vmem, ⟨32, _⟩ => ⟨S64, .f32⟩
  | .local _ .vmem, ⟨33, _⟩ => ⟨S64, .f32⟩
  | .local _ .vmem, ⟨34, _⟩ => ⟨S64, .f32⟩
  | .local _ .vmem, ⟨35, _⟩ => ⟨S64, .f32⟩
  | .local _ .vmem, ⟨36, _⟩ => ⟨S4x200x64, .f32⟩
  | .local _ .vmem, ⟨37, _⟩ => ⟨S4x200x64, .f32⟩
  | _, _ => ⟨S4x12000x32x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58_0 : Ref sig .tc := ⟨.hbm, 73, rfl⟩
abbrev main_v58_1 : Ref sig .tc := ⟨.hbm, 74, rfl⟩
abbrev main_cst_5 : Ref sig .tc := ⟨.hbm, 75, rfl⟩
abbrev main_v59 : Ref sig .tc := ⟨.hbm, 76, rfl⟩
abbrev main_v60 : Ref sig .tc := ⟨.hbm, 77, rfl⟩
abbrev main_cst_6 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65_0 : Ref sig .tc := ⟨.hbm, 83, rfl⟩
abbrev main_v65_1 : Ref sig .tc := ⟨.hbm, 84, rfl⟩
abbrev main_cst_7 : Ref sig .tc := ⟨.hbm, 85, rfl⟩
abbrev main_v66 : Ref sig .tc := ⟨.hbm, 86, rfl⟩
abbrev main_v67 : Ref sig .tc := ⟨.hbm, 87, rfl⟩
abbrev main_cst_8 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg10_0 : Ref sig .tc := ⟨.vmem, 33, rfl⟩
abbrev cc2_stg11_0 : Ref sig .tc := ⟨.vmem, 34, rfl⟩
abbrev cc2_stg12_0 : Ref sig .tc := ⟨.vmem, 35, rfl⟩
abbrev cc2_stg13_0 : Ref sig .tc := ⟨.vmem, 36, rfl⟩
abbrev cc2_stg13_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem9_0 : DmaSem sig := 32
abbrev cc2_sem10_0 : DmaSem sig := 33
abbrev cc2_sem11_0 : DmaSem sig := 34
abbrev cc2_sem12_0 : DmaSem sig := 35
abbrev cc2_sem13_0 : DmaSem sig := 36
abbrev cc2_sem13_1 : DmaSem sig := 37

abbrev nD : Nat := 1
abbrev τ : Topo := Topo.v7x

variable {F : FTy → Type} [FloatOps F]

abbrev grid0 : Pipeline.Grid := ⟨1, ![60], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S4x200x32x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x200x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![60], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S4x200x32x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x200x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev grid2 : Pipeline.Grid := ⟨1, ![60], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_12 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_13 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S4x200x32x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x200x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S4x200x64 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

class Facts₀ : Prop where
  slices_S4x12000x4_S4x12000x1_0_0_3 : S4x12000x4.Slices ![0, 0, 3] S4x12000x1
  shapeCasts_S4x12000x1_S4x12000 : S4x12000x1.ShapeCasts S4x12000
  slices_S4x12000x4_S4x12000x1_0_0_2 : S4x12000x4.Slices ![0, 0, 2] S4x12000x1
  bcast_S_S4x12000 : S_.BroadcastsInDim S4x12000 (![] : Fin 0 → Fin S4x12000.rank)
  bcast_S4x12000_S4x12000x1_0_1 : S4x12000.BroadcastsInDim S4x12000x1 (![0, 1] : Fin 2 → Fin S4x12000x1.rank)
  concatenates_S4x12000x1_S4x12000x1_S4x12000x1_S4x12000x3_d2 : Shape.Concatenates [S4x12000x1, S4x12000x1, S4x12000x1] S4x12000x3 2
  slices_S9x64_S1x64_0_0 : S9x64.Slices ![0, 0] S1x64
  shapeCasts_S1x64_S64 : S1x64.ShapeCasts S64
  slices_S9x64_S1x64_4_0 : S9x64.Slices ![4, 0] S1x64
  slices_S9x64_S1x64_1_0 : S9x64.Slices ![1, 0] S1x64
  slices_S9x64_S1x64_5_0 : S9x64.Slices ![5, 0] S1x64
  slices_S9x64_S1x64_2_0 : S9x64.Slices ![2, 0] S1x64
  slices_S9x64_S1x64_3_0 : S9x64.Slices ![3, 0] S1x64
  bcast_S64_S1x64_1 : S64.BroadcastsInDim S1x64 (![1] : Fin 1 → Fin S1x64.rank)
  concatenates_S1x64_S1x64_S1x64_S1x64_S4x64_d0 : Shape.Concatenates [S1x64, S1x64, S1x64, S1x64] S4x64 0
  slices_S9x64_S1x64_6_0 : S9x64.Slices ![6, 0] S1x64
  slices_S9x64_S1x64_7_0 : S9x64.Slices ![7, 0] S1x64
  slices_S9x64_S1x64_8_0 : S9x64.Slices ![8, 0] S1x64
  concatenates_S1x64_S1x64_S1x64_S3x64_d0 : Shape.Concatenates [S1x64, S1x64, S1x64] S3x64 0
  inb_S64_S64_0 : ∀ a, (![0] : Fin 1 → Nat) a + S64.size a ≤ S64.size a
  h_S64 : 0 < S64.numel
  inb_S4x200x32x4_S4x200x32x4_0_0_0_0 : ∀ a, (![0, 0, 0, 0] : Fin 4 → Nat) a + S4x200x32x4.size a ≤ S4x200x32x4.size a
  h_S4x200x32x4 : 0 < S4x200x32x4.numel
  slices_S4x200x32x4_o0_0_0_0_S4x200x32x1 : S4x200x32x4.Slices ![0, 0, 0, 0] S4x200x32x1
  shapeCasts_S4x200x32x1_S4x200x32 : S4x200x32x1.ShapeCasts S4x200x32
  slices_S4x200x32x4_o0_0_0_1_S4x200x32x1 : S4x200x32x4.Slices ![0, 0, 0, 1] S4x200x32x1
  slices_S4x200x32x4_o0_0_0_2_S4x200x32x1 : S4x200x32x4.Slices ![0, 0, 0, 2] S4x200x32x1
  slices_S4x200x32x4_o0_0_0_3_S4x200x32x1 : S4x200x32x4.Slices ![0, 0, 0, 3] S4x200x32x1
  inb_S4x200x3_S4x200x3_0_0_0 : ∀ a, (![0, 0, 0] : Fin 3 → Nat) a + S4x200x3.size a ≤ S4x200x3.size a
  h_S4x200x3 : 0 < S4x200x3.numel
  shapeCasts_S4x200x3_S4x200x3 : S4x200x3.ShapeCasts S4x200x3
  slices_S4x200x3_o0_0_0_S4x200x1 : S4x200x3.Slices ![0, 0, 0] S4x200x1
  slices_S4x200x3_o0_0_1_S4x200x1 : S4x200x3.Slices ![0, 0, 1] S4x200x1
  slices_S4x200x3_o0_0_2_S4x200x1 : S4x200x3.Slices ![0, 0, 2] S4x200x1
  reduces_S4x200x32_S4x200 : S4x200x32.Reduces [2] S4x200
  shapeCasts_S4x200_S4x200x1 : S4x200.ShapeCasts S4x200x1
  inb_S4x64_S4x64_0_0 : ∀ a, (![0, 0] : Fin 2 → Nat) a + S4x64.size a ≤ S4x64.size a
  h_S4x64 : 0 < S4x64.numel
  shapeCasts_S4x64_S4x64 : S4x64.ShapeCasts S4x64
  inb_S3x64_S3x64_0_0 : ∀ a, (![0, 0] : Fin 2 → Nat) a + S3x64.size a ≤ S3x64.size a
  h_S3x64 : 0 < S3x64.numel
  shapeCasts_S3x64_S3x64 : S3x64.ShapeCasts S3x64
  shapeCasts_S4x200x32_S4x200x32x1 : S4x200x32.ShapeCasts S4x200x32x1
  slices_S4x64_o0_0_S1x64 : S4x64.Slices ![0, 0] S1x64
  shapeCasts_S64_S1x1x1x64 : S64.ShapeCasts S1x1x1x64
  broadcasts_S4x200x32x1_S4x200x32x64 : S4x200x32x1.Broadcasts S4x200x32x64
  broadcasts_S1x1x1x64_S4x200x32x64 : S1x1x1x64.Broadcasts S4x200x32x64
  slices_S4x64_o1_0_S1x64 : S4x64.Slices ![1, 0] S1x64
  slices_S4x64_o2_0_S1x64 : S4x64.Slices ![2, 0] S1x64
  slices_S4x64_o3_0_S1x64 : S4x64.Slices ![3, 0] S1x64
  slices_S3x64_o0_0_S1x64 : S3x64.Slices ![0, 0] S1x64
  shapeCasts_S64_S1x1x64 : S64.ShapeCasts S1x1x64
  broadcasts_S4x200x1_S4x200x64 : S4x200x1.Broadcasts S4x200x64
  broadcasts_S1x1x64_S4x200x64 : S1x1x64.Broadcasts S4x200x64
  slices_S3x64_o1_0_S1x64 : S3x64.Slices ![1, 0] S1x64
  slices_S3x64_o2_0_S1x64 : S3x64.Slices ![2, 0] S1x64
  iota_S4x200x32_d2_w32 : S4x200x32.Iotas .tc 32 [2]
  broadcasts_S4x200x1_S4x200x32 : S4x200x1.Broadcasts S4x200x32
  natLt_1_32 : 1 < 32
  shapeCasts_S4x200x64_S4x200x1x64 : S4x200x64.ShapeCasts S4x200x1x64
  broadcasts_S4x200x1x64_S4x200x32x64 : S4x200x1x64.Broadcasts S4x200x32x64
  shapeCasts_S4x200x32x64_S25600x64 : S4x200x32x64.ShapeCasts S25600x64
  shapeCasts_S64_S64 : S64.ShapeCasts S64
  reduces_S25600x64_S64 : S25600x64.Reduces [0] S64
  bcast_S_S64 : S_.BroadcastsInDim S64 (![] : Fin 0 → Fin S64.rank)
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S25600x64_S4x200x32x64 : S25600x64.ShapeCasts S4x200x32x64
  reduces_S4x200x32x64_S4x200x64 : S4x200x32x64.Reduces [2] S4x200x64
  inb_S4x200x64_S4x200x64_0_0_0 : ∀ a, (![0, 0, 0] : Fin 3 → Nat) a + S4x200x64.size a ≤ S4x200x64.size a
  h_S4x200x64 : 0 < S4x200x64.numel
  dot_S25600x64_S64x64_S25600x64_1_0_0_1_n_n_wf : DotDims.WF S25600x64 S64x64 S25600x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x200x32x4.size a ≤ S4x12000x32x4.size a
  hwx0_0 : ∀ i : grid0.Coords, EltTy.bits .f32 = 32 ∨ (Rect.block (s := S4x12000x32x4) S4x200x32x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x200x3.size a ≤ S4x12000x3.size a
  hwx0_1 : ∀ i : grid0.Coords, EltTy.bits .f32 = 32 ∨ (Rect.block (s := S4x12000x3) S4x200x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64.size a ≤ S4x64.size a
  hwx0_2 : ∀ i : grid0.Coords, EltTy.bits .f32 = 32 ∨ (Rect.block (s := S4x64) S4x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64.size a ≤ S3x64.size a
  hwx0_3 : ∀ i : grid0.Coords, EltTy.bits .f32 = 32 ∨ (Rect.block (s := S3x64) S3x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x200x32x4.size a ≤ S4x12000x32x4.size a
  hwx1_0 : ∀ i : grid1.Coords, EltTy.bits .f32 = 32 ∨ (Rect.block (s := S4x12000x32x4) S4x200x32x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x200x3.size a ≤ S4x12000x3.size a
  hwx1_1 : ∀ i : grid1.Coords, EltTy.bits .f32 = 32 ∨ (Rect.block (s := S4x12000x3) S4x200x3.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x64.size a ≤ S4x64.size a
  hwx1_2 : ∀ i : grid1.Coords, EltTy.bits .f32 = 32 ∨ (Rect.block (s := S4x64) S4x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x64.size a ≤ S3x64.size a
  hwx1_3 : ∀ i : grid1.Coords, EltTy.bits .f32 = 32 ∨ (Rect.block (s := S3x64) S3x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64.size a ≤ S64.size a
  hwx1_9 : ∀ i : grid1.Coords, EltTy.bits .f32 = 32 ∨ (Rect.block (s := S64) S64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64.size a ≤ S64.size a
  hwx1_10 : ∀ i : grid1.Coords, EltTy.bits .f32 = 32 ∨ (Rect.block (s := S64) S64.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x200x32x4.size a ≤ S4x12000x32x4.size a
  hwx2_0 : ∀ i : grid2.Coords, EltTy.bits .f32 = 32 ∨ (Rect.block (s := S4x12000x32x4) S4x200x32x4.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4x200x3.size a ≤ S4x12000x3.size a
  hwx2_1 : ∀ i : grid2.Coords, EltTy.bits .f32 = 32 ∨ (Rect.block (s := S4x12000x3) S4x200x3.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4x64.size a ≤ S4x64.size a
  hwx2_2 : ∀ i : grid2.Coords, EltTy.bits .f32 = 32 ∨ (Rect.block (s := S4x64) S4x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x64.size a ≤ S3x64.size a
  hwx2_3 : ∀ i : grid2.Coords, EltTy.bits .f32 = 32 ∨ (Rect.block (s := S3x64) S3x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64.size a ≤ S64.size a
  hwx2_7 : ∀ i : grid2.Coords, EltTy.bits .f32 = 32 ∨ (Rect.block (s := S64) S64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64.size a ≤ S64.size a
  hwx2_9 : ∀ i : grid2.Coords, EltTy.bits .f32 = 32 ∨ (Rect.block (s := S64) S64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64.size a ≤ S64.size a
  hwx2_10 : ∀ i : grid2.Coords, EltTy.bits .f32 = 32 ∨ (Rect.block (s := S64) S64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S64.size a ≤ S64.size a
  hwx2_11 : ∀ i : grid2.Coords, EltTy.bits .f32 = 32 ∨ (Rect.block (s := S64) S64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S64.size a ≤ S64.size a
  hwx2_12 : ∀ i : grid2.Coords, EltTy.bits .f32 = 32 ∨ (Rect.block (s := S64) S64.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S4x200x64.size a ≤ S4x12000x64.size a
  hwx2_13 : ∀ i : grid2.Coords, EltTy.bits .f32 = 32 ∨ (Rect.block (s := S4x12000x64) S4x200x64.size (cc2_transform_13 i) (hinb2_13 i)).WholeWords (EltTy.packing .f32)

variable [Facts₀]

def dot_S25600x64_S64x64_S25600x64_1_0_0_1_n_n : DotDims S25600x64 S64x64 S25600x64 where
  lhsContracting := [1]
  rhsContracting := [0]
  lhsNonContracting := [0]
  rhsNonContracting := [1]
  lhsBatch := []
  rhsBatch := []
  wf := dot_S25600x64_S64x64_S25600x64_1_0_0_1_n_n_wf

abbrev win0_0 : Pipeline.Window sig grid0 :=
  Pipeline.Window.ofSpec (Memref.whole main_arg0) S4x200x32x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S4x200x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S4x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v57) S3x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v58_0) S64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v58_1) S64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S4x200x32x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S4x200x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S4x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S3x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v60) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v64) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg6) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v65_0) S64.size cc1_transform_9 reads1_9 true true 1 stage1_9 sem1_9
    hrank1 hreads1_9 hinb1_9 nbuf1_9 (Memref.isWhole_whole _) hwx1_9 hstage1_9

abbrev win1_10 : Pipeline.Window sig grid1 :=
  Pipeline.Window.ofSpec (Memref.whole main_v65_1) S64.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_arg0) S4x200x32x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S4x200x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S4x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S3x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg4) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg5) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v64) S64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg6) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg7) S64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg8) S64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v67) S64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v71) S64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v72) S4x200x64.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

class Facts : Prop extends Facts₀ where

variable [Facts]
-- ==== ReferenceIdeal.lean ====
abbrev S4x12000x32x4 : Shape := ⟨4, ![4, 12000, 32, 4]⟩
abbrev S4x12000x4 : Shape := ⟨3, ![4, 12000, 4]⟩
abbrev S4x12000 : Shape := ⟨2, ![4, 12000]⟩
abbrev S9x64 : Shape := ⟨2, ![9, 64]⟩
abbrev S64 : Shape := ⟨1, ![64]⟩
abbrev S64x64 : Shape := ⟨2, ![64, 64]⟩
abbrev S2 : Shape := ⟨1, ![2]⟩
abbrev S4x12000x32x3 : Shape := ⟨4, ![4, 12000, 32, 3]⟩
abbrev S4x12000x32x1 : Shape := ⟨4, ![4, 12000, 32, 1]⟩
abbrev S_ : Shape := ⟨0, ![]⟩
abbrev S2x1 : Shape := ⟨2, ![2, 1]⟩
abbrev S4x12000x2 : Shape := ⟨3, ![4, 12000, 2]⟩
abbrev S1x1x2 : Shape := ⟨3, ![1, 1, 2]⟩
abbrev S4x12000x32x2 : Shape := ⟨4, ![4, 12000, 32, 2]⟩
abbrev S4x12000x1x2 : Shape := ⟨4, ![4, 12000, 1, 2]⟩
abbrev S4x12000x1 : Shape := ⟨3, ![4, 12000, 1]⟩
abbrev S4x12000x1x1 : Shape := ⟨4, ![4, 12000, 1, 1]⟩
abbrev S4x12000x32x9 : Shape := ⟨4, ![4, 12000, 32, 9]⟩
abbrev S32 : Shape := ⟨1, ![32]⟩
abbrev S1x1x32x1 : Shape := ⟨4, ![1, 1, 32, 1]⟩
abbrev S4x12000x32x64 : Shape := ⟨4, ![4, 12000, 32, 64]⟩
abbrev S1x1x1x64 : Shape := ⟨4, ![1, 1, 1, 64]⟩
abbrev S4x12000x64 : Shape := ⟨3, ![4, 12000, 64]⟩

abbrev nBuf : Space → Nat
  | .hbm => 127
  | .vmem => 0
  | .smem => 0
  | _ => 0

abbrev bufTy : (tb : Table) → Fin (tcTables nBuf tb) → BufTy
  | .hbm, ⟨0, _⟩ => ⟨S4x12000x32x4, .f32⟩
  | .hbm, ⟨1, _⟩ => ⟨S4x12000x4, .i32⟩
  | .hbm, ⟨2, _⟩ => ⟨S4x12000, .i32⟩
  | .hbm, ⟨3, _⟩ => ⟨S9x64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S2, .i32⟩
  | .hbm, ⟨10, _⟩ => ⟨S2, .f32⟩
  | .hbm, ⟨11, _⟩ => ⟨S2, .f32⟩
  | .hbm, ⟨12, _⟩ => ⟨S4x12000x32x3, .f32⟩
  | .hbm, ⟨13, _⟩ => ⟨S4x12000x32x1, .f32⟩
  | .hbm, ⟨14, _⟩ => ⟨S_, .i32⟩
  | .hbm, ⟨15, _⟩ => ⟨S2, .i32⟩
  | .hbm, ⟨16, _⟩ => ⟨S2, .i1⟩
  | .hbm, ⟨17, _⟩ => ⟨S_, .i32⟩
  | .hbm, ⟨18, _⟩ => ⟨S2, .i32⟩
  | .hbm, ⟨19, _⟩ => ⟨S2, .i32⟩
  | .hbm, ⟨20, _⟩ => ⟨S2, .i32⟩
  | .hbm, ⟨21, _⟩ => ⟨S2x1, .i32⟩
  | .hbm, ⟨22, _⟩ => ⟨S4x12000x2, .i32⟩
  | .hbm, ⟨23, _⟩ => ⟨S4x12000x2, .f32⟩
  | .hbm, ⟨24, _⟩ => ⟨S_, .f32⟩
  | .hbm, ⟨25, _⟩ => ⟨S4x12000x2, .f32⟩
  | .hbm, ⟨26, _⟩ => ⟨S4x12000x2, .f32⟩
  | .hbm, ⟨27, _⟩ => ⟨S1x1x2, .f32⟩
  | .hbm, ⟨28, _⟩ => ⟨S4x12000x2, .f32⟩
  | .hbm, ⟨29, _⟩ => ⟨S4x12000x2, .f32⟩
  | .hbm, ⟨30, _⟩ => ⟨S1x1x2, .f32⟩
  | .hbm, ⟨31, _⟩ => ⟨S4x12000x2, .f32⟩
  | .hbm, ⟨32, _⟩ => ⟨S4x12000x2, .f32⟩
  | .hbm, ⟨33, _⟩ => ⟨S4x12000x32x2, .f32⟩
  | .hbm, ⟨34, _⟩ => ⟨S4x12000x1x2, .f32⟩
  | .hbm, ⟨35, _⟩ => ⟨S4x12000x32x2, .f32⟩
  | .hbm, ⟨36, _⟩ => ⟨S4x12000x32x2, .f32⟩
  | .hbm, ⟨37, _⟩ => ⟨S4x12000x32x1, .f32⟩
  | .hbm, ⟨38, _⟩ => ⟨S_, .f32⟩
  | .hbm, ⟨39, _⟩ => ⟨S4x12000x1, .f32⟩
  | .hbm, ⟨40, _⟩ => ⟨S4x12000x1x1, .f32⟩
  | .hbm, ⟨41, _⟩ => ⟨S_, .f32⟩
  | .hbm, ⟨42, _⟩ => ⟨S4x12000x1x1, .f32⟩
  | .hbm, ⟨43, _⟩ => ⟨S4x12000x1x1, .f32⟩
  | .hbm, ⟨44, _⟩ => ⟨S4x12000x1x2, .f32⟩
  | .hbm, ⟨45, _⟩ => ⟨S4x12000x32x2, .f32⟩
  | .hbm, ⟨46, _⟩ => ⟨S4x12000x32x1, .f32⟩
  | .hbm, ⟨47, _⟩ => ⟨S4x12000x32x9, .f32⟩
  | .hbm, ⟨48, _⟩ => ⟨S32, .i32⟩
  | .hbm, ⟨49, _⟩ => ⟨S1x1x32x1, .i32⟩
  | .hbm, ⟨50, _⟩ => ⟨S4x12000x1x1, .i32⟩
  | .hbm, ⟨51, _⟩ => ⟨S4x12000x32x1, .i32⟩
  | .hbm, ⟨52, _⟩ => ⟨S4x12000x32x1, .i32⟩
  | .hbm, ⟨53, _⟩ => ⟨S4x12000x32x1, .i1⟩
  | .hbm, ⟨54, _⟩ => ⟨S4x12000x32x1, .f32⟩
  | .hbm, ⟨55, _⟩ => ⟨S4x12000x32x9, .f32⟩
  | .hbm, ⟨56, _⟩ => ⟨S4x12000x32x9, .f32⟩
  | .hbm, ⟨57, _⟩ => ⟨S4x12000x32x64, .f32⟩
  | .hbm, ⟨58, _⟩ => ⟨S_, .f32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S1x1x1x64, .f32⟩
  | .hbm, ⟨64, _⟩ => ⟨S4x12000x32x64, .f32⟩
  | .hbm, ⟨65, _⟩ => ⟨S4x12000x32x64, .f32⟩
  | .hbm, ⟨66, _⟩ => ⟨S4x12000x32x64, .f32⟩
  | .hbm, ⟨67, _⟩ => ⟨S_, .f32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S1x1x1x64, .f32⟩
  | .hbm, ⟨73, _⟩ => ⟨S4x12000x32x64, .f32⟩
  | .hbm, ⟨74, _⟩ => ⟨S4x12000x32x64, .f32⟩
  | .hbm, ⟨75, _⟩ => ⟨S_, .f32⟩
  | .hbm, ⟨76, _⟩ => ⟨S64, .f32⟩
  | .hbm, ⟨77, _⟩ => ⟨S64, .f32⟩
  | .hbm, ⟨78, _⟩ => ⟨S64, .f32⟩
  | .hbm, ⟨79, _⟩ => ⟨S1x1x1x64, .f32⟩
  | .hbm, ⟨80, _⟩ => ⟨S4x12000x32x64, .f32⟩
  | .hbm, ⟨81, _⟩ => ⟨S4x12000x32x64, .f32⟩
  | .hbm, ⟨82, _⟩ => ⟨S1x1x1x64, .f32⟩
  | .hbm, ⟨83, _⟩ => ⟨S4x12000x32x64, .f32⟩
  | .hbm, ⟨84, _⟩ => ⟨S4x12000x32x64, .f32⟩
  | .hbm, ⟨85, _⟩ => ⟨S1x1x1x64, .f32⟩
  | .hbm, ⟨86, _⟩ => ⟨S4x12000x32x64, .f32⟩
  | .hbm, ⟨87, _⟩ => ⟨S4x12000x32x64, .f32⟩
  | .hbm, ⟨88, _⟩ => ⟨S_, .f32⟩
  | .hbm, ⟨89, _⟩ => ⟨S4x12000x32x64, .f32⟩
  | .hbm, ⟨90, _⟩ => ⟨S4x12000x32x64, .f32⟩
  | .hbm, ⟨91, _⟩ => ⟨S4x12000x32x64, .f32⟩
  | .hbm, ⟨92, _⟩ => ⟨S_, .f32⟩
  | .hbm, ⟨93, _⟩ => ⟨S64, .f32⟩
  | .hbm, ⟨94, _⟩ => ⟨S_, .f32⟩
  | .hbm, ⟨95, _⟩ => ⟨S64, .f32⟩
  | .hbm, ⟨96, _⟩ => ⟨S64, .f32⟩
  | .hbm, ⟨97, _⟩ => ⟨S1x1x1x64, .f32⟩
  | .hbm, ⟨98, _⟩ => ⟨S4x12000x32x64, .f32⟩
  | .hbm, ⟨99, _⟩ => ⟨S4x12000x32x64, .f32⟩
  | .hbm, ⟨100, _⟩ => ⟨S4x12000x32x64, .f32⟩
  | .hbm, ⟨101, _⟩ => ⟨S_, .f32⟩
  | .hbm, ⟨102, _⟩ => ⟨S64, .f32⟩
  | .hbm, ⟨103, _⟩ => ⟨S_, .f32⟩
  | .hbm, ⟨104, _⟩ => ⟨S64, .f32⟩
  | .hbm, ⟨105, _⟩ => ⟨S64, .f32⟩
  | .hbm, ⟨106, _⟩ => ⟨S1x1x1x64, .f32⟩
  | .hbm, ⟨107, _⟩ => ⟨S4x12000x32x64, .f32⟩
  | .hbm, ⟨108, _⟩ => ⟨S4x12000x32x64, .f32⟩
  | .hbm, ⟨109, _⟩ => ⟨S_, .f32⟩
  | .hbm, ⟨110, _⟩ => ⟨S64, .f32⟩
  | .hbm, ⟨111, _⟩ => ⟨S64, .f32⟩
  | .hbm, ⟨112, _⟩ => ⟨S64, .f32⟩
  | .hbm, ⟨113, _⟩ => ⟨S1x1x1x64, .f32⟩
  | .hbm, ⟨114, _⟩ => ⟨S4x12000x32x64, .f32⟩
  | .hbm, ⟨115, _⟩ => ⟨S4x12000x32x64, .f32⟩
  | .hbm, ⟨116, _⟩ => ⟨S1x1x1x64, .f32⟩
  | .hbm, ⟨117, _⟩ => ⟨S4x12000x32x64, .f32⟩
  | .hbm, ⟨118, _⟩ => ⟨S4x12000x32x64, .f32⟩
  | .hbm, ⟨119, _⟩ => ⟨S1x1x1x64, .f32⟩
  | .hbm, ⟨120, _⟩ => ⟨S4x12000x32x64, .f32⟩
  | .hbm, ⟨121, _⟩ => ⟨S4x12000x32x64, .f32⟩
  | .hbm, ⟨122, _⟩ => ⟨S_, .f32⟩
  | .hbm, ⟨123, _⟩ => ⟨S4x12000x32x64, .f32⟩
  | .hbm, ⟨124, _⟩ => ⟨S4x12000x32x64, .f32⟩
  | .hbm, ⟨125, _⟩ => ⟨S_, .f32⟩
  | .hbm, ⟨126, _⟩ => ⟨S4x12000x64, .f32⟩
  | _, _ => ⟨S4x12000x32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_v1 : Ref sig .tc := ⟨.hbm, 13, rfl⟩
abbrev main_c_1 : Ref sig .tc := ⟨.hbm, 14, rfl⟩
abbrev main_v2 : Ref sig .tc := ⟨.hbm, 15, rfl⟩
abbrev main_v3 : Ref sig .tc := ⟨.hbm, 16, rfl⟩
abbrev main_c_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_call0_cst : Ref sig .tc := ⟨.hbm, 88, rfl⟩
abbrev main_call0_v0 : Ref sig .tc := ⟨.hbm, 89, rfl⟩
abbrev main_v66 : Ref sig .tc := ⟨.hbm, 90, rfl⟩
abbrev main_v67 : Ref sig .tc := ⟨.hbm, 91, rfl⟩
abbrev main_cst_11 : Ref sig .tc := ⟨.hbm, 92, rfl⟩
abbrev main_v68 : Ref sig .tc := ⟨.hbm, 93, rfl⟩
abbrev main_cst_12 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_15 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_call1_cst : Ref sig .tc := ⟨.hbm, 122, rfl⟩
abbrev main_call1_v0 : Ref sig .tc := ⟨.hbm, 123, rfl⟩
abbrev main_v93 : Ref sig .tc := ⟨.hbm, 124, rfl⟩
abbrev main_cst_16 : Ref sig .tc := ⟨.hbm, 125, rfl⟩
abbrev main_v94 : Ref sig .tc := ⟨.hbm, 126, rfl⟩

abbrev nD : Nat := 1
abbrev τ : Topo := Topo.v7x

variable {F : FTy → Type} [FloatOps F]

class Facts₀ : Prop where
  slices_S4x12000x32x4_S4x12000x32x3_0_0_0_0 : S4x12000x32x4.Slices ![0, 0, 0, 0] S4x12000x32x3
  slices_S4x12000x32x4_S4x12000x32x1_0_0_0_3 : S4x12000x32x4.Slices ![0, 0, 0, 3] S4x12000x32x1
  bcast_S_S2 : S_.BroadcastsInDim S2 (![] : Fin 0 → Fin S2.rank)
  bcast_S2_S2x1_0 : S2.BroadcastsInDim S2x1 (![0] : Fin 1 → Fin S2x1.rank)
  bcast_S_S4x12000x2 : S_.BroadcastsInDim S4x12000x2 (![] : Fin 0 → Fin S4x12000x2.rank)
  bcast_S2_S1x1x2_2 : S2.BroadcastsInDim S1x1x2 (![2] : Fin 1 → Fin S1x1x2.rank)
  bcast_S1x1x2_S4x12000x2_0_1_2 : S1x1x2.BroadcastsInDim S4x12000x2 (![0, 1, 2] : Fin 3 → Fin S4x12000x2.rank)
  slices_S4x12000x32x3_S4x12000x32x2_0_0_0_0 : S4x12000x32x3.Slices ![0, 0, 0, 0] S4x12000x32x2
  bcast_S4x12000x2_S4x12000x1x2_0_1_3 : S4x12000x2.BroadcastsInDim S4x12000x1x2 (![0, 1, 3] : Fin 3 → Fin S4x12000x1x2.rank)
  bcast_S4x12000x1x2_S4x12000x32x2_0_1_2_3 : S4x12000x1x2.BroadcastsInDim S4x12000x32x2 (![0, 1, 2, 3] : Fin 4 → Fin S4x12000x32x2.rank)
  slices_S4x12000x32x3_S4x12000x32x1_0_0_0_2 : S4x12000x32x3.Slices ![0, 0, 0, 2] S4x12000x32x1
  reducesTo_S4x12000x32x1_S4x12000x1_d2 : S4x12000x32x1.ReducesTo [2] S4x12000x1
  h_S_ : 0 < S_.numel
  bcast_S4x12000x1_S4x12000x1x1_0_1_3 : S4x12000x1.BroadcastsInDim S4x12000x1x1 (![0, 1, 3] : Fin 3 → Fin S4x12000x1x1.rank)
  bcast_S_S4x12000x1x1 : S_.BroadcastsInDim S4x12000x1x1 (![] : Fin 0 → Fin S4x12000x1x1.rank)
  bcast_S4x12000x1x1_S4x12000x32x1_0_1_2_3 : S4x12000x1x1.BroadcastsInDim S4x12000x32x1 (![0, 1, 2, 3] : Fin 4 → Fin S4x12000x32x1.rank)
  concatenates_S4x12000x32x3_S4x12000x32x1_S4x12000x32x2_S4x12000x32x2_S4x12000x32x1_S4x12000x32x9_d3 : Shape.Concatenates [S4x12000x32x3, S4x12000x32x1, S4x12000x32x2, S4x12000x32x2, S4x12000x32x1] S4x12000x32x9 3
  bcast_S32_S1x1x32x1_2 : S32.BroadcastsInDim S1x1x32x1 (![2] : Fin 1 → Fin S1x1x32x1.rank)
  bcast_S4x12000_S4x12000x1x1_0_1 : S4x12000.BroadcastsInDim S4x12000x1x1 (![0, 1] : Fin 2 → Fin S4x12000x1x1.rank)
  bcast_S1x1x32x1_S4x12000x32x1_0_1_2_3 : S1x1x32x1.BroadcastsInDim S4x12000x32x1 (![0, 1, 2, 3] : Fin 4 → Fin S4x12000x32x1.rank)
  bcast_S4x12000x32x1_S4x12000x32x9_0_1_2_3 : S4x12000x32x1.BroadcastsInDim S4x12000x32x9 (![0, 1, 2, 3] : Fin 4 → Fin S4x12000x32x9.rank)
  reducesTo_S4x12000x32x64_S64_d0_1_2 : S4x12000x32x64.ReducesTo [0, 1, 2] S64
  bcast_S_S64 : S_.BroadcastsInDim S64 (![] : Fin 0 → Fin S64.rank)
  bcast_S64_S1x1x1x64_3 : S64.BroadcastsInDim S1x1x1x64 (![3] : Fin 1 → Fin S1x1x1x64.rank)
  bcast_S1x1x1x64_S4x12000x32x64_0_1_2_3 : S1x1x1x64.BroadcastsInDim S4x12000x32x64 (![0, 1, 2, 3] : Fin 4 → Fin S4x12000x32x64.rank)
  bcast_S_S4x12000x32x64 : S_.BroadcastsInDim S4x12000x32x64 (![] : Fin 0 → Fin S4x12000x32x64.rank)
  reducesTo_S4x12000x32x64_S4x12000x64_d2 : S4x12000x32x64.ReducesTo [2] S4x12000x64
  gather_S4x12000x4_S2x1_S4x12000x2_01_2_n_n_2_1_4120001_wf : GatherDims.WF S4x12000x4 S2x1 S4x12000x2 [0, 1] [2] [] [2] [] 1 ![4, 12000, 1]
  dot_S4x12000x32x9_S9x64_S4x12000x32x64_3_0_012_1_n_n_wf : DotDims.WF S4x12000x32x9 S9x64 S4x12000x32x64 [3] [0] [0, 1, 2] [1] [] []
  dot_S4x12000x32x64_S64x64_S4x12000x32x64_3_0_012_1_n_n_wf : DotDims.WF S4x12000x32x64 S64x64 S4x12000x32x64 [3] [0] [0, 1, 2] [1] [] []

variable [Facts₀]

def gather_S4x12000x4_S2x1_S4x12000x2_01_2_n_n_2_1_4120001 : GatherDims S4x12000x4 S2x1 S4x12000x2 where
  offsetDims := [0, 1]
  collapsedSliceDims := [2]
  operandBatchingDims := []
  startIndicesBatchingDims := []
  startIndexMap := [2]
  indexVectorDim := 1
  sliceSizes := ![4, 12000, 1]
  wf := gather_S4x12000x4_S2x1_S4x12000x2_01_2_n_n_2_1_4120001_wf
def dot_S4x12000x32x9_S9x64_S4x12000x32x64_3_0_012_1_n_n : DotDims S4x12000x32x9 S9x64 S4x12000x32x64 where
  lhsContracting := [3]
  rhsContracting := [0]
  lhsNonContracting := [0, 1, 2]
  rhsNonContracting := [1]
  lhsBatch := []
  rhsBatch := []
  wf := dot_S4x12000x32x9_S9x64_S4x12000x32x64_3_0_012_1_n_n_wf
def dot_S4x12000x32x64_S64x64_S4x12000x32x64_3_0_012_1_n_n : DotDims S4x12000x32x64 S64x64 S4x12000x32x64 where
  lhsContracting := [3]
  rhsContracting := [0]
  lhsNonContracting := [0, 1, 2]
  rhsNonContracting := [1]
  lhsBatch := []
  rhsBatch := []
  wf := dot_S4x12000x32x64_S64x64_S4x12000x32x64_3_0_012_1_n_n_wf

class Facts : Prop extends Facts₀ where

variable [Facts]
-- ==== Proof.BRuns.lean ====
/-
  What the three kernels' runs share. Each pallas_call runs its body once per tile of 200 pillars (60 tiles).
  The two statistics kernels reset their two 64-channel accumulators at the first tile and add the tile's
  per-channel sum (and sum of squares) at every tile; the last kernel writes one output block per tile.
  Here: each window's block at a tile read off the array the region finds, the first-tile condition in
  closed form, and the staging memrefs a tile's body is called with.
-/
import proofs.«172073_j52536039964809_2_alg».proof.Proof.Gen.Kernel.Launch
import proofs.«172073_j52536039964809_2_alg».proof.Proof.Gen.Kernel.Skeleton
import proofs.«172073_j52536039964809_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first-tile test of a statistics kernel: the tile number, as a 32-bit word, equals zero. -/
abbrev cond0_0 (i : grid0.Coords) : Prop := (Scalar.cmpi .ne (Scalar.extui (Scalar.cmpi .eq (BitVec.ofNat 32 (i 0).val) 0#32)) 0#32) = 1#1
/-- It holds at tile 0 only. -/
theorem hcond0_0 : ∀ t : Fin cfg0.N, cond0_0 (grid0.coords t) ↔ t.val % 60 = 0 :=
  (by decide +kernel : ∀ t : Fin grid0.N, cond0_0 (grid0.coords t) ↔ t.val % 60 = 0)

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 60 = 0 :=
  (by decide +kernel : ∀ t : Fin grid1.N, cond1_0 (grid1.coords t) ↔ t.val % 60 = 0)

/-- Staging memrefs of the first kernel's six windows at tile t, as the pipeline passes them. -/
abbrev ms0_0 (t : Fin cfg0.N) : Memref sig .tc .vmem S4x200x32x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x200x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64 .f32 := win0_5.stage (cfg0.slots t 5)
abbrev hs0_5 (t : Fin cfg0.N) : (ms0_5 t).IsWhole := hstage0_5 ((cfg0.slots t 5).cast nbuf0_5)

/-- One staging buffer of each accumulator window, through which its contents are stated. -/
abbrev VO0_4 : View sig .tc .vmem S64 .f32 := (Memref.whole cc0_stg4_0 : Memref sig .tc .vmem S64 .f32).view
abbrev VO0_5 : View sig .tc .vmem S64 .f32 := (Memref.whole cc0_stg5_0 : Memref sig .tc .vmem S64 .f32).view

end Cert.Kernel.Hand

end
-- ==== Proof.BRun0A.lean ====
/-
  The first statistics kernel at its FIRST tile: both accumulators are overwritten with zeros and then
  each takes the tile's per-channel sum (of the masked layer-1 pre-activation, resp. of its square) added
  to what it holds. The body is run symbolically on any whole staging memrefs; what its stores leave in
  the two accumulator buffers is found by the run as lists of written pieces.
-/
import proofs.«172073_j52536039964809_2_alg».proof.Proof.BRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_A (c : Dev nD) (i : grid0.Coords)
    (arg1 : Memref sig .tc .vmem S4x200x32x4 .f32) (harg1 : arg1.IsWhole) (arg2 : Memref sig .tc .vmem S4x200x3 .f32) (harg2 : arg2.IsWhole)
    (arg3 : Memref sig .tc .vmem S4x64 .f32) (harg3 : arg3.IsWhole) (arg4 : Memref sig .tc .vmem S3x64 .f32) (harg4 : arg4.IsWhole)
    (arg5 : Memref sig .tc .vmem S64 .f32) (harg5 : arg5.IsWhole) (arg6 : Memref sig .tc .vmem S64 .f32) (harg6 : arg6.IsWhole) (hc0 : cond0_0 i)
    (x0 : Vec F S4x200x32x4 .f32) (x1 : Vec F S4x200x3 .f32) (x2 : Vec F S4x64 .f32) (x3 : Vec F S3x64 .f32) :
    Σ' (L4 : List (View.Piece (Elt F) S64 .f32)), { L5 : List (View.Piece (Elt F) S64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc0__stats1_kernel i arg1 harg1 arg2 harg2 arg3 harg3 arg4 harg4 arg5 harg5 arg6 harg6) K } := by
  refine ⟨?_, ?_, fun E K => ?run⟩
  case run =>
    simp only [cc0__stats1_kernel_eq_skeleton]; unfold cc0__stats1_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact H5

end Cert.Kernel.Hand

end
-- ==== Proof.BRun0B.lean ====
/-
  The first statistics kernel at a LATER tile: each accumulator, found at what the tiles before left in it,
  takes the tile's per-channel sum (of the masked layer-1 pre-activation, resp. of its square) added to it.
  The body is run symbolically on any whole staging memrefs; the written pieces are found by the run.
-/
import proofs.«172073_j52536039964809_2_alg».proof.Proof.BRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
noncomputable def kernelRun0_B (c : Dev nD) (i : grid0.Coords)
    (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (hc0 : ¬cond0_0 i)
    (x0 : Vec F S4x200x32x4 .f32) (x1 : Vec F S4x200x3 .f32) (x2 : Vec F S4x64 .f32) (x3 : Vec F S3x64 .f32) (xo4 : Vec F S64 .f32) (xo5 : Vec F S64 .f32) :
    Σ' (L4 : List (View.Piece (Elt F) S64 .f32)), { L5 : List (View.Piece (Elt F) S64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc0__stats1_kernel i arg1 harg1 arg2 harg2 arg3 harg3 arg4 harg4 arg5 harg5 arg6 harg6) K } := by
  refine ⟨?_, ?_, fun E K => ?run⟩
  case run =>
    simp only [cc0__stats1_kernel_eq_skeleton]; unfold cc0__stats1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact H5

end Cert.Kernel.Hand

end
-- ==== Proof.BFrame0.lean ====
/-
  The first statistics kernel over its 60 tiles: what its two accumulators hold after each tile (reset at tile 0,
  added to at every tile, never written back before the last), the proof data the pipeline library asks for, and the
  body's obligation at every tile from the two symbolic runs.
-/
import proofs.«172073_j52536039964809_2_alg».proof.Proof.BRun0A
import proofs.«172073_j52536039964809_2_alg».proof.Proof.BRun0B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at tile t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every tile, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every tile, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every tile, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every tile, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The pieces the run finds for output window 4 tile its block, so they cover it. -/
theorem cover0_A_4 (c : Dev nD) (i : grid0.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (hc0 : cond0_0 i)
    (x0 : Vec F S4x200x32x4 .f32) (x1 : Vec F S4x200x3 .f32) (x2 : Vec F S4x64 .f32) (x3 : Vec F S3x64 .f32) (y : S64.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S64.size (by sl_kernel_rfl) y

/-- What the run leaves in output window 4's staging buffer: its pieces read back. -/
def out0_A_4 (c : Dev nD) (i : grid0.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (hc0 : cond0_0 i)
    (x0 : Vec F S4x200x32x4 .f32) (x1 : Vec F S4x200x3 .f32) (x2 : Vec F S4x64 .f32) (x3 : Vec F S3x64 .f32) : Vec F S64 .f32 :=
  VO0_4.read (Elt F) (VO0_4.writes (Elt F) VO0_4.junk (kernelRun0_A c i arg1 harg1 arg2 harg2 arg3 harg3 arg4 harg4 arg5 harg5 arg6 harg6 hc0 x0 x1 x2 x3).1)

/-- The pieces the run finds for output window 5 tile its block, so they cover it. -/
theorem cover0_A_5 (c : Dev nD) (i : grid0.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (hc0 : cond0_0 i)
    (x0 : Vec F S4x200x32x4 .f32) (x1 : Vec F S4x200x3 .f32) (x2 : Vec F S4x64 .f32) (x3 : Vec F S3x64 .f32) (y : S64.Idx) :
    ∃ pc ∈ (kernelRun0_A c i arg1 harg1 arg2 harg2 arg3 harg3 arg4 harg4 arg5 harg5 arg6 harg6 hc0 x0 x1 x2 x3).2.1, y ∈ pc.1.set :=
  View.cover_of_tiledL (kernelRun0_A c i arg1 harg1 arg2 harg2 arg3 harg3 arg4 harg4 arg5 harg5 arg6 harg6 hc0 x0 x1 x2 x3).2.1 S64.size (by sl_kernel_rfl) y

/-- What the run leaves in output window 5's staging buffer: its pieces read back. -/
def out0_A_5 (c : Dev nD) (i : grid0.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (hc0 : cond0_0 i)
    (x0 : Vec F S4x200x32x4 .f32) (x1 : Vec F S4x200x3 .f32) (x2 : Vec F S4x64 .f32) (x3 : Vec F S3x64 .f32) : Vec F S64 .f32 :=
  VO0_5.read (Elt F) (VO0_5.writes (Elt F) VO0_5.junk (kernelRun0_A c i arg1 harg1 arg2 harg2 arg3 harg3 arg4 harg4 arg5 harg5 arg6 harg6 hc0 x0 x1 x2 x3).2.1)

/-- The pieces the run finds for output window 4 tile its block, so they cover it. -/
theorem cover0_B_4 (c : Dev nD) (i : grid0.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (hc0 : ¬cond0_0 i)
    (x0 : Vec F S4x200x32x4 .f32) (x1 : Vec F S4x200x3 .f32) (x2 : Vec F S4x64 .f32) (x3 : Vec F S3x64 .f32) (xo4 : Vec F S64 .f32) (xo5 : Vec F S64 .f32) (y : S64.Idx) :
    ∃ pc ∈ (kernelRun0_B c i arg1 harg1 arg2 harg2 arg3 harg3 arg4 harg4 arg5 harg5 arg6 harg6 hc0 x0 x1 x2 x3 xo4 xo5).1, y ∈ pc.1.set :=
  View.cover_of_tiledL (kernelRun0_B c i arg1 harg1 arg2 harg2 arg3 harg3 arg4 harg4 arg5 harg5 arg6 harg6 hc0 x0 x1 x2 x3 xo4 xo5).1 S64.size (by sl_kernel_rfl) y

/-- What the run leaves in output window 4's staging buffer: its pieces read back. -/
def out0_B_4 (c : Dev nD) (i : grid0.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (hc0 : ¬cond0_0 i)
    (x0 : Vec F S4x200x32x4 .f32) (x1 : Vec F S4x200x3 .f32) (x2 : Vec F S4x64 .f32) (x3 : Vec F S3x64 .f32) (xo4 : Vec F S64 .f32) (xo5 : Vec F S64 .f32) : Vec F S64 .f32 :=
  VO0_4.read (Elt F) (VO0_4.writes (Elt F) VO0_4.junk (kernelRun0_B c i arg1 harg1 arg2 harg2 arg3 harg3 arg4 harg4 arg5 harg5 arg6 harg6 hc0 x0 x1 x2 x3 xo4 xo5).1)

/-- The pieces the run finds for output window 5 tile its block, so they cover it. -/
theorem cover0_B_5 (c : Dev nD) (i : grid0.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (hc0 : ¬cond0_0 i)
    (x0 : Vec F S4x200x32x4 .f32) (x1 : Vec F S4x200x3 .f32) (x2 : Vec F S4x64 .f32) (x3 : Vec F S3x64 .f32) (xo4 : Vec F S64 .f32) (xo5 : Vec F S64 .f32) (y : S64.Idx) :
    ∃ pc ∈ (kernelRun0_B c i arg1 harg1 arg2 harg2 arg3 harg3 arg4 harg4 arg5 harg5 arg6 harg6 hc0 x0 x1 x2 x3 xo4 xo5).2.1, y ∈ pc.1.set :=
  View.cover_of_tiledL (kernelRun0_B c i arg1 harg1 arg2 harg2 arg3 harg3 arg4 harg4 arg5 harg5 arg6 harg6 hc0 x0 x1 x2 x3 xo4 xo5).2.1 S64.size (by sl_kernel_rfl) y

/-- What the run leaves in output window 5's staging buffer: its pieces read back. -/
def out0_B_5 (c : Dev nD) (i : grid0.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (hc0 : ¬cond0_0 i)
    (x0 : Vec F S4x200x32x4 .f32) (x1 : Vec F S4x200x3 .f32) (x2 : Vec F S4x64 .f32) (x3 : Vec F S3x64 .f32) (xo4 : Vec F S64 .f32) (xo5 : Vec F S64 .f32) : Vec F S64 .f32 :=
  VO0_5.read (Elt F) (VO0_5.writes (Elt F) VO0_5.junk (kernelRun0_B c i arg1 harg1 arg2 harg2 arg3 harg3 arg4 harg4 arg5 harg5 arg6 harg6 hc0 x0 x1 x2 x3 xo4 xo5).2.1)

/-- THE ACCUMULATION. What the two accumulators' staging buffers hold after the body at tile n: at tile 0 the
    reset-and-add case, later the add case over what tile n - 1 left (the buffers are not written back between). -/
def outsAt0 (c : Dev nD) : (n : ℕ) → n < cfg0.N → Vec F S64 .f32 × Vec F S64 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩))
  | n + 1, hn =>
    if h0 : (n + 1) % 60 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).1 (outsAt0 c n (Nat.lt_of_succ_lt hn)).2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).1 (outsAt0 c n (Nat.lt_of_succ_lt hn)).2)

theorem outsAt0_A (c : Dev nD) (t : Fin cfg0.N) (h0 : t.val % 60 = 0) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t)) := by
  obtain ⟨n, hn⟩ := t
  cases n with
  | zero => exact rfl
  | succ n => exact (dif_pos h0).trans rfl

theorem outsAt0_B (c : Dev nD) (t : Fin cfg0.N) (h0 : ¬t.val % 60 = 0) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The pipeline's proof data on core c: the arrays as the region finds them; after the body at tile t each input's
    buffer at its block and each output's at what the run leaves; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
/-- At a later tile accumulator 4's staging buffer holds what the body left at the tile before: it is written back
    only after the last tile. -/
theorem before0_4_B (c : Dev nD) (t : Fin cfg0.N) (h0 : ¬t.val % 60 = 0) (d) :
    (dat0 V c).before 4 t d = (outsAt0 V c (t.val - 1) (Nat.lt_of_le_of_lt (Nat.sub_le _ _) t.isLt)).1 := by
  have hN : t.val < 60 := lt_of_lt_of_eq t.isLt (show cfg0.N = 60 from N_0)
  rw [Dat.before_out_kept _ 4 rfl t (by omega) (Bool.eq_false_iff.mpr fun h => by have := (flush0_4 _).mp h; dsimp only at this; omega)
    (fun _ => rfl) (fun _ _ => rfl)]
  dsimp only [dat0]
/-- At a later tile accumulator 5's staging buffer holds what the body left at the tile before: it is written back
    only after the last tile. -/
theorem before0_5_B (c : Dev nD) (t : Fin cfg0.N) (h0 : ¬t.val % 60 = 0) (d) :
    (dat0 V c).before 5 t d = (outsAt0 V c (t.val - 1) (Nat.lt_of_le_of_lt (Nat.sub_le _ _) t.isLt)).2 := by
  have hN : t.val < 60 := lt_of_lt_of_eq t.isLt (show cfg0.N = 60 from N_0)
  rw [Dat.before_out_kept _ 5 rfl t (by omega) (Bool.eq_false_iff.mpr fun h => by have := (flush0_5 _).mp h; dsimp only at this; omega)
    (fun _ => rfl) (fun _ _ => rfl)]
  dsimp only [dat0]

/-- What the body is called with at tile t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 1600000 in
/-- The body at any tile: the inputs' memrefs hold their blocks; the closed form says whether the tile is the first; at a later
    tile each accumulator holds what the tile before left; so the run applies; the invariant passes through unread; the
    core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 60 := lt_of_lt_of_eq t.isLt (show cfg0.N = 60 from N_0)
  by_cases h0 : t.val % 60 = 0
  · rw [outsAt0_A V c t h0]
    try dsimp only
    unfold out0_A_4 out0_A_5
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk0 V c 0 t) (iblk0 V c 1 t) (iblk0 V c 2 t) (iblk0 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _)
  · rw [outsAt0_B V c t h0]
    simp only [before0_4_B V c t h0, before0_5_B V c t h0]
    try dsimp only
    unfold out0_B_4 out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk0 V c 0 t) (iblk0 V c 1 t) (iblk0 V c 2 t) (iblk0 V c 3 t) _ _).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _)

/-- The library's body obligation, at every tile. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BRuns1.lean ====
/-
  The staging memrefs the pipeline passes to kernel 1's body at a tile, window by window, and one staging buffer of
  each output window through which its contents are stated.
-/
import proofs.«172073_j52536039964809_2_alg».proof.Proof.BRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev ms1_0 (t : Fin cfg1.N) : Memref sig .tc .vmem S4x200x32x4 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x200x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S3x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S64x64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S64 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S64 .f32 := win1_10.stage (cfg1.slots t 10)
abbrev hs1_10 (t : Fin cfg1.N) : (ms1_10 t).IsWhole := hstage1_10 ((cfg1.slots t 10).cast nbuf1_10)
abbrev VO1_9 : View sig .tc .vmem S64 .f32 := (Memref.whole cc1_stg9_0 : Memref sig .tc .vmem S64 .f32).view
abbrev VO1_10 : View sig .tc .vmem S64 .f32 := (Memref.whole cc1_stg10_0 : Memref sig .tc .vmem S64 .f32).view

end Cert.Kernel.Hand

end
-- ==== Proof.BRun1A.lean ====
/-
  The second statistics kernel at its FIRST tile: both accumulators are overwritten with zeros and then each
  takes the tile's per-channel sum of the layer-2 pre-activation (resp. of its square): layer 1 normalised
  with the statistics handed in, clamped at zero, times the 64x64 weights. Run symbolically on any whole
  staging memrefs; the written pieces are found by the run.
-/
import proofs.«172073_j52536039964809_2_alg».proof.Proof.BRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
noncomputable def kernelRun1_A (c : Dev nD) (i : grid1.Coords)
    (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (hc0 : cond1_0 i)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) :
    Σ' (L9 : List (View.Piece (Elt F) S64 .f32)), { L10 : List (View.Piece (Elt F) S64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
                ∗ (∃ f, arg10.view.loc (c : Thread nD τ) ↦[arg10.view.set]{fullShare} arg10.view.writes (Elt F) f L9)
                ∗ (∃ f, arg11.view.loc (c : Thread nD τ) ↦[arg11.view.set]{fullShare} arg11.view.writes (Elt F) f L10)) -∗ K ⟨⟩))
          ⊢ wp frame (wpE (defs₀ (F := F)) Variants.none c none) E (cc1__stats2_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__stats2_kernel_eq_skeleton]; unfold cc1__stats2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    iexists _; iexact H10

end Cert.Kernel.Hand

end
-- ==== Proof.BRun1B.lean ====
/-
  The second statistics kernel at a LATER tile: each accumulator, found at what the tiles before left in it,
  takes the tile's per-channel sum of the layer-2 pre-activation (resp. of its square) added to it.
  Run symbolically on any whole staging memrefs; the written pieces are found by the run.
-/
import proofs.«172073_j52536039964809_2_alg».proof.Proof.BRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
noncomputable def kernelRun1_B (c : Dev nD) (i : grid1.Coords)
    (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (hc0 : ¬cond1_0 i)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) (xo9 : Vec F S64 .f32) (xo10 : Vec F S64 .f32) :
    Σ' (L9 : List (View.Piece (Elt F) S64 .f32)), { L10 : List (View.Piece (Elt F) S64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare xo9 ∗ owns (c : Thread nD τ) arg11 fullShare xo10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
                ∗ (∃ f, arg10.view.loc (c : Thread nD τ) ↦[arg10.view.set]{fullShare} arg10.view.writes (Elt F) f L9)
                ∗ (∃ f, arg11.view.loc (c : Thread nD τ) ↦[arg11.view.set]{fullShare} arg11.view.writes (Elt F) f L10)) -∗ K ⟨⟩))
          ⊢ wp frame (wpE (defs₀ (F := F)) Variants.none c none) E (cc1__stats2_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__stats2_kernel_eq_skeleton]; unfold cc1__stats2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    iexists _; iexact H10

end Cert.Kernel.Hand

end
-- ==== Proof.BFrame1.lean ====
/-
  The second statistics kernel over its 60 tiles: what its two accumulators hold after each tile (reset at tile 0,
  added to at every tile, never written back before the last), the proof data the pipeline library asks for, and the
  body's obligation at every tile from the two symbolic runs.
-/
import proofs.«172073_j52536039964809_2_alg».proof.Proof.BRuns1
import proofs.«172073_j52536039964809_2_alg».proof.Proof.BRun1A
import proofs.«172073_j52536039964809_2_alg».proof.Proof.BRun1B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at tile t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every tile, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every tile, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every tile, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every tile, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every tile, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every tile, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every tile, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every tile, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every tile, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- The pieces the run finds for output window 9 tile its block, so they cover it. -/
theorem cover1_A_9 (c : Dev nD) (i : grid1.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (hc0 : cond1_0 i)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) (y : S64.Idx) :
    ∃ pc ∈ (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7 x8).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7 x8).1 S64.size (by sl_kernel_rfl) y

/-- What the run leaves in output window 9's staging buffer: its pieces read back. -/
def out1_A_9 (c : Dev nD) (i : grid1.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (hc0 : cond1_0 i)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) : Vec F S64 .f32 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7 x8).1)

/-- The pieces the run finds for output window 10 tile its block, so they cover it. -/
theorem cover1_A_10 (c : Dev nD) (i : grid1.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (hc0 : cond1_0 i)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) (y : S64.Idx) :
    ∃ pc ∈ (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7 x8).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7 x8).2.1 S64.size (by sl_kernel_rfl) y

/-- What the run leaves in output window 10's staging buffer: its pieces read back. -/
def out1_A_10 (c : Dev nD) (i : grid1.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (hc0 : cond1_0 i)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) : Vec F S64 .f32 :=
  VO1_10.read (Elt F) (VO1_10.writes (Elt F) VO1_10.junk (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7 x8).2.1)

/-- The pieces the run finds for output window 9 tile its block, so they cover it. -/
theorem cover1_B_9 (c : Dev nD) (i : grid1.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (hc0 : ¬cond1_0 i)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) (xo9 : Vec F S64 .f32) (xo10 : Vec F S64 .f32) (y : S64.Idx) :
    ∃ pc ∈ (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 x8 xo9 xo10).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 x8 xo9 xo10).1 S64.size (by sl_kernel_rfl) y

/-- What the run leaves in output window 9's staging buffer: its pieces read back. -/
def out1_B_9 (c : Dev nD) (i : grid1.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (hc0 : ¬cond1_0 i)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) (xo9 : Vec F S64 .f32) (xo10 : Vec F S64 .f32) : Vec F S64 .f32 :=
  VO1_9.read (Elt F) (VO1_9.writes (Elt F) VO1_9.junk (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 x8 xo9 xo10).1)

/-- The pieces the run finds for output window 10 tile its block, so they cover it. -/
theorem cover1_B_10 (c : Dev nD) (i : grid1.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (hc0 : ¬cond1_0 i)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) (xo9 : Vec F S64 .f32) (xo10 : Vec F S64 .f32) (y : S64.Idx) :
    ∃ pc ∈ (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 x8 xo9 xo10).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 x8 xo9 xo10).2.1 S64.size (by sl_kernel_rfl) y

/-- What the run leaves in output window 10's staging buffer: its pieces read back. -/
def out1_B_10 (c : Dev nD) (i : grid1.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (hc0 : ¬cond1_0 i)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) (xo9 : Vec F S64 .f32) (xo10 : Vec F S64 .f32) : Vec F S64 .f32 :=
  VO1_10.read (Elt F) (VO1_10.writes (Elt F) VO1_10.junk (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 x8 xo9 xo10).2.1)

/-- THE ACCUMULATION. What the two accumulators' staging buffers hold after the body at tile n: at tile 0 the
    reset-and-add case, later the add case over what tile n - 1 left (the buffers are not written back between). -/
def outsAt1 (c : Dev nD) : (n : ℕ) → n < cfg1.N → Vec F S64 .f32 × Vec F S64 .f32
  | 0, hn => (out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩), out1_A_10 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩))
  | n + 1, hn =>
    if h0 : (n + 1) % 60 = 0 then
      (out1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩), out1_A_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩))
    else
      (out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).1 (outsAt1 c n (Nat.lt_of_succ_lt hn)).2, out1_B_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).1 (outsAt1 c n (Nat.lt_of_succ_lt hn)).2)

theorem outsAt1_A (c : Dev nD) (t : Fin cfg1.N) (h0 : t.val % 60 = 0) :
    outsAt1 V c t.val t.isLt = (out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t), out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t)) := by
  obtain ⟨n, hn⟩ := t
  cases n with
  | zero => exact rfl
  | succ n => exact (dif_pos h0).trans rfl

theorem outsAt1_B (c : Dev nD) (t : Fin cfg1.N) (h0 : ¬t.val % 60 = 0) :
    outsAt1 V c t.val t.isLt = (out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).1 (outsAt1 V c (t.val - 1) (Nat.lt_of_le_of_lt (Nat.sub_le _ _) t.isLt)).2, out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The pipeline's proof data on core c: the arrays as the region finds them; after the body at tile t each input's
    buffer at its block and each output's at what the run leaves; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).1
    | ⟨10, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t.val t.isLt).1 := by dsimp only [dat1]
theorem after1_10 (c : Dev nD) (t : Fin cfg1.N) : (dat1 V c).after 10 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
/-- At a later tile accumulator 9's staging buffer holds what the body left at the tile before: it is written back
    only after the last tile. -/
theorem before1_9_B (c : Dev nD) (t : Fin cfg1.N) (h0 : ¬t.val % 60 = 0) (d) :
    (dat1 V c).before 9 t d = (outsAt1 V c (t.val - 1) (Nat.lt_of_le_of_lt (Nat.sub_le _ _) t.isLt)).1 := by
  have hN : t.val < 60 := lt_of_lt_of_eq t.isLt (show cfg1.N = 60 from N_1)
  rw [Dat.before_out_kept _ 9 rfl t (by omega) (Bool.eq_false_iff.mpr fun h => by have := (flush1_9 _).mp h; dsimp only at this; omega)
    (fun _ => rfl) (fun _ _ => rfl)]
  dsimp only [dat1]
/-- At a later tile accumulator 10's staging buffer holds what the body left at the tile before: it is written back
    only after the last tile. -/
theorem before1_10_B (c : Dev nD) (t : Fin cfg1.N) (h0 : ¬t.val % 60 = 0) (d) :
    (dat1 V c).before 10 t d = (outsAt1 V c (t.val - 1) (Nat.lt_of_le_of_lt (Nat.sub_le _ _) t.isLt)).2 := by
  have hN : t.val < 60 := lt_of_lt_of_eq t.isLt (show cfg1.N = 60 from N_1)
  rw [Dat.before_out_kept _ 10 rfl t (by omega) (Bool.eq_false_iff.mpr fun h => by have := (flush1_10 _).mp h; dsimp only at this; omega)
    (fun _ => rfl) (fun _ _ => rfl)]
  dsimp only [dat1]

/-- What the body is called with at tile t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t))

set_option maxHeartbeats 1600000 in
/-- The body at any tile: the inputs' memrefs hold their blocks; the closed form says whether the tile is the first; at a later
    tile each accumulator holds what the tile before left; so the run applies; the invariant passes through unread; the
    core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  have hN : t.val < 60 := lt_of_lt_of_eq t.isLt (show cfg1.N = 60 from N_1)
  by_cases h0 : t.val % 60 = 0
  · rw [outsAt1_A V c t h0]
    try dsimp only
    unfold out1_A_9 out1_A_10
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun1_A c (grid1.coords t) _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iintro ⟨H0, H1, H2, H3, H4, H5, H6, H7, H8, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover1_A_9 c _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover1_A_10 c _ _ _ _ _ _ _ _ _ _ _ _ _ _ _ _ _ _ _ _ _ _ _ _ _ _ _ _ _ _ _ _ _)
  · rw [outsAt1_B V c t h0]
    simp only [before1_9_B V c t h0, before1_10_B V c t h0]
    try dsimp only
    unfold out1_B_9 out1_B_10
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun1_B c (grid1.coords t) _ _ _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H0, H1, H2, H3, H4, H5, H6, H7, H8, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover1_B_9 c _ _ _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover1_B_10 c _ _ _ _ _ _ _ _ _ _ _ _ _ _ _ _ _ _ _ _ _ _ _ _ _ _ _ _ _ _ _ _ _ _ _)

/-- The library's body obligation, at every tile. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BRuns2.lean ====
/-
  The staging memrefs the pipeline passes to kernel 2's body at a tile, window by window, and one staging buffer of
  each output window through which its contents are stated.
-/
import proofs.«172073_j52536039964809_2_alg».proof.Proof.BRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev ms2_0 (t : Fin cfg2.N) : Memref sig .tc .vmem S4x200x32x4 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4x200x3 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S3x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S64 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S64x64 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S64 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S64 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S64 .f32 := win2_11.stage (cfg2.slots t 11)
abbrev hs2_11 (t : Fin cfg2.N) : (ms2_11 t).IsWhole := hstage2_11 ((cfg2.slots t 11).cast nbuf2_11)
abbrev ms2_12 (t : Fin cfg2.N) : Memref sig .tc .vmem S64 .f32 := win2_12.stage (cfg2.slots t 12)
abbrev hs2_12 (t : Fin cfg2.N) : (ms2_12 t).IsWhole := hstage2_12 ((cfg2.slots t 12).cast nbuf2_12)
abbrev ms2_13 (t : Fin cfg2.N) : Memref sig .tc .vmem S4x200x64 .f32 := win2_13.stage (cfg2.slots t 13)
abbrev hs2_13 (t : Fin cfg2.N) : (ms2_13 t).IsWhole := hstage2_13 ((cfg2.slots t 13).cast nbuf2_13)
abbrev VO2_13 : View sig .tc .vmem S4x200x64 .f32 := (Memref.whole cc2_stg13_0 : Memref sig .tc .vmem S4x200x64 .f32).view

end Cert.Kernel.Hand

end
-- ==== Proof.BRun2.lean ====
/-
  The last kernel at any tile: both layers applied with the statistics handed in, clamped at zero, and the
  maximum over a pillar's 32 points stored as the tile's output block. Run symbolically on any whole staging
  memrefs; the written pieces are found by the run.
-/
import proofs.«172073_j52536039964809_2_alg».proof.Proof.BRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
noncomputable def kernelRun2 (c : Dev nD) (i : grid2.Coords)
    (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (arg12 : Memref sig .tc .vmem S64 .f32) (harg12 : arg12.IsWhole) (arg13 : Memref sig .tc .vmem S64 .f32) (harg13 : arg13.IsWhole) (arg14 : Memref sig .tc .vmem S4x200x64 .f32) (harg14 : arg14.IsWhole)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) (x9 : Vec F S64 .f32) (x10 : Vec F S64 .f32) (x11 : Vec F S64 .f32) (x12 : Vec F S64 .f32) :
    { L13 : List (View.Piece (Elt F) S4x200x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
                ∗ (∃ f, arg14.view.loc (c : Thread nD τ) ↦[arg14.view.set]{fullShare} arg14.view.writes (Elt F) f L13)) -∗ K ⟨⟩))
          ⊢ wp frame (wpE (defs₀ (F := F)) Variants.none c none) E (cc2__final_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    iexists _; iexact H13

end Cert.Kernel.Hand

end
-- ==== Proof.BFrame2.lean ====
/-
  The last kernel over its 60 tiles: each tile writes one output block (the clamped, normalised layer-2 activations
  maximised over a pillar's 32 points), written back after every tile. The proof data the pipeline library asks for
  and the body's obligation at every tile from the symbolic run.
-/
import proofs.«172073_j52536039964809_2_alg».proof.Proof.BRuns2
import proofs.«172073_j52536039964809_2_alg».proof.Proof.BRun2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at tile t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every tile, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every tile, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every tile, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every tile, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every tile, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every tile, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every tile, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every tile, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every tile, fetched there or not. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current staging buffer holds its block at every tile, fetched there or not. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- Input window 10's current staging buffer holds its block at every tile, fetched there or not. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-- Input window 11's current staging buffer holds its block at every tile, fetched there or not. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-- Input window 12's current staging buffer holds its block at every tile, fetched there or not. -/
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)

/-- The pieces the run finds for output window 13 tile its block, so they cover it. -/
theorem cover2_13 (c : Dev nD) (i : grid2.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (arg12 : Memref sig .tc .vmem S64 .f32) (harg12 : arg12.IsWhole) (arg13 : Memref sig .tc .vmem S64 .f32) (harg13 : arg13.IsWhole) (arg14 : Memref sig .tc .vmem S4x200x64 .f32) (harg14 : arg14.IsWhole)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) (x9 : Vec F S64 .f32) (x10 : Vec F S64 .f32) (x11 : Vec F S64 .f32) (x12 : Vec F S64 .f32) (y : S4x200x64.Idx) :
    ∃ pc ∈ (kernelRun2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12).1, y ∈ pc.1.set :=
  View.cover_of_tiledL (kernelRun2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12).1 S4x200x64.size (by sl_kernel_rfl) y

/-- What the run leaves in output window 13's staging buffer: its pieces read back. -/
def out2_13 (c : Dev nD) (i : grid2.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (arg12 : Memref sig .tc .vmem S64 .f32) (harg12 : arg12.IsWhole) (arg13 : Memref sig .tc .vmem S64 .f32) (harg13 : arg13.IsWhole) (arg14 : Memref sig .tc .vmem S4x200x64 .f32) (harg14 : arg14.IsWhole)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) (x9 : Vec F S64 .f32) (x10 : Vec F S64 .f32) (x11 : Vec F S64 .f32) (x12 : Vec F S64 .f32) : Vec F S4x200x64 .f32 :=
  VO2_13.read (Elt F) (VO2_13.writes (Elt F) VO2_13.junk (kernelRun2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12).1)

/-- What the output window's staging buffer holds after the body at tile t. -/
def outsAt2 (c : Dev nD) (t : Fin cfg2.N) : Vec F S4x200x64 .f32 :=
  out2_13 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t)

/-- The pipeline's proof data on core c: the arrays as the region finds them; after the body at tile t each input's
    buffer at its block and each output's at what the run leaves; the class invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => (outsAt2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = (outsAt2 V c t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d

/-- What the body is called with at tile t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d))
    ∗ (∃ d, owns (c : Thread nD τ) (ms2_12 t) fullShare ((dat2 V c).before 12 t d))
    ∗ (∃ d, owns (c : Thread nD τ) (ms2_13 t) fullShare ((dat2 V c).before 13 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t)
    ∗ owns (c : Thread nD τ) (ms2_9 t) fullShare ((dat2 V c).after 9 t)
    ∗ owns (c : Thread nD τ) (ms2_10 t) fullShare ((dat2 V c).after 10 t)
    ∗ owns (c : Thread nD τ) (ms2_11 t) fullShare ((dat2 V c).after 11 t)
    ∗ owns (c : Thread nD τ) (ms2_12 t) fullShare ((dat2 V c).after 12 t)
    ∗ owns (c : Thread nD τ) (ms2_13 t) fullShare ((dat2 V c).after 13 t))

set_option maxHeartbeats 1600000 in
/-- The body at any tile: the inputs' memrefs hold their blocks; so the run applies; the invariant passes through unread; the
    core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13]
  unfold outsAt2
  unfold out2_13
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun2 c (grid2.coords t) _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, ⟨%e13, H13⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  unfold owns; iexists _; isplitr
  swap; · iexact H13
  ipureintro; exact View.read_writes_of_cover _ _ _ _ _ (cover2_13 c _ _ _ _ _ _ _ _ _ _ _ _ _ _ _ _ _ _ _ _ _ _ _ _ _ _ _ _ _ _ _ _ _ _ _ _ _ _ _ _ _ _)

/-- The library's body obligation, at every tile. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BMain.lean ====
/-
  The whole run of the kernel program: three host stretches, each followed by a pallas call. The contents of every
  unscoped buffer at the seven boundaries are a fold from the launch memory — a host stretch applies its operations,
  a pallas call leaves its arrays at what its write-backs give and every other buffer alone. From the three kernels'
  body obligations the launch library gives: every weakly fair execution terminates, nothing faults, and at the end
  every unscoped buffer holds the last boundary's contents. Read at the nine arguments (which no stretch and no call
  writes) that is the frame claim; read at the result it names the result array.
-/
import proofs.«172073_j52536039964809_2_alg».proof.Proof.BFrame0
import proofs.«172073_j52536039964809_2_alg».proof.Proof.BFrame1
import proofs.«172073_j52536039964809_2_alg».proof.Proof.BFrame2
import proofs.«172073_j52536039964809_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the host stretch before pallas call 0 (its entry contents). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At pallas call 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer the host stretch before pallas call 0 does not write keeps its contents. -/
theorem W1_keep (c : Dev nD) (b : Ref sig .tc) (h : b ∉ (hostOps0_W : List (Ref sig .tc))) :
    W1 m ρ c (Proc.devRef .tc b) = W0 m ρ c (Proc.devRef .tc b) :=
  StableHlo.after_of_writes_sub hostOps0 _ hostOps0_writes h
/-- An input window's array leaves pallas call 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- After the host stretch before pallas call 1 (its entry contents). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At pallas call 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer the host stretch before pallas call 1 does not write keeps its contents. -/
theorem W3_keep (c : Dev nD) (b : Ref sig .tc) (h : b ∉ (hostOps1_W : List (Ref sig .tc))) :
    W3 m ρ c (Proc.devRef .tc b) = W2 m ρ c (Proc.devRef .tc b) :=
  StableHlo.after_of_writes_sub hostOps1 _ hostOps1_writes h
/-- An input window's array leaves pallas call 1 as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- After the host stretch before pallas call 2 (its entry contents). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At pallas call 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer the host stretch before pallas call 2 does not write keeps its contents. -/
theorem W5_keep (c : Dev nD) (b : Ref sig .tc) (h : b ∉ (hostOps2_W : List (Ref sig .tc))) :
    W5 m ρ c (Proc.devRef .tc b) = W4 m ρ c (Proc.devRef .tc b) :=
  StableHlo.after_of_writes_sub hostOps2 _ hostOps2_writes h
/-- An input window's array leaves pallas call 2 as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-! The arguments end as launched. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_in m ρ c 0 rfl
    _ = W4 m ρ c (Proc.devRef .tc main_arg0) := W5_keep m ρ c main_arg0 (by decide)
    _ = W3 m ρ c (Proc.devRef .tc main_arg0) := W4_in m ρ c 0 rfl
    _ = W2 m ρ c (Proc.devRef .tc main_arg0) := W3_keep m ρ c main_arg0 (by decide)
    _ = W1 m ρ c (Proc.devRef .tc main_arg0) := W2_in m ρ c 0 rfl
    _ = W0 m ρ c (Proc.devRef .tc main_arg0) := W1_keep m ρ c main_arg0 (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_keep m ρ c main_arg1 (by decide)
    _ = W3 m ρ c (Proc.devRef .tc main_arg1) := W4_of_ne m ρ c main_arg1 (by decide)
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_keep m ρ c main_arg2 (by decide)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := W2_of_ne m ρ c main_arg2 (by decide)
    _ = W0 m ρ c (Proc.devRef .tc main_arg2) := W1_keep m ρ c main_arg2 (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_keep m ρ c main_arg3 (by decide)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_of_ne m ρ c main_arg3 (by decide)
    _ = W0 m ρ c (Proc.devRef .tc main_arg3) := W1_keep m ρ c main_arg3 (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_in m ρ c 4 rfl
    _ = W4 m ρ c (Proc.devRef .tc main_arg4) := W5_keep m ρ c main_arg4 (by decide)
    _ = W3 m ρ c (Proc.devRef .tc main_arg4) := W4_in m ρ c 4 rfl
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_in m ρ c 5 rfl
    _ = W4 m ρ c (Proc.devRef .tc main_arg5) := W5_keep m ρ c main_arg5 (by decide)
    _ = W3 m ρ c (Proc.devRef .tc main_arg5) := W4_in m ρ c 5 rfl
    _ = W2 m ρ c (Proc.devRef .tc main_arg5) := W3_keep m ρ c main_arg5 (by decide)
    _ = W1 m ρ c (Proc.devRef .tc main_arg5) := W2_of_ne m ρ c main_arg5 (by decide)
    _ = W0 m ρ c (Proc.devRef .tc main_arg5) := W1_keep m ρ c main_arg5 (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_in m ρ c 8 rfl
    _ = W4 m ρ c (Proc.devRef .tc main_arg6) := W5_keep m ρ c main_arg6 (by decide)
    _ = W3 m ρ c (Proc.devRef .tc main_arg6) := W4_in m ρ c 8 rfl
    _ = W2 m ρ c (Proc.devRef .tc main_arg6) := W3_keep m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_in m ρ c 9 rfl
    _ = W4 m ρ c (Proc.devRef .tc main_arg7) := W5_keep m ρ c main_arg7 (by decide)
    _ = W3 m ρ c (Proc.devRef .tc main_arg7) := W4_of_ne m ρ c main_arg7 (by decide)
    _ = W2 m ρ c (Proc.devRef .tc main_arg7) := W3_keep m ρ c main_arg7 (by decide)
    _ = W1 m ρ c (Proc.devRef .tc main_arg7) := W2_of_ne m ρ c main_arg7 (by decide)
    _ = W0 m ρ c (Proc.devRef .tc main_arg7) := W1_keep m ρ c main_arg7 (by decide)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_in m ρ c 10 rfl
    _ = W4 m ρ c (Proc.devRef .tc main_arg8) := W5_keep m ρ c main_arg8 (by decide)
    _ = W3 m ρ c (Proc.devRef .tc main_arg8) := W4_of_ne m ρ c main_arg8 (by decide)
    _ = W2 m ρ c (Proc.devRef .tc main_arg8) := W3_keep m ρ c main_arg8 (by decide)
    _ = W1 m ρ c (Proc.devRef .tc main_arg8) := W2_of_ne m ρ c main_arg8 (by decide)
    _ = W0 m ρ c (Proc.devRef .tc main_arg8) := W1_keep m ρ c main_arg8 (by decide)
    _ = m ((c : Thread nD τ).loc main_arg8) := rfl

/-- No pallas call has a prefetched table. -/
abbrev adm : (p : Fin 3) → (pcfgs (F := F) p).Adm := fun p => (cfgs p).toPCfg_adm
/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- Pallas call 0 over the thread state: entered with every unscoped buffer at the contents before it, left with its
    arrays at what the pipeline's write-backs leave and every other buffer as entered; the generator register goes
    into the class invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered with every unscoped buffer at the contents before it, left with its
    arrays at what the pipeline's write-backs leave and every other buffer as entered; the generator register goes
    into the class invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 over the thread state: entered with every unscoped buffer at the contents before it, left with its
    arrays at what the pipeline's write-backs leave and every other buffer as entered; the generator register goes
    into the class invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and at the end every unscoped buffer of every core holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: the program runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c)⟩) (run m ρ)

/-- The result array after the run, NAMED: what the last pallas call's write-backs leave in it. -/
theorem run_value : θ_run defs (onTc (τ := τ) (main (F := F))) ⟨m, fun _ => 0, ρ⟩ (fun r => ∀ c : Dev nD,
      r.2.mem ((c.tc : Thread nD τ).loc main_v72) = (dat2 (V5 m ρ) c).arrAt 13 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v72 (by decide))).trans (W6_arr m ρ c 13),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c)⟩) (run m ρ)

end Cert.Kernel.Hand

end
-- ==== Proof.KRuns.lean ====
/-
  What the three kernels' runs share. Each pallas_call runs its body once per tile of 200 pillars (60 tiles).
  The two statistics kernels reset their two 64-channel accumulators at the first tile and add the tile's
  per-channel sum (and sum of squares) at every tile; the last kernel writes one output block per tile.
  Here: each window's block at a tile read off the array the region finds, the first-tile condition in
  closed form, and the staging memrefs a tile's body is called with.
-/
import proofs.«172073_j52536039964809_2_alg».proof.Proof.Gen.KernelIdeal.Launch
import proofs.«172073_j52536039964809_2_alg».proof.Proof.Gen.KernelIdeal.Skeleton
import proofs.«172073_j52536039964809_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first-tile test of a statistics kernel: the tile number, as a 32-bit word, equals zero. -/
abbrev cond0_0 (i : grid0.Coords) : Prop := (Scalar.cmpi .ne (Scalar.extui (Scalar.cmpi .eq (BitVec.ofNat 32 (i 0).val) 0#32)) 0#32) = 1#1
/-- It holds at tile 0 only. -/
theorem hcond0_0 : ∀ t : Fin cfg0.N, cond0_0 (grid0.coords t) ↔ t.val % 60 = 0 :=
  (by decide +kernel : ∀ t : Fin grid0.N, cond0_0 (grid0.coords t) ↔ t.val % 60 = 0)

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 60 = 0 :=
  (by decide +kernel : ∀ t : Fin grid1.N, cond1_0 (grid1.coords t) ↔ t.val % 60 = 0)

/-- Staging memrefs of the first kernel's six windows at tile t, as the pipeline passes them. -/
abbrev ms0_0 (t : Fin cfg0.N) : Memref sig .tc .vmem S4x200x32x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x200x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64 .f32 := win0_5.stage (cfg0.slots t 5)
abbrev hs0_5 (t : Fin cfg0.N) : (ms0_5 t).IsWhole := hstage0_5 ((cfg0.slots t 5).cast nbuf0_5)

/-- One staging buffer of each accumulator window, through which its contents are stated. -/
abbrev VO0_4 : View sig .tc .vmem S64 .f32 := (Memref.whole cc0_stg4_0 : Memref sig .tc .vmem S64 .f32).view
abbrev VO0_5 : View sig .tc .vmem S64 .f32 := (Memref.whole cc0_stg5_0 : Memref sig .tc .vmem S64 .f32).view

end Cert.KernelIdeal.Hand

end
-- ==== Proof.KRun0A.lean ====
/-
  The first statistics kernel at its FIRST tile: both accumulators are overwritten with zeros and then
  each takes the tile's per-channel sum (of the masked layer-1 pre-activation, resp. of its square) added
  to what it holds. The body is run symbolically on any whole staging memrefs; what its stores leave in
  the two accumulator buffers is found by the run as lists of written pieces.
-/
import proofs.«172073_j52536039964809_2_alg».proof.Proof.KRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords)
    (arg1 : Memref sig .tc .vmem S4x200x32x4 .f32) (harg1 : arg1.IsWhole) (arg2 : Memref sig .tc .vmem S4x200x3 .f32) (harg2 : arg2.IsWhole)
    (arg3 : Memref sig .tc .vmem S4x64 .f32) (harg3 : arg3.IsWhole) (arg4 : Memref sig .tc .vmem S3x64 .f32) (harg4 : arg4.IsWhole)
    (arg5 : Memref sig .tc .vmem S64 .f32) (harg5 : arg5.IsWhole) (arg6 : Memref sig .tc .vmem S64 .f32) (harg6 : arg6.IsWhole) (hc0 : cond0_0 i)
    (x0 : Vec F S4x200x32x4 .f32) (x1 : Vec F S4x200x3 .f32) (x2 : Vec F S4x64 .f32) (x3 : Vec F S3x64 .f32) :
    Σ' (L4 : List (View.Piece (Elt F) S64 .f32)), { L5 : List (View.Piece (Elt F) S64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc0__stats1_kernel i arg1 harg1 arg2 harg2 arg3 harg3 arg4 harg4 arg5 harg5 arg6 harg6) K } := by
  refine ⟨?_, ?_, fun E K => ?run⟩
  case run =>
    simp only [cc0__stats1_kernel_eq_skeleton]; unfold cc0__stats1_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact H5

end Cert.KernelIdeal.Hand

end
-- ==== Proof.KRun0B.lean ====
/-
  The first statistics kernel at a LATER tile: each accumulator, found at what the tiles before left in it,
  takes the tile's per-channel sum (of the masked layer-1 pre-activation, resp. of its square) added to it.
  The body is run symbolically on any whole staging memrefs; the written pieces are found by the run.
-/
import proofs.«172073_j52536039964809_2_alg».proof.Proof.KRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
noncomputable def kernelRun0_B (c : Dev nD) (i : grid0.Coords)
    (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (hc0 : ¬cond0_0 i)
    (x0 : Vec F S4x200x32x4 .f32) (x1 : Vec F S4x200x3 .f32) (x2 : Vec F S4x64 .f32) (x3 : Vec F S3x64 .f32) (xo4 : Vec F S64 .f32) (xo5 : Vec F S64 .f32) :
    Σ' (L4 : List (View.Piece (Elt F) S64 .f32)), { L5 : List (View.Piece (Elt F) S64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc0__stats1_kernel i arg1 harg1 arg2 harg2 arg3 harg3 arg4 harg4 arg5 harg5 arg6 harg6) K } := by
  refine ⟨?_, ?_, fun E K => ?run⟩
  case run =>
    simp only [cc0__stats1_kernel_eq_skeleton]; unfold cc0__stats1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact H5

end Cert.KernelIdeal.Hand

end
-- ==== Proof.KFrame0.lean ====
/-
  The first statistics kernel over its 60 tiles: what its two accumulators hold after each tile (reset at tile 0,
  added to at every tile, never written back before the last), the proof data the pipeline library asks for, and the
  body's obligation at every tile from the two symbolic runs.
-/
import proofs.«172073_j52536039964809_2_alg».proof.Proof.KRun0A
import proofs.«172073_j52536039964809_2_alg».proof.Proof.KRun0B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at tile t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every tile, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every tile, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every tile, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every tile, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The pieces the run finds for output window 4 tile its block, so they cover it. -/
theorem cover0_A_4 (c : Dev nD) (i : grid0.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (hc0 : cond0_0 i)
    (x0 : Vec F S4x200x32x4 .f32) (x1 : Vec F S4x200x3 .f32) (x2 : Vec F S4x64 .f32) (x3 : Vec F S3x64 .f32) (y : S64.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S64.size (by sl_kernel_rfl) y

/-- What the run leaves in output window 4's staging buffer: its pieces read back. -/
def out0_A_4 (c : Dev nD) (i : grid0.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (hc0 : cond0_0 i)
    (x0 : Vec F S4x200x32x4 .f32) (x1 : Vec F S4x200x3 .f32) (x2 : Vec F S4x64 .f32) (x3 : Vec F S3x64 .f32) : Vec F S64 .f32 :=
  VO0_4.read (Elt F) (VO0_4.writes (Elt F) VO0_4.junk (kernelRun0_A c i arg1 harg1 arg2 harg2 arg3 harg3 arg4 harg4 arg5 harg5 arg6 harg6 hc0 x0 x1 x2 x3).1)

/-- The pieces the run finds for output window 5 tile its block, so they cover it. -/
theorem cover0_A_5 (c : Dev nD) (i : grid0.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (hc0 : cond0_0 i)
    (x0 : Vec F S4x200x32x4 .f32) (x1 : Vec F S4x200x3 .f32) (x2 : Vec F S4x64 .f32) (x3 : Vec F S3x64 .f32) (y : S64.Idx) :
    ∃ pc ∈ (kernelRun0_A c i arg1 harg1 arg2 harg2 arg3 harg3 arg4 harg4 arg5 harg5 arg6 harg6 hc0 x0 x1 x2 x3).2.1, y ∈ pc.1.set :=
  View.cover_of_tiledL (kernelRun0_A c i arg1 harg1 arg2 harg2 arg3 harg3 arg4 harg4 arg5 harg5 arg6 harg6 hc0 x0 x1 x2 x3).2.1 S64.size (by sl_kernel_rfl) y

/-- What the run leaves in output window 5's staging buffer: its pieces read back. -/
def out0_A_5 (c : Dev nD) (i : grid0.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (hc0 : cond0_0 i)
    (x0 : Vec F S4x200x32x4 .f32) (x1 : Vec F S4x200x3 .f32) (x2 : Vec F S4x64 .f32) (x3 : Vec F S3x64 .f32) : Vec F S64 .f32 :=
  VO0_5.read (Elt F) (VO0_5.writes (Elt F) VO0_5.junk (kernelRun0_A c i arg1 harg1 arg2 harg2 arg3 harg3 arg4 harg4 arg5 harg5 arg6 harg6 hc0 x0 x1 x2 x3).2.1)

/-- The pieces the run finds for output window 4 tile its block, so they cover it. -/
theorem cover0_B_4 (c : Dev nD) (i : grid0.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (hc0 : ¬cond0_0 i)
    (x0 : Vec F S4x200x32x4 .f32) (x1 : Vec F S4x200x3 .f32) (x2 : Vec F S4x64 .f32) (x3 : Vec F S3x64 .f32) (xo4 : Vec F S64 .f32) (xo5 : Vec F S64 .f32) (y : S64.Idx) :
    ∃ pc ∈ (kernelRun0_B c i arg1 harg1 arg2 harg2 arg3 harg3 arg4 harg4 arg5 harg5 arg6 harg6 hc0 x0 x1 x2 x3 xo4 xo5).1, y ∈ pc.1.set :=
  View.cover_of_tiledL (kernelRun0_B c i arg1 harg1 arg2 harg2 arg3 harg3 arg4 harg4 arg5 harg5 arg6 harg6 hc0 x0 x1 x2 x3 xo4 xo5).1 S64.size (by sl_kernel_rfl) y

/-- What the run leaves in output window 4's staging buffer: its pieces read back. -/
def out0_B_4 (c : Dev nD) (i : grid0.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (hc0 : ¬cond0_0 i)
    (x0 : Vec F S4x200x32x4 .f32) (x1 : Vec F S4x200x3 .f32) (x2 : Vec F S4x64 .f32) (x3 : Vec F S3x64 .f32) (xo4 : Vec F S64 .f32) (xo5 : Vec F S64 .f32) : Vec F S64 .f32 :=
  VO0_4.read (Elt F) (VO0_4.writes (Elt F) VO0_4.junk (kernelRun0_B c i arg1 harg1 arg2 harg2 arg3 harg3 arg4 harg4 arg5 harg5 arg6 harg6 hc0 x0 x1 x2 x3 xo4 xo5).1)

/-- The pieces the run finds for output window 5 tile its block, so they cover it. -/
theorem cover0_B_5 (c : Dev nD) (i : grid0.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (hc0 : ¬cond0_0 i)
    (x0 : Vec F S4x200x32x4 .f32) (x1 : Vec F S4x200x3 .f32) (x2 : Vec F S4x64 .f32) (x3 : Vec F S3x64 .f32) (xo4 : Vec F S64 .f32) (xo5 : Vec F S64 .f32) (y : S64.Idx) :
    ∃ pc ∈ (kernelRun0_B c i arg1 harg1 arg2 harg2 arg3 harg3 arg4 harg4 arg5 harg5 arg6 harg6 hc0 x0 x1 x2 x3 xo4 xo5).2.1, y ∈ pc.1.set :=
  View.cover_of_tiledL (kernelRun0_B c i arg1 harg1 arg2 harg2 arg3 harg3 arg4 harg4 arg5 harg5 arg6 harg6 hc0 x0 x1 x2 x3 xo4 xo5).2.1 S64.size (by sl_kernel_rfl) y

/-- What the run leaves in output window 5's staging buffer: its pieces read back. -/
def out0_B_5 (c : Dev nD) (i : grid0.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (hc0 : ¬cond0_0 i)
    (x0 : Vec F S4x200x32x4 .f32) (x1 : Vec F S4x200x3 .f32) (x2 : Vec F S4x64 .f32) (x3 : Vec F S3x64 .f32) (xo4 : Vec F S64 .f32) (xo5 : Vec F S64 .f32) : Vec F S64 .f32 :=
  VO0_5.read (Elt F) (VO0_5.writes (Elt F) VO0_5.junk (kernelRun0_B c i arg1 harg1 arg2 harg2 arg3 harg3 arg4 harg4 arg5 harg5 arg6 harg6 hc0 x0 x1 x2 x3 xo4 xo5).2.1)

/-- THE ACCUMULATION. What the two accumulators' staging buffers hold after the body at tile n: at tile 0 the
    reset-and-add case, later the add case over what tile n - 1 left (the buffers are not written back between). -/
def outsAt0 (c : Dev nD) : (n : ℕ) → n < cfg0.N → Vec F S64 .f32 × Vec F S64 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩))
  | n + 1, hn =>
    if h0 : (n + 1) % 60 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).1 (outsAt0 c n (Nat.lt_of_succ_lt hn)).2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).1 (outsAt0 c n (Nat.lt_of_succ_lt hn)).2)

theorem outsAt0_A (c : Dev nD) (t : Fin cfg0.N) (h0 : t.val % 60 = 0) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t)) := by
  obtain ⟨n, hn⟩ := t
  cases n with
  | zero => exact rfl
  | succ n => exact (dif_pos h0).trans rfl

theorem outsAt0_B (c : Dev nD) (t : Fin cfg0.N) (h0 : ¬t.val % 60 = 0) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The pipeline's proof data on core c: the arrays as the region finds them; after the body at tile t each input's
    buffer at its block and each output's at what the run leaves; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
/-- At a later tile accumulator 4's staging buffer holds what the body left at the tile before: it is written back
    only after the last tile. -/
theorem before0_4_B (c : Dev nD) (t : Fin cfg0.N) (h0 : ¬t.val % 60 = 0) (d) :
    (dat0 V c).before 4 t d = (outsAt0 V c (t.val - 1) (Nat.lt_of_le_of_lt (Nat.sub_le _ _) t.isLt)).1 := by
  have hN : t.val < 60 := lt_of_lt_of_eq t.isLt (show cfg0.N = 60 from N_0)
  rw [Dat.before_out_kept _ 4 rfl t (by omega) (Bool.eq_false_iff.mpr fun h => by have := (flush0_4 _).mp h; dsimp only at this; omega)
    (fun _ => rfl) (fun _ _ => rfl)]
  dsimp only [dat0]
/-- At a later tile accumulator 5's staging buffer holds what the body left at the tile before: it is written back
    only after the last tile. -/
theorem before0_5_B (c : Dev nD) (t : Fin cfg0.N) (h0 : ¬t.val % 60 = 0) (d) :
    (dat0 V c).before 5 t d = (outsAt0 V c (t.val - 1) (Nat.lt_of_le_of_lt (Nat.sub_le _ _) t.isLt)).2 := by
  have hN : t.val < 60 := lt_of_lt_of_eq t.isLt (show cfg0.N = 60 from N_0)
  rw [Dat.before_out_kept _ 5 rfl t (by omega) (Bool.eq_false_iff.mpr fun h => by have := (flush0_5 _).mp h; dsimp only at this; omega)
    (fun _ => rfl) (fun _ _ => rfl)]
  dsimp only [dat0]

/-- What the body is called with at tile t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 1600000 in
/-- The body at any tile: the inputs' memrefs hold their blocks; the closed form says whether the tile is the first; at a later
    tile each accumulator holds what the tile before left; so the run applies; the invariant passes through unread; the
    core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 60 := lt_of_lt_of_eq t.isLt (show cfg0.N = 60 from N_0)
  by_cases h0 : t.val % 60 = 0
  · rw [outsAt0_A V c t h0]
    try dsimp only
    unfold out0_A_4 out0_A_5
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk0 V c 0 t) (iblk0 V c 1 t) (iblk0 V c 2 t) (iblk0 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _)
  · rw [outsAt0_B V c t h0]
    simp only [before0_4_B V c t h0, before0_5_B V c t h0]
    try dsimp only
    unfold out0_B_4 out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk0 V c 0 t) (iblk0 V c 1 t) (iblk0 V c 2 t) (iblk0 V c 3 t) _ _).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _)

/-- The library's body obligation, at every tile. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KTile.lean ====
/-
  One tile of each kernel as a pure function of the blocks it loads.
  Kernel 0: the masked layer-1 pre-activation of a tile, flattened to 25600 rows of 64 channels; an accumulator of
  per-channel sums takes the tile's column sums, an accumulator of sums of squares the column sums of the squares.
  Kernel 1: the same with the layer-2 pre-activation (layer 1 normalised by the statistics handed in, clamped at zero,
  times the 64x64 weights). Kernel 2: the output block, the clamped normalised layer-2 activation maximised over a
  pillar's 32 points. Each is the body's own payload term, composed in the order the body computes it.
-/
import proofs.«172073_j52536039964809_2_alg».proof.Proof.Gen.KernelIdeal.Skeleton

noncomputable section

namespace Cert.KernelIdeal.Tile

open Idealize.ShloMosaic Idealize.SL.Sem Cert.KernelIdeal Cert.KernelIdeal.Gen

variable {F : FTy → Type} [FloatOps F]

/-- The zero vector an accumulator is reset to. -/
def zero0_sum : FVec F S64 .f32 := k0_pay2 (F := F)
def zero0_sq : FVec F S64 .f32 := k0_pay3 (F := F)
def zero1_sum : FVec F S64 .f32 := k1_pay4 (F := F)
def zero1_sq : FVec F S64 .f32 := k1_pay5 (F := F)

/-- Kernel 0's tile: the masked layer-1 pre-activation, 25600 rows by 64 channels. -/
def h1pre (x0 : Vec F S4x200x32x4 .f32) (x1 : Vec F S4x200x3 .f32) (x2 : Vec F S4x64 .f32) (x3 : Vec F S3x64 .f32) : FVec F S25600x64 .f32 :=
  k0_pay16 (k0_pay5 x0) (k0_pay7 x1) (k0_pay8 x1) (k0_pay9 x1) (k0_pay10 x0) (k0_pay11 x2) (k0_pay12 x3) (k0_pay13 x0 x2) (k0_pay14 x0) (k0_pay15 x2)
/-- Kernel 0: the sum accumulator after a tile, from what it held. -/
def acc0_sum (x0 : Vec F S4x200x32x4 .f32) (x1 : Vec F S4x200x3 .f32) (x2 : Vec F S4x64 .f32) (x3 : Vec F S3x64 .f32) (a : Vec F S64 .f32) : FVec F S64 .f32 :=
  k0_pay17 (k0_pay5 x0) (k0_pay7 x1) (k0_pay8 x1) (k0_pay9 x1) (k0_pay10 x0) (k0_pay11 x2) (k0_pay12 x3) (k0_pay13 x0 x2) (k0_pay14 x0) (k0_pay15 x2) a
/-- Kernel 0: the sum-of-squares accumulator after a tile, from what it held. -/
def acc0_sq (x0 : Vec F S4x200x32x4 .f32) (x1 : Vec F S4x200x3 .f32) (x2 : Vec F S4x64 .f32) (x3 : Vec F S3x64 .f32) (a : Vec F S64 .f32) : FVec F S64 .f32 :=
  k0_pay1 (k0_pay18 a) (k0_pay19 (k0_pay5 x0) (k0_pay7 x1) (k0_pay8 x1) (k0_pay9 x1) (k0_pay10 x0) (k0_pay11 x2) (k0_pay12 x3) (k0_pay13 x0 x2) (k0_pay14 x0) (k0_pay15 x2))

/-- Kernel 1's tile: the layer-2 pre-activation, 25600 rows by 64 channels. -/
def h2pre (x0 : Vec F S4x200x32x4 .f32) (x1 : Vec F S4x200x3 .f32) (x2 : Vec F S4x64 .f32) (x3 : Vec F S3x64 .f32) (x4 x5 x6 x7 : Vec F S64 .f32) (x8 : Vec F S64x64 .f32) : FVec F S25600x64 .f32 :=
  k1_pay1 (k1_pay18 x7) x4 x5 (k1_pay19 (k1_pay7 x0) (k1_pay9 x1) (k1_pay10 x1) (k1_pay11 x1) (k1_pay12 x0) (k1_pay13 x2) (k1_pay14 x3) (k1_pay15 x0 x2) (k1_pay16 x0) (k1_pay17 x2) x6) (k1_pay20 (F := F)) x8
def acc1_sum (x0 : Vec F S4x200x32x4 .f32) (x1 : Vec F S4x200x3 .f32) (x2 : Vec F S4x64 .f32) (x3 : Vec F S3x64 .f32) (x4 x5 x6 x7 : Vec F S64 .f32) (x8 : Vec F S64x64 .f32) (a : Vec F S64 .f32) : FVec F S64 .f32 :=
  k1_pay2 (k1_pay18 x7) x4 x5 (k1_pay19 (k1_pay7 x0) (k1_pay9 x1) (k1_pay10 x1) (k1_pay11 x1) (k1_pay12 x0) (k1_pay13 x2) (k1_pay14 x3) (k1_pay15 x0 x2) (k1_pay16 x0) (k1_pay17 x2) x6) (k1_pay20 (F := F)) x8 a
def acc1_sq (x0 : Vec F S4x200x32x4 .f32) (x1 : Vec F S4x200x3 .f32) (x2 : Vec F S4x64 .f32) (x3 : Vec F S3x64 .f32) (x4 x5 x6 x7 : Vec F S64 .f32) (x8 : Vec F S64x64 .f32) (a : Vec F S64 .f32) : FVec F S64 .f32 :=
  k1_pay3 (k1_pay18 x7) x4 x5 (k1_pay19 (k1_pay7 x0) (k1_pay9 x1) (k1_pay10 x1) (k1_pay11 x1) (k1_pay12 x0) (k1_pay13 x2) (k1_pay14 x3) (k1_pay15 x0 x2) (k1_pay16 x0) (k1_pay17 x2) x6) (k1_pay20 (F := F)) x8 a

/-- Kernel 2's tile: the output block [4, 200, 64]. -/
def out2 (x0 : Vec F S4x200x32x4 .f32) (x1 : Vec F S4x200x3 .f32) (x2 : Vec F S4x64 .f32) (x3 : Vec F S3x64 .f32) (x4 x5 x6 x7 : Vec F S64 .f32) (x8 : Vec F S64x64 .f32) (x9 x10 x11 x12 : Vec F S64 .f32) : FVec F S4x200x64 .f32 :=
  k2_pay1 x5 (k2_pay12 (k2_pay4 x1) (k2_pay5 x1) (k2_pay6 x1) (k2_pay7 x0) (k2_pay8 x2) (k2_pay9 x3) (k2_pay10 x0 x2) (k2_pay11 x0) x6 x7) (k2_pay13 x4) x8 x11 x12 x9 x10

end Cert.KernelIdeal.Tile

end
-- ==== Proof.KVal0.lean ====
/-
  Kernel 0's two accumulators as values. At the first tile the body leaves in each accumulator the tile's column sums
  added to zero; at a later tile, added to what the accumulator held. So after tile n they hold the running sums, tile
  by tile in order (by induction on the tile). They are written back once, after the last tile, and the block written
  is the whole 64-entry array: the arrays end holding the running sums after tile 59.
-/
import proofs.«172073_j52536039964809_2_alg».proof.Proof.KFrame0
import proofs.«172073_j52536039964809_2_alg».proof.Proof.KTile
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Tile

theorem hz1_0 : (![0] : Fin 1 → Nat) = fun _ => 0 := funext fun a => by fin_cases a <;> rfl
theorem hz2_0 : (![0, 0] : Fin 2 → Nat) = fun _ => 0 := funext fun a => by fin_cases a <;> rfl
theorem hz3_0 : (![0, 0, 0] : Fin 3 → Nat) = fun _ => 0 := funext fun a => by fin_cases a <;> rfl
theorem hz4_0 : (![0, 0, 0, 0] : Fin 4 → Nat) = fun _ => 0 := funext fun a => by fin_cases a <;> rfl

set_option maxHeartbeats 4000000 in
/-- A later tile: accumulator 4 ends at the tile's column sums added to what it held. -/
theorem out0_B_4_eq (c : Dev nD) (i : grid0.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (hc0 : ¬cond0_0 i)
    (x0 : Vec F S4x200x32x4 .f32) (x1 : Vec F S4x200x3 .f32) (x2 : Vec F S4x64 .f32) (x3 : Vec F S3x64 .f32) (xo4 xo5 : Vec F S64 .f32) : out0_B_4 c i arg1 harg1 arg2 harg2 arg3 harg3 arg4 harg4 arg5 harg5 arg6 harg6 hc0 x0 x1 x2 x3 xo4 xo5 = acc0_sum x0 x1 x2 x3 xo4 := by
  unfold out0_B_4
  rw [View.read_writes_eq_canon _ _ _ (cover0_B_4 c i arg1 harg1 arg2 harg2 arg3 harg3 arg4 harg4 arg5 harg5 arg6 harg6 hc0 x0 x1 x2 x3 xo4 xo5)]
  unfold kernelRun0_B
  dsimp only
  sl_unfold_words
  rw [View.canon_unit_zero hz1_0]
  simp only [View.readAt_eq_ld, harg1.read_unread, harg2.read_unread, harg3.read_unread, harg4.read_unread, harg5.read_unread, harg6.read_unread, View.ld_unit_zero (S := S64) hz1_0, View.ld_unit_zero (S := S64x64) hz2_0, View.ld_unit_zero (S := S4x64) hz2_0, View.ld_unit_zero (S := S3x64) hz2_0, View.ld_unit_zero (S := S4x200x3) hz3_0, View.ld_unit_zero (S := S4x200x32x4) hz4_0]
  rfl

set_option maxHeartbeats 4000000 in
/-- The first tile: accumulator 4 is reset to zero, read back, and ends at the tile's column sums added to zero. -/
theorem out0_A_4_eq (c : Dev nD) (i : grid0.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (hc0 : cond0_0 i)
    (x0 : Vec F S4x200x32x4 .f32) (x1 : Vec F S4x200x3 .f32) (x2 : Vec F S4x64 .f32) (x3 : Vec F S3x64 .f32) : out0_A_4 c i arg1 harg1 arg2 harg2 arg3 harg3 arg4 harg4 arg5 harg5 arg6 harg6 hc0 x0 x1 x2 x3 = acc0_sum x0 x1 x2 x3 zero0_sum := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_cons_unit_zero (S := S64) hz1_0, View.readCov_unit_zero (S := S64) _ hz1_0]
  simp only [View.readAt_eq_ld, harg1.read_unread, harg2.read_unread, harg3.read_unread, harg4.read_unread, harg5.read_unread, harg6.read_unread, View.ld_unit_zero (S := S64) hz1_0, View.ld_unit_zero (S := S64x64) hz2_0, View.ld_unit_zero (S := S4x64) hz2_0, View.ld_unit_zero (S := S3x64) hz2_0, View.ld_unit_zero (S := S4x200x3) hz3_0, View.ld_unit_zero (S := S4x200x32x4) hz4_0]
  rfl

set_option maxHeartbeats 4000000 in
/-- A later tile: accumulator 5 ends at the tile's column sums added to what it held. -/
theorem out0_B_5_eq (c : Dev nD) (i : grid0.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (hc0 : ¬cond0_0 i)
    (x0 : Vec F S4x200x32x4 .f32) (x1 : Vec F S4x200x3 .f32) (x2 : Vec F S4x64 .f32) (x3 : Vec F S3x64 .f32) (xo4 xo5 : Vec F S64 .f32) : out0_B_5 c i arg1 harg1 arg2 harg2 arg3 harg3 arg4 harg4 arg5 harg5 arg6 harg6 hc0 x0 x1 x2 x3 xo4 xo5 = acc0_sq x0 x1 x2 x3 xo5 := by
  unfold out0_B_5
  rw [View.read_writes_eq_canon _ _ _ (cover0_B_5 c i arg1 harg1 arg2 harg2 arg3 harg3 arg4 harg4 arg5 harg5 arg6 harg6 hc0 x0 x1 x2 x3 xo4 xo5)]
  unfold kernelRun0_B
  dsimp only
  sl_unfold_words
  rw [View.canon_unit_zero hz1_0]
  simp only [View.readAt_eq_ld, harg1.read_unread, harg2.read_unread, harg3.read_unread, harg4.read_unread, harg5.read_unread, harg6.read_unread, View.ld_unit_zero (S := S64) hz1_0, View.ld_unit_zero (S := S64x64) hz2_0, View.ld_unit_zero (S := S4x64) hz2_0, View.ld_unit_zero (S := S3x64) hz2_0, View.ld_unit_zero (S := S4x200x3) hz3_0, View.ld_unit_zero (S := S4x200x32x4) hz4_0]
  rfl

set_option maxHeartbeats 4000000 in
/-- The first tile: accumulator 5 is reset to zero, read back, and ends at the tile's column sums added to zero. -/
theorem out0_A_5_eq (c : Dev nD) (i : grid0.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (hc0 : cond0_0 i)
    (x0 : Vec F S4x200x32x4 .f32) (x1 : Vec F S4x200x3 .f32) (x2 : Vec F S4x64 .f32) (x3 : Vec F S3x64 .f32) : out0_A_5 c i arg1 harg1 arg2 harg2 arg3 harg3 arg4 harg4 arg5 harg5 arg6 harg6 hc0 x0 x1 x2 x3 = acc0_sq x0 x1 x2 x3 zero0_sq := by
  unfold out0_A_5
  rw [View.read_writes_eq_canon _ _ _ (cover0_A_5 c i arg1 harg1 arg2 harg2 arg3 harg3 arg4 harg4 arg5 harg5 arg6 harg6 hc0 x0 x1 x2 x3)]
  unfold kernelRun0_A
  dsimp only
  sl_unfold_words
  rw [View.canon_cons_unit_zero (S := S64) hz1_0, View.readCov_unit_zero (S := S64) _ hz1_0]
  simp only [View.readAt_eq_ld, harg1.read_unread, harg2.read_unread, harg3.read_unread, harg4.read_unread, harg5.read_unread, harg6.read_unread, View.ld_unit_zero (S := S64) hz1_0, View.ld_unit_zero (S := S64x64) hz2_0, View.ld_unit_zero (S := S4x64) hz2_0, View.ld_unit_zero (S := S3x64) hz2_0, View.ld_unit_zero (S := S4x200x3) hz3_0, View.ld_unit_zero (S := S4x200x32x4) hz4_0]
  rfl

variable (V : (c : Dev nD) → (b : Ref sig .tc) → Buf (Elt F) ((c : Thread nD τ).loc b))

/-- The running sums after tile n: from zero at tile 0, each later tile added to the one before. -/
def chain0 (c : Dev nD) : (n : ℕ) → n < cfg0.N → Vec F S64 .f32 × Vec F S64 .f32
  | 0, h => (acc0_sum (iblk0 V c 0 ⟨0, h⟩) (iblk0 V c 1 ⟨0, h⟩) (iblk0 V c 2 ⟨0, h⟩) (iblk0 V c 3 ⟨0, h⟩) zero0_sum, acc0_sq (iblk0 V c 0 ⟨0, h⟩) (iblk0 V c 1 ⟨0, h⟩) (iblk0 V c 2 ⟨0, h⟩) (iblk0 V c 3 ⟨0, h⟩) zero0_sq)
  | n + 1, h => (acc0_sum (iblk0 V c 0 ⟨n + 1, h⟩) (iblk0 V c 1 ⟨n + 1, h⟩) (iblk0 V c 2 ⟨n + 1, h⟩) (iblk0 V c 3 ⟨n + 1, h⟩) (chain0 c n (Nat.lt_of_succ_lt h)).1, acc0_sq (iblk0 V c 0 ⟨n + 1, h⟩) (iblk0 V c 1 ⟨n + 1, h⟩) (iblk0 V c 2 ⟨n + 1, h⟩) (iblk0 V c 3 ⟨n + 1, h⟩) (chain0 c n (Nat.lt_of_succ_lt h)).2)

/-- What the accumulators' staging buffers hold after tile n IS the running sums — by induction on the tile. -/
theorem outsAt0_eq (c : Dev nD) : ∀ (n : ℕ) (h : n < cfg0.N), outsAt0 V c n h = chain0 V c n h
  | 0, h => by
    rw [outsAt0_A V c ⟨0, h⟩ rfl, out0_A_4_eq, out0_A_5_eq]; rfl
  | n + 1, h => by
    have hN : cfg0.N = 60 := N_0
    have hB : ¬(⟨n + 1, h⟩ : Fin cfg0.N).val % 60 = 0 := by dsimp only; omega
    rw [outsAt0_B V c ⟨n + 1, h⟩ hB, out0_B_4_eq, out0_B_5_eq]
    show (acc0_sum _ _ _ _ (outsAt0 V c n _).1, acc0_sq _ _ _ _ (outsAt0 V c n _).2) = (acc0_sum _ _ _ _ (chain0 V c n _).1, acc0_sq _ _ _ _ (chain0 V c n _).2)
    rw [outsAt0_eq c n]

/-- The last tile. -/
abbrev tLast0 : Fin cfg0.N := ⟨59, by rw [show cfg0.N = 60 from N_0]; decide⟩

/-- Accumulator 4's array after the run: the running sums after the last tile. -/
abbrev result0_4 (c : Dev nD) : Buf (Elt F) ((c : Thread nD τ).loc main_v58_0) := (chain0 V c 59 (by rw [show cfg0.N = 60 from N_0]; decide)).1

/-- The one write-back, after tile 59, writes it: the window's one block, read through zero offsets, is the array. -/
theorem flushed0_4_eq (c : Dev nD) (t : Fin cfg0.N) (hf : (cfg0.win 4).flush t = true) :
    (dat0 V c).flushed 4 t = ((cfg0.win 4).blk t).view.read (Elt F) (result0_4 V c) := by
  have hN : cfg0.N = 60 := N_0
  have h59 : t.val = 59 := by have := (flush0_4 t).mp hf; have := t.isLt; omega
  obtain rfl : t = tLast0 := Fin.ext h59
  show (cfg0.win 4).cut (grid0.coords tLast0) ((dat0 V c).after 4 tLast0) = _
  rw [after0_4, outsAt0_eq]
  have hz' : (fun a => win0_4.index tLast0 a * main_v58_0.ty.shape.size a) = fun _ => 0 := funext fun a => by fin_cases a <;> decide
  exact (Memref.read_access_unit_zero (Elt F) main_v58_0 hz' (fun a => by rw [congrFun hz' a]; simp) (result0_4 V c)).symm

/-- So the array ends holding the running sums after the last tile: that tile's write-back covers it. -/
theorem final0_4 (c : Dev nD) : (dat0 V c).arrAt 4 cfg0.N = result0_4 V c :=
  (dat0 V c).arrAt_eq_of_cover 4 (result0_4 V c) (flushed0_4_eq V c) fun i =>
    ⟨tLast0, (flush0_4 tLast0).mpr rfl, by
      show i ∈ ((View.whole main_v58_0).slice (win0_4.rect tLast0)).set
      rw [View.set_slice_whole, Rect.mem_set_unit]
      intro a
      have h0 : (i 0 : Nat) < 64 := (i 0).isLt
      match a with
      | ⟨0, _⟩ => show win0_4.index tLast0 0 * win0_4.size 0 ≤ (i 0 : Nat) ∧ (i 0 : Nat) < win0_4.index tLast0 0 * win0_4.size 0 + win0_4.xsize (grid0.coords tLast0) 0
                  rw [show win0_4.index tLast0 0 * win0_4.size 0 = 0 from by decide +kernel, show win0_4.xsize (grid0.coords tLast0) 0 = 64 from by decide +kernel]; omega⟩

/-- Accumulator 5's array after the run: the running sums after the last tile. -/
abbrev result0_5 (c : Dev nD) : Buf (Elt F) ((c : Thread nD τ).loc main_v58_1) := (chain0 V c 59 (by rw [show cfg0.N = 60 from N_0]; decide)).2

/-- The one write-back, after tile 59, writes it: the window's one block, read through zero offsets, is the array. -/
theorem flushed0_5_eq (c : Dev nD) (t : Fin cfg0.N) (hf : (cfg0.win 5).flush t = true) :
    (dat0 V c).flushed 5 t = ((cfg0.win 5).blk t).view.read (Elt F) (result0_5 V c) := by
  have hN : cfg0.N = 60 := N_0
  have h59 : t.val = 59 := by have := (flush0_5 t).mp hf; have := t.isLt; omega
  obtain rfl : t = tLast0 := Fin.ext h59
  show (cfg0.win 5).cut (grid0.coords tLast0) ((dat0 V c).after 5 tLast0) = _
  rw [after0_5, outsAt0_eq]
  have hz' : (fun a => win0_5.index tLast0 a * main_v58_1.ty.shape.size a) = fun _ => 0 := funext fun a => by fin_cases a <;> decide
  exact (Memref.read_access_unit_zero (Elt F) main_v58_1 hz' (fun a => by rw [congrFun hz' a]; simp) (result0_5 V c)).symm

/-- So the array ends holding the running sums after the last tile: that tile's write-back covers it. -/
theorem final0_5 (c : Dev nD) : (dat0 V c).arrAt 5 cfg0.N = result0_5 V c :=
  (dat0 V c).arrAt_eq_of_cover 5 (result0_5 V c) (flushed0_5_eq V c) fun i =>
    ⟨tLast0, (flush0_5 tLast0).mpr rfl, by
      show i ∈ ((View.whole main_v58_1).slice (win0_5.rect tLast0)).set
      rw [View.set_slice_whole, Rect.mem_set_unit]
      intro a
      have h0 : (i 0 : Nat) < 64 := (i 0).isLt
      match a with
      | ⟨0, _⟩ => show win0_5.index tLast0 0 * win0_5.size 0 ≤ (i 0 : Nat) ∧ (i 0 : Nat) < win0_5.index tLast0 0 * win0_5.size 0 + win0_5.xsize (grid0.coords tLast0) 0
                  rw [show win0_5.index tLast0 0 * win0_5.size 0 = 0 from by decide +kernel, show win0_5.xsize (grid0.coords tLast0) 0 = 64 from by decide +kernel]; omega⟩

end Cert.KernelIdeal.Hand

end
-- ==== Proof.KRuns1.lean ====
/-
  The staging memrefs the pipeline passes to kernel 1's body at a tile, window by window, and one staging buffer of
  each output window through which its contents are stated.
-/
import proofs.«172073_j52536039964809_2_alg».proof.Proof.KRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev ms1_0 (t : Fin cfg1.N) : Memref sig .tc .vmem S4x200x32x4 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x200x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S3x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S64x64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S64 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S64 .f32 := win1_10.stage (cfg1.slots t 10)
abbrev hs1_10 (t : Fin cfg1.N) : (ms1_10 t).IsWhole := hstage1_10 ((cfg1.slots t 10).cast nbuf1_10)
abbrev VO1_9 : View sig .tc .vmem S64 .f32 := (Memref.whole cc1_stg9_0 : Memref sig .tc .vmem S64 .f32).view
abbrev VO1_10 : View sig .tc .vmem S64 .f32 := (Memref.whole cc1_stg10_0 : Memref sig .tc .vmem S64 .f32).view

end Cert.KernelIdeal.Hand

end
-- ==== Proof.KRun1A.lean ====
/-
  The second statistics kernel at its FIRST tile: both accumulators are overwritten with zeros and then each
  takes the tile's per-channel sum of the layer-2 pre-activation (resp. of its square): layer 1 normalised
  with the statistics handed in, clamped at zero, times the 64x64 weights. Run symbolically on any whole
  staging memrefs; the written pieces are found by the run.
-/
import proofs.«172073_j52536039964809_2_alg».proof.Proof.KRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
noncomputable def kernelRun1_A (c : Dev nD) (i : grid1.Coords)
    (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (hc0 : cond1_0 i)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) :
    Σ' (L9 : List (View.Piece (Elt F) S64 .f32)), { L10 : List (View.Piece (Elt F) S64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
                ∗ (∃ f, arg10.view.loc (c : Thread nD τ) ↦[arg10.view.set]{fullShare} arg10.view.writes (Elt F) f L9)
                ∗ (∃ f, arg11.view.loc (c : Thread nD τ) ↦[arg11.view.set]{fullShare} arg11.view.writes (Elt F) f L10)) -∗ K ⟨⟩))
          ⊢ wp frame (wpE (defs₀ (F := F)) Variants.none c none) E (cc1__stats2_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__stats2_kernel_eq_skeleton]; unfold cc1__stats2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    iexists _; iexact H10

end Cert.KernelIdeal.Hand

end
-- ==== Proof.KRun1B.lean ====
/-
  The second statistics kernel at a LATER tile: each accumulator, found at what the tiles before left in it,
  takes the tile's per-channel sum of the layer-2 pre-activation (resp. of its square) added to it.
  Run symbolically on any whole staging memrefs; the written pieces are found by the run.
-/
import proofs.«172073_j52536039964809_2_alg».proof.Proof.KRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
noncomputable def kernelRun1_B (c : Dev nD) (i : grid1.Coords)
    (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (hc0 : ¬cond1_0 i)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) (xo9 : Vec F S64 .f32) (xo10 : Vec F S64 .f32) :
    Σ' (L9 : List (View.Piece (Elt F) S64 .f32)), { L10 : List (View.Piece (Elt F) S64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare xo9 ∗ owns (c : Thread nD τ) arg11 fullShare xo10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
                ∗ (∃ f, arg10.view.loc (c : Thread nD τ) ↦[arg10.view.set]{fullShare} arg10.view.writes (Elt F) f L9)
                ∗ (∃ f, arg11.view.loc (c : Thread nD τ) ↦[arg11.view.set]{fullShare} arg11.view.writes (Elt F) f L10)) -∗ K ⟨⟩))
          ⊢ wp frame (wpE (defs₀ (F := F)) Variants.none c none) E (cc1__stats2_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__stats2_kernel_eq_skeleton]; unfold cc1__stats2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    iexists _; iexact H10

end Cert.KernelIdeal.Hand

end
-- ==== Proof.KFrame1.lean ====
/-
  The second statistics kernel over its 60 tiles: what its two accumulators hold after each tile (reset at tile 0,
  added to at every tile, never written back before the last), the proof data the pipeline library asks for, and the
  body's obligation at every tile from the two symbolic runs.
-/
import proofs.«172073_j52536039964809_2_alg».proof.Proof.KRuns1
import proofs.«172073_j52536039964809_2_alg».proof.Proof.KRun1A
import proofs.«172073_j52536039964809_2_alg».proof.Proof.KRun1B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at tile t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every tile, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every tile, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every tile, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every tile, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every tile, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every tile, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every tile, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every tile, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every tile, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- The pieces the run finds for output window 9 tile its block, so they cover it. -/
theorem cover1_A_9 (c : Dev nD) (i : grid1.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (hc0 : cond1_0 i)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) (y : S64.Idx) :
    ∃ pc ∈ (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7 x8).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7 x8).1 S64.size (by sl_kernel_rfl) y

/-- What the run leaves in output window 9's staging buffer: its pieces read back. -/
def out1_A_9 (c : Dev nD) (i : grid1.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (hc0 : cond1_0 i)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) : Vec F S64 .f32 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7 x8).1)

/-- The pieces the run finds for output window 10 tile its block, so they cover it. -/
theorem cover1_A_10 (c : Dev nD) (i : grid1.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (hc0 : cond1_0 i)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) (y : S64.Idx) :
    ∃ pc ∈ (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7 x8).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7 x8).2.1 S64.size (by sl_kernel_rfl) y

/-- What the run leaves in output window 10's staging buffer: its pieces read back. -/
def out1_A_10 (c : Dev nD) (i : grid1.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (hc0 : cond1_0 i)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) : Vec F S64 .f32 :=
  VO1_10.read (Elt F) (VO1_10.writes (Elt F) VO1_10.junk (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7 x8).2.1)

/-- The pieces the run finds for output window 9 tile its block, so they cover it. -/
theorem cover1_B_9 (c : Dev nD) (i : grid1.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (hc0 : ¬cond1_0 i)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) (xo9 : Vec F S64 .f32) (xo10 : Vec F S64 .f32) (y : S64.Idx) :
    ∃ pc ∈ (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 x8 xo9 xo10).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 x8 xo9 xo10).1 S64.size (by sl_kernel_rfl) y

/-- What the run leaves in output window 9's staging buffer: its pieces read back. -/
def out1_B_9 (c : Dev nD) (i : grid1.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (hc0 : ¬cond1_0 i)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) (xo9 : Vec F S64 .f32) (xo10 : Vec F S64 .f32) : Vec F S64 .f32 :=
  VO1_9.read (Elt F) (VO1_9.writes (Elt F) VO1_9.junk (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 x8 xo9 xo10).1)

/-- The pieces the run finds for output window 10 tile its block, so they cover it. -/
theorem cover1_B_10 (c : Dev nD) (i : grid1.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (hc0 : ¬cond1_0 i)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) (xo9 : Vec F S64 .f32) (xo10 : Vec F S64 .f32) (y : S64.Idx) :
    ∃ pc ∈ (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 x8 xo9 xo10).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 x8 xo9 xo10).2.1 S64.size (by sl_kernel_rfl) y

/-- What the run leaves in output window 10's staging buffer: its pieces read back. -/
def out1_B_10 (c : Dev nD) (i : grid1.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (hc0 : ¬cond1_0 i)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) (xo9 : Vec F S64 .f32) (xo10 : Vec F S64 .f32) : Vec F S64 .f32 :=
  VO1_10.read (Elt F) (VO1_10.writes (Elt F) VO1_10.junk (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 x8 xo9 xo10).2.1)

/-- THE ACCUMULATION. What the two accumulators' staging buffers hold after the body at tile n: at tile 0 the
    reset-and-add case, later the add case over what tile n - 1 left (the buffers are not written back between). -/
def outsAt1 (c : Dev nD) : (n : ℕ) → n < cfg1.N → Vec F S64 .f32 × Vec F S64 .f32
  | 0, hn => (out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩), out1_A_10 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩))
  | n + 1, hn =>
    if h0 : (n + 1) % 60 = 0 then
      (out1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩), out1_A_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩))
    else
      (out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).1 (outsAt1 c n (Nat.lt_of_succ_lt hn)).2, out1_B_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).1 (outsAt1 c n (Nat.lt_of_succ_lt hn)).2)

theorem outsAt1_A (c : Dev nD) (t : Fin cfg1.N) (h0 : t.val % 60 = 0) :
    outsAt1 V c t.val t.isLt = (out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t), out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t)) := by
  obtain ⟨n, hn⟩ := t
  cases n with
  | zero => exact rfl
  | succ n => exact (dif_pos h0).trans rfl

theorem outsAt1_B (c : Dev nD) (t : Fin cfg1.N) (h0 : ¬t.val % 60 = 0) :
    outsAt1 V c t.val t.isLt = (out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).1 (outsAt1 V c (t.val - 1) (Nat.lt_of_le_of_lt (Nat.sub_le _ _) t.isLt)).2, out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The pipeline's proof data on core c: the arrays as the region finds them; after the body at tile t each input's
    buffer at its block and each output's at what the run leaves; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).1
    | ⟨10, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t.val t.isLt).1 := by dsimp only [dat1]
theorem after1_10 (c : Dev nD) (t : Fin cfg1.N) : (dat1 V c).after 10 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
/-- At a later tile accumulator 9's staging buffer holds what the body left at the tile before: it is written back
    only after the last tile. -/
theorem before1_9_B (c : Dev nD) (t : Fin cfg1.N) (h0 : ¬t.val % 60 = 0) (d) :
    (dat1 V c).before 9 t d = (outsAt1 V c (t.val - 1) (Nat.lt_of_le_of_lt (Nat.sub_le _ _) t.isLt)).1 := by
  have hN : t.val < 60 := lt_of_lt_of_eq t.isLt (show cfg1.N = 60 from N_1)
  rw [Dat.before_out_kept _ 9 rfl t (by omega) (Bool.eq_false_iff.mpr fun h => by have := (flush1_9 _).mp h; dsimp only at this; omega)
    (fun _ => rfl) (fun _ _ => rfl)]
  dsimp only [dat1]
/-- At a later tile accumulator 10's staging buffer holds what the body left at the tile before: it is written back
    only after the last tile. -/
theorem before1_10_B (c : Dev nD) (t : Fin cfg1.N) (h0 : ¬t.val % 60 = 0) (d) :
    (dat1 V c).before 10 t d = (outsAt1 V c (t.val - 1) (Nat.lt_of_le_of_lt (Nat.sub_le _ _) t.isLt)).2 := by
  have hN : t.val < 60 := lt_of_lt_of_eq t.isLt (show cfg1.N = 60 from N_1)
  rw [Dat.before_out_kept _ 10 rfl t (by omega) (Bool.eq_false_iff.mpr fun h => by have := (flush1_10 _).mp h; dsimp only at this; omega)
    (fun _ => rfl) (fun _ _ => rfl)]
  dsimp only [dat1]

/-- What the body is called with at tile t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t))

set_option maxHeartbeats 1600000 in
/-- The body at any tile: the inputs' memrefs hold their blocks; the closed form says whether the tile is the first; at a later
    tile each accumulator holds what the tile before left; so the run applies; the invariant passes through unread; the
    core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  have hN : t.val < 60 := lt_of_lt_of_eq t.isLt (show cfg1.N = 60 from N_1)
  by_cases h0 : t.val % 60 = 0
  · rw [outsAt1_A V c t h0]
    try dsimp only
    unfold out1_A_9 out1_A_10
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun1_A c (grid1.coords t) _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iintro ⟨H0, H1, H2, H3, H4, H5, H6, H7, H8, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover1_A_9 c _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover1_A_10 c _ _ _ _ _ _ _ _ _ _ _ _ _ _ _ _ _ _ _ _ _ _ _ _ _ _ _ _ _ _ _ _ _)
  · rw [outsAt1_B V c t h0]
    simp only [before1_9_B V c t h0, before1_10_B V c t h0]
    try dsimp only
    unfold out1_B_9 out1_B_10
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun1_B c (grid1.coords t) _ _ _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H0, H1, H2, H3, H4, H5, H6, H7, H8, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover1_B_9 c _ _ _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover1_B_10 c _ _ _ _ _ _ _ _ _ _ _ _ _ _ _ _ _ _ _ _ _ _ _ _ _ _ _ _ _ _ _ _ _ _ _)

/-- The library's body obligation, at every tile. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KVal1.lean ====
/-
  Kernel 1's two accumulators as values. At the first tile the body leaves in each accumulator the tile's column sums
  added to zero; at a later tile, added to what the accumulator held. So after tile n they hold the running sums, tile
  by tile in order (by induction on the tile). They are written back once, after the last tile, and the block written
  is the whole 64-entry array: the arrays end holding the running sums after tile 59.
-/
import proofs.«172073_j52536039964809_2_alg».proof.Proof.KFrame1
import proofs.«172073_j52536039964809_2_alg».proof.Proof.KTile
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Tile

theorem hz1_1 : (![0] : Fin 1 → Nat) = fun _ => 0 := funext fun a => by fin_cases a <;> rfl
theorem hz2_1 : (![0, 0] : Fin 2 → Nat) = fun _ => 0 := funext fun a => by fin_cases a <;> rfl
theorem hz3_1 : (![0, 0, 0] : Fin 3 → Nat) = fun _ => 0 := funext fun a => by fin_cases a <;> rfl
theorem hz4_1 : (![0, 0, 0, 0] : Fin 4 → Nat) = fun _ => 0 := funext fun a => by fin_cases a <;> rfl

set_option maxHeartbeats 4000000 in
/-- A later tile: accumulator 9 ends at the tile's column sums added to what it held. -/
theorem out1_B_9_eq (c : Dev nD) (i : grid1.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (hc0 : ¬cond1_0 i)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) (xo9 xo10 : Vec F S64 .f32) : out1_B_9 c i arg1 harg1 arg2 harg2 arg3 harg3 arg4 harg4 arg5 harg5 arg6 harg6 arg7 harg7 arg8 harg8 arg9 harg9 arg10 harg10 arg11 harg11 hc0 x0 x1 x2 x3 x4 x5 x6 x7 x8 xo9 xo10 = acc1_sum x0 x1 x2 x3 x4 x5 x6 x7 x8 xo9 := by
  unfold out1_B_9
  rw [View.read_writes_eq_canon _ _ _ (cover1_B_9 c i arg1 harg1 arg2 harg2 arg3 harg3 arg4 harg4 arg5 harg5 arg6 harg6 arg7 harg7 arg8 harg8 arg9 harg9 arg10 harg10 arg11 harg11 hc0 x0 x1 x2 x3 x4 x5 x6 x7 x8 xo9 xo10)]
  unfold kernelRun1_B
  dsimp only
  sl_unfold_words
  rw [View.canon_unit_zero hz1_1]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S64) hz1_1, View.ld_unit_zero (S := S64x64) hz2_1, View.ld_unit_zero (S := S4x64) hz2_1, View.ld_unit_zero (S := S3x64) hz2_1, View.ld_unit_zero (S := S4x200x3) hz3_1, View.ld_unit_zero (S := S4x200x32x4) hz4_1]
  rfl

set_option maxHeartbeats 4000000 in
/-- The first tile: accumulator 9 is reset to zero, read back, and ends at the tile's column sums added to zero. -/
theorem out1_A_9_eq (c : Dev nD) (i : grid1.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (hc0 : cond1_0 i)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) : out1_A_9 c i arg1 harg1 arg2 harg2 arg3 harg3 arg4 harg4 arg5 harg5 arg6 harg6 arg7 harg7 arg8 harg8 arg9 harg9 arg10 harg10 arg11 harg11 hc0 x0 x1 x2 x3 x4 x5 x6 x7 x8 = acc1_sum x0 x1 x2 x3 x4 x5 x6 x7 x8 zero1_sum := by
  unfold out1_A_9
  rw [View.read_writes_eq_canon _ _ _ (cover1_A_9 c i arg1 harg1 arg2 harg2 arg3 harg3 arg4 harg4 arg5 harg5 arg6 harg6 arg7 harg7 arg8 harg8 arg9 harg9 arg10 harg10 arg11 harg11 hc0 x0 x1 x2 x3 x4 x5 x6 x7 x8)]
  unfold kernelRun1_A
  dsimp only
  sl_unfold_words
  rw [View.canon_cons_unit_zero (S := S64) hz1_1, View.readCov_unit_zero (S := S64) _ hz1_1]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S64) hz1_1, View.ld_unit_zero (S := S64x64) hz2_1, View.ld_unit_zero (S := S4x64) hz2_1, View.ld_unit_zero (S := S3x64) hz2_1, View.ld_unit_zero (S := S4x200x3) hz3_1, View.ld_unit_zero (S := S4x200x32x4) hz4_1]
  rfl

set_option maxHeartbeats 4000000 in
/-- A later tile: accumulator 10 ends at the tile's column sums added to what it held. -/
theorem out1_B_10_eq (c : Dev nD) (i : grid1.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (hc0 : ¬cond1_0 i)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) (xo9 xo10 : Vec F S64 .f32) : out1_B_10 c i arg1 harg1 arg2 harg2 arg3 harg3 arg4 harg4 arg5 harg5 arg6 harg6 arg7 harg7 arg8 harg8 arg9 harg9 arg10 harg10 arg11 harg11 hc0 x0 x1 x2 x3 x4 x5 x6 x7 x8 xo9 xo10 = acc1_sq x0 x1 x2 x3 x4 x5 x6 x7 x8 xo10 := by
  unfold out1_B_10
  rw [View.read_writes_eq_canon _ _ _ (cover1_B_10 c i arg1 harg1 arg2 harg2 arg3 harg3 arg4 harg4 arg5 harg5 arg6 harg6 arg7 harg7 arg8 harg8 arg9 harg9 arg10 harg10 arg11 harg11 hc0 x0 x1 x2 x3 x4 x5 x6 x7 x8 xo9 xo10)]
  unfold kernelRun1_B
  dsimp only
  sl_unfold_words
  rw [View.canon_unit_zero hz1_1]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S64) hz1_1, View.ld_unit_zero (S := S64x64) hz2_1, View.ld_unit_zero (S := S4x64) hz2_1, View.ld_unit_zero (S := S3x64) hz2_1, View.ld_unit_zero (S := S4x200x3) hz3_1, View.ld_unit_zero (S := S4x200x32x4) hz4_1]
  rfl

set_option maxHeartbeats 4000000 in
/-- The first tile: accumulator 10 is reset to zero, read back, and ends at the tile's column sums added to zero. -/
theorem out1_A_10_eq (c : Dev nD) (i : grid1.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (hc0 : cond1_0 i)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) : out1_A_10 c i arg1 harg1 arg2 harg2 arg3 harg3 arg4 harg4 arg5 harg5 arg6 harg6 arg7 harg7 arg8 harg8 arg9 harg9 arg10 harg10 arg11 harg11 hc0 x0 x1 x2 x3 x4 x5 x6 x7 x8 = acc1_sq x0 x1 x2 x3 x4 x5 x6 x7 x8 zero1_sq := by
  unfold out1_A_10
  rw [View.read_writes_eq_canon _ _ _ (cover1_A_10 c i arg1 harg1 arg2 harg2 arg3 harg3 arg4 harg4 arg5 harg5 arg6 harg6 arg7 harg7 arg8 harg8 arg9 harg9 arg10 harg10 arg11 harg11 hc0 x0 x1 x2 x3 x4 x5 x6 x7 x8)]
  unfold kernelRun1_A
  dsimp only
  sl_unfold_words
  rw [View.canon_cons_unit_zero (S := S64) hz1_1, View.readCov_unit_zero (S := S64) _ hz1_1]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S64) hz1_1, View.ld_unit_zero (S := S64x64) hz2_1, View.ld_unit_zero (S := S4x64) hz2_1, View.ld_unit_zero (S := S3x64) hz2_1, View.ld_unit_zero (S := S4x200x3) hz3_1, View.ld_unit_zero (S := S4x200x32x4) hz4_1]
  rfl

variable (V : (c : Dev nD) → (b : Ref sig .tc) → Buf (Elt F) ((c : Thread nD τ).loc b))

/-- The running sums after tile n: from zero at tile 0, each later tile added to the one before. -/
def chain1 (c : Dev nD) : (n : ℕ) → n < cfg1.N → Vec F S64 .f32 × Vec F S64 .f32
  | 0, h => (acc1_sum (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩) (iblk1 V c 7 ⟨0, h⟩) (iblk1 V c 8 ⟨0, h⟩) zero1_sum, acc1_sq (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩) (iblk1 V c 7 ⟨0, h⟩) (iblk1 V c 8 ⟨0, h⟩) zero1_sq)
  | n + 1, h => (acc1_sum (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (iblk1 V c 7 ⟨n + 1, h⟩) (iblk1 V c 8 ⟨n + 1, h⟩) (chain1 c n (Nat.lt_of_succ_lt h)).1, acc1_sq (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (iblk1 V c 7 ⟨n + 1, h⟩) (iblk1 V c 8 ⟨n + 1, h⟩) (chain1 c n (Nat.lt_of_succ_lt h)).2)

/-- What the accumulators' staging buffers hold after tile n IS the running sums — by induction on the tile. -/
theorem outsAt1_eq (c : Dev nD) : ∀ (n : ℕ) (h : n < cfg1.N), outsAt1 V c n h = chain1 V c n h
  | 0, h => by
    rw [outsAt1_A V c ⟨0, h⟩ rfl, out1_A_9_eq, out1_A_10_eq]; rfl
  | n + 1, h => by
    have hN : cfg1.N = 60 := N_1
    have hB : ¬(⟨n + 1, h⟩ : Fin cfg1.N).val % 60 = 0 := by dsimp only; omega
    rw [outsAt1_B V c ⟨n + 1, h⟩ hB, out1_B_9_eq, out1_B_10_eq]
    show (acc1_sum _ _ _ _ _ _ _ _ _ (outsAt1 V c n _).1, acc1_sq _ _ _ _ _ _ _ _ _ (outsAt1 V c n _).2) = (acc1_sum _ _ _ _ _ _ _ _ _ (chain1 V c n _).1, acc1_sq _ _ _ _ _ _ _ _ _ (chain1 V c n _).2)
    rw [outsAt1_eq c n]

/-- The last tile. -/
abbrev tLast1 : Fin cfg1.N := ⟨59, by rw [show cfg1.N = 60 from N_1]; decide⟩

/-- Accumulator 9's array after the run: the running sums after the last tile. -/
abbrev result1_9 (c : Dev nD) : Buf (Elt F) ((c : Thread nD τ).loc main_v65_0) := (chain1 V c 59 (by rw [show cfg1.N = 60 from N_1]; decide)).1

/-- The one write-back, after tile 59, writes it: the window's one block, read through zero offsets, is the array. -/
theorem flushed1_9_eq (c : Dev nD) (t : Fin cfg1.N) (hf : (cfg1.win 9).flush t = true) :
    (dat1 V c).flushed 9 t = ((cfg1.win 9).blk t).view.read (Elt F) (result1_9 V c) := by
  have hN : cfg1.N = 60 := N_1
  have h59 : t.val = 59 := by have := (flush1_9 t).mp hf; have := t.isLt; omega
  obtain rfl : t = tLast1 := Fin.ext h59
  show (cfg1.win 9).cut (grid1.coords tLast1) ((dat1 V c).after 9 tLast1) = _
  rw [after1_9, outsAt1_eq]
  have hz' : (fun a => win1_9.index tLast1 a * main_v65_0.ty.shape.size a) = fun _ => 0 := funext fun a => by fin_cases a <;> decide
  exact (Memref.read_access_unit_zero (Elt F) main_v65_0 hz' (fun a => by rw [congrFun hz' a]; simp) (result1_9 V c)).symm

/-- So the array ends holding the running sums after the last tile: that tile's write-back covers it. -/
theorem final1_9 (c : Dev nD) : (dat1 V c).arrAt 9 cfg1.N = result1_9 V c :=
  (dat1 V c).arrAt_eq_of_cover 9 (result1_9 V c) (flushed1_9_eq V c) fun i =>
    ⟨tLast1, (flush1_9 tLast1).mpr rfl, by
      show i ∈ ((View.whole main_v65_0).slice (win1_9.rect tLast1)).set
      rw [View.set_slice_whole, Rect.mem_set_unit]
      intro a
      have h0 : (i 0 : Nat) < 64 := (i 0).isLt
      match a with
      | ⟨0, _⟩ => show win1_9.index tLast1 0 * win1_9.size 0 ≤ (i 0 : Nat) ∧ (i 0 : Nat) < win1_9.index tLast1 0 * win1_9.size 0 + win1_9.xsize (grid1.coords tLast1) 0
                  rw [show win1_9.index tLast1 0 * win1_9.size 0 = 0 from by decide +kernel, show win1_9.xsize (grid1.coords tLast1) 0 = 64 from by decide +kernel]; omega⟩

/-- Accumulator 10's array after the run: the running sums after the last tile. -/
abbrev result1_10 (c : Dev nD) : Buf (Elt F) ((c : Thread nD τ).loc main_v65_1) := (chain1 V c 59 (by rw [show cfg1.N = 60 from N_1]; decide)).2

/-- The one write-back, after tile 59, writes it: the window's one block, read through zero offsets, is the array. -/
theorem flushed1_10_eq (c : Dev nD) (t : Fin cfg1.N) (hf : (cfg1.win 10).flush t = true) :
    (dat1 V c).flushed 10 t = ((cfg1.win 10).blk t).view.read (Elt F) (result1_10 V c) := by
  have hN : cfg1.N = 60 := N_1
  have h59 : t.val = 59 := by have := (flush1_10 t).mp hf; have := t.isLt; omega
  obtain rfl : t = tLast1 := Fin.ext h59
  show (cfg1.win 10).cut (grid1.coords tLast1) ((dat1 V c).after 10 tLast1) = _
  rw [after1_10, outsAt1_eq]
  have hz' : (fun a => win1_10.index tLast1 a * main_v65_1.ty.shape.size a) = fun _ => 0 := funext fun a => by fin_cases a <;> decide
  exact (Memref.read_access_unit_zero (Elt F) main_v65_1 hz' (fun a => by rw [congrFun hz' a]; simp) (result1_10 V c)).symm

/-- So the array ends holding the running sums after the last tile: that tile's write-back covers it. -/
theorem final1_10 (c : Dev nD) : (dat1 V c).arrAt 10 cfg1.N = result1_10 V c :=
  (dat1 V c).arrAt_eq_of_cover 10 (result1_10 V c) (flushed1_10_eq V c) fun i =>
    ⟨tLast1, (flush1_10 tLast1).mpr rfl, by
      show i ∈ ((View.whole main_v65_1).slice (win1_10.rect tLast1)).set
      rw [View.set_slice_whole, Rect.mem_set_unit]
      intro a
      have h0 : (i 0 : Nat) < 64 := (i 0).isLt
      match a with
      | ⟨0, _⟩ => show win1_10.index tLast1 0 * win1_10.size 0 ≤ (i 0 : Nat) ∧ (i 0 : Nat) < win1_10.index tLast1 0 * win1_10.size 0 + win1_10.xsize (grid1.coords tLast1) 0
                  rw [show win1_10.index tLast1 0 * win1_10.size 0 = 0 from by decide +kernel, show win1_10.xsize (grid1.coords tLast1) 0 = 64 from by decide +kernel]; omega⟩

end Cert.KernelIdeal.Hand

end
-- ==== Proof.KRuns2.lean ====
/-
  The staging memrefs the pipeline passes to kernel 2's body at a tile, window by window, and one staging buffer of
  each output window through which its contents are stated.
-/
import proofs.«172073_j52536039964809_2_alg».proof.Proof.KRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev ms2_0 (t : Fin cfg2.N) : Memref sig .tc .vmem S4x200x32x4 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4x200x3 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S3x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S64 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S64x64 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S64 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S64 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S64 .f32 := win2_11.stage (cfg2.slots t 11)
abbrev hs2_11 (t : Fin cfg2.N) : (ms2_11 t).IsWhole := hstage2_11 ((cfg2.slots t 11).cast nbuf2_11)
abbrev ms2_12 (t : Fin cfg2.N) : Memref sig .tc .vmem S64 .f32 := win2_12.stage (cfg2.slots t 12)
abbrev hs2_12 (t : Fin cfg2.N) : (ms2_12 t).IsWhole := hstage2_12 ((cfg2.slots t 12).cast nbuf2_12)
abbrev ms2_13 (t : Fin cfg2.N) : Memref sig .tc .vmem S4x200x64 .f32 := win2_13.stage (cfg2.slots t 13)
abbrev hs2_13 (t : Fin cfg2.N) : (ms2_13 t).IsWhole := hstage2_13 ((cfg2.slots t 13).cast nbuf2_13)
abbrev VO2_13 : View sig .tc .vmem S4x200x64 .f32 := (Memref.whole cc2_stg13_0 : Memref sig .tc .vmem S4x200x64 .f32).view

end Cert.KernelIdeal.Hand

end
-- ==== Proof.KRun2.lean ====
/-
  The last kernel at any tile: both layers applied with the statistics handed in, clamped at zero, and the
  maximum over a pillar's 32 points stored as the tile's output block. Run symbolically on any whole staging
  memrefs; the written pieces are found by the run.
-/
import proofs.«172073_j52536039964809_2_alg».proof.Proof.KRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
noncomputable def kernelRun2 (c : Dev nD) (i : grid2.Coords)
    (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (arg12 : Memref sig .tc .vmem S64 .f32) (harg12 : arg12.IsWhole) (arg13 : Memref sig .tc .vmem S64 .f32) (harg13 : arg13.IsWhole) (arg14 : Memref sig .tc .vmem S4x200x64 .f32) (harg14 : arg14.IsWhole)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) (x9 : Vec F S64 .f32) (x10 : Vec F S64 .f32) (x11 : Vec F S64 .f32) (x12 : Vec F S64 .f32) :
    { L13 : List (View.Piece (Elt F) S4x200x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
                ∗ (∃ f, arg14.view.loc (c : Thread nD τ) ↦[arg14.view.set]{fullShare} arg14.view.writes (Elt F) f L13)) -∗ K ⟨⟩))
          ⊢ wp frame (wpE (defs₀ (F := F)) Variants.none c none) E (cc2__final_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    iexists _; iexact H13

end Cert.KernelIdeal.Hand

end
-- ==== Proof.KFrame2.lean ====
/-
  The last kernel over its 60 tiles: each tile writes one output block (the clamped, normalised layer-2 activations
  maximised over a pillar's 32 points), written back after every tile. The proof data the pipeline library asks for
  and the body's obligation at every tile from the symbolic run.
-/
import proofs.«172073_j52536039964809_2_alg».proof.Proof.KRuns2
import proofs.«172073_j52536039964809_2_alg».proof.Proof.KRun2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at tile t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every tile, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every tile, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every tile, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every tile, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every tile, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every tile, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every tile, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every tile, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every tile, fetched there or not. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current staging buffer holds its block at every tile, fetched there or not. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- Input window 10's current staging buffer holds its block at every tile, fetched there or not. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-- Input window 11's current staging buffer holds its block at every tile, fetched there or not. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-- Input window 12's current staging buffer holds its block at every tile, fetched there or not. -/
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)

/-- The pieces the run finds for output window 13 tile its block, so they cover it. -/
theorem cover2_13 (c : Dev nD) (i : grid2.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (arg12 : Memref sig .tc .vmem S64 .f32) (harg12 : arg12.IsWhole) (arg13 : Memref sig .tc .vmem S64 .f32) (harg13 : arg13.IsWhole) (arg14 : Memref sig .tc .vmem S4x200x64 .f32) (harg14 : arg14.IsWhole)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) (x9 : Vec F S64 .f32) (x10 : Vec F S64 .f32) (x11 : Vec F S64 .f32) (x12 : Vec F S64 .f32) (y : S4x200x64.Idx) :
    ∃ pc ∈ (kernelRun2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12).1, y ∈ pc.1.set :=
  View.cover_of_tiledL (kernelRun2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12).1 S4x200x64.size (by sl_kernel_rfl) y

/-- What the run leaves in output window 13's staging buffer: its pieces read back. -/
def out2_13 (c : Dev nD) (i : grid2.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (arg12 : Memref sig .tc .vmem S64 .f32) (harg12 : arg12.IsWhole) (arg13 : Memref sig .tc .vmem S64 .f32) (harg13 : arg13.IsWhole) (arg14 : Memref sig .tc .vmem S4x200x64 .f32) (harg14 : arg14.IsWhole)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) (x9 : Vec F S64 .f32) (x10 : Vec F S64 .f32) (x11 : Vec F S64 .f32) (x12 : Vec F S64 .f32) : Vec F S4x200x64 .f32 :=
  VO2_13.read (Elt F) (VO2_13.writes (Elt F) VO2_13.junk (kernelRun2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12).1)

/-- What the output window's staging buffer holds after the body at tile t. -/
def outsAt2 (c : Dev nD) (t : Fin cfg2.N) : Vec F S4x200x64 .f32 :=
  out2_13 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t)

/-- The pipeline's proof data on core c: the arrays as the region finds them; after the body at tile t each input's
    buffer at its block and each output's at what the run leaves; the class invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => (outsAt2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = (outsAt2 V c t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d

/-- What the body is called with at tile t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d))
    ∗ (∃ d, owns (c : Thread nD τ) (ms2_12 t) fullShare ((dat2 V c).before 12 t d))
    ∗ (∃ d, owns (c : Thread nD τ) (ms2_13 t) fullShare ((dat2 V c).before 13 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t)
    ∗ owns (c : Thread nD τ) (ms2_9 t) fullShare ((dat2 V c).after 9 t)
    ∗ owns (c : Thread nD τ) (ms2_10 t) fullShare ((dat2 V c).after 10 t)
    ∗ owns (c : Thread nD τ) (ms2_11 t) fullShare ((dat2 V c).after 11 t)
    ∗ owns (c : Thread nD τ) (ms2_12 t) fullShare ((dat2 V c).after 12 t)
    ∗ owns (c : Thread nD τ) (ms2_13 t) fullShare ((dat2 V c).after 13 t))

set_option maxHeartbeats 1600000 in
/-- The body at any tile: the inputs' memrefs hold their blocks; so the run applies; the invariant passes through unread; the
    core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13]
  unfold outsAt2
  unfold out2_13
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun2 c (grid2.coords t) _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, ⟨%e13, H13⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  unfold owns; iexists _; isplitr
  swap; · iexact H13
  ipureintro; exact View.read_writes_of_cover _ _ _ _ _ (cover2_13 c _ _ _ _ _ _ _ _ _ _ _ _ _ _ _ _ _ _ _ _ _ _ _ _ _ _ _ _ _ _ _ _ _ _ _ _ _ _ _ _ _ _)

/-- The library's body obligation, at every tile. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KVal2.lean ====
/-
  The last kernel's result array as a value. At every tile the body stores one block, its payload over the loaded
  blocks; tile t's block is written back to pillars 200·t … 200·t + 199 of the result. So entry (b, p, o) of the result
  is entry (b, p mod 200, o) of the block that tile p / 200 computes: the blocks tile the array.
-/
import proofs.«172073_j52536039964809_2_alg».proof.Proof.KFrame2
import proofs.«172073_j52536039964809_2_alg».proof.Proof.KTile
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Tile

theorem hz1_2 : (![0] : Fin 1 → Nat) = fun _ => 0 := funext fun a => by fin_cases a <;> rfl
theorem hz2_2 : (![0, 0] : Fin 2 → Nat) = fun _ => 0 := funext fun a => by fin_cases a <;> rfl
theorem hz3_2 : (![0, 0, 0] : Fin 3 → Nat) = fun _ => 0 := funext fun a => by fin_cases a <;> rfl
theorem hz4_2 : (![0, 0, 0, 0] : Fin 4 → Nat) = fun _ => 0 := funext fun a => by fin_cases a <;> rfl

set_option maxHeartbeats 4000000 in
/-- What the body leaves in the output window's staging buffer: its one covering store's payload over the loads. -/
theorem out2_13_eq (c : Dev nD) (i : grid2.Coords) (arg1 : Memref sig .tc .vmem S4x200x32x4 .f32) (harg1 : arg1.IsWhole) (arg2 : Memref sig .tc .vmem S4x200x3 .f32) (harg2 : arg2.IsWhole) (arg3 : Memref sig .tc .vmem S4x64 .f32) (harg3 : arg3.IsWhole) (arg4 : Memref sig .tc .vmem S3x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64 .f32) (harg11 : arg11.IsWhole) (arg12 : Memref sig .tc .vmem S64 .f32) (harg12 : arg12.IsWhole) (arg13 : Memref sig .tc .vmem S64 .f32) (harg13 : arg13.IsWhole) (arg14 : Memref sig .tc .vmem S4x200x64 .f32) (harg14 : arg14.IsWhole)
    (x0 : Vec F S4x200x32x4 .f32) (x1 : Vec F S4x200x3 .f32) (x2 : Vec F S4x64 .f32) (x3 : Vec F S3x64 .f32) (x4 : Vec F S64 .f32) (x5 : Vec F S64 .f32) (x6 : Vec F S64 .f32) (x7 : Vec F S64 .f32) (x8 : Vec F S64x64 .f32) (x9 : Vec F S64 .f32) (x10 : Vec F S64 .f32) (x11 : Vec F S64 .f32) (x12 : Vec F S64 .f32) : out2_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 = out2 x0 x1 x2 x3 x4 x5 x6 x7 x8 x9 x10 x11 x12 := by
  unfold out2_13
  rw [View.read_writes_eq_canon _ _ _ (cover2_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12)]
  unfold kernelRun2
  dsimp only
  sl_unfold_words
  rw [View.canon_unit_zero hz3_2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S64) hz1_2, View.ld_unit_zero (S := S64x64) hz2_2, View.ld_unit_zero (S := S4x64) hz2_2, View.ld_unit_zero (S := S3x64) hz2_2, View.ld_unit_zero (S := S4x200x3) hz3_2, View.ld_unit_zero (S := S4x200x32x4) hz4_2]
  rfl

variable (V : (c : Dev nD) → (b : Ref sig .tc) → Buf (Elt F) ((c : Thread nD τ).loc b))

/-- The block tile t computes, from the blocks it loads. -/
def tileOut2 (c : Dev nD) (t : Fin cfg2.N) : Vec F S4x200x64 .f32 :=
  out2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t)

/-- The tile that owns pillar p, and an entry's place inside that tile's block. -/
def tileOf (i : S4x12000x64.Idx) : Fin cfg2.N := ⟨(i 1).val / 200, by
  have h : (i 1 : Nat) < 12000 := (i 1).isLt
  rw [show cfg2.N = 60 from N_2]; omega⟩
def localOf (i : S4x12000x64.Idx) : S4x200x64.Idx := fun a => match a with
  | ⟨0, _⟩ => ⟨(i 0).val, (i 0).isLt⟩
  | ⟨1, _⟩ => ⟨(i 1).val % 200, Nat.mod_lt _ (by decide)⟩
  | ⟨2, _⟩ => ⟨(i 2).val, (i 2).isLt⟩

/-- The result array, entry by entry: the owning tile's block at the local place. -/
def G2 (c : Dev nD) : S4x12000x64.Idx → Elt F .f32 := fun i => tileOut2 V c (tileOf i) (localOf i)

theorem G2_at (c : Dev nD) (t : Fin cfg2.N) (j : S4x200x64.Idx) (i : S4x12000x64.Idx) (h0 : (i 0).val = (j 0).val)
    (h1 : (i 1).val = t.val * 200 + (j 1).val) (h2 : (i 2).val = (j 2).val) : G2 V c i = tileOut2 V c t j := by
  have hj1 : (j 1 : Nat) < 200 := (j 1).isLt
  have ht : tileOf i = t := Fin.ext (by show (i 1).val / 200 = t.val; omega)
  have hj : localOf i = j := funext fun a => Fin.ext (by
    match a with
    | ⟨0, _⟩ => exact h0
    | ⟨1, _⟩ => show (i 1).val % 200 = (j 1).val; omega
    | ⟨2, _⟩ => exact h2)
  unfold G2; rw [ht, hj]

/-- The output window's index map, decided over the 60 tiles: tile t's block sits at pillar block t. -/
theorem idx2_13 : ∀ t : Fin cfg2.N, win2_13.index t (0 : Fin 3) = 0 ∧ win2_13.index t (1 : Fin 3) = t.val ∧ win2_13.index t (2 : Fin 3) = 0 :=
  (by decide +kernel : ∀ t : Fin grid2.N, _)

/-- An index of the result lies in tile t's block iff each coordinate lies in the block's range on its axis. -/
theorem mem_blk2_13 (t : Fin cfg2.N) (i : S4x12000x64.Idx) :
    i ∈ ((cfg2.win 13).blk t).view.set ↔ ∀ a : Fin 3, win2_13.index t a * S4x200x64.size a ≤ (i a).val ∧ (i a).val < win2_13.index t a * S4x200x64.size a + S4x200x64.size a := by
  show i ∈ ((View.whole main_v72).slice (win2_13.rect t)).set ↔ _
  rw [View.set_slice_whole, Rect.mem_set_unit]
  exact Iff.rfl

set_option maxRecDepth 200000 in
/-- WHAT TILE t WRITES BACK is block t of the result. -/
theorem flushed2_13_eq (c : Dev nD) (t : Fin cfg2.N) :
    (dat2 V c).flushed 13 t = ((cfg2.win 13).blk t).view.read (Elt F) (G2 V c) := by
  show (cfg2.win 13).cut (grid2.coords t) ((dat2 V c).after 13 t) = _
  rw [after2_13]
  unfold outsAt2
  rw [out2_13_eq]
  obtain ⟨e0, e1, e2⟩ := idx2_13 t
  funext j
  have key : G2 V c (((cfg2.win 13).blk t).view.emb j) = tileOut2 V c t ((cfg2.win 13).xinj (grid2.coords t) j) :=
    G2_at V c t ((cfg2.win 13).xinj (grid2.coords t) j) (((cfg2.win 13).blk t).view.emb j)
      (by show win2_13.index t (0 : Fin 3) * 4 + 1 * (j 0).val = (j 0).val; rw [e0]; omega)
      (by show win2_13.index t (1 : Fin 3) * 200 + 1 * (j 1).val = t.val * 200 + (j 1).val; rw [e1]; omega)
      (by show win2_13.index t (2 : Fin 3) * 64 + 1 * (j 2).val = (j 2).val; rw [e2]; omega)
  have hR : ∀ G : S4x12000x64.Idx → Elt F .f32,
      ((cfg2.win 13).blk t).view.read (Elt F) G j = G (((cfg2.win 13).blk t).view.emb j) := fun G => by rw [View.read_apply]; rfl
  have hL : (cfg2.win 13).cut (grid2.coords t) (tileOut2 V c t) j = tileOut2 V c t ((cfg2.win 13).xinj (grid2.coords t) j) := rfl
  show (cfg2.win 13).cut (grid2.coords t) (tileOut2 V c t) j = _
  rw [hR, hL]
  exact key.symm

/-- THE RESULT ARRAY after the run: every entry lies in its owning tile's block, and every tile writes back. -/
theorem final2_13 (c : Dev nD) : (dat2 V c).arrAt 13 cfg2.N = G2 V c :=
  (dat2 V c).arrAt_eq_of_cover 13 (G2 V c) (fun t _ => flushed2_13_eq V c t) fun i =>
    ⟨tileOf i, flush2_13 (tileOf i), by
      rw [mem_blk2_13]
      obtain ⟨e0, e1, e2⟩ := idx2_13 (tileOf i)
      have h0 : (i 0 : Nat) < 4 := (i 0).isLt
      have h1 : (i 1 : Nat) < 12000 := (i 1).isLt
      have h2 : (i 2 : Nat) < 64 := (i 2).isLt
      have ht : (tileOf i).val = (i 1).val / 200 := rfl
      intro a
      match a with
      | ⟨0, _⟩ => show win2_13.index (tileOf i) (0 : Fin 3) * 4 ≤ (i 0).val ∧ (i 0).val < win2_13.index (tileOf i) (0 : Fin 3) * 4 + 4
                  rw [e0]; omega
      | ⟨1, _⟩ => show win2_13.index (tileOf i) (1 : Fin 3) * 200 ≤ (i 1).val ∧ (i 1).val < win2_13.index (tileOf i) (1 : Fin 3) * 200 + 200
                  rw [e1, ht]; omega
      | ⟨2, _⟩ => show win2_13.index (tileOf i) (2 : Fin 3) * 64 ≤ (i 2).val ∧ (i 2).val < win2_13.index (tileOf i) (2 : Fin 3) * 64 + 64
                  rw [e2]; omega⟩

end Cert.KernelIdeal.Hand

end
-- ==== Proof.KSpec.lean ====
/-
  What the host computes around the three pallas calls, as pure functions of the argument arrays.
  Before the first call: each pillar's centre (column index + 1/2 times the cell size, plus the range's origin) on the
  two grid axes, packed with the point count (as a float) into one [4,12000,3] array; the layer-1 weights folded into
  four row coefficients (rows 0+4, 1+5, 2, 3) and three bias coefficients (rows 6-4, 7-5, 8). After a statistics call:
  the mean is the accumulated sum over N = 1536000 and the variance the accumulated sum of squares over N less the
  squared mean.
-/
import proofs.«172073_j52536039964809_2_alg».proof.Proof.KTile

noncomputable section

namespace Cert.KernelIdeal.Spec

open Idealize.ShloMosaic Idealize.SL.Sem Cert.KernelIdeal Cert.KernelIdeal.Gen Cert.KernelIdeal.Tile

variable {F : FTy → Type} [FloatOps F]

def halfB : FVec F S4x12000 .f32 := broadcastInDim S4x12000 ![] bcast_S_S4x12000 (constant S_ .f32 0x3F000000#32)
def sizeB : FVec F S4x12000 .f32 := broadcastInDim S4x12000 ![] bcast_S_S4x12000 (constant S_ .f32 0x3E23D70A#32)
def zeroB : FVec F S4x12000 .f32 := broadcastInDim S4x12000 ![] bcast_S_S4x12000 (constant S_ .f32 0x00000000#32)
def offYB : FVec F S4x12000 .f32 := broadcastInDim S4x12000 ![] bcast_S_S4x12000 (constant S_ .f32 0xC21EB852#32)
/-- A pillar's column index on the first (resp. second) grid axis, as a float. -/
def ixF (coords : IVec S4x12000x4 32) : FVec F S4x12000 .f32 :=
  sitofp .f32 (shapeCast S4x12000 (extractStridedSlice S4x12000x1 ![0, 0, 3] coords slices_S4x12000x4_S4x12000x1_0_0_3) shapeCasts_S4x12000x1_S4x12000)
def iyF (coords : IVec S4x12000x4 32) : FVec F S4x12000 .f32 :=
  sitofp .f32 (shapeCast S4x12000 (extractStridedSlice S4x12000x1 ![0, 0, 2] coords slices_S4x12000x4_S4x12000x1_0_0_2) shapeCasts_S4x12000x1_S4x12000)
/-- The pillar centres. -/
def cxOf (coords : IVec S4x12000x4 32) : FVec F S4x12000 .f32 := addf (mulf (addf (ixF coords) halfB) sizeB) zeroB
def cyOf (coords : IVec S4x12000x4 32) : FVec F S4x12000 .f32 := addf (mulf (addf (iyF coords) halfB) sizeB) offYB
/-- The packed per-pillar array: centre x, centre y, point count. -/
def auxOf (coords : IVec S4x12000x4 32) (npts : IVec S4x12000 32) : FVec F S4x12000x3 .f32 :=
  concatenate S4x12000x3 2 [⟨S4x12000x1, broadcastInDim S4x12000x1 ![0, 1] bcast_S4x12000_S4x12000x1_0_1 (cxOf (F := F) coords)⟩,
    ⟨S4x12000x1, broadcastInDim S4x12000x1 ![0, 1] bcast_S4x12000_S4x12000x1_0_1 (cyOf (F := F) coords)⟩,
    ⟨S4x12000x1, broadcastInDim S4x12000x1 ![0, 1] bcast_S4x12000_S4x12000x1_0_1 (sitofp (F := F) .f32 npts)⟩] concatenates_S4x12000x1_S4x12000x1_S4x12000x1_S4x12000x3_d2

def row0 (w1 : FVec F S9x64 .f32) : FVec F S64 .f32 := shapeCast S64 (extractStridedSlice S1x64 ![0, 0] w1 slices_S9x64_S1x64_0_0) shapeCasts_S1x64_S64
def row1 (w1 : FVec F S9x64 .f32) : FVec F S64 .f32 := shapeCast S64 (extractStridedSlice S1x64 ![1, 0] w1 slices_S9x64_S1x64_1_0) shapeCasts_S1x64_S64
def row2 (w1 : FVec F S9x64 .f32) : FVec F S64 .f32 := shapeCast S64 (extractStridedSlice S1x64 ![2, 0] w1 slices_S9x64_S1x64_2_0) shapeCasts_S1x64_S64
def row3 (w1 : FVec F S9x64 .f32) : FVec F S64 .f32 := shapeCast S64 (extractStridedSlice S1x64 ![3, 0] w1 slices_S9x64_S1x64_3_0) shapeCasts_S1x64_S64
def row4 (w1 : FVec F S9x64 .f32) : FVec F S64 .f32 := shapeCast S64 (extractStridedSlice S1x64 ![4, 0] w1 slices_S9x64_S1x64_4_0) shapeCasts_S1x64_S64
def row5 (w1 : FVec F S9x64 .f32) : FVec F S64 .f32 := shapeCast S64 (extractStridedSlice S1x64 ![5, 0] w1 slices_S9x64_S1x64_5_0) shapeCasts_S1x64_S64
def row6 (w1 : FVec F S9x64 .f32) : FVec F S64 .f32 := shapeCast S64 (extractStridedSlice S1x64 ![6, 0] w1 slices_S9x64_S1x64_6_0) shapeCasts_S1x64_S64
def row7 (w1 : FVec F S9x64 .f32) : FVec F S64 .f32 := shapeCast S64 (extractStridedSlice S1x64 ![7, 0] w1 slices_S9x64_S1x64_7_0) shapeCasts_S1x64_S64
def row8 (w1 : FVec F S9x64 .f32) : FVec F S64 .f32 := shapeCast S64 (extractStridedSlice S1x64 ![8, 0] w1 slices_S9x64_S1x64_8_0) shapeCasts_S1x64_S64
def asRow (v : FVec F S64 .f32) : FVec F S1x64 .f32 := broadcastInDim S1x64 ![1] bcast_S64_S1x64_1 v
/-- The four row coefficients and the three bias coefficients. -/
def amatOf (w1 : FVec F S9x64 .f32) : FVec F S4x64 .f32 :=
  concatenate S4x64 0 [⟨S1x64, asRow (addf (row0 w1) (row4 w1))⟩, ⟨S1x64, asRow (addf (row1 w1) (row5 w1))⟩, ⟨S1x64, asRow (row2 w1)⟩, ⟨S1x64, asRow (row3 w1)⟩] concatenates_S1x64_S1x64_S1x64_S1x64_S4x64_d0
def bmatOf (w1 : FVec F S9x64 .f32) : FVec F S3x64 .f32 :=
  concatenate S3x64 0 [⟨S1x64, asRow (subf (row6 w1) (row4 w1))⟩, ⟨S1x64, asRow (subf (row7 w1) (row5 w1))⟩, ⟨S1x64, asRow (row8 w1)⟩] concatenates_S1x64_S1x64_S1x64_S3x64_d0

/-- The count N = 1536000 on every channel. -/
def nB : FVec F S64 .f32 := broadcastInDim S64 ![] bcast_S_S64 (constant S_ .f32 0x49BB8000#32)
def meanOf (s : FVec F S64 .f32) : FVec F S64 .f32 := Host.divf s nB
def varOf (s q : FVec F S64 .f32) : FVec F S64 .f32 := subf (Host.divf q nB) (mulf (meanOf s) (meanOf s))

/-! ## The tiles: tile t holds pillars 200·t … 200·t + 199 -/

/-- The place in the whole voxel array of entry j of tile t's block. -/
def voxIdx (t : Fin 60) (j : S4x200x32x4.Idx) : S4x12000x32x4.Idx := fun a => match a with
  | ⟨0, _⟩ => ⟨(j 0).val, (j 0).isLt⟩
  | ⟨1, _⟩ => ⟨t.val * 200 + (j 1).val, by have h1 : (j 1 : Nat) < 200 := (j 1).isLt; have ht := t.isLt; show t.val * 200 + (j 1).val < 12000; omega⟩
  | ⟨2, _⟩ => ⟨(j 2).val, (j 2).isLt⟩
  | ⟨3, _⟩ => ⟨(j 3).val, (j 3).isLt⟩
/-- The place in the packed per-pillar array of entry j of tile t's block. -/
def auxIdx (t : Fin 60) (j : S4x200x3.Idx) : S4x12000x3.Idx := fun a => match a with
  | ⟨0, _⟩ => ⟨(j 0).val, (j 0).isLt⟩
  | ⟨1, _⟩ => ⟨t.val * 200 + (j 1).val, by have h1 : (j 1 : Nat) < 200 := (j 1).isLt; have ht := t.isLt; show t.val * 200 + (j 1).val < 12000; omega⟩
  | ⟨2, _⟩ => ⟨(j 2).val, (j 2).isLt⟩
def blockVox (a0 : FVec F S4x12000x32x4 .f32) (t : Fin 60) : Vec F S4x200x32x4 .f32 := fun j => a0 (voxIdx t j)
def blockAux (aux : FVec F S4x12000x3 .f32) (t : Fin 60) : Vec F S4x200x3 .f32 := fun j => aux (auxIdx t j)

/-! ## The first statistics call: running sums of the layer-1 pre-activation over the tiles -/

def sums0 (a0 : FVec F S4x12000x32x4 .f32) (aux : FVec F S4x12000x3 .f32) (am : FVec F S4x64 .f32) (bm : FVec F S3x64 .f32) :
    (n : ℕ) → n < 60 → Vec F S64 .f32 × Vec F S64 .f32
  | 0, h => (acc0_sum (blockVox a0 ⟨0, h⟩) (blockAux aux ⟨0, h⟩) am bm zero0_sum, acc0_sq (blockVox a0 ⟨0, h⟩) (blockAux aux ⟨0, h⟩) am bm zero0_sq)
  | n + 1, h => (acc0_sum (blockVox a0 ⟨n + 1, h⟩) (blockAux aux ⟨n + 1, h⟩) am bm (sums0 a0 aux am bm n (Nat.lt_of_succ_lt h)).1,
                 acc0_sq (blockVox a0 ⟨n + 1, h⟩) (blockAux aux ⟨n + 1, h⟩) am bm (sums0 a0 aux am bm n (Nat.lt_of_succ_lt h)).2)

/-! ## The second statistics call: running sums of the layer-2 pre-activation -/

def sums1 (a0 : FVec F S4x12000x32x4 .f32) (aux : FVec F S4x12000x3 .f32) (am : FVec F S4x64 .f32) (bm : FVec F S3x64 .f32)
    (g1 b1 mean1 var1 : FVec F S64 .f32) (w2 : FVec F S64x64 .f32) :
    (n : ℕ) → n < 60 → Vec F S64 .f32 × Vec F S64 .f32
  | 0, h => (acc1_sum (blockVox a0 ⟨0, h⟩) (blockAux aux ⟨0, h⟩) am bm g1 b1 mean1 var1 w2 zero1_sum, acc1_sq (blockVox a0 ⟨0, h⟩) (blockAux aux ⟨0, h⟩) am bm g1 b1 mean1 var1 w2 zero1_sq)
  | n + 1, h => (acc1_sum (blockVox a0 ⟨n + 1, h⟩) (blockAux aux ⟨n + 1, h⟩) am bm g1 b1 mean1 var1 w2 (sums1 a0 aux am bm g1 b1 mean1 var1 w2 n (Nat.lt_of_succ_lt h)).1,
                 acc1_sq (blockVox a0 ⟨n + 1, h⟩) (blockAux aux ⟨n + 1, h⟩) am bm g1 b1 mean1 var1 w2 (sums1 a0 aux am bm g1 b1 mean1 var1 w2 n (Nat.lt_of_succ_lt h)).2)

/-! ## The whole kernel program as one function of its nine arguments -/

section Whole
variable (a0 : FVec F S4x12000x32x4 .f32) (coords : IVec S4x12000x4 32) (npts : IVec S4x12000 32) (w1 : FVec F S9x64 .f32)
  (g1 b1 : FVec F S64 .f32) (w2 : FVec F S64x64 .f32) (g2 b2 : FVec F S64 .f32)

def kMean1 : FVec F S64 .f32 := meanOf (sums0 a0 (auxOf coords npts) (amatOf w1) (bmatOf w1) 59 (by decide)).1
def kVar1 : FVec F S64 .f32 := varOf (sums0 a0 (auxOf coords npts) (amatOf w1) (bmatOf w1) 59 (by decide)).1 (sums0 a0 (auxOf coords npts) (amatOf w1) (bmatOf w1) 59 (by decide)).2
def kSums1 := sums1 a0 (auxOf (F := F) coords npts) (amatOf w1) (bmatOf w1) g1 b1 (kMean1 a0 coords npts w1) (kVar1 a0 coords npts w1) w2 59 (by decide)
def kMean2 : FVec F S64 .f32 := meanOf (kSums1 a0 coords npts w1 g1 b1 w2).1
def kVar2 : FVec F S64 .f32 := varOf (kSums1 a0 coords npts w1 g1 b1 w2).1 (kSums1 a0 coords npts w1 g1 b1 w2).2

/-- The block tile t of the last call computes. -/
def kTile (t : Fin 60) : Vec F S4x200x64 .f32 :=
  out2 (blockVox a0 t) (blockAux (auxOf coords npts) t) (amatOf w1) (bmatOf w1) g1 b1 (kMean1 a0 coords npts w1) (kVar1 a0 coords npts w1) w2 g2 b2
    (kMean2 a0 coords npts w1 g1 b1 w2) (kVar2 a0 coords npts w1 g1 b1 w2)

/-- The tile that owns pillar p and an entry's place inside that tile's block. -/
def tile60 (i : S4x12000x64.Idx) : Fin 60 := ⟨(i 1).val / 200, by have h : (i 1 : Nat) < 12000 := (i 1).isLt; omega⟩
def local60 (i : S4x12000x64.Idx) : S4x200x64.Idx := fun a => match a with
  | ⟨0, _⟩ => ⟨(i 0).val, (i 0).isLt⟩
  | ⟨1, _⟩ => ⟨(i 1).val % 200, Nat.mod_lt _ (by decide)⟩
  | ⟨2, _⟩ => ⟨(i 2).val, (i 2).isLt⟩

/-- THE KERNEL'S RESULT, entry by entry. -/
def kerOut : FVec F S4x12000x64 .f32 := fun i => kTile a0 coords npts w1 g1 b1 w2 g2 b2 (tile60 i) (local60 i)
end Whole

end Cert.KernelIdeal.Spec

end
-- ==== Proof.KBlocks.lean ====
/-
  The blocks the three kernels load, and the two running-sum chains, in the kernel specification's terms. Tile t of a
  pallas call loads pillars 200·t … 200·t + 199 of the voxel array and of the packed per-pillar array, and the whole of
  every small array (its one block). With that the accumulators' running sums are the specification's chains.
-/
import proofs.«172073_j52536039964809_2_alg».proof.Proof.KVal0
import proofs.«172073_j52536039964809_2_alg».proof.Proof.KVal1
import proofs.«172073_j52536039964809_2_alg».proof.Proof.KVal2
import proofs.«172073_j52536039964809_2_alg».proof.Proof.KSpec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Tile Cert.KernelIdeal.Spec

variable (V : (c : Dev nD) → (b : Ref sig .tc) → Buf (Elt F) ((c : Thread nD τ).loc b))

/-! ## Pallas call 0: each input window's block at a tile -/

theorem lt60_0 {n : ℕ} (h : n < cfg0.N) : n < 60 := lt_of_lt_of_eq h N_0
/-- A tile of call 0 as a number below 60. -/
def t60_0 (t : Fin cfg0.N) : Fin 60 := ⟨t.val, lt60_0 t.isLt⟩

/-- The two moving windows sit at pillar block t; decided over the 60 tiles. -/
theorem idx0_0 : ∀ t : Fin cfg0.N, win0_0.index t (0 : Fin 4) = 0 ∧ win0_0.index t (1 : Fin 4) = t.val ∧ win0_0.index t (2 : Fin 4) = 0 ∧ win0_0.index t (3 : Fin 4) = 0 :=
  (by decide +kernel : ∀ t : Fin grid0.N, _)
theorem idx0_1 : ∀ t : Fin cfg0.N, win0_1.index t (0 : Fin 3) = 0 ∧ win0_1.index t (1 : Fin 3) = t.val ∧ win0_1.index t (2 : Fin 3) = 0 :=
  (by decide +kernel : ∀ t : Fin grid0.N, _)

set_option maxRecDepth 200000 in
theorem iblk0_0 (c : Dev nD) (t : Fin cfg0.N) : (iblk0 V c 0 t : Vec F S4x200x32x4 .f32) = blockVox (V c main_arg0) (t60_0 t) := by
  funext j
  have hR : ∀ G : S4x12000x32x4.Idx → Elt F .f32,
      ((cfg0.win 0).blk t).view.read (Elt F) G j = G (((cfg0.win 0).blk t).view.emb j) := fun G => by rw [View.read_apply]; rfl
  obtain ⟨e0, e1, e2, e3⟩ := idx0_0 t
  show ((cfg0.win 0).blk t).view.read (Elt F) (V c main_arg0) j = V c main_arg0 (voxIdx (t60_0 t) j)
  rw [hR]
  refine congrArg (V c main_arg0) (funext fun a => Fin.ext ?_)
  match a with
  | ⟨0, _⟩ => show win0_0.index t (0 : Fin 4) * 4 + 1 * (j 0).val = (j 0).val; rw [e0]; omega
  | ⟨1, _⟩ => show win0_0.index t (1 : Fin 4) * 200 + 1 * (j 1).val = t.val * 200 + (j 1).val; rw [e1]; omega
  | ⟨2, _⟩ => show win0_0.index t (2 : Fin 4) * 32 + 1 * (j 2).val = (j 2).val; rw [e2]; omega
  | ⟨3, _⟩ => show win0_0.index t (3 : Fin 4) * 4 + 1 * (j 3).val = (j 3).val; rw [e3]; omega

set_option maxRecDepth 200000 in
theorem iblk0_1 (c : Dev nD) (t : Fin cfg0.N) : (iblk0 V c 1 t : Vec F S4x200x3 .f32) = blockAux (V c main_v22) (t60_0 t) := by
  funext j
  have hR : ∀ G : S4x12000x3.Idx → Elt F .f32,
      ((cfg0.win 1).blk t).view.read (Elt F) G j = G (((cfg0.win 1).blk t).view.emb j) := fun G => by rw [View.read_apply]; rfl
  obtain ⟨e0, e1, e2⟩ := idx0_1 t
  show ((cfg0.win 1).blk t).view.read (Elt F) (V c main_v22) j = V c main_v22 (auxIdx (t60_0 t) j)
  rw [hR]
  refine congrArg (V c main_v22) (funext fun a => Fin.ext ?_)
  match a with
  | ⟨0, _⟩ => show win0_1.index t (0 : Fin 3) * 4 + 1 * (j 0).val = (j 0).val; rw [e0]; omega
  | ⟨1, _⟩ => show win0_1.index t (1 : Fin 3) * 200 + 1 * (j 1).val = t.val * 200 + (j 1).val; rw [e1]; omega
  | ⟨2, _⟩ => show win0_1.index t (2 : Fin 3) * 3 + 1 * (j 2).val = (j 2).val; rw [e2]; omega

theorem idx0_2 : ∀ t : Fin cfg0.N, win0_2.index t (0 : Fin 2) = 0 ∧ win0_2.index t (1 : Fin 2) = 0 :=
  (by decide +kernel : ∀ t : Fin grid0.N, _)
/-- Window 2's one block is its whole array. -/
theorem iblk0_2 (c : Dev nD) (t : Fin cfg0.N) : (iblk0 V c 2 t : Vec F S4x64 .f32) = V c main_v41 := by
  funext j
  have hR : ∀ G : S4x64.Idx → Elt F .f32,
      ((cfg0.win 2).blk t).view.read (Elt F) G j = G (((cfg0.win 2).blk t).view.emb j) := fun G => by rw [View.read_apply]; rfl
  obtain ⟨e0, e1⟩ := idx0_2 t
  show ((cfg0.win 2).blk t).view.read (Elt F) (V c main_v41) j = V c main_v41 j
  rw [hR]
  refine congrArg (V c main_v41) (funext fun a => Fin.ext ?_)
  match a with
  | ⟨0, _⟩ => show win0_2.index t (0 : Fin 2) * 4 + 1 * (j 0).val = (j 0).val; rw [e0]; omega
  | ⟨1, _⟩ => show win0_2.index t (1 : Fin 2) * 64 + 1 * (j 1).val = (j 1).val; rw [e1]; omega

theorem idx0_3 : ∀ t : Fin cfg0.N, win0_3.index t (0 : Fin 2) = 0 ∧ win0_3.index t (1 : Fin 2) = 0 :=
  (by decide +kernel : ∀ t : Fin grid0.N, _)
/-- Window 3's one block is its whole array. -/
theorem iblk0_3 (c : Dev nD) (t : Fin cfg0.N) : (iblk0 V c 3 t : Vec F S3x64 .f32) = V c main_v57 := by
  funext j
  have hR : ∀ G : S3x64.Idx → Elt F .f32,
      ((cfg0.win 3).blk t).view.read (Elt F) G j = G (((cfg0.win 3).blk t).view.emb j) := fun G => by rw [View.read_apply]; rfl
  obtain ⟨e0, e1⟩ := idx0_3 t
  show ((cfg0.win 3).blk t).view.read (Elt F) (V c main_v57) j = V c main_v57 j
  rw [hR]
  refine congrArg (V c main_v57) (funext fun a => Fin.ext ?_)
  match a with
  | ⟨0, _⟩ => show win0_3.index t (0 : Fin 2) * 3 + 1 * (j 0).val = (j 0).val; rw [e0]; omega
  | ⟨1, _⟩ => show win0_3.index t (1 : Fin 2) * 64 + 1 * (j 1).val = (j 1).val; rw [e1]; omega

/-! ## Pallas call 1: each input window's block at a tile -/

theorem lt60_1 {n : ℕ} (h : n < cfg1.N) : n < 60 := lt_of_lt_of_eq h N_1
/-- A tile of call 1 as a number below 60. -/
def t60_1 (t : Fin cfg1.N) : Fin 60 := ⟨t.val, lt60_1 t.isLt⟩

/-- The two moving windows sit at pillar block t; decided over the 60 tiles. -/
theorem idx1_0 : ∀ t : Fin cfg1.N, win1_0.index t (0 : Fin 4) = 0 ∧ win1_0.index t (1 : Fin 4) = t.val ∧ win1_0.index t (2 : Fin 4) = 0 ∧ win1_0.index t (3 : Fin 4) = 0 :=
  (by decide +kernel : ∀ t : Fin grid1.N, _)
theorem idx1_1 : ∀ t : Fin cfg1.N, win1_1.index t (0 : Fin 3) = 0 ∧ win1_1.index t (1 : Fin 3) = t.val ∧ win1_1.index t (2 : Fin 3) = 0 :=
  (by decide +kernel : ∀ t : Fin grid1.N, _)

set_option maxRecDepth 200000 in
theorem iblk1_0 (c : Dev nD) (t : Fin cfg1.N) : (iblk1 V c 0 t : Vec F S4x200x32x4 .f32) = blockVox (V c main_arg0) (t60_1 t) := by
  funext j
  have hR : ∀ G : S4x12000x32x4.Idx → Elt F .f32,
      ((cfg1.win 0).blk t).view.read (Elt F) G j = G (((cfg1.win 0).blk t).view.emb j) := fun G => by rw [View.read_apply]; rfl
  obtain ⟨e0, e1, e2, e3⟩ := idx1_0 t
  show ((cfg1.win 0).blk t).view.read (Elt F) (V c main_arg0) j = V c main_arg0 (voxIdx (t60_1 t) j)
  rw [hR]
  refine congrArg (V c main_arg0) (funext fun a => Fin.ext ?_)
  match a with
  | ⟨0, _⟩ => show win1_0.index t (0 : Fin 4) * 4 + 1 * (j 0).val = (j 0).val; rw [e0]; omega
  | ⟨1, _⟩ => show win1_0.index t (1 : Fin 4) * 200 + 1 * (j 1).val = t.val * 200 + (j 1).val; rw [e1]; omega
  | ⟨2, _⟩ => show win1_0.index t (2 : Fin 4) * 32 + 1 * (j 2).val = (j 2).val; rw [e2]; omega
  | ⟨3, _⟩ => show win1_0.index t (3 : Fin 4) * 4 + 1 * (j 3).val = (j 3).val; rw [e3]; omega

set_option maxRecDepth 200000 in
theorem iblk1_1 (c : Dev nD) (t : Fin cfg1.N) : (iblk1 V c 1 t : Vec F S4x200x3 .f32) = blockAux (V c main_v22) (t60_1 t) := by
  funext j
  have hR : ∀ G : S4x12000x3.Idx → Elt F .f32,
      ((cfg1.win 1).blk t).view.read (Elt F) G j = G (((cfg1.win 1).blk t).view.emb j) := fun G => by rw [View.read_apply]; rfl
  obtain ⟨e0, e1, e2⟩ := idx1_1 t
  show ((cfg1.win 1).blk t).view.read (Elt F) (V c main_v22) j = V c main_v22 (auxIdx (t60_1 t) j)
  rw [hR]
  refine congrArg (V c main_v22) (funext fun a => Fin.ext ?_)
  match a with
  | ⟨0, _⟩ => show win1_1.index t (0 : Fin 3) * 4 + 1 * (j 0).val = (j 0).val; rw [e0]; omega
  | ⟨1, _⟩ => show win1_1.index t (1 : Fin 3) * 200 + 1 * (j 1).val = t.val * 200 + (j 1).val; rw [e1]; omega
  | ⟨2, _⟩ => show win1_1.index t (2 : Fin 3) * 3 + 1 * (j 2).val = (j 2).val; rw [e2]; omega

theorem idx1_2 : ∀ t : Fin cfg1.N, win1_2.index t (0 : Fin 2) = 0 ∧ win1_2.index t (1 : Fin 2) = 0 :=
  (by decide +kernel : ∀ t : Fin grid1.N, _)
/-- Window 2's one block is its whole array. -/
theorem iblk1_2 (c : Dev nD) (t : Fin cfg1.N) : (iblk1 V c 2 t : Vec F S4x64 .f32) = V c main_v41 := by
  funext j
  have hR : ∀ G : S4x64.Idx → Elt F .f32,
      ((cfg1.win 2).blk t).view.read (Elt F) G j = G (((cfg1.win 2).blk t).view.emb j) := fun G => by rw [View.read_apply]; rfl
  obtain ⟨e0, e1⟩ := idx1_2 t
  show ((cfg1.win 2).blk t).view.read (Elt F) (V c main_v41) j = V c main_v41 j
  rw [hR]
  refine congrArg (V c main_v41) (funext fun a => Fin.ext ?_)
  match a with
  | ⟨0, _⟩ => show win1_2.index t (0 : Fin 2) * 4 + 1 * (j 0).val = (j 0).val; rw [e0]; omega
  | ⟨1, _⟩ => show win1_2.index t (1 : Fin 2) * 64 + 1 * (j 1).val = (j 1).val; rw [e1]; omega

theorem idx1_3 : ∀ t : Fin cfg1.N, win1_3.index t (0 : Fin 2) = 0 ∧ win1_3.index t (1 : Fin 2) = 0 :=
  (by decide +kernel : ∀ t : Fin grid1.N, _)
/-- Window 3's one block is its whole array. -/
theorem iblk1_3 (c : Dev nD) (t : Fin cfg1.N) : (iblk1 V c 3 t : Vec F S3x64 .f32) = V c main_v57 := by
  funext j
  have hR : ∀ G : S3x64.Idx → Elt F .f32,
      ((cfg1.win 3).blk t).view.read (Elt F) G j = G (((cfg1.win 3).blk t).view.emb j) := fun G => by rw [View.read_apply]; rfl
  obtain ⟨e0, e1⟩ := idx1_3 t
  show ((cfg1.win 3).blk t).view.read (Elt F) (V c main_v57) j = V c main_v57 j
  rw [hR]
  refine congrArg (V c main_v57) (funext fun a => Fin.ext ?_)
  match a with
  | ⟨0, _⟩ => show win1_3.index t (0 : Fin 2) * 3 + 1 * (j 0).val = (j 0).val; rw [e0]; omega
  | ⟨1, _⟩ => show win1_3.index t (1 : Fin 2) * 64 + 1 * (j 1).val = (j 1).val; rw [e1]; omega

theorem idx1_4 : ∀ t : Fin cfg1.N, win1_4.index t (0 : Fin 1) = 0 :=
  (by decide +kernel : ∀ t : Fin grid1.N, _)
/-- Window 4's one block is its whole array. -/
theorem iblk1_4 (c : Dev nD) (t : Fin cfg1.N) : (iblk1 V c 4 t : Vec F S64 .f32) = V c main_arg4 := by
  funext j
  have hR : ∀ G : S64.Idx → Elt F .f32,
      ((cfg1.win 4).blk t).view.read (Elt F) G j = G (((cfg1.win 4).blk t).view.emb j) := fun G => by rw [View.read_apply]; rfl
  have e0 := idx1_4 t
  show ((cfg1.win 4).blk t).view.read (Elt F) (V c main_arg4) j = V c main_arg4 j
  rw [hR]
  refine congrArg (V c main_arg4) (funext fun a => Fin.ext ?_)
  match a with
  | ⟨0, _⟩ => show win1_4.index t (0 : Fin 1) * 64 + 1 * (j 0).val = (j 0).val; rw [e0]; omega

theorem idx1_5 : ∀ t : Fin cfg1.N, win1_5.index t (0 : Fin 1) = 0 :=
  (by decide +kernel : ∀ t : Fin grid1.N, _)
/-- Window 5's one block is its whole array. -/
theorem iblk1_5 (c : Dev nD) (t : Fin cfg1.N) : (iblk1 V c 5 t : Vec F S64 .f32) = V c main_arg5 := by
  funext j
  have hR : ∀ G : S64.Idx → Elt F .f32,
      ((cfg1.win 5).blk t).view.read (Elt F) G j = G (((cfg1.win 5).blk t).view.emb j) := fun G => by rw [View.read_apply]; rfl
  have e0 := idx1_5 t
  show ((cfg1.win 5).blk t).view.read (Elt F) (V c main_arg5) j = V c main_arg5 j
  rw [hR]
  refine congrArg (V c main_arg5) (funext fun a => Fin.ext ?_)
  match a with
  | ⟨0, _⟩ => show win1_5.index t (0 : Fin 1) * 64 + 1 * (j 0).val = (j 0).val; rw [e0]; omega

theorem idx1_6 : ∀ t : Fin cfg1.N, win1_6.index t (0 : Fin 1) = 0 :=
  (by decide +kernel : ∀ t : Fin grid1.N, _)
/-- Window 6's one block is its whole array. -/
theorem iblk1_6 (c : Dev nD) (t : Fin cfg1.N) : (iblk1 V c 6 t : Vec F S64 .f32) = V c main_v60 := by
  funext j
  have hR : ∀ G : S64.Idx → Elt F .f32,
      ((cfg1.win 6).blk t).view.read (Elt F) G j = G (((cfg1.win 6).blk t).view.emb j) := fun G => by rw [View.read_apply]; rfl
  have e0 := idx1_6 t
  show ((cfg1.win 6).blk t).view.read (Elt F) (V c main_v60) j = V c main_v60 j
  rw [hR]
  refine congrArg (V c main_v60) (funext fun a => Fin.ext ?_)
  match a with
  | ⟨0, _⟩ => show win1_6.index t (0 : Fin 1) * 64 + 1 * (j 0).val = (j 0).val; rw [e0]; omega

theorem idx1_7 : ∀ t : Fin cfg1.N, win1_7.index t (0 : Fin 1) = 0 :=
  (by decide +kernel : ∀ t : Fin grid1.N, _)
/-- Window 7's one block is its whole array. -/
theorem iblk1_7 (c : Dev nD) (t : Fin cfg1.N) : (iblk1 V c 7 t : Vec F S64 .f32) = V c main_v64 := by
  funext j
  have hR : ∀ G : S64.Idx → Elt F .f32,
      ((cfg1.win 7).blk t).view.read (Elt F) G j = G (((cfg1.win 7).blk t).view.emb j) := fun G => by rw [View.read_apply]; rfl
  have e0 := idx1_7 t
  show ((cfg1.win 7).blk t).view.read (Elt F) (V c main_v64) j = V c main_v64 j
  rw [hR]
  refine congrArg (V c main_v64) (funext fun a => Fin.ext ?_)
  match a with
  | ⟨0, _⟩ => show win1_7.index t (0 : Fin 1) * 64 + 1 * (j 0).val = (j 0).val; rw [e0]; omega

theorem idx1_8 : ∀ t : Fin cfg1.N, win1_8.index t (0 : Fin 2) = 0 ∧ win1_8.index t (1 : Fin 2) = 0 :=
  (by decide +kernel : ∀ t : Fin grid1.N, _)
/-- Window 8's one block is its whole array. -/
theorem iblk1_8 (c : Dev nD) (t : Fin cfg1.N) : (iblk1 V c 8 t : Vec F S64x64 .f32) = V c main_arg6 := by
  funext j
  have hR : ∀ G : S64x64.Idx → Elt F .f32,
      ((cfg1.win 8).blk t).view.read (Elt F) G j = G (((cfg1.win 8).blk t).view.emb j) := fun G => by rw [View.read_apply]; rfl
  obtain ⟨e0, e1⟩ := idx1_8 t
  show ((cfg1.win 8).blk t).view.read (Elt F) (V c main_arg6) j = V c main_arg6 j
  rw [hR]
  refine congrArg (V c main_arg6) (funext fun a => Fin.ext ?_)
  match a with
  | ⟨0, _⟩ => show win1_8.index t (0 : Fin 2) * 64 + 1 * (j 0).val = (j 0).val; rw [e0]; omega
  | ⟨1, _⟩ => show win1_8.index t (1 : Fin 2) * 64 + 1 * (j 1).val = (j 1).val; rw [e1]; omega

/-! ## Pallas call 2: each input window's block at a tile -/

theorem lt60_2 {n : ℕ} (h : n < cfg2.N) : n < 60 := lt_of_lt_of_eq h N_2
/-- A tile of call 2 as a number below 60. -/
def t60_2 (t : Fin cfg2.N) : Fin 60 := ⟨t.val, lt60_2 t.isLt⟩

/-- The two moving windows sit at pillar block t; decided over the 60 tiles. -/
theorem idx2_0 : ∀ t : Fin cfg2.N, win2_0.index t (0 : Fin 4) = 0 ∧ win2_0.index t (1 : Fin 4) = t.val ∧ win2_0.index t (2 : Fin 4) = 0 ∧ win2_0.index t (3 : Fin 4) = 0 :=
  (by decide +kernel : ∀ t : Fin grid2.N, _)
theorem idx2_1 : ∀ t : Fin cfg2.N, win2_1.index t (0 : Fin 3) = 0 ∧ win2_1.index t (1 : Fin 3) = t.val ∧ win2_1.index t (2 : Fin 3) = 0 :=
  (by decide +kernel : ∀ t : Fin grid2.N, _)

set_option maxRecDepth 200000 in
theorem iblk2_0 (c : Dev nD) (t : Fin cfg2.N) : (iblk2 V c 0 t : Vec F S4x200x32x4 .f32) = blockVox (V c main_arg0) (t60_2 t) := by
  funext j
  have hR : ∀ G : S4x12000x32x4.Idx → Elt F .f32,
      ((cfg2.win 0).blk t).view.read (Elt F) G j = G (((cfg2.win 0).blk t).view.emb j) := fun G => by rw [View.read_apply]; rfl
  obtain ⟨e0, e1, e2, e3⟩ := idx2_0 t
  show ((cfg2.win 0).blk t).view.read (Elt F) (V c main_arg0) j = V c main_arg0 (voxIdx (t60_2 t) j)
  rw [hR]
  refine congrArg (V c main_arg0) (funext fun a => Fin.ext ?_)
  match a with
  | ⟨0, _⟩ => show win2_0.index t (0 : Fin 4) * 4 + 1 * (j 0).val = (j 0).val; rw [e0]; omega
  | ⟨1, _⟩ => show win2_0.index t (1 : Fin 4) * 200 + 1 * (j 1).val = t.val * 200 + (j 1).val; rw [e1]; omega
  | ⟨2, _⟩ => show win2_0.index t (2 : Fin 4) * 32 + 1 * (j 2).val = (j 2).val; rw [e2]; omega
  | ⟨3, _⟩ => show win2_0.index t (3 : Fin 4) * 4 + 1 * (j 3).val = (j 3).val; rw [e3]; omega

set_option maxRecDepth 200000 in
theorem iblk2_1 (c : Dev nD) (t : Fin cfg2.N) : (iblk2 V c 1 t : Vec F S4x200x3 .f32) = blockAux (V c main_v22) (t60_2 t) := by
  funext j
  have hR : ∀ G : S4x12000x3.Idx → Elt F .f32,
      ((cfg2.win 1).blk t).view.read (Elt F) G j = G (((cfg2.win 1).blk t).view.emb j) := fun G => by rw [View.read_apply]; rfl
  obtain ⟨e0, e1, e2⟩ := idx2_1 t
  show ((cfg2.win 1).blk t).view.read (Elt F) (V c main_v22) j = V c main_v22 (auxIdx (t60_2 t) j)
  rw [hR]
  refine congrArg (V c main_v22) (funext fun a => Fin.ext ?_)
  match a with
  | ⟨0, _⟩ => show win2_1.index t (0 : Fin 3) * 4 + 1 * (j 0).val = (j 0).val; rw [e0]; omega
  | ⟨1, _⟩ => show win2_1.index t (1 : Fin 3) * 200 + 1 * (j 1).val = t.val * 200 + (j 1).val; rw [e1]; omega
  | ⟨2, _⟩ => show win2_1.index t (2 : Fin 3) * 3 + 1 * (j 2).val = (j 2).val; rw [e2]; omega

theorem idx2_2 : ∀ t : Fin cfg2.N, win2_2.index t (0 : Fin 2) = 0 ∧ win2_2.index t (1 : Fin 2) = 0 :=
  (by decide +kernel : ∀ t : Fin grid2.N, _)
/-- Window 2's one block is its whole array. -/
theorem iblk2_2 (c : Dev nD) (t : Fin cfg2.N) : (iblk2 V c 2 t : Vec F S4x64 .f32) = V c main_v41 := by
  funext j
  have hR : ∀ G : S4x64.Idx → Elt F .f32,
      ((cfg2.win 2).blk t).view.read (Elt F) G j = G (((cfg2.win 2).blk t).view.emb j) := fun G => by rw [View.read_apply]; rfl
  obtain ⟨e0, e1⟩ := idx2_2 t
  show ((cfg2.win 2).blk t).view.read (Elt F) (V c main_v41) j = V c main_v41 j
  rw [hR]
  refine congrArg (V c main_v41) (funext fun a => Fin.ext ?_)
  match a with
  | ⟨0, _⟩ => show win2_2.index t (0 : Fin 2) * 4 + 1 * (j 0).val = (j 0).val; rw [e0]; omega
  | ⟨1, _⟩ => show win2_2.index t (1 : Fin 2) * 64 + 1 * (j 1).val = (j 1).val; rw [e1]; omega

theorem idx2_3 : ∀ t : Fin cfg2.N, win2_3.index t (0 : Fin 2) = 0 ∧ win2_3.index t (1 : Fin 2) = 0 :=
  (by decide +kernel : ∀ t : Fin grid2.N, _)
/-- Window 3's one block is its whole array. -/
theorem iblk2_3 (c : Dev nD) (t : Fin cfg2.N) : (iblk2 V c 3 t : Vec F S3x64 .f32) = V c main_v57 := by
  funext j
  have hR : ∀ G : S3x64.Idx → Elt F .f32,
      ((cfg2.win 3).blk t).view.read (Elt F) G j = G (((cfg2.win 3).blk t).view.emb j) := fun G => by rw [View.read_apply]; rfl
  obtain ⟨e0, e1⟩ := idx2_3 t
  show ((cfg2.win 3).blk t).view.read (Elt F) (V c main_v57) j = V c main_v57 j
  rw [hR]
  refine congrArg (V c main_v57) (funext fun a => Fin.ext ?_)
  match a with
  | ⟨0, _⟩ => show win2_3.index t (0 : Fin 2) * 3 + 1 * (j 0).val = (j 0).val; rw [e0]; omega
  | ⟨1, _⟩ => show win2_3.index t (1 : Fin 2) * 64 + 1 * (j 1).val = (j 1).val; rw [e1]; omega

theorem idx2_4 : ∀ t : Fin cfg2.N, win2_4.index t (0 : Fin 1) = 0 :=
  (by decide +kernel : ∀ t : Fin grid2.N, _)
/-- Window 4's one block is its whole array. -/
theorem iblk2_4 (c : Dev nD) (t : Fin cfg2.N) : (iblk2 V c 4 t : Vec F S64 .f32) = V c main_arg4 := by
  funext j
  have hR : ∀ G : S64.Idx → Elt F .f32,
      ((cfg2.win 4).blk t).view.read (Elt F) G j = G (((cfg2.win 4).blk t).view.emb j) := fun G => by rw [View.read_apply]; rfl
  have e0 := idx2_4 t
  show ((cfg2.win 4).blk t).view.read (Elt F) (V c main_arg4) j = V c main_arg4 j
  rw [hR]
  refine congrArg (V c main_arg4) (funext fun a => Fin.ext ?_)
  match a with
  | ⟨0, _⟩ => show win2_4.index t (0 : Fin 1) * 64 + 1 * (j 0).val = (j 0).val; rw [e0]; omega

theorem idx2_5 : ∀ t : Fin cfg2.N, win2_5.index t (0 : Fin 1) = 0 :=
  (by decide +kernel : ∀ t : Fin grid2.N, _)
/-- Window 5's one block is its whole array. -/
theorem iblk2_5 (c : Dev nD) (t : Fin cfg2.N) : (iblk2 V c 5 t : Vec F S64 .f32) = V c main_arg5 := by
  funext j
  have hR : ∀ G : S64.Idx → Elt F .f32,
      ((cfg2.win 5).blk t).view.read (Elt F) G j = G (((cfg2.win 5).blk t).view.emb j) := fun G => by rw [View.read_apply]; rfl
  have e0 := idx2_5 t
  show ((cfg2.win 5).blk t).view.read (Elt F) (V c main_arg5) j = V c main_arg5 j
  rw [hR]
  refine congrArg (V c main_arg5) (funext fun a => Fin.ext ?_)
  match a with
  | ⟨0, _⟩ => show win2_5.index t (0 : Fin 1) * 64 + 1 * (j 0).val = (j 0).val; rw [e0]; omega

theorem idx2_6 : ∀ t : Fin cfg2.N, win2_6.index t (0 : Fin 1) = 0 :=
  (by decide +kernel : ∀ t : Fin grid2.N, _)
/-- Window 6's one block is its whole array. -/
theorem iblk2_6 (c : Dev nD) (t : Fin cfg2.N) : (iblk2 V c 6 t : Vec F S64 .f32) = V c main_v60 := by
  funext j
  have hR : ∀ G : S64.Idx → Elt F .f32,
      ((cfg2.win 6).blk t).view.read (Elt F) G j = G (((cfg2.win 6).blk t).view.emb j) := fun G => by rw [View.read_apply]; rfl
  have e0 := idx2_6 t
  show ((cfg2.win 6).blk t).view.read (Elt F) (V c main_v60) j = V c main_v60 j
  rw [hR]
  refine congrArg (V c main_v60) (funext fun a => Fin.ext ?_)
  match a with
  | ⟨0, _⟩ => show win2_6.index t (0 : Fin 1) * 64 + 1 * (j 0).val = (j 0).val; rw [e0]; omega

theorem idx2_7 : ∀ t : Fin cfg2.N, win2_7.index t (0 : Fin 1) = 0 :=
  (by decide +kernel : ∀ t : Fin grid2.N, _)
/-- Window 7's one block is its whole array. -/
theorem iblk2_7 (c : Dev nD) (t : Fin cfg2.N) : (iblk2 V c 7 t : Vec F S64 .f32) = V c main_v64 := by
  funext j
  have hR : ∀ G : S64.Idx → Elt F .f32,
      ((cfg2.win 7).blk t).view.read (Elt F) G j = G (((cfg2.win 7).blk t).view.emb j) := fun G => by rw [View.read_apply]; rfl
  have e0 := idx2_7 t
  show ((cfg2.win 7).blk t).view.read (Elt F) (V c main_v64) j = V c main_v64 j
  rw [hR]
  refine congrArg (V c main_v64) (funext fun a => Fin.ext ?_)
  match a with
  | ⟨0, _⟩ => show win2_7.index t (0 : Fin 1) * 64 + 1 * (j 0).val = (j 0).val; rw [e0]; omega

theorem idx2_8 : ∀ t : Fin cfg2.N, win2_8.index t (0 : Fin 2) = 0 ∧ win2_8.index t (1 : Fin 2) = 0 :=
  (by decide +kernel : ∀ t : Fin grid2.N, _)
/-- Window 8's one block is its whole array. -/
theorem iblk2_8 (c : Dev nD) (t : Fin cfg2.N) : (iblk2 V c 8 t : Vec F S64x64 .f32) = V c main_arg6 := by
  funext j
  have hR : ∀ G : S64x64.Idx → Elt F .f32,
      ((cfg2.win 8).blk t).view.read (Elt F) G j = G (((cfg2.win 8).blk t).view.emb j) := fun G => by rw [View.read_apply]; rfl
  obtain ⟨e0, e1⟩ := idx2_8 t
  show ((cfg2.win 8).blk t).view.read (Elt F) (V c main_arg6) j = V c main_arg6 j
  rw [hR]
  refine congrArg (V c main_arg6) (funext fun a => Fin.ext ?_)
  match a with
  | ⟨0, _⟩ => show win2_8.index t (0 : Fin 2) * 64 + 1 * (j 0).val = (j 0).val; rw [e0]; omega
  | ⟨1, _⟩ => show win2_8.index t (1 : Fin 2) * 64 + 1 * (j 1).val = (j 1).val; rw [e1]; omega

theorem idx2_9 : ∀ t : Fin cfg2.N, win2_9.index t (0 : Fin 1) = 0 :=
  (by decide +kernel : ∀ t : Fin grid2.N, _)
/-- Window 9's one block is its whole array. -/
theorem iblk2_9 (c : Dev nD) (t : Fin cfg2.N) : (iblk2 V c 9 t : Vec F S64 .f32) = V c main_arg7 := by
  funext j
  have hR : ∀ G : S64.Idx → Elt F .f32,
      ((cfg2.win 9).blk t).view.read (Elt F) G j = G (((cfg2.win 9).blk t).view.emb j) := fun G => by rw [View.read_apply]; rfl
  have e0 := idx2_9 t
  show ((cfg2.win 9).blk t).view.read (Elt F) (V c main_arg7) j = V c main_arg7 j
  rw [hR]
  refine congrArg (V c main_arg7) (funext fun a => Fin.ext ?_)
  match a with
  | ⟨0, _⟩ => show win2_9.index t (0 : Fin 1) * 64 + 1 * (j 0).val = (j 0).val; rw [e0]; omega

theorem idx2_10 : ∀ t : Fin cfg2.N, win2_10.index t (0 : Fin 1) = 0 :=
  (by decide +kernel : ∀ t : Fin grid2.N, _)
/-- Window 10's one block is its whole array. -/
theorem iblk2_10 (c : Dev nD) (t : Fin cfg2.N) : (iblk2 V c 10 t : Vec F S64 .f32) = V c main_arg8 := by
  funext j
  have hR : ∀ G : S64.Idx → Elt F .f32,
      ((cfg2.win 10).blk t).view.read (Elt F) G j = G (((cfg2.win 10).blk t).view.emb j) := fun G => by rw [View.read_apply]; rfl
  have e0 := idx2_10 t
  show ((cfg2.win 10).blk t).view.read (Elt F) (V c main_arg8) j = V c main_arg8 j
  rw [hR]
  refine congrArg (V c main_arg8) (funext fun a => Fin.ext ?_)
  match a with
  | ⟨0, _⟩ => show win2_10.index t (0 : Fin 1) * 64 + 1 * (j 0).val = (j 0).val; rw [e0]; omega

theorem idx2_11 : ∀ t : Fin cfg2.N, win2_11.index t (0 : Fin 1) = 0 :=
  (by decide +kernel : ∀ t : Fin grid2.N, _)
/-- Window 11's one block is its whole array. -/
theorem iblk2_11 (c : Dev nD) (t : Fin cfg2.N) : (iblk2 V c 11 t : Vec F S64 .f32) = V c main_v67 := by
  funext j
  have hR : ∀ G : S64.Idx → Elt F .f32,
      ((cfg2.win 11).blk t).view.read (Elt F) G j = G (((cfg2.win 11).blk t).view.emb j) := fun G => by rw [View.read_apply]; rfl
  have e0 := idx2_11 t
  show ((cfg2.win 11).blk t).view.read (Elt F) (V c main_v67) j = V c main_v67 j
  rw [hR]
  refine congrArg (V c main_v67) (funext fun a => Fin.ext ?_)
  match a with
  | ⟨0, _⟩ => show win2_11.index t (0 : Fin 1) * 64 + 1 * (j 0).val = (j 0).val; rw [e0]; omega

theorem idx2_12 : ∀ t : Fin cfg2.N, win2_12.index t (0 : Fin 1) = 0 :=
  (by decide +kernel : ∀ t : Fin grid2.N, _)
/-- Window 12's one block is its whole array. -/
theorem iblk2_12 (c : Dev nD) (t : Fin cfg2.N) : (iblk2 V c 12 t : Vec F S64 .f32) = V c main_v71 := by
  funext j
  have hR : ∀ G : S64.Idx → Elt F .f32,
      ((cfg2.win 12).blk t).view.read (Elt F) G j = G (((cfg2.win 12).blk t).view.emb j) := fun G => by rw [View.read_apply]; rfl
  have e0 := idx2_12 t
  show ((cfg2.win 12).blk t).view.read (Elt F) (V c main_v71) j = V c main_v71 j
  rw [hR]
  refine congrArg (V c main_v71) (funext fun a => Fin.ext ?_)
  match a with
  | ⟨0, _⟩ => show win2_12.index t (0 : Fin 1) * 64 + 1 * (j 0).val = (j 0).val; rw [e0]; omega

/-! ## The running sums are the specification's chains -/

set_option maxHeartbeats 4000000 in
theorem chain0_eq (c : Dev nD) : ∀ (n : ℕ) (h : n < cfg0.N),
    chain0 V c n h = sums0 (V c main_arg0) (V c main_v22) (V c main_v41) (V c main_v57) n (lt60_0 h)
  | 0, h => by
    show (acc0_sum _ _ _ _ zero0_sum, acc0_sq _ _ _ _ zero0_sq) = (acc0_sum _ _ _ _ zero0_sum, acc0_sq _ _ _ _ zero0_sq)
    rw [iblk0_0 V c, iblk0_1 V c, iblk0_2 V c, iblk0_3 V c]; rfl
  | n + 1, h => by
    show (acc0_sum _ _ _ _ (chain0 V c n _).1, acc0_sq _ _ _ _ (chain0 V c n _).2) = (acc0_sum _ _ _ _ (sums0 _ _ _ _ n _).1, acc0_sq _ _ _ _ (sums0 _ _ _ _ n _).2)
    rw [iblk0_0 V c, iblk0_1 V c, iblk0_2 V c, iblk0_3 V c, chain0_eq c n]; rfl

set_option maxHeartbeats 4000000 in
theorem chain1_eq (c : Dev nD) : ∀ (n : ℕ) (h : n < cfg1.N),
    chain1 V c n h = sums1 (V c main_arg0) (V c main_v22) (V c main_v41) (V c main_v57) (V c main_arg4) (V c main_arg5) (V c main_v60) (V c main_v64) (V c main_arg6) n (lt60_1 h)
  | 0, h => by
    show (acc1_sum _ _ _ _ _ _ _ _ _ zero1_sum, acc1_sq _ _ _ _ _ _ _ _ _ zero1_sq) = (acc1_sum _ _ _ _ _ _ _ _ _ zero1_sum, acc1_sq _ _ _ _ _ _ _ _ _ zero1_sq)
    rw [iblk1_0 V c, iblk1_1 V c, iblk1_2 V c, iblk1_3 V c, iblk1_4 V c, iblk1_5 V c, iblk1_6 V c, iblk1_7 V c, iblk1_8 V c]; rfl
  | n + 1, h => by
    show (acc1_sum _ _ _ _ _ _ _ _ _ (chain1 V c n _).1, acc1_sq _ _ _ _ _ _ _ _ _ (chain1 V c n _).2) = (acc1_sum _ _ _ _ _ _ _ _ _ (sums1 _ _ _ _ _ _ _ _ _ n _).1, acc1_sq _ _ _ _ _ _ _ _ _ (sums1 _ _ _ _ _ _ _ _ _ n _).2)
    rw [iblk1_0 V c, iblk1_1 V c, iblk1_2 V c, iblk1_3 V c, iblk1_4 V c, iblk1_5 V c, iblk1_6 V c, iblk1_7 V c, iblk1_8 V c, chain1_eq c n]; rfl

set_option maxHeartbeats 4000000 in
/-- The block tile t of the last call computes, in the specification's terms. -/
theorem tileOut2_eq (c : Dev nD) (t : Fin cfg2.N) :
    tileOut2 V c t = out2 (blockVox (V c main_arg0) (t60_2 t)) (blockAux (V c main_v22) (t60_2 t)) (V c main_v41) (V c main_v57) (V c main_arg4) (V c main_arg5) (V c main_v60) (V c main_v64) (V c main_arg6) (V c main_arg7) (V c main_arg8) (V c main_v67) (V c main_v71) := by
  unfold tileOut2
  rw [iblk2_0 V c, iblk2_1 V c, iblk2_2 V c, iblk2_3 V c, iblk2_4 V c, iblk2_5 V c, iblk2_6 V c, iblk2_7 V c, iblk2_8 V c, iblk2_9 V c, iblk2_10 V c, iblk2_11 V c, iblk2_12 V c]

end Cert.KernelIdeal.Hand

end
-- ==== Proof.KMain.lean ====
/-
  The whole run of the kernel program: three host stretches, each followed by a pallas call. The contents of every
  unscoped buffer at the seven boundaries are a fold from the launch memory — a host stretch applies its operations,
  a pallas call leaves its arrays at what its write-backs give and every other buffer alone. From the three kernels'
  body obligations the launch library gives: every weakly fair execution terminates, nothing faults, and at the end
  every unscoped buffer holds the last boundary's contents. Read at the nine arguments (which no stretch and no call
  writes) that is the frame claim; read at the result it names the result array.
-/
import proofs.«172073_j52536039964809_2_alg».proof.Proof.KFrame0
import proofs.«172073_j52536039964809_2_alg».proof.Proof.KFrame1
import proofs.«172073_j52536039964809_2_alg».proof.Proof.KFrame2
import proofs.«172073_j52536039964809_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the host stretch before pallas call 0 (its entry contents). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At pallas call 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer the host stretch before pallas call 0 does not write keeps its contents. -/
theorem W1_keep (c : Dev nD) (b : Ref sig .tc) (h : b ∉ (hostOps0_W : List (Ref sig .tc))) :
    W1 m ρ c (Proc.devRef .tc b) = W0 m ρ c (Proc.devRef .tc b) :=
  StableHlo.after_of_writes_sub hostOps0 _ hostOps0_writes h
/-- An input window's array leaves pallas call 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- After the host stretch before pallas call 1 (its entry contents). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At pallas call 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer the host stretch before pallas call 1 does not write keeps its contents. -/
theorem W3_keep (c : Dev nD) (b : Ref sig .tc) (h : b ∉ (hostOps1_W : List (Ref sig .tc))) :
    W3 m ρ c (Proc.devRef .tc b) = W2 m ρ c (Proc.devRef .tc b) :=
  StableHlo.after_of_writes_sub hostOps1 _ hostOps1_writes h
/-- An input window's array leaves pallas call 1 as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- After the host stretch before pallas call 2 (its entry contents). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At pallas call 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer the host stretch before pallas call 2 does not write keeps its contents. -/
theorem W5_keep (c : Dev nD) (b : Ref sig .tc) (h : b ∉ (hostOps2_W : List (Ref sig .tc))) :
    W5 m ρ c (Proc.devRef .tc b) = W4 m ρ c (Proc.devRef .tc b) :=
  StableHlo.after_of_writes_sub hostOps2 _ hostOps2_writes h
/-- An input window's array leaves pallas call 2 as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-! The arguments end as launched. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_in m ρ c 0 rfl
    _ = W4 m ρ c (Proc.devRef .tc main_arg0) := W5_keep m ρ c main_arg0 (by decide)
    _ = W3 m ρ c (Proc.devRef .tc main_arg0) := W4_in m ρ c 0 rfl
    _ = W2 m ρ c (Proc.devRef .tc main_arg0) := W3_keep m ρ c main_arg0 (by decide)
    _ = W1 m ρ c (Proc.devRef .tc main_arg0) := W2_in m ρ c 0 rfl
    _ = W0 m ρ c (Proc.devRef .tc main_arg0) := W1_keep m ρ c main_arg0 (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_keep m ρ c main_arg1 (by decide)
    _ = W3 m ρ c (Proc.devRef .tc main_arg1) := W4_of_ne m ρ c main_arg1 (by decide)
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_keep m ρ c main_arg2 (by decide)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := W2_of_ne m ρ c main_arg2 (by decide)
    _ = W0 m ρ c (Proc.devRef .tc main_arg2) := W1_keep m ρ c main_arg2 (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_keep m ρ c main_arg3 (by decide)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_of_ne m ρ c main_arg3 (by decide)
    _ = W0 m ρ c (Proc.devRef .tc main_arg3) := W1_keep m ρ c main_arg3 (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_in m ρ c 4 rfl
    _ = W4 m ρ c (Proc.devRef .tc main_arg4) := W5_keep m ρ c main_arg4 (by decide)
    _ = W3 m ρ c (Proc.devRef .tc main_arg4) := W4_in m ρ c 4 rfl
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_in m ρ c 5 rfl
    _ = W4 m ρ c (Proc.devRef .tc main_arg5) := W5_keep m ρ c main_arg5 (by decide)
    _ = W3 m ρ c (Proc.devRef .tc main_arg5) := W4_in m ρ c 5 rfl
    _ = W2 m ρ c (Proc.devRef .tc main_arg5) := W3_keep m ρ c main_arg5 (by decide)
    _ = W1 m ρ c (Proc.devRef .tc main_arg5) := W2_of_ne m ρ c main_arg5 (by decide)
    _ = W0 m ρ c (Proc.devRef .tc main_arg5) := W1_keep m ρ c main_arg5 (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_in m ρ c 8 rfl
    _ = W4 m ρ c (Proc.devRef .tc main_arg6) := W5_keep m ρ c main_arg6 (by decide)
    _ = W3 m ρ c (Proc.devRef .tc main_arg6) := W4_in m ρ c 8 rfl
    _ = W2 m ρ c (Proc.devRef .tc main_arg6) := W3_keep m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_in m ρ c 9 rfl
    _ = W4 m ρ c (Proc.devRef .tc main_arg7) := W5_keep m ρ c main_arg7 (by decide)
    _ = W3 m ρ c (Proc.devRef .tc main_arg7) := W4_of_ne m ρ c main_arg7 (by decide)
    _ = W2 m ρ c (Proc.devRef .tc main_arg7) := W3_keep m ρ c main_arg7 (by decide)
    _ = W1 m ρ c (Proc.devRef .tc main_arg7) := W2_of_ne m ρ c main_arg7 (by decide)
    _ = W0 m ρ c (Proc.devRef .tc main_arg7) := W1_keep m ρ c main_arg7 (by decide)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_in m ρ c 10 rfl
    _ = W4 m ρ c (Proc.devRef .tc main_arg8) := W5_keep m ρ c main_arg8 (by decide)
    _ = W3 m ρ c (Proc.devRef .tc main_arg8) := W4_of_ne m ρ c main_arg8 (by decide)
    _ = W2 m ρ c (Proc.devRef .tc main_arg8) := W3_keep m ρ c main_arg8 (by decide)
    _ = W1 m ρ c (Proc.devRef .tc main_arg8) := W2_of_ne m ρ c main_arg8 (by decide)
    _ = W0 m ρ c (Proc.devRef .tc main_arg8) := W1_keep m ρ c main_arg8 (by decide)
    _ = m ((c : Thread nD τ).loc main_arg8) := rfl

/-- No pallas call has a prefetched table. -/
abbrev adm : (p : Fin 3) → (pcfgs (F := F) p).Adm := fun p => (cfgs p).toPCfg_adm
/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- Pallas call 0 over the thread state: entered with every unscoped buffer at the contents before it, left with its
    arrays at what the pipeline's write-backs leave and every other buffer as entered; the generator register goes
    into the class invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered with every unscoped buffer at the contents before it, left with its
    arrays at what the pipeline's write-backs leave and every other buffer as entered; the generator register goes
    into the class invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 over the thread state: entered with every unscoped buffer at the contents before it, left with its
    arrays at what the pipeline's write-backs leave and every other buffer as entered; the generator register goes
    into the class invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and at the end every unscoped buffer of every core holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: the program runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c)⟩) (run m ρ)

/-- The result array after the run, NAMED: what the last pallas call's write-backs leave in it. -/
theorem run_value : θ_run defs (onTc (τ := τ) (main (F := F))) ⟨m, fun _ => 0, ρ⟩ (fun r => ∀ c : Dev nD,
      r.2.mem ((c.tc : Thread nD τ).loc main_v72) = (dat2 (V5 m ρ) c).arrAt 13 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v72 (by decide))).trans (W6_arr m ρ c 13),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c)⟩) (run m ρ)

end Cert.KernelIdeal.Hand

end
-- ==== Proof.KHost.lean ====
/-
  What the three host stretches leave in the buffers the pallas calls read: the packed per-pillar array and the folded
  weights after the first stretch; the mean and variance of a layer after each later stretch, from the two accumulator
  arrays the statistics call before it left.
-/
import proofs.«172073_j52536039964809_2_alg».proof.Proof.KMain
import proofs.«172073_j52536039964809_2_alg».proof.Proof.KSpec
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Spec

/-- A host operation over a LITERAL family of three operands (a three-way concatenate): its result with each operand's
    contents at its own reference. -/
theorem nary3_result {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

theorem nary3_result' {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

/-- Each operation's result at its own reference is its function's value, at another reference what was there: one
    simplification pass over the whole line. -/
macro "after_results3" : tactic =>
  `(tactic| (simp (disch := decide) only [StableHlo.after_cons, StableHlo.after_nil,
      StableHlo.nullary_result', StableHlo.unary_result', StableHlo.binary_result', StableHlo.reshape_result', StableHlo.nary4_result', nary3_result',
      StableHlo.nullary_result_ne', StableHlo.unary_result_ne', StableHlo.binary_result_ne', StableHlo.reshape_result_ne', StableHlo.nary_result_ne']))

variable (m : (ℓ : Loc nD τ sig) → Buf (Elt F) ℓ) (ρ : Dev nD → PrngReg)

set_option maxHeartbeats 4000000 in
theorem W1_v22 (c : Dev nD) : (W1 m ρ c (Proc.devRef .tc main_v22) : FVec F S4x12000x3 .f32)
    = auxOf (W0 m ρ c (Proc.devRef .tc main_arg1)) (W0 m ρ c (Proc.devRef .tc main_arg2)) := by
  show StableHlo.after hostOps0 _ (Proc.devRef .tc main_v22) = _
  after_results3
  rfl

set_option maxHeartbeats 4000000 in
theorem W1_v41 (c : Dev nD) : (W1 m ρ c (Proc.devRef .tc main_v41) : FVec F S4x64 .f32) = amatOf (W0 m ρ c (Proc.devRef .tc main_arg3)) := by
  show StableHlo.after hostOps0 _ (Proc.devRef .tc main_v41) = _
  after_results3
  rfl

set_option maxHeartbeats 4000000 in
theorem W1_v57 (c : Dev nD) : (W1 m ρ c (Proc.devRef .tc main_v57) : FVec F S3x64 .f32) = bmatOf (W0 m ρ c (Proc.devRef .tc main_arg3)) := by
  show StableHlo.after hostOps0 _ (Proc.devRef .tc main_v57) = _
  after_results3
  rfl

theorem W3_v60 (c : Dev nD) : (W3 m ρ c (Proc.devRef .tc main_v60) : FVec F S64 .f32) = meanOf (W2 m ρ c (Proc.devRef .tc main_v58_0)) := by
  show StableHlo.after hostOps1 _ (Proc.devRef .tc main_v60) = _
  after_results3
  rfl
theorem W3_v64 (c : Dev nD) : (W3 m ρ c (Proc.devRef .tc main_v64) : FVec F S64 .f32)
    = varOf (W2 m ρ c (Proc.devRef .tc main_v58_0)) (W2 m ρ c (Proc.devRef .tc main_v58_1)) := by
  show StableHlo.after hostOps1 _ (Proc.devRef .tc main_v64) = _
  after_results3
  rfl
theorem W5_v67 (c : Dev nD) : (W5 m ρ c (Proc.devRef .tc main_v67) : FVec F S64 .f32) = meanOf (W4 m ρ c (Proc.devRef .tc main_v65_0)) := by
  show StableHlo.after hostOps2 _ (Proc.devRef .tc main_v67) = _
  after_results3
  rfl
theorem W5_v71 (c : Dev nD) : (W5 m ρ c (Proc.devRef .tc main_v71) : FVec F S64 .f32)
    = varOf (W4 m ρ c (Proc.devRef .tc main_v65_0)) (W4 m ρ c (Proc.devRef .tc main_v65_1)) := by
  show StableHlo.after hostOps2 _ (Proc.devRef .tc main_v71) = _
  after_results3
  rfl

end Cert.KernelIdeal.Hand

end
-- ==== Proof.KOut.lean ====
/-
  The kernel program's result array is the kernel specification of its argument arrays.
  Boundary by boundary: before the first pallas call the voxel array is the argument, the packed per-pillar array and
  the folded weights are the host's functions of the arguments; the first call's accumulator arrays end at the running
  sums after the last tile, from which the host makes the layer-1 mean and variance; no later stretch or call touches
  what an earlier one made; likewise for the second call and layer 2; the last call's blocks tile the result.
-/
import proofs.«172073_j52536039964809_2_alg».proof.Proof.KBlocks
import proofs.«172073_j52536039964809_2_alg».proof.Proof.KHost

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Tile Cert.KernelIdeal.Spec

variable (m : (ℓ : Loc nD τ sig) → Buf (Elt F) ℓ) (ρ : Dev nD → PrngReg)

/-- The nine argument arrays of core c, as launched. -/
abbrev A0 (c : Dev nD) : FVec F S4x12000x32x4 .f32 := m ((c : Thread nD τ).loc main_arg0)
abbrev A1 (c : Dev nD) : IVec S4x12000x4 32 := m ((c : Thread nD τ).loc main_arg1)
abbrev A2 (c : Dev nD) : IVec S4x12000 32 := m ((c : Thread nD τ).loc main_arg2)
abbrev A3 (c : Dev nD) : FVec F S9x64 .f32 := m ((c : Thread nD τ).loc main_arg3)
abbrev A4 (c : Dev nD) : FVec F S64 .f32 := m ((c : Thread nD τ).loc main_arg4)
abbrev A5 (c : Dev nD) : FVec F S64 .f32 := m ((c : Thread nD τ).loc main_arg5)
abbrev A6 (c : Dev nD) : FVec F S64x64 .f32 := m ((c : Thread nD τ).loc main_arg6)
abbrev A7 (c : Dev nD) : FVec F S64 .f32 := m ((c : Thread nD τ).loc main_arg7)
abbrev A8 (c : Dev nD) : FVec F S64 .f32 := m ((c : Thread nD τ).loc main_arg8)

/-! ## Before the first call -/
theorem V1_arg0 (c : Dev nD) : V1 m ρ c main_arg0 = A0 m c := W1_keep m ρ c main_arg0 (by decide)
theorem V1_v22 (c : Dev nD) : (V1 m ρ c main_v22 : FVec F S4x12000x3 .f32) = auxOf (A1 m c) (A2 m c) := W1_v22 m ρ c
theorem V1_v41 (c : Dev nD) : (V1 m ρ c main_v41 : FVec F S4x64 .f32) = amatOf (A3 m c) := W1_v41 m ρ c
theorem V1_v57 (c : Dev nD) : (V1 m ρ c main_v57 : FVec F S3x64 .f32) = bmatOf (A3 m c) := W1_v57 m ρ c

/-- The first call's running sums after its last tile. -/
abbrev S0 (c : Dev nD) : Vec F S64 .f32 × Vec F S64 .f32 :=
  sums0 (A0 m c) (auxOf (A1 m c) (A2 m c)) (amatOf (A3 m c)) (bmatOf (A3 m c)) 59 (by decide)

set_option maxHeartbeats 2000000 in
theorem W2_v58_0 (c : Dev nD) : (W2 m ρ c (Proc.devRef .tc main_v58_0) : FVec F S64 .f32) = (S0 m c).1 := by
  refine ((W2_arr m ρ c 4).trans (final0_4 (V1 m ρ) c)).trans ?_
  show (chain0 (V1 m ρ) c 59 _).1 = _
  rw [chain0_eq, V1_arg0, V1_v22, V1_v41, V1_v57]
set_option maxHeartbeats 2000000 in
theorem W2_v58_1 (c : Dev nD) : (W2 m ρ c (Proc.devRef .tc main_v58_1) : FVec F S64 .f32) = (S0 m c).2 := by
  refine ((W2_arr m ρ c 5).trans (final0_5 (V1 m ρ) c)).trans ?_
  show (chain0 (V1 m ρ) c 59 _).2 = _
  rw [chain0_eq, V1_arg0, V1_v22, V1_v41, V1_v57]

/-! ## Before the second call -/
theorem V3_arg0 (c : Dev nD) : V3 m ρ c main_arg0 = A0 m c :=
  (W3_keep m ρ c main_arg0 (by decide)).trans ((W2_in m ρ c 0 rfl).trans (V1_arg0 m ρ c))
theorem V3_v22 (c : Dev nD) : (V3 m ρ c main_v22 : FVec F S4x12000x3 .f32) = auxOf (A1 m c) (A2 m c) :=
  (W3_keep m ρ c main_v22 (by decide)).trans ((W2_in m ρ c 1 rfl).trans (V1_v22 m ρ c))
theorem V3_v41 (c : Dev nD) : (V3 m ρ c main_v41 : FVec F S4x64 .f32) = amatOf (A3 m c) :=
  (W3_keep m ρ c main_v41 (by decide)).trans ((W2_in m ρ c 2 rfl).trans (V1_v41 m ρ c))
theorem V3_v57 (c : Dev nD) : (V3 m ρ c main_v57 : FVec F S3x64 .f32) = bmatOf (A3 m c) :=
  (W3_keep m ρ c main_v57 (by decide)).trans ((W2_in m ρ c 3 rfl).trans (V1_v57 m ρ c))
theorem V3_arg4 (c : Dev nD) : V3 m ρ c main_arg4 = A4 m c :=
  (W3_keep m ρ c main_arg4 (by decide)).trans ((W2_of_ne m ρ c main_arg4 (by decide)).trans (W1_keep m ρ c main_arg4 (by decide)))
theorem V3_arg5 (c : Dev nD) : V3 m ρ c main_arg5 = A5 m c :=
  (W3_keep m ρ c main_arg5 (by decide)).trans ((W2_of_ne m ρ c main_arg5 (by decide)).trans (W1_keep m ρ c main_arg5 (by decide)))
theorem V3_arg6 (c : Dev nD) : V3 m ρ c main_arg6 = A6 m c :=
  (W3_keep m ρ c main_arg6 (by decide)).trans ((W2_of_ne m ρ c main_arg6 (by decide)).trans (W1_keep m ρ c main_arg6 (by decide)))
theorem V3_v60 (c : Dev nD) : (V3 m ρ c main_v60 : FVec F S64 .f32) = kMean1 (A0 m c) (A1 m c) (A2 m c) (A3 m c) := by
  refine (W3_v60 m ρ c).trans ?_
  rw [W2_v58_0]; rfl
theorem V3_v64 (c : Dev nD) : (V3 m ρ c main_v64 : FVec F S64 .f32) = kVar1 (A0 m c) (A1 m c) (A2 m c) (A3 m c) := by
  refine (W3_v64 m ρ c).trans ?_
  rw [W2_v58_0, W2_v58_1]; rfl

/-- The second call's running sums after its last tile. -/
abbrev S1 (c : Dev nD) : Vec F S64 .f32 × Vec F S64 .f32 := kSums1 (A0 m c) (A1 m c) (A2 m c) (A3 m c) (A4 m c) (A5 m c) (A6 m c)

set_option maxHeartbeats 2000000 in
theorem W4_v65_0 (c : Dev nD) : (W4 m ρ c (Proc.devRef .tc main_v65_0) : FVec F S64 .f32) = (S1 m c).1 := by
  refine ((W4_arr m ρ c 9).trans (final1_9 (V3 m ρ) c)).trans ?_
  show (chain1 (V3 m ρ) c 59 _).1 = _
  rw [chain1_eq, V3_arg0, V3_v22, V3_v41, V3_v57, V3_arg4, V3_arg5, V3_v60, V3_v64, V3_arg6]; rfl
set_option maxHeartbeats 2000000 in
theorem W4_v65_1 (c : Dev nD) : (W4 m ρ c (Proc.devRef .tc main_v65_1) : FVec F S64 .f32) = (S1 m c).2 := by
  refine ((W4_arr m ρ c 10).trans (final1_10 (V3 m ρ) c)).trans ?_
  show (chain1 (V3 m ρ) c 59 _).2 = _
  rw [chain1_eq, V3_arg0, V3_v22, V3_v41, V3_v57, V3_arg4, V3_arg5, V3_v60, V3_v64, V3_arg6]; rfl

/-! ## Before the last call -/
theorem V5_arg0 (c : Dev nD) : V5 m ρ c main_arg0 = A0 m c :=
  (W5_keep m ρ c main_arg0 (by decide)).trans ((W4_in m ρ c 0 rfl).trans (V3_arg0 m ρ c))
theorem V5_v22 (c : Dev nD) : (V5 m ρ c main_v22 : FVec F S4x12000x3 .f32) = auxOf (A1 m c) (A2 m c) :=
  (W5_keep m ρ c main_v22 (by decide)).trans ((W4_in m ρ c 1 rfl).trans (V3_v22 m ρ c))
theorem V5_v41 (c : Dev nD) : (V5 m ρ c main_v41 : FVec F S4x64 .f32) = amatOf (A3 m c) :=
  (W5_keep m ρ c main_v41 (by decide)).trans ((W4_in m ρ c 2 rfl).trans (V3_v41 m ρ c))
theorem V5_v57 (c : Dev nD) : (V5 m ρ c main_v57 : FVec F S3x64 .f32) = bmatOf (A3 m c) :=
  (W5_keep m ρ c main_v57 (by decide)).trans ((W4_in m ρ c 3 rfl).trans (V3_v57 m ρ c))
theorem V5_arg4 (c : Dev nD) : V5 m ρ c main_arg4 = A4 m c :=
  (W5_keep m ρ c main_arg4 (by decide)).trans ((W4_in m ρ c 4 rfl).trans (V3_arg4 m ρ c))
theorem V5_arg5 (c : Dev nD) : V5 m ρ c main_arg5 = A5 m c :=
  (W5_keep m ρ c main_arg5 (by decide)).trans ((W4_in m ρ c 5 rfl).trans (V3_arg5 m ρ c))
theorem V5_v60 (c : Dev nD) : (V5 m ρ c main_v60 : FVec F S64 .f32) = kMean1 (A0 m c) (A1 m c) (A2 m c) (A3 m c) :=
  (W5_keep m ρ c main_v60 (by decide)).trans ((W4_in m ρ c 6 rfl).trans (V3_v60 m ρ c))
theorem V5_v64 (c : Dev nD) : (V5 m ρ c main_v64 : FVec F S64 .f32) = kVar1 (A0 m c) (A1 m c) (A2 m c) (A3 m c) :=
  (W5_keep m ρ c main_v64 (by decide)).trans ((W4_in m ρ c 7 rfl).trans (V3_v64 m ρ c))
theorem V5_arg6 (c : Dev nD) : V5 m ρ c main_arg6 = A6 m c :=
  (W5_keep m ρ c main_arg6 (by decide)).trans ((W4_in m ρ c 8 rfl).trans (V3_arg6 m ρ c))
theorem V5_arg7 (c : Dev nD) : V5 m ρ c main_arg7 = A7 m c :=
  (W5_keep m ρ c main_arg7 (by decide)).trans ((W4_of_ne m ρ c main_arg7 (by decide)).trans ((W3_keep m ρ c main_arg7 (by decide)).trans
    ((W2_of_ne m ρ c main_arg7 (by decide)).trans (W1_keep m ρ c main_arg7 (by decide)))))
theorem V5_arg8 (c : Dev nD) : V5 m ρ c main_arg8 = A8 m c :=
  (W5_keep m ρ c main_arg8 (by decide)).trans ((W4_of_ne m ρ c main_arg8 (by decide)).trans ((W3_keep m ρ c main_arg8 (by decide)).trans
    ((W2_of_ne m ρ c main_arg8 (by decide)).trans (W1_keep m ρ c main_arg8 (by decide)))))
theorem V5_v67 (c : Dev nD) : (V5 m ρ c main_v67 : FVec F S64 .f32) = kMean2 (A0 m c) (A1 m c) (A2 m c) (A3 m c) (A4 m c) (A5 m c) (A6 m c) := by
  refine (W5_v67 m ρ c).trans ?_
  rw [W4_v65_0]; rfl
theorem V5_v71 (c : Dev nD) : (V5 m ρ c main_v71 : FVec F S64 .f32) = kVar2 (A0 m c) (A1 m c) (A2 m c) (A3 m c) (A4 m c) (A5 m c) (A6 m c) := by
  refine (W5_v71 m ρ c).trans ?_
  rw [W4_v65_0, W4_v65_1]; rfl

/-! ## The result -/

set_option maxHeartbeats 4000000 in
/-- The result array after the run, entry by entry, is the kernel specification of the arguments. -/
theorem G2_eq (c : Dev nD) : G2 (V5 m ρ) c = kerOut (A0 m c) (A1 m c) (A2 m c) (A3 m c) (A4 m c) (A5 m c) (A6 m c) (A7 m c) (A8 m c) := by
  funext i
  have e1 : t60_2 (tileOf i) = tile60 i := rfl
  have e2 : localOf i = local60 i := rfl
  show tileOut2 (V5 m ρ) c (tileOf i) (localOf i) = kTile (A0 m c) (A1 m c) (A2 m c) (A3 m c) (A4 m c) (A5 m c) (A6 m c) (A7 m c) (A8 m c) (tile60 i) (local60 i)
  rw [tileOut2_eq, V5_arg0, V5_v22, V5_v41, V5_v57, V5_arg4, V5_arg5, V5_v60, V5_v64, V5_arg6, V5_arg7, V5_arg8, V5_v67, V5_v71, e1, e2]
  rfl

/-- THE KERNEL PROGRAM, RUN AND READ: every weakly fair execution terminates, nothing faulting; the result array is the
    kernel specification of the argument arrays; the arguments end as launched. -/
theorem run_spec : θ_run defs (onTc (τ := τ) (main (F := F))) ⟨m, fun _ => 0, ρ⟩ (fun r => ∀ c : Dev nD,
      r.2.mem ((c.tc : Thread nD τ).loc main_v72) = kerOut (A0 m c) (A1 m c) (A2 m c) (A3 m c) (A4 m c) (A5 m c) (A6 m c) (A7 m c) (A8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans ((final2_13 (V5 m ρ) c).trans (G2_eq m ρ c)), (h c).2⟩) (run_value m ρ)

end Cert.KernelIdeal.Hand

end
-- ==== Proof.RefTerm.lean ====
/-
  The reference network as a composition of named stages: each stage is the pure function the
  corresponding stretch of host operations computes, so that the whole result is one term of the
  nine argument arrays and every stage can be read at an index on its own.

  Stages, in the order the data flows:
    * voxel centres from the integer coordinates (a gather of two coordinate columns, an affine map);
    * the nine point features: position, reflectance, offset from the centre, the centre, mean height;
    * the validity mask (point number below the voxel's point count);
    * a linear layer, per-channel batch statistics over all points (mean, then the mean of squared
      deviations), normalisation with scale and shift, and rectification — twice;
    * the maximum over the points of a voxel.
-/
import proofs.«172073_j52536039964809_2_alg».proof.ReferenceIdeal
import proofs.«172073_j52536039964809_2_alg».proof.Proof.Gen.ReferenceIdeal

noncomputable section

namespace Cert.ReferenceIdeal.RefRun

open Cert.ReferenceIdeal Cert.ReferenceIdeal.Gen Idealize.ShloMosaic

variable {F : FTy → Type} [FloatOps F]

/-! ## Geometry: centres and the nine features -/

/-- The two coordinate columns read for a centre: the literal pair (3, 2). -/
def colIdx : IVec S2 32 := fun i => lit0 (S2.rowMajor i)

/-- The column pair normalised as a gather index: a negative column would be counted from the end
    (plus 4); as a 2×1 index table. -/
def gatherIdx : IVec S2x1 32 :=
  broadcastInDim S2x1 ![0] bcast_S2_S2x1_0
    (select (cmpi .slt colIdx (broadcastInDim S2 ![] bcast_S_S2 (constantI S_ 32 0#32)))
      (addi colIdx (broadcastInDim S2 ![] bcast_S_S2 (constantI S_ 32 4#32))) colIdx)

/-- The voxel size, once per centre coordinate. -/
def voxelSize : FVec F S4x12000x2 .f32 :=
  broadcastInDim S4x12000x2 ![0, 1, 2] bcast_S1x1x2_S4x12000x2_0_1_2
    (broadcastInDim S1x1x2 ![2] bcast_S2_S1x1x2_2 (constant S2 .f32 0x3E23D70A#32))

/-- The grid origin, per centre coordinate. -/
def gridOrigin : FVec F S4x12000x2 .f32 :=
  broadcastInDim S4x12000x2 ![0, 1, 2] bcast_S1x1x2_S4x12000x2_0_1_2
    (broadcastInDim S1x1x2 ![2] bcast_S2_S1x1x2_2 (fun i => FloatOps.ofBits .f32 (lit1 (S2.rowMajor i))))

/-- Voxel centres: (coordinate + 1/2) · size + origin, for the two gathered coordinate columns. -/
def centers (coords : IVec S4x12000x4 32) : FVec F S4x12000x2 .f32 :=
  addf
    (mulf
      (addf (sitofp .f32 (Host.gather gather_S4x12000x4_S2x1_S4x12000x2_01_2_n_n_2_1_4120001 coords gatherIdx))
        (broadcastInDim S4x12000x2 ![] bcast_S_S4x12000x2 (constant S_ .f32 0x3F000000#32)))
      voxelSize)
    gridOrigin

/-- The points' positions (x, y, z). -/
def xyz (pts : FVec F S4x12000x32x4 .f32) : FVec F S4x12000x32x3 .f32 :=
  extractStridedSlice S4x12000x32x3 ![0, 0, 0, 0] pts slices_S4x12000x32x4_S4x12000x32x3_0_0_0_0

/-- The points' reflectance. -/
def refl (pts : FVec F S4x12000x32x4 .f32) : FVec F S4x12000x32x1 .f32 :=
  extractStridedSlice S4x12000x32x1 ![0, 0, 0, 3] pts slices_S4x12000x32x4_S4x12000x32x1_0_0_0_3

/-- The centre, repeated for each point of the voxel. -/
def centerB (coords : IVec S4x12000x4 32) : FVec F S4x12000x32x2 .f32 :=
  broadcastInDim S4x12000x32x2 ![0, 1, 2, 3] bcast_S4x12000x1x2_S4x12000x32x2_0_1_2_3
    (broadcastInDim S4x12000x1x2 ![0, 1, 3] bcast_S4x12000x2_S4x12000x1x2_0_1_3 (centers (F := F) coords))

/-- The horizontal offset of a point from its voxel's centre. -/
def offset (pts : FVec F S4x12000x32x4 .f32) (coords : IVec S4x12000x4 32) : FVec F S4x12000x32x2 .f32 :=
  subf (extractStridedSlice S4x12000x32x2 ![0, 0, 0, 0] (xyz pts) slices_S4x12000x32x3_S4x12000x32x2_0_0_0_0)
    (centerB coords)

/-- The mean height of a voxel's 32 point slots, repeated for each point. -/
def zMean (pts : FVec F S4x12000x32x4 .f32) : FVec F S4x12000x32x1 .f32 :=
  broadcastInDim S4x12000x32x1 ![0, 1, 2, 3] bcast_S4x12000x1x1_S4x12000x32x1_0_1_2_3
    (Host.divf
      (broadcastInDim S4x12000x1x1 ![0, 1, 3] bcast_S4x12000x1_S4x12000x1x1_0_1_3
        (Host.reduceAdd
          (extractStridedSlice S4x12000x32x1 ![0, 0, 0, 2] (xyz pts) slices_S4x12000x32x3_S4x12000x32x1_0_0_0_2)
          (constant S_ .f32 0x00000000#32) reducesTo_S4x12000x32x1_S4x12000x1_d2 h_S_))
      (broadcastInDim S4x12000x1x1 ![] bcast_S_S4x12000x1x1 (constant S_ .f32 0x42000000#32)))

/-- The nine features of a point, side by side. -/
def feat9 (pts : FVec F S4x12000x32x4 .f32) (coords : IVec S4x12000x4 32) : FVec F S4x12000x32x9 .f32 :=
  concatenate S4x12000x32x9 3
    [⟨S4x12000x32x3, xyz pts⟩, ⟨S4x12000x32x1, refl pts⟩, ⟨S4x12000x32x2, offset pts coords⟩,
      ⟨S4x12000x32x2, centerB coords⟩, ⟨S4x12000x32x1, zMean pts⟩]
    concatenates_S4x12000x32x3_S4x12000x32x1_S4x12000x32x2_S4x12000x32x2_S4x12000x32x1_S4x12000x32x9_d3

/-! ## The mask and the first linear layer -/

/-- One where the point's slot number is below the voxel's point count, zero elsewhere. -/
def mask (npts : IVec S4x12000 32) : FVec F S4x12000x32x1 .f32 :=
  uitofp .f32
    (cmpi .slt
      (broadcastInDim S4x12000x32x1 ![0, 1, 2, 3] bcast_S1x1x32x1_S4x12000x32x1_0_1_2_3
        (broadcastInDim S1x1x32x1 ![2] bcast_S32_S1x1x32x1_2 (iotaInDim S32 32 0)))
      (broadcastInDim S4x12000x32x1 ![0, 1, 2, 3] bcast_S4x12000x1x1_S4x12000x32x1_0_1_2_3
        (broadcastInDim S4x12000x1x1 ![0, 1] bcast_S4x12000_S4x12000x1x1_0_1 npts)))

/-- The masked features times the first weight matrix. -/
def lin1 (feats : FVec F S4x12000x32x9 .f32) (npts : IVec S4x12000 32) (w1 : FVec F S9x64 .f32) :
    FVec F S4x12000x32x64 .f32 :=
  Host.dotGeneral dot_S4x12000x32x9_S9x64_S4x12000x32x64_3_0_012_1_n_n none
    (mulf feats
      (broadcastInDim S4x12000x32x9 ![0, 1, 2, 3] bcast_S4x12000x32x1_S4x12000x32x9_0_1_2_3 (mask npts)))
    w1

/-! ## Per-channel batch statistics, normalisation, rectification -/

/-- A per-channel vector repeated over every point of every voxel. -/
def chanB (v : FVec F S64 .f32) : FVec F S4x12000x32x64 .f32 :=
  broadcastInDim S4x12000x32x64 ![0, 1, 2, 3] bcast_S1x1x1x64_S4x12000x32x64_0_1_2_3
    (broadcastInDim S1x1x1x64 ![3] bcast_S64_S1x1x1x64_3 v)

/-- The number of points the statistics run over (4 · 12000 · 32), per channel. -/
def countB : FVec F S64 .f32 := broadcastInDim S64 ![] bcast_S_S64 (constant S_ .f32 0x49BB8000#32)

/-- The sum over all points, per channel. -/
def chanSum (x : FVec F S4x12000x32x64 .f32) : FVec F S64 .f32 :=
  Host.reduceAdd x (constant S_ .f32 0x00000000#32) reducesTo_S4x12000x32x64_S64_d0_1_2 h_S_

/-- The mean over all points, per channel. -/
def chanMean (x : FVec F S4x12000x32x64 .f32) : FVec F S64 .f32 := Host.divf (chanSum x) countB

/-- The deviation from the channel's mean. -/
def chanDev (x : FVec F S4x12000x32x64 .f32) : FVec F S4x12000x32x64 .f32 := subf x (chanB (chanMean x))

/-- The sum of squared deviations, per channel. -/
def chanSS (x : FVec F S4x12000x32x64 .f32) : FVec F S64 .f32 := chanSum (mulf (chanDev x) (chanDev x))

/-- The (biased) variance over all points, per channel: the mean of squared deviations. -/
def chanVar (x : FVec F S4x12000x32x64 .f32) : FVec F S64 .f32 := Host.divf (chanSS x) countB

/-- Normalise with a given mean and variance, scale, shift and rectify:
    max(((x − mean) · rsqrt(var + ε)) · γ + β, 0). -/
def normRelu (x : FVec F S4x12000x32x64 .f32) (mean var gamma beta : FVec F S64 .f32) :
    FVec F S4x12000x32x64 .f32 :=
  maximumf
    (addf
      (mulf
        (mulf (subf x (chanB mean))
          (chanB (Host.rsqrt (addf var (broadcastInDim S64 ![] bcast_S_S64 (constant S_ .f32 0x3A83126F#32))))))
        (chanB gamma))
      (chanB beta))
    (broadcastInDim S4x12000x32x64 ![] bcast_S_S4x12000x32x64 (constant S_ .f32 0x00000000#32))

/-- Batch normalisation with the batch's own statistics, then rectification. -/
def bnRelu (x : FVec F S4x12000x32x64 .f32) (gamma beta : FVec F S64 .f32) : FVec F S4x12000x32x64 .f32 :=
  normRelu x (chanMean x) (chanVar x) gamma beta

/-! ## The second linear layer and the maximum over points -/

/-- The hidden features times the second weight matrix. -/
def lin2 (h : FVec F S4x12000x32x64 .f32) (w2 : FVec F S64x64 .f32) : FVec F S4x12000x32x64 .f32 :=
  Host.dotGeneral dot_S4x12000x32x64_S64x64_S4x12000x32x64_3_0_012_1_n_n none h w2

/-- The maximum over a voxel's 32 point slots, starting from −∞. -/
def maxPts (x : FVec F S4x12000x32x64 .f32) : FVec F S4x12000x64 .f32 :=
  Host.reduce FloatOps.maximumf x (constant S_ .f32 0xFF800000#32) reducesTo_S4x12000x32x64_S4x12000x64_d2 h_S_

/-! ## The whole network -/

/-- The first layer's pre-activation. -/
def pre1 (pts : FVec F S4x12000x32x4 .f32) (coords : IVec S4x12000x4 32) (npts : IVec S4x12000 32)
    (w1 : FVec F S9x64 .f32) : FVec F S4x12000x32x64 .f32 :=
  lin1 (feat9 pts coords) npts w1

/-- The first layer's output. -/
def hid1 (pts : FVec F S4x12000x32x4 .f32) (coords : IVec S4x12000x4 32) (npts : IVec S4x12000 32)
    (w1 : FVec F S9x64 .f32) (g1 b1 : FVec F S64 .f32) : FVec F S4x12000x32x64 .f32 :=
  bnRelu (pre1 pts coords npts w1) g1 b1

/-- The second layer's pre-activation. -/
def pre2 (pts : FVec F S4x12000x32x4 .f32) (coords : IVec S4x12000x4 32) (npts : IVec S4x12000 32)
    (w1 : FVec F S9x64 .f32) (g1 b1 : FVec F S64 .f32) (w2 : FVec F S64x64 .f32) : FVec F S4x12000x32x64 .f32 :=
  lin2 (hid1 pts coords npts w1 g1 b1) w2

/-- The second layer's output. -/
def hid2 (pts : FVec F S4x12000x32x4 .f32) (coords : IVec S4x12000x4 32) (npts : IVec S4x12000 32)
    (w1 : FVec F S9x64 .f32) (g1 b1 : FVec F S64 .f32) (w2 : FVec F S64x64 .f32) (g2 b2 : FVec F S64 .f32) :
    FVec F S4x12000x32x64 .f32 :=
  bnRelu (pre2 pts coords npts w1 g1 b1 w2) g2 b2

/-- The network's result as one term of its nine arguments. -/
def refTerm (pts : FVec F S4x12000x32x4 .f32) (coords : IVec S4x12000x4 32) (npts : IVec S4x12000 32)
    (w1 : FVec F S9x64 .f32) (g1 b1 : FVec F S64 .f32) (w2 : FVec F S64x64 .f32) (g2 b2 : FVec F S64 .f32) :
    FVec F S4x12000x64 .f32 :=
  maxPts (hid2 pts coords npts w1 g1 b1 w2 g2 b2)

end Cert.ReferenceIdeal.RefRun

end
-- ==== Proof.RefRun.lean ====
/-
  The reference program's run, read back: @main is a straight line of host operations; every
  weakly fair execution of it terminates with the result buffer holding the network's term
  (`refTerm`) of the nine argument arrays as they were at launch, and the arguments unchanged.

  The operations are listed in stretches that follow the network's stages; each stretch is read
  on its own from arbitrary buffer contents (which buffers it leaves alone, and what the buffers
  later stretches read hold after it), and the stretches are then chained.
-/
import proofs.«172073_j52536039964809_2_alg».proof.Defs
import proofs.«172073_j52536039964809_2_alg».proof.Proof.Gen.ReferenceIdeal
import proofs.«172073_j52536039964809_2_alg».proof.Proof.Gen.Pre_finite_inputs
import proofs.«172073_j52536039964809_2_alg».proof.Proof.RefTerm
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, stretch by stretch -/

/-- The geometry: the coordinate columns, the centres, the slices of the points, the mean height, and the nine features side by side. (Operations 1 … 39 of 118; a called function's operations stand in its call's place.) -/
abbrev opsA : List (HloOp τ sig (Elt F)) :=
  [ nullary main_c (fun i => lit0 (S2.rowMajor i)),
    nullary main_cst (constant S2 .f32 0x3E23D70A#32),
    nullary main_cst_0 (fun i => FloatOps.ofBits .f32 (lit1 (S2.rowMajor i))),
    unary main_arg0 main_v0 ((extractStridedSlice S4x12000x32x3 ![0, 0, 0, 0] · slices_S4x12000x32x4_S4x12000x32x3_0_0_0_0) : (⟨S4x12000x32x4, .f32⟩ : BufTy).Contents (Elt F) → (⟨S4x12000x32x3, .f32⟩ : BufTy).Contents (Elt F)),
    unary main_arg0 main_v1 ((extractStridedSlice S4x12000x32x1 ![0, 0, 0, 3] · slices_S4x12000x32x4_S4x12000x32x1_0_0_0_3) : (⟨S4x12000x32x4, .f32⟩ : BufTy).Contents (Elt F) → (⟨S4x12000x32x1, .f32⟩ : BufTy).Contents (Elt F)),
    nullary main_c_1 (constantI S_ 32 0#32),
    unary main_c_1 main_v2 (broadcastInDim S2 ![] bcast_S_S2 : (⟨S_, .i32⟩ : BufTy).Contents (Elt F) → (⟨S2, .i32⟩ : BufTy).Contents (Elt F)),
    binary main_c main_v2 main_v3 (cmpi .slt : (⟨S2, .i32⟩ : BufTy).Contents (Elt F) → (⟨S2, .i32⟩ : BufTy).Contents (Elt F) → (⟨S2, .i1⟩ : BufTy).Contents (Elt F)),
    nullary main_c_2 (constantI S_ 32 4#32),
    unary main_c_2 main_v4 (broadcastInDim S2 ![] bcast_S_S2 : (⟨S_, .i32⟩ : BufTy).Contents (Elt F) → (⟨S2, .i32⟩ : BufTy).Contents (Elt F)),
    binary main_c main_v4 main_v5 (addi : (⟨S2, .i32⟩ : BufTy).Contents (Elt F) → (⟨S2, .i32⟩ : BufTy).Contents (Elt F) → (⟨S2, .i32⟩ : BufTy).Contents (Elt F)),
    ternary main_v3 main_v5 main_c main_v6 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v6 main_v7 (broadcastInDim S2x1 ![0] bcast_S2_S2x1_0 : (⟨S2, .i32⟩ : BufTy).Contents (Elt F) → (⟨S2x1, .i32⟩ : BufTy).Contents (Elt F)),
    binary main_arg1 main_v7 main_v8 ((fun x i => Host.gather gather_S4x12000x4_S2x1_S4x12000x2_01_2_n_n_2_1_4120001 x i) : (⟨S4x12000x4, .i32⟩ : BufTy).Contents (Elt F) → (⟨S2x1, .i32⟩ : BufTy).Contents (Elt F) → (⟨S4x12000x2, .i32⟩ : BufTy).Contents (Elt F)),
    unary main_v8 main_v9 (sitofp .f32 : (⟨S4x12000x2, .i32⟩ : BufTy).Contents (Elt F) → (⟨S4x12000x2, .f32⟩ : BufTy).Contents (Elt F)),
    nullary main_cst_3 (constant S_ .f32 0x3F000000#32),
    unary main_cst_3 main_v10 (broadcastInDim S4x12000x2 ![] bcast_S_S4x12000x2 : (⟨S_, .f32⟩ : BufTy).Contents (Elt F) → (⟨S4x12000x2, .f32⟩ : BufTy).Contents (Elt F)),
    binary main_v9 main_v10 main_v11 (addf : (⟨S4x12000x2, .f32⟩ : BufTy).Contents (Elt F) → (⟨S4x12000x2, .f32⟩ : BufTy).Contents (Elt F) → (⟨S4x12000x2, .f32⟩ : BufTy).Contents (Elt F)),
    unary main_cst main_v12 (broadcastInDim S1x1x2 ![2] bcast_S2_S1x1x2_2 : (⟨S2, .f32⟩ : BufTy).Contents (Elt F) → (⟨S1x1x2, .f32⟩ : BufTy).Contents (Elt F)),
    unary main_v12 main_v13 (broadcastInDim S4x12000x2 ![0, 1, 2] bcast_S1x1x2_S4x12000x2_0_1_2 : (⟨S1x1x2, .f32⟩ : BufTy).Contents (Elt F) → (⟨S4x12000x2, .f32⟩ : BufTy).Contents (Elt F)),
    binary main_v11 main_v13 main_v14 (mulf : (⟨S4x12000x2, .f32⟩ : BufTy).Contents (Elt F) → (⟨S4x12000x2, .f32⟩ : BufTy).Contents (Elt F) → (⟨S4x12000x2, .f32⟩ : BufTy).Contents (Elt F)),
    unary main_cst_0 main_v15 (broadcastInDim S1x1x2 ![2] bcast_S2_S1x1x2_2 : (⟨S2, .f32⟩ : BufTy).Contents (Elt F) → (⟨S1x1x2, .f32⟩ : BufTy).Contents (Elt F)),
    unary main_v15 main_v16 (broadcastInDim S4x12000x2 ![0, 1, 2] bcast_S1x1x2_S4x12000x2_0_1_2 : (⟨S1x1x2, .f32⟩ : BufTy).Contents (Elt F) → (⟨S4x12000x2, .f32⟩ : BufTy).Contents (Elt F)),
    binary main_v14 main_v16 main_v17 (addf : (⟨S4x12000x2, .f32⟩ : BufTy).Contents (Elt F) → (⟨S4x12000x2, .f32⟩ : BufTy).Contents (Elt F) → (⟨S4x12000x2, .f32⟩ : BufTy).Contents (Elt F)),
    unary main_v0 main_v18 ((extractStridedSlice S4x12000x32x2 ![0, 0, 0, 0] · slices_S4x12000x32x3_S4x12000x32x2_0_0_0_0) : (⟨S4x12000x32x3, .f32⟩ : BufTy).Contents (Elt F) → (⟨S4x12000x32x2, .f32⟩ : BufTy).Contents (Elt F)),
    unary main_v17 main_v19 (broadcastInDim S4x12000x1x2 ![0, 1, 3] bcast_S4x12000x2_S4x12000x1x2_0_1_3 : (⟨S4x12000x2, .f32⟩ : BufTy).Contents (Elt F) → (⟨S4x12000x1x2, .f32⟩ : BufTy).Contents (Elt F)),
    unary main_v19 main_v20 (broadcastInDim S4x12000x32x2 ![0, 1, 2, 3] bcast_S4x12000x1x2_S4x12000x32x2_0_1_2_3 : (⟨S4x12000x1x2, .f32⟩ : BufTy).Contents (Elt F) → (⟨S4x12000x32x2, .f32⟩ : BufTy).Contents (Elt F)),
    binary main_v18 main_v20 main_v21 (subf : (⟨S4x12000x32x2, .f32⟩ : BufTy).Contents (Elt F) → (⟨S4x12000x32x2, .f32⟩ : BufTy).Contents (Elt F) → (⟨S4x12000x32x2, .f32⟩ : BufTy).Contents (Elt F)),
    unary main_v0 main_v22 ((extractStridedSlice S4x12000x32x1 ![0, 0, 0, 2] · slices_S4x12000x32x3_S4x12000x32x1_0_0_0_2) : (⟨S4x12000x32x3, .f32⟩ : BufTy).Contents (Elt F) → (⟨S4x12000x32x1, .f32⟩ : BufTy).Contents (Elt F)),
    nullary main_cst_4 (constant S_ .f32 0x00000000#32),
    binary main_v22 main_cst_4 main_v23 ((fun x v => Host.reduceAdd x v reducesTo_S4x12000x32x1_S4x12000x1_d2 h_S_) : (⟨S4x12000x32x1, .f32⟩ : BufTy).Contents (Elt F) → (⟨S_, .f32⟩ : BufTy).Contents (Elt F) → (⟨S4x12000x1, .f32⟩ : BufTy).Contents (Elt F)),
    unary main_v23 main_v24 (broadcastInDim S4x12000x1x1 ![0, 1, 3] bcast_S4x12000x1_S4x12000x1x1_0_1_3 : (⟨S4x12000x1, .f32⟩ : BufTy).Contents (Elt F) → (⟨S4x12000x1x1, .f32⟩ : BufTy).Contents (Elt F)),
    nullary main_cst_5 (constant S_ .f32 0x42000000#32),
    unary main_cst_5 main_v25 (broadcastInDim S4x12000x1x1 ![] bcast_S_S4x12000x1x1 : (⟨S_, .f32⟩ : BufTy).Contents (Elt F) → (⟨S4x12000x1x1, .f32⟩ : BufTy).Contents (Elt F)),
    binary main_v24 main_v25 main_v26 (Host.divf : (⟨S4x12000x1x1, .f32⟩ : BufTy).Contents (Elt F) → (⟨S4x12000x1x1, .f32⟩ : BufTy).Contents (Elt F) → (⟨S4x12000x1x1, .f32⟩ : BufTy).Contents (Elt F)),
    unary main_v17 main_v27 (broadcastInDim S4x12000x1x2 ![0, 1, 3] bcast_S4x12000x2_S4x12000x1x2_0_1_3 : (⟨S4x12000x2, .f32⟩ : BufTy).Contents (Elt F) → (⟨S4x12000x1x2, .f32⟩ : BufTy).Contents (Elt F)),
    unary main_v27 main_v28 (broadcastInDim S4x12000x32x2 ![0, 1, 2, 3] bcast_S4x12000x1x2_S4x12000x32x2_0_1_2_3 : (⟨S4x12000x1x2, .f32⟩ : BufTy).Contents (Elt F) → (⟨S4x12000x32x2, .f32⟩ : BufTy).Contents (Elt F)),
    unary main_v26 main_v29 (broadcastInDim S4x12000x32x1 ![0, 1, 2, 3] bcast_S4x12000x1x1_S4x12000x32x1_0_1_2_3 : (⟨S4x12000x1x1, .f32⟩ : BufTy).Contents (Elt F) → (⟨S4x12000x32x1, .f32⟩ : BufTy).Contents (Elt F)),
    nary ![main_v0, main_v1, main_v21, main_v28, main_v29] main_v30 (fun u => concatenate S4x12000x32x9 3 [⟨S4x12000x32x3, u 0⟩, ⟨S4x12000x32x1, u 1⟩, ⟨S4x12000x32x2, u 2⟩, ⟨S4x12000x32x2, u 3⟩, ⟨S4x12000x32x1, u 4⟩] concatenates_S4x12000x32x3_S4x12000x32x1_S4x12000x32x2_S4x12000x32x2_S4x12000x32x1_S4x12000x32x9_d3) ]

/-- The mask and the first linear layer. (Operations 40 … 49 of 118; a called function's operations stand in its call's place.) -/
abbrev opsB : List (HloOp τ sig (Elt F)) :=
  [ nullary main_v31 (iotaInDim S32 32 0),
    unary main_v31 main_v32 (broadcastInDim S1x1x32x1 ![2] bcast_S32_S1x1x32x1_2 : (⟨S32, .i32⟩ : BufTy).Contents (Elt F) → (⟨S1x1x32x1, .i32⟩ : BufTy).Contents (Elt F)),
    unary main_arg2 main_v33 (broadcastInDim S4x12000x1x1 ![0, 1] bcast_S4x12000_S4x12000x1x1_0_1 : (⟨S4x12000, .i32⟩ : BufTy).Contents (Elt F) → (⟨S4x12000x1x1, .i32⟩ : BufTy).Contents (Elt F)),
    unary main_v32 main_v34 (broadcastInDim S4x12000x32x1 ![0, 1, 2, 3] bcast_S1x1x32x1_S4x12000x32x1_0_1_2_3 : (⟨S1x1x32x1, .i32⟩ : BufTy).Contents (Elt F) → (⟨S4x12000x32x1, .i32⟩ : BufTy).Contents (Elt F)),
    unary main_v33 main_v35 (broadcastInDim S4x12000x32x1 ![0, 1, 2, 3] bcast_S4x12000x1x1_S4x12000x32x1_0_1_2_3 : (⟨S4x12000x1x1, .i32⟩ : BufTy).Contents (Elt F) → (⟨S4x12000x32x1, .i32⟩ : BufTy).Contents (Elt F)),
    binary main_v34 main_v35 main_v36 (cmpi .slt : (⟨S4x12000x32x1, .i32⟩ : BufTy).Contents (Elt F) → (⟨S4x12000x32x1, .i32⟩ : BufTy).Contents (Elt F) → (⟨S4x12000x32x1, .i1⟩ : BufTy).Contents (Elt F)),
    unary main_v36 main_v37 (uitofp .f32 : (⟨S4x12000x32x1, .i1⟩ : BufTy).Contents (Elt F) → (⟨S4x12000x32x1, .f32⟩ : BufTy).Contents (Elt F)),
    unary main_v37 main_v38 (broadcastInDim S4x12000x32x9 ![0, 1, 2, 3] bcast_S4x12000x32x1_S4x12000x32x9_0_1_2_3 : (⟨S4x12000x32x1, .f32⟩ : BufTy).Contents (Elt F) → (⟨S4x12000x32x9, .f32⟩ : BufTy).Contents (Elt F)),
    binary main_v30 main_v38 main_v39 (mulf : (⟨S4x12000x32x9, .f32⟩ : BufTy).Contents (Elt F) → (⟨S4x12000x32x9, .f32⟩ : BufTy).Contents (Elt F) → (⟨S4x12000x32x9, .f32⟩ : BufTy).Contents (Elt F)),
    binary main_v39 main_arg3 main_v40 ((fun l r => Host.dotGeneral dot_S4x12000x32x9_S9x64_S4x12000x32x64_3_0_012_1_n_n none l r) : (⟨S4x12000x32x9, .f32⟩ : BufTy).Contents (Elt F) → (⟨S9x64, .f32⟩ : BufTy).Contents (Elt F) → (⟨S4x12000x32x64, .f32⟩ : BufTy).Contents (Elt F)) ]

/-- The first layer's statistics: the channel means and the sums of squared deviations. (Operations 50 … 60 of 118; a called function's operations stand in its call's place.) -/
abbrev opsC1 : List (HloOp τ sig (Elt F)) :=
  [ nullary main_cst_6 (constant S_ .f32 0x00000000#32),
    binary main_v40 main_cst_6 main_v41 ((fun x v => Host.reduceAdd x v reducesTo_S4x12000x32x64_S64_d0_1_2 h_S_) : (⟨S4x12000x32x64, .f32⟩ : BufTy).Contents (Elt F) → (⟨S_, .f32⟩ : BufTy).Contents (Elt F) → (⟨S64, .f32⟩ : BufTy).Contents (Elt F)),
    nullary main_cst_7 (constant S_ .f32 0x49BB8000#32),
    unary main_cst_7 main_v42 (broadcastInDim S64 ![] bcast_S_S64 : (⟨S_, .f32⟩ : BufTy).Contents (Elt F) → (⟨S64, .f32⟩ : BufTy).Contents (Elt F)),
    binary main_v41 main_v42 main_v43 (Host.divf : (⟨S64, .f32⟩ : BufTy).Contents (Elt F) → (⟨S64, .f32⟩ : BufTy).Contents (Elt F) → (⟨S64, .f32⟩ : BufTy).Contents (Elt F)),
    unary main_v43 main_v44 (broadcastInDim S1x1x1x64 ![3] bcast_S64_S1x1x1x64_3 : (⟨S64, .f32⟩ : BufTy).Contents (Elt F) → (⟨S1x1x1x64, .f32⟩ : BufTy).Contents (Elt F)),
    unary main_v44 main_v45 (broadcastInDim S4x12000x32x64 ![0, 1, 2, 3] bcast_S1x1x1x64_S4x12000x32x64_0_1_2_3 : (⟨S1x1x1x64, .f32⟩ : BufTy).Contents (Elt F) → (⟨S4x12000x32x64, .f32⟩ : BufTy).Contents (Elt F)),
    binary main_v40 main_v45 main_v46 (subf : (⟨S4x12000x32x64, .f32⟩ : BufTy).Contents (Elt F) → (⟨S4x12000x32x64, .f32⟩ : BufTy).Contents (Elt F) → (⟨S4x12000x32x64, .f32⟩ : BufTy).Contents (Elt F)),
    binary main_v46 main_v46 main_v47 (mulf : (⟨S4x12000x32x64, .f32⟩ : BufTy).Contents (Elt F) → (⟨S4x12000x32x64, .f32⟩ : BufTy).Contents (Elt F) → (⟨S4x12000x32x64, .f32⟩ : BufTy).Contents (Elt F)),
    nullary main_cst_8 (constant S_ .f32 0x00000000#32),
    binary main_v47 main_cst_8 main_v48 ((fun x v => Host.reduceAdd x v reducesTo_S4x12000x32x64_S64_d0_1_2 h_S_) : (⟨S4x12000x32x64, .f32⟩ : BufTy).Contents (Elt F) → (⟨S_, .f32⟩ : BufTy).Contents (Elt F) → (⟨S64, .f32⟩ : BufTy).Contents (Elt F)) ]

/-- The first layer's variances. (Operations 61 … 63 of 118; a called function's operations stand in its call's place.) -/
abbrev opsC2 : List (HloOp τ sig (Elt F)) :=
  [ nullary main_cst_9 (constant S_ .f32 0x49BB8000#32),
    unary main_cst_9 main_v49 (broadcastInDim S64 ![] bcast_S_S64 : (⟨S_, .f32⟩ : BufTy).Contents (Elt F) → (⟨S64, .f32⟩ : BufTy).Contents (Elt F)),
    binary main_v48 main_v49 main_v50 (Host.divf : (⟨S64, .f32⟩ : BufTy).Contents (Elt F) → (⟨S64, .f32⟩ : BufTy).Contents (Elt F) → (⟨S64, .f32⟩ : BufTy).Contents (Elt F)) ]

/-- The first layer's normalisation, scale, shift and rectification. (Operations 64 … 82 of 118; a called function's operations stand in its call's place.) -/
abbrev opsD : List (HloOp τ sig (Elt F)) :=
  [ unary main_v43 main_v51 (broadcastInDim S1x1x1x64 ![3] bcast_S64_S1x1x1x64_3 : (⟨S64, .f32⟩ : BufTy).Contents (Elt F) → (⟨S1x1x1x64, .f32⟩ : BufTy).Contents (Elt F)),
    unary main_v51 main_v52 (broadcastInDim S4x12000x32x64 ![0, 1, 2, 3] bcast_S1x1x1x64_S4x12000x32x64_0_1_2_3 : (⟨S1x1x1x64, .f32⟩ : BufTy).Contents (Elt F) → (⟨S4x12000x32x64, .f32⟩ : BufTy).Contents (Elt F)),
    binary main_v40 main_v52 main_v53 (subf : (⟨S4x12000x32x64, .f32⟩ : BufTy).Contents (Elt F) → (⟨S4x12000x32x64, .f32⟩ : BufTy).Contents (Elt F) → (⟨S4x12000x32x64, .f32⟩ : BufTy).Contents (Elt F)),
    nullary main_cst_10 (constant S_ .f32 0x3A83126F#32),
    unary main_cst_10 main_v54 (broadcastInDim S64 ![] bcast_S_S64 : (⟨S_, .f32⟩ : BufTy).Contents (Elt F) → (⟨S64, .f32⟩ : BufTy).Contents (Elt F)),
    binary main_v50 main_v54 main_v55 (addf : (⟨S64, .f32⟩ : BufTy).Contents (Elt F) → (⟨S64, .f32⟩ : BufTy).Contents (Elt F) → (⟨S64, .f32⟩ : BufTy).Contents (Elt F)),
    unary main_v55 main_v56 (Host.rsqrt : (⟨S64, .f32⟩ : BufTy).Contents (Elt F) → (⟨S64, .f32⟩ : BufTy).Contents (Elt F)),
    unary main_v56 main_v57 (broadcastInDim S1x1x1x64 ![3] bcast_S64_S1x1x1x64_3 : (⟨S64, .f32⟩ : BufTy).Contents (Elt F) → (⟨S1x1x1x64, .f32⟩ : BufTy).Contents (Elt F)),
    unary main_v57 main_v58 (broadcastInDim S4x12000x32x64 ![0, 1, 2, 3] bcast_S1x1x1x64_S4x12000x32x64_0_1_2_3 : (⟨S1x1x1x64, .f32⟩ : BufTy).Contents (Elt F) → (⟨S4x12000x32x64, .f32⟩ : BufTy).Contents (Elt F)),
    binary main_v53 main_v58 main_v59 (mulf : (⟨S4x12000x32x64, .f32⟩ : BufTy).Contents (Elt F) → (⟨S4x12000x32x64, .f32⟩ : BufTy).Contents (Elt F) → (⟨S4x12000x32x64, .f32⟩ : BufTy).Contents (Elt F)),
    unary main_arg4 main_v60 (broadcastInDim S1x1x1x64 ![3] bcast_S64_S1x1x1x64_3 : (⟨S64, .f32⟩ : BufTy).Contents (Elt F) → (⟨S1x1x1x64, .f32⟩ : BufTy).Contents (Elt F)),
    unary main_v60 main_v61 (broadcastInDim S4x12000x32x64 ![0, 1, 2, 3] bcast_S1x1x1x64_S4x12000x32x64_0_1_2_3 : (⟨S1x1x1x64, .f32⟩ : BufTy).Contents (Elt F) → (⟨S4x12000x32x64, .f32⟩ : BufTy).Contents (Elt F)),
    binary main_v59 main_v61 main_v62 (mulf : (⟨S4x12000x32x64, .f32⟩ : BufTy).Contents (Elt F) → (⟨S4x12000x32x64, .f32⟩ : BufTy).Contents (Elt F) → (⟨S4x12000x32x64, .f32⟩ : BufTy).Contents (Elt F)),
    unary main_arg5 main_v63 (broadcastInDim S1x1x1x64 ![3] bcast_S64_S1x1x1x64_3 : (⟨S64, .f32⟩ : BufTy).Contents (Elt F) → (⟨S1x1x1x64, .f32⟩ : BufTy).Contents (Elt F)),
    unary main_v63 main_v64 (broadcastInDim S4x12000x32x64 ![0, 1, 2, 3] bcast_S1x1x1x64_S4x12000x32x64_0_1_2_3 : (⟨S1x1x1x64, .f32⟩ : BufTy).Contents (Elt F) → (⟨S4x12000x32x64, .f32⟩ : BufTy).Contents (Elt F)),
    binary main_v62 main_v64 main_v65 (addf : (⟨S4x12000x32x64, .f32⟩ : BufTy).Contents (Elt F) → (⟨S4x12000x32x64, .f32⟩ : BufTy).Contents (Elt F) → (⟨S4x12000x32x64, .f32⟩ : BufTy).Contents (Elt F)),
    TRef.nullary main_call0.cst (constant S_ .f32 0x00000000#32),
    TRef.unary main_call0.cst main_call0.v0 (broadcastInDim S4x12000x32x64 ![] bcast_S_S4x12000x32x64),
    TRef.binary (.of main_v65) main_call0.v0 main_call0.v1 maximumf ]

/-- The second linear layer and its statistics. (Operations 83 … 97 of 118; a called function's operations stand in its call's place.) -/
abbrev opsE : List (HloOp τ sig (Elt F)) :=
  [ binary main_v66 main_arg6 main_v67 ((fun l r => Host.dotGeneral dot_S4x12000x32x64_S64x64_S4x12000x32x64_3_0_012_1_n_n none l r) : (⟨S4x12000x32x64, .f32⟩ : BufTy).Contents (Elt F) → (⟨S64x64, .f32⟩ : BufTy).Contents (Elt F) → (⟨S4x12000x32x64, .f32⟩ : BufTy).Contents (Elt F)),
    nullary main_cst_11 (constant S_ .f32 0x00000000#32),
    binary main_v67 main_cst_11 main_v68 ((fun x v => Host.reduceAdd x v reducesTo_S4x12000x32x64_S64_d0_1_2 h_S_) : (⟨S4x12000x32x64, .f32⟩ : BufTy).Contents (Elt F) → (⟨S_, .f32⟩ : BufTy).Contents (Elt F) → (⟨S64, .f32⟩ : BufTy).Contents (Elt F)),
    nullary main_cst_12 (constant S_ .f32 0x49BB8000#32),
    unary main_cst_12 main_v69 (broadcastInDim S64 ![] bcast_S_S64 : (⟨S_, .f32⟩ : BufTy).Contents (Elt F) → (⟨S64, .f32⟩ : BufTy).Contents (Elt F)),
    binary main_v68 main_v69 main_v70 (Host.divf : (⟨S64, .f32⟩ : BufTy).Contents (Elt F) → (⟨S64, .f32⟩ : BufTy).Contents (Elt F) → (⟨S64, .f32⟩ : BufTy).Contents (Elt F)),
    unary main_v70 main_v71 (broadcastInDim S1x1x1x64 ![3] bcast_S64_S1x1x1x64_3 : (⟨S64, .f32⟩ : BufTy).Contents (Elt F) → (⟨S1x1x1x64, .f32⟩ : BufTy).Contents (Elt F)),
    unary main_v71 main_v72 (broadcastInDim S4x12000x32x64 ![0, 1, 2, 3] bcast_S1x1x1x64_S4x12000x32x64_0_1_2_3 : (⟨S1x1x1x64, .f32⟩ : BufTy).Contents (Elt F) → (⟨S4x12000x32x64, .f32⟩ : BufTy).Contents (Elt F)),
    binary main_v67 main_v72 main_v73 (subf : (⟨S4x12000x32x64, .f32⟩ : BufTy).Contents (Elt F) → (⟨S4x12000x32x64, .f32⟩ : BufTy).Contents (Elt F) → (⟨S4x12000x32x64, .f32⟩ : BufTy).Contents (Elt F)),
    binary main_v73 main_v73 main_v74 (mulf : (⟨S4x12000x32x64, .f32⟩ : BufTy).Contents (Elt F) → (⟨S4x12000x32x64, .f32⟩ : BufTy).Contents (Elt F) → (⟨S4x12000x32x64, .f32⟩ : BufTy).Contents (Elt F)),
    nullary main_cst_13 (constant S_ .f32 0x00000000#32),
    binary main_v74 main_cst_13 main_v75 ((fun x v => Host.reduceAdd x v reducesTo_S4x12000x32x64_S64_d0_1_2 h_S_) : (⟨S4x12000x32x64, .f32⟩ : BufTy).Contents (Elt F) → (⟨S_, .f32⟩ : BufTy).Contents (Elt F) → (⟨S64, .f32⟩ : BufTy).Contents (Elt F)),
    nullary main_cst_14 (constant S_ .f32 0x49BB8000#32),
    unary main_cst_14 main_v76 (broadcastInDim S64 ![] bcast_S_S64 : (⟨S_, .f32⟩ : BufTy).Contents (Elt F) → (⟨S64, .f32⟩ : BufTy).Contents (Elt F)),
    binary main_v75 main_v76 main_v77 (Host.divf : (⟨S64, .f32⟩ : BufTy).Contents (Elt F) → (⟨S64, .f32⟩ : BufTy).Contents (Elt F) → (⟨S64, .f32⟩ : BufTy).Contents (Elt F)) ]

/-- The second layer's normalisation, scale, shift and rectification. (Operations 98 … 116 of 118; a called function's operations stand in its call's place.) -/
abbrev opsF : List (HloOp τ sig (Elt F)) :=
  [ unary main_v70 main_v78 (broadcastInDim S1x1x1x64 ![3] bcast_S64_S1x1x1x64_3 : (⟨S64, .f32⟩ : BufTy).Contents (Elt F) → (⟨S1x1x1x64, .f32⟩ : BufTy).Contents (Elt F)),
    unary main_v78 main_v79 (broadcastInDim S4x12000x32x64 ![0, 1, 2, 3] bcast_S1x1x1x64_S4x12000x32x64_0_1_2_3 : (⟨S1x1x1x64, .f32⟩ : BufTy).Contents (Elt F) → (⟨S4x12000x32x64, .f32⟩ : BufTy).Contents (Elt F)),
    binary main_v67 main_v79 main_v80 (subf : (⟨S4x12000x32x64, .f32⟩ : BufTy).Contents (Elt F) → (⟨S4x12000x32x64, .f32⟩ : BufTy).Contents (Elt F) → (⟨S4x12000x32x64, .f32⟩ : BufTy).Contents (Elt F)),
    nullary main_cst_15 (constant S_ .f32 0x3A83126F#32),
    unary main_cst_15 main_v81 (broadcastInDim S64 ![] bcast_S_S64 : (⟨S_, .f32⟩ : BufTy).Contents (Elt F) → (⟨S64, .f32⟩ : BufTy).Contents (Elt F)),
    binary main_v77 main_v81 main_v82 (addf : (⟨S64, .f32⟩ : BufTy).Contents (Elt F) → (⟨S64, .f32⟩ : BufTy).Contents (Elt F) → (⟨S64, .f32⟩ : BufTy).Contents (Elt F)),
    unary main_v82 main_v83 (Host.rsqrt : (⟨S64, .f32⟩ : BufTy).Contents (Elt F) → (⟨S64, .f32⟩ : BufTy).Contents (Elt F)),
    unary main_v83 main_v84 (broadcastInDim S1x1x1x64 ![3] bcast_S64_S1x1x1x64_3 : (⟨S64, .f32⟩ : BufTy).Contents (Elt F) → (⟨S1x1x1x64, .f32⟩ : BufTy).Contents (Elt F)),
    unary main_v84 main_v85 (broadcastInDim S4x12000x32x64 ![0, 1, 2, 3] bcast_S1x1x1x64_S4x12000x32x64_0_1_2_3 : (⟨S1x1x1x64, .f32⟩ : BufTy).Contents (Elt F) → (⟨S4x12000x32x64, .f32⟩ : BufTy).Contents (Elt F)),
    binary main_v80 main_v85 main_v86 (mulf : (⟨S4x12000x32x64, .f32⟩ : BufTy).Contents (Elt F) → (⟨S4x12000x32x64, .f32⟩ : BufTy).Contents (Elt F) → (⟨S4x12000x32x64, .f32⟩ : BufTy).Contents (Elt F)),
    unary main_arg7 main_v87 (broadcastInDim S1x1x1x64 ![3] bcast_S64_S1x1x1x64_3 : (⟨S64, .f32⟩ : BufTy).Contents (Elt F) → (⟨S1x1x1x64, .f32⟩ : BufTy).Contents (Elt F)),
    unary main_v87 main_v88 (broadcastInDim S4x12000x32x64 ![0, 1, 2, 3] bcast_S1x1x1x64_S4x12000x32x64_0_1_2_3 : (⟨S1x1x1x64, .f32⟩ : BufTy).Contents (Elt F) → (⟨S4x12000x32x64, .f32⟩ : BufTy).Contents (Elt F)),
    binary main_v86 main_v88 main_v89 (mulf : (⟨S4x12000x32x64, .f32⟩ : BufTy).Contents (Elt F) → (⟨S4x12000x32x64, .f32⟩ : BufTy).Contents (Elt F) → (⟨S4x12000x32x64, .f32⟩ : BufTy).Contents (Elt F)),
    unary main_arg8 main_v90 (broadcastInDim S1x1x1x64 ![3] bcast_S64_S1x1x1x64_3 : (⟨S64, .f32⟩ : BufTy).Contents (Elt F) → (⟨S1x1x1x64, .f32⟩ : BufTy).Contents (Elt F)),
    unary main_v90 main_v91 (broadcastInDim S4x12000x32x64 ![0, 1, 2, 3] bcast_S1x1x1x64_S4x12000x32x64_0_1_2_3 : (⟨S1x1x1x64, .f32⟩ : BufTy).Contents (Elt F) → (⟨S4x12000x32x64, .f32⟩ : BufTy).Contents (Elt F)),
    binary main_v89 main_v91 main_v92 (addf : (⟨S4x12000x32x64, .f32⟩ : BufTy).Contents (Elt F) → (⟨S4x12000x32x64, .f32⟩ : BufTy).Contents (Elt F) → (⟨S4x12000x32x64, .f32⟩ : BufTy).Contents (Elt F)),
    TRef.nullary main_call1.cst (constant S_ .f32 0x00000000#32),
    TRef.unary main_call1.cst main_call1.v0 (broadcastInDim S4x12000x32x64 ![] bcast_S_S4x12000x32x64),
    TRef.binary (.of main_v92) main_call1.v0 main_call1.v1 maximumf ]

/-- The maximum over the points. (Operations 117 … 118 of 118; a called function's operations stand in its call's place.) -/
abbrev opsG : List (HloOp τ sig (Elt F)) :=
  [ nullary main_cst_16 (constant S_ .f32 0xFF800000#32),
    binary main_v93 main_cst_16 main_v94 ((fun x v => Host.reduce FloatOps.maximumf x v reducesTo_S4x12000x32x64_S4x12000x64_d2 h_S_) : (⟨S4x12000x32x64, .f32⟩ : BufTy).Contents (Elt F) → (⟨S_, .f32⟩ : BufTy).Contents (Elt F) → (⟨S4x12000x64, .f32⟩ : BufTy).Contents (Elt F)) ]

/-- @main's 118 operations, in order. -/
abbrev ops : List (HloOp τ sig (Elt F)) :=
  opsA ++ (opsB ++ (opsC1 ++ (opsC2 ++ (opsD ++ (opsE ++ (opsF ++ opsG))))))

/-! ## @main is that line -/

set_option maxRecDepth 8192 in
set_option maxHeartbeats 4000000 in
theorem main_part0_eq (c : Dev nD) : main_part0 (F := F) c = seq (opsA ++ (opsB ++ opsC1)) := rfl

set_option maxRecDepth 8192 in
set_option maxHeartbeats 4000000 in
theorem main_part1_eq (c : Dev nD) :
    main_part1 (F := F) c = seq (opsC2 ++ (opsD ++ (opsE ++ (opsF ++ opsG)))) := rfl

theorem main_eq (c : Dev nD) : main (F := F) c = seq ops := by
  have e : (ops : List (HloOp τ sig (Elt F)))
      = (opsA ++ (opsB ++ opsC1)) ++ (opsC2 ++ (opsD ++ (opsE ++ (opsF ++ opsG)))) := by
    simp only [ops, List.append_assoc]
  rw [e, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., nullary_bufs_sub .., nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., unary_bufs_sub .., unary_bufs_sub .., nary_bufs_sub ..⟩
theorem opsB_sub : (opsB : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub .., unary_bufs_sub .., binary_bufs_sub .., binary_bufs_sub ..⟩
theorem opsC1_sub : (opsC1 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub ..⟩
theorem opsC2_sub : (opsC2 : List (HloOp τ sig (Elt F))).Forall fun op => op.bufs ⊆ tcRefs τ sig :=
  ⟨nullary_bufs_sub .., unary_bufs_sub .., binary_bufs_sub ..⟩
theorem opsD_sub : (opsD : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem opsE_sub : (opsE : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub ..⟩
theorem opsF_sub : (opsF : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem opsG_sub : (opsG : List (HloOp τ sig (Elt F))).Forall fun op => op.bufs ⊆ tcRefs τ sig :=
  ⟨nullary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp opsA_sub op h, List.forall_iff_forall_mem.mp opsB_sub op h, List.forall_iff_forall_mem.mp opsC1_sub op h, List.forall_iff_forall_mem.mp opsC2_sub op h, List.forall_iff_forall_mem.mp opsD_sub op h, List.forall_iff_forall_mem.mp opsE_sub op h, List.forall_iff_forall_mem.mp opsF_sub op h, List.forall_iff_forall_mem.mp opsG_sub op h]

/-! ## Each stretch read from arbitrary contents -/

/-- The buffers the stretch `opsA` writes. -/
abbrev opsA_W : List (Ref sig .tc) := [main_c, main_cst, main_cst_0, main_v0, main_v1, main_c_1, main_v2, main_v3, main_c_2, main_v4, main_v5, main_v6, main_v7, main_v8, main_v9, main_cst_3, main_v10, main_v11, main_v12, main_v13, main_v14, main_v15, main_v16, main_v17, main_v18, main_v19, main_v20, main_v21, main_v22, main_cst_4, main_v23, main_v24, main_cst_5, main_v25, main_v26, main_v27, main_v28, main_v29, main_v30]
theorem opsA_writes : (opsA : List (HloOp τ sig (Elt F))).Forall fun op =>
    op.writes ⊆ (opsA_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
/-- A buffer the stretch does not write keeps its contents through it. -/
theorem opsA_keep (W : Valuation τ sig (Elt F)) (r : Ref sig .tc) (h : r ∉ opsA_W) :
    after opsA W (Proc.devRef .tc r) = W (Proc.devRef .tc r) :=
  after_of_writes_sub opsA _ opsA_writes h
theorem opsA_main_v30 (W : Valuation τ sig (Elt F)) :
    after opsA W (Proc.devRef .tc main_v30) = feat9 (W (Proc.devRef .tc main_arg0)) (W (Proc.devRef .tc main_arg1)) := by
  simp only [opsA]
  after_results_simp
  rfl

/-- The buffers the stretch `opsB` writes. -/
abbrev opsB_W : List (Ref sig .tc) := [main_v31, main_v32, main_v33, main_v34, main_v35, main_v36, main_v37, main_v38, main_v39, main_v40]
theorem opsB_writes : (opsB : List (HloOp τ sig (Elt F))).Forall fun op =>
    op.writes ⊆ (opsB_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
/-- A buffer the stretch does not write keeps its contents through it. -/
theorem opsB_keep (W : Valuation τ sig (Elt F)) (r : Ref sig .tc) (h : r ∉ opsB_W) :
    after opsB W (Proc.devRef .tc r) = W (Proc.devRef .tc r) :=
  after_of_writes_sub opsB _ opsB_writes h
theorem opsB_main_v40 (W : Valuation τ sig (Elt F)) :
    after opsB W (Proc.devRef .tc main_v40) = lin1 (W (Proc.devRef .tc main_v30)) (W (Proc.devRef .tc main_arg2)) (W (Proc.devRef .tc main_arg3)) := by
  simp only [opsB]
  after_results_simp
  rfl

/-- The buffers the stretch `opsC1` writes. -/
abbrev opsC1_W : List (Ref sig .tc) := [main_cst_6, main_v41, main_cst_7, main_v42, main_v43, main_v44, main_v45, main_v46, main_v47, main_cst_8, main_v48]
theorem opsC1_writes : (opsC1 : List (HloOp τ sig (Elt F))).Forall fun op =>
    op.writes ⊆ (opsC1_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
/-- A buffer the stretch does not write keeps its contents through it. -/
theorem opsC1_keep (W : Valuation τ sig (Elt F)) (r : Ref sig .tc) (h : r ∉ opsC1_W) :
    after opsC1 W (Proc.devRef .tc r) = W (Proc.devRef .tc r) :=
  after_of_writes_sub opsC1 _ opsC1_writes h
theorem opsC1_main_v43 (W : Valuation τ sig (Elt F)) :
    after opsC1 W (Proc.devRef .tc main_v43) = chanMean (W (Proc.devRef .tc main_v40)) := by
  simp only [opsC1]
  after_results_simp
  rfl
theorem opsC1_main_v48 (W : Valuation τ sig (Elt F)) :
    after opsC1 W (Proc.devRef .tc main_v48) = chanSS (W (Proc.devRef .tc main_v40)) := by
  simp only [opsC1]
  after_results_simp
  rfl

/-- The buffers the stretch `opsC2` writes. -/
abbrev opsC2_W : List (Ref sig .tc) := [main_cst_9, main_v49, main_v50]
theorem opsC2_writes : (opsC2 : List (HloOp τ sig (Elt F))).Forall fun op =>
    op.writes ⊆ (opsC2_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
/-- A buffer the stretch does not write keeps its contents through it. -/
theorem opsC2_keep (W : Valuation τ sig (Elt F)) (r : Ref sig .tc) (h : r ∉ opsC2_W) :
    after opsC2 W (Proc.devRef .tc r) = W (Proc.devRef .tc r) :=
  after_of_writes_sub opsC2 _ opsC2_writes h
theorem opsC2_main_v50 (W : Valuation τ sig (Elt F)) :
    after opsC2 W (Proc.devRef .tc main_v50) = Host.divf (W (Proc.devRef .tc main_v48)) countB := by
  simp only [opsC2]
  after_results_simp
  rfl

/-- The buffers the stretch `opsD` writes. -/
abbrev opsD_W : List (Ref sig .tc) := [main_v51, main_v52, main_v53, main_cst_10, main_v54, main_v55, main_v56, main_v57, main_v58, main_v59, main_v60, main_v61, main_v62, main_v63, main_v64, main_v65, main_call0_cst, main_call0_v0, main_v66]
theorem opsD_writes : (opsD : List (HloOp τ sig (Elt F))).Forall fun op =>
    op.writes ⊆ (opsD_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
/-- A buffer the stretch does not write keeps its contents through it. -/
theorem opsD_keep (W : Valuation τ sig (Elt F)) (r : Ref sig .tc) (h : r ∉ opsD_W) :
    after opsD W (Proc.devRef .tc r) = W (Proc.devRef .tc r) :=
  after_of_writes_sub opsD _ opsD_writes h
theorem opsD_main_v66 (W : Valuation τ sig (Elt F)) :
    after opsD W (Proc.devRef .tc main_v66) = normRelu (W (Proc.devRef .tc main_v40)) (W (Proc.devRef .tc main_v43)) (W (Proc.devRef .tc main_v50)) (W (Proc.devRef .tc main_arg4)) (W (Proc.devRef .tc main_arg5)) := by
  simp only [opsD]
  after_results_simp
  rfl

/-- The buffers the stretch `opsE` writes. -/
abbrev opsE_W : List (Ref sig .tc) := [main_v67, main_cst_11, main_v68, main_cst_12, main_v69, main_v70, main_v71, main_v72, main_v73, main_v74, main_cst_13, main_v75, main_cst_14, main_v76, main_v77]
theorem opsE_writes : (opsE : List (HloOp τ sig (Elt F))).Forall fun op =>
    op.writes ⊆ (opsE_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
/-- A buffer the stretch does not write keeps its contents through it. -/
theorem opsE_keep (W : Valuation τ sig (Elt F)) (r : Ref sig .tc) (h : r ∉ opsE_W) :
    after opsE W (Proc.devRef .tc r) = W (Proc.devRef .tc r) :=
  after_of_writes_sub opsE _ opsE_writes h
theorem opsE_main_v67 (W : Valuation τ sig (Elt F)) :
    after opsE W (Proc.devRef .tc main_v67) = lin2 (W (Proc.devRef .tc main_v66)) (W (Proc.devRef .tc main_arg6)) := by
  simp only [opsE]
  after_results_simp
  rfl
theorem opsE_main_v70 (W : Valuation τ sig (Elt F)) :
    after opsE W (Proc.devRef .tc main_v70) = chanMean (lin2 (W (Proc.devRef .tc main_v66)) (W (Proc.devRef .tc main_arg6))) := by
  simp only [opsE]
  after_results_simp
  rfl
theorem opsE_main_v77 (W : Valuation τ sig (Elt F)) :
    after opsE W (Proc.devRef .tc main_v77) = chanVar (lin2 (W (Proc.devRef .tc main_v66)) (W (Proc.devRef .tc main_arg6))) := by
  simp only [opsE]
  after_results_simp
  rfl

/-- The buffers the stretch `opsF` writes. -/
abbrev opsF_W : List (Ref sig .tc) := [main_v78, main_v79, main_v80, main_cst_15, main_v81, main_v82, main_v83, main_v84, main_v85, main_v86, main_v87, main_v88, main_v89, main_v90, main_v91, main_v92, main_call1_cst, main_call1_v0, main_v93]
theorem opsF_writes : (opsF : List (HloOp τ sig (Elt F))).Forall fun op =>
    op.writes ⊆ (opsF_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
/-- A buffer the stretch does not write keeps its contents through it. -/
theorem opsF_keep (W : Valuation τ sig (Elt F)) (r : Ref sig .tc) (h : r ∉ opsF_W) :
    after opsF W (Proc.devRef .tc r) = W (Proc.devRef .tc r) :=
  after_of_writes_sub opsF _ opsF_writes h
theorem opsF_main_v93 (W : Valuation τ sig (Elt F)) :
    after opsF W (Proc.devRef .tc main_v93) = normRelu (W (Proc.devRef .tc main_v67)) (W (Proc.devRef .tc main_v70)) (W (Proc.devRef .tc main_v77)) (W (Proc.devRef .tc main_arg7)) (W (Proc.devRef .tc main_arg8)) := by
  simp only [opsF]
  after_results_simp
  rfl

/-- The buffers the stretch `opsG` writes. -/
abbrev opsG_W : List (Ref sig .tc) := [main_cst_16, main_v94]
theorem opsG_writes : (opsG : List (HloOp τ sig (Elt F))).Forall fun op =>
    op.writes ⊆ (opsG_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
/-- A buffer the stretch does not write keeps its contents through it. -/
theorem opsG_keep (W : Valuation τ sig (Elt F)) (r : Ref sig .tc) (h : r ∉ opsG_W) :
    after opsG W (Proc.devRef .tc r) = W (Proc.devRef .tc r) :=
  after_of_writes_sub opsG _ opsG_writes h
theorem opsG_main_v94 (W : Valuation τ sig (Elt F)) :
    after opsG W (Proc.devRef .tc main_v94) = maxPts (W (Proc.devRef .tc main_v93)) := by
  simp only [opsG]
  after_results_simp
  rfl

/-! ## The stretches chained -/

theorem after_ops (V : Valuation τ sig (Elt F)) :
    after ops V
      = after opsG (after opsF (after opsE (after opsD (after opsC2 (after opsC1 (after opsB (after opsA V))))))) := by
  simp only [ops, after_append]

/-- A buffer no stretch writes keeps its launch contents through the whole line. -/
theorem after_keep (V : Valuation τ sig (Elt F)) (r : Ref sig .tc)
    (hA : r ∉ opsA_W) (hB : r ∉ opsB_W) (hC1 : r ∉ opsC1_W) (hC2 : r ∉ opsC2_W)
    (hD : r ∉ opsD_W) (hE : r ∉ opsE_W) (hF : r ∉ opsF_W) (hG : r ∉ opsG_W) :
    after ops V (Proc.devRef .tc r) = V (Proc.devRef .tc r) := by
  rw [after_ops, opsG_keep _ r hG, opsF_keep _ r hF, opsE_keep _ r hE, opsD_keep _ r hD, opsC2_keep _ r hC2,
    opsC1_keep _ r hC1, opsB_keep _ r hB, opsA_keep _ r hA]

/-- The whole line read from arbitrary contents: the result buffer holds the network's term of the
    argument buffers' contents. -/
theorem after_result (V : Valuation τ sig (Elt F)) :
    after ops V (Proc.devRef .tc main_v94)
      = refTerm (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) (V (Proc.devRef .tc main_arg8)) := by
  rw [after_ops, opsG_main_v94, opsF_main_v93,
    opsE_main_v67, opsE_main_v70, opsE_main_v77, opsE_keep _ main_arg7 (by decide), opsE_keep _ main_arg8 (by decide),
    opsD_main_v66, opsD_keep _ main_arg6 (by decide), opsD_keep _ main_arg7 (by decide), opsD_keep _ main_arg8 (by decide),
    opsC2_main_v50, opsC2_keep _ main_v40 (by decide), opsC2_keep _ main_v43 (by decide), opsC2_keep _ main_arg4 (by decide), opsC2_keep _ main_arg5 (by decide), opsC2_keep _ main_arg6 (by decide), opsC2_keep _ main_arg7 (by decide), opsC2_keep _ main_arg8 (by decide),
    opsC1_main_v43, opsC1_main_v48, opsC1_keep _ main_v40 (by decide), opsC1_keep _ main_arg4 (by decide), opsC1_keep _ main_arg5 (by decide), opsC1_keep _ main_arg6 (by decide), opsC1_keep _ main_arg7 (by decide), opsC1_keep _ main_arg8 (by decide),
    opsB_main_v40, opsB_keep _ main_arg4 (by decide), opsB_keep _ main_arg5 (by decide), opsB_keep _ main_arg6 (by decide), opsB_keep _ main_arg7 (by decide), opsB_keep _ main_arg8 (by decide),
    opsA_main_v30, opsA_keep _ main_arg2 (by decide), opsA_keep _ main_arg3 (by decide), opsA_keep _ main_arg4 (by decide), opsA_keep _ main_arg5 (by decide), opsA_keep _ main_arg6 (by decide), opsA_keep _ main_arg7 (by decide), opsA_keep _ main_arg8 (by decide)]
  rfl

/-! ## The run -/

set_option maxRecDepth 8192 in
/-- On every device, for any float values, from any memory with zero counters: every weakly fair
    execution of @main terminates with the result buffer at the network's term of the arguments'
    launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v94)
          = refTerm (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v94).trans (after_result (launchContents m c)),
      (h c main_arg0).trans (after_keep (launchContents m c) main_arg0 (by decide) (by decide) (by decide) (by decide) (by decide) (by decide) (by decide) (by decide)),
      (h c main_arg1).trans (after_keep (launchContents m c) main_arg1 (by decide) (by decide) (by decide) (by decide) (by decide) (by decide) (by decide) (by decide)),
      (h c main_arg2).trans (after_keep (launchContents m c) main_arg2 (by decide) (by decide) (by decide) (by decide) (by decide) (by decide) (by decide) (by decide)),
      (h c main_arg3).trans (after_keep (launchContents m c) main_arg3 (by decide) (by decide) (by decide) (by decide) (by decide) (by decide) (by decide) (by decide)),
      (h c main_arg4).trans (after_keep (launchContents m c) main_arg4 (by decide) (by decide) (by decide) (by decide) (by decide) (by decide) (by decide) (by decide)),
      (h c main_arg5).trans (after_keep (launchContents m c) main_arg5 (by decide) (by decide) (by decide) (by decide) (by decide) (by decide) (by decide) (by decide)),
      (h c main_arg6).trans (after_keep (launchContents m c) main_arg6 (by decide) (by decide) (by decide) (by decide) (by decide) (by decide) (by decide) (by decide)),
      (h c main_arg7).trans (after_keep (launchContents m c) main_arg7 (by decide) (by decide) (by decide) (by decide) (by decide) (by decide) (by decide) (by decide)),
      (h c main_arg8).trans (after_keep (launchContents m c) main_arg8 (by decide) (by decide) (by decide) (by decide) (by decide) (by decide) (by decide) (by decide))⟩)
    (run_seq scopedRefs_eq scopedSems_eq defs main (fun _ => ops) main_eq (fun _ => ops_sub) m ρ)

/-- The reference runs (terminates, no fault) and its argument arrays end unchanged: its run with
    the result dropped. -/
theorem frame : Cert.frame_ReferenceIdeal :=
  fun m ρ _ => (θ_run (Cert.ReferenceIdeal.defs (F := Ideal)) _ _).mono (fun _ h c => (h c).2) (run (F := Ideal) m ρ)

end Cert.ReferenceIdeal.RefRun

end
-- ==== Proof.Finite.lean ====
/-
  Every float input that passes the finiteness predicate is a real number: the predicate is the
  conjunction, over the seven float arrays, of "every |x| is below +infinity", and an extended real
  whose absolute value is below +infinity is a real.
-/
import proofs.«172073_j52536039964809_2_alg».proof.Proof.Gen.Pre_finite_inputs
import Idealize.ShloMosaic.Lib.ReduceAll
import Idealize.ShloMosaic.Lib.ValueIdx
import Idealize.ShloMosaic.PureOps.Ideal

noncomputable section

namespace Cert.Proof.Finite

open Idealize.ShloMosaic Cert.Pre_finite_inputs

/-- The rank-0 shape has one index. -/
instance subsingleton_scalarIdx : Subsingleton S_.Idx := ⟨fun a b => funext fun d => d.elim0⟩

/-- The f32 pattern 0x7F800000 denotes +infinity. -/
theorem ofBits_inf : Ideal.ofBits .f32 0x7F800000#32 = (⊤ : EReal) := by
  simp [Ideal.ofBits, Ideal.ieee]

/-- An extended real whose absolute value max x (-x) is strictly below +infinity is a real. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One array: if the all-reduction of "|x| < +infinity" is 1 then every entry is a real. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf CmpFPredicate.olt (Host.absf a) (broadcastInDim s ![] hb (constant S_ FTy.f32 0x7F800000#32)))
          (constantI S_ 1 1#1) hr hu ValueIdx.ix0 = 1#1) :
    ∀ i, ∃ r : ℝ, a i = (r : EReal) := fun i =>
  real_of_abs_lt_inf (a i) (Host.reduce_andi_all _ _ hr hu ValueIdx.ix0 e i)

/-- The finiteness predicate decoded: every entry of each of the seven float inputs is a real. -/
theorem finite_of_pre (a0 : FVec Ideal S4x12000x32x4 .f32) (a1 : IVec S4x12000x4 32) (a2 : IVec S4x12000 32)
    (a3 : FVec Ideal S9x64 .f32) (a4 a5 : FVec Ideal S64 .f32) (a6 : FVec Ideal S64x64 .f32)
    (a7 a8 : FVec Ideal S64 .f32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧
    (∀ i, ∃ r : ℝ, a8 i = (r : EReal)) := by
  have h0 := congrFun h ValueIdx.ix0
  dsimp only [Cert.Pre_finite_inputs.fn, Cert.Pre_finite_inputs.fn_part1, andi] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨real_of_all a0 _ _ _ e0, real_of_all a3 _ _ _ e3, real_of_all a4 _ _ _ e4, real_of_all a5 _ _ _ e5,
    real_of_all a6 _ _ _ e6, real_of_all a7 _ _ _ e7, real_of_all a8 _ _ _ e8⟩

end Cert.Proof.Finite
-- ==== Proof.LibUnitAxes.lean ====
/-
  Layout operations of rank-3 and rank-4 arrays read at an index given by coordinates: a slice along the last axis,
  shape casts that add or drop unit axes (trailing, leading, or inner), the row-major flattening of the three leading
  axes of a rank-4 array, broadcasts along unit axes, and a one-axis sum read as a sum over that axis's coordinates.
-/
import Idealize.ShloMosaic.Lib.ValueIdx
import Idealize.ShloMosaic.Lib.Pipeline.Value
import Idealize.ShloMosaic.Lib.ValueLayout
import Idealize.ShloMosaic.PureOps.Ideal.Laws

namespace Cert.Lib.UnitAxes

open Idealize.ShloMosaic Idealize.ShloMosaic.ValueIdx

variable {α : Type}

/-! ## Slices along the last axis -/

/-- A rank-4 array cut along its last axis from o reads, at (a, b, c, j), the source at (a, b, c, k), k = o + j. -/
theorem slice4_axis3_apply {n0 n1 n2 n3 m : Nat} (o : Nat) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (c : Fin n2) (j : Fin m) (k : Fin n3) (hk : k.val = o + j.val) :
    extractStridedSlice ⟨4, ![n0, n1, n2, m]⟩ ![0, 0, 0, o] X h (ix4 a b c j) = X (ix4 a b c k) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => exact hk)

/-- A rank-3 array cut along its last axis from o reads, at (a, b, j), the source at (a, b, k), k = o + j. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-! ## Shape casts that add or drop unit axes -/

/-- [a, b, c, 1] cast to [a, b, c]. -/
theorem cast_abc1_abc {a b c : Nat} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- [a, b, c] cast to [a, b, c, 1]. -/
theorem cast_abc_abc1 {a b c : Nat} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- [a, b] cast to [a, b, 1]. -/
theorem cast_ab_ab1 {a b : Nat} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- [a] cast to [1, 1, 1, a]. -/
theorem cast_a_111a {a : Nat} (x : (⟨1, ![a]⟩ : Shape).Idx → α)
    (h : (⟨1, ![a]⟩ : Shape).ShapeCasts ⟨4, ![1, 1, 1, a]⟩) (u0 u1 u2 : Fin 1) (i : Fin a) :
    shapeCast ⟨4, ![1, 1, 1, a]⟩ x h (ix4 u0 u1 u2 i) = x (ix1 i) :=
  shapeCast_apply x h _ _ (by
    have h0 : u0.val = 0 := by omega
    have h1 : u1.val = 0 := by omega
    have h2 : u2.val = 0 := by omega
    rw [Shape.rowMajor_val_four, Shape.rowMajor_val_one]
    show i.val = ((u0.val * 1 + u1.val) * 1 + u2.val) * a + i.val
    rw [h0, h1, h2]; simp)

/-- [a] cast to [1, 1, a]. -/
theorem cast_a_11a {a : Nat} (x : (⟨1, ![a]⟩ : Shape).Idx → α)
    (h : (⟨1, ![a]⟩ : Shape).ShapeCasts ⟨3, ![1, 1, a]⟩) (u0 u1 : Fin 1) (i : Fin a) :
    shapeCast ⟨3, ![1, 1, a]⟩ x h (ix3 u0 u1 i) = x (ix1 i) :=
  shapeCast_apply x h _ _ (by
    have h0 : u0.val = 0 := by omega
    have h1 : u1.val = 0 := by omega
    rw [Shape.rowMajor_val_three, Shape.rowMajor_val_one]
    show i.val = (u0.val * 1 + u1.val) * a + i.val
    rw [h0, h1]; simp)

/-- [a, b, c] cast to [a, b, 1, c]. -/
theorem cast_abc_ab1c {a b c : Nat} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_four, Shape.rowMajor_val_three]
    show (i.val * b + j.val) * c + k.val = ((i.val * b + j.val) * 1 + u.val) * c + k.val
    rw [hu, Nat.mul_one, Nat.add_zero])

/-- [a, b, c, d] cast to [n, d] with n = a * b * c: row (i * b + j) * c + k, column l, holds the entry (i, j, k, l). -/
theorem cast_abcd_flat {a b c d n : Nat} (x : (⟨4, ![a, b, c, d]⟩ : Shape).Idx → α)
    (h : (⟨4, ![a, b, c, d]⟩ : Shape).ShapeCasts ⟨2, ![n, d]⟩) (i : Fin a) (j : Fin b) (k : Fin c) (l : Fin d)
    (r : Fin n) (hr : r.val = (i.val * b + j.val) * c + k.val) :
    shapeCast ⟨2, ![n, d]⟩ x h (ix2 r l) = x (ix4 i j k l) :=
  shapeCast_apply x h _ _ (by
    rw [Shape.rowMajor_val_four, Shape.rowMajor_val_two]
    show ((i.val * b + j.val) * c + k.val) * d + l.val = r.val * d + l.val
    rw [hr])

/-- [n, d] cast back to [a, b, c, d]: the entry (i, j, k, l) is row (i * b + j) * c + k, column l. -/
theorem cast_flat_abcd {a b c d n : Nat} (x : (⟨2, ![n, d]⟩ : Shape).Idx → α)
    (h : (⟨2, ![n, d]⟩ : Shape).ShapeCasts ⟨4, ![a, b, c, d]⟩) (i : Fin a) (j : Fin b) (k : Fin c) (l : Fin d)
    (r : Fin n) (hr : r.val = (i.val * b + j.val) * c + k.val) :
    shapeCast ⟨4, ![a, b, c, d]⟩ x h (ix4 i j k l) = x (ix2 r l) :=
  shapeCast_apply x h _ _ (by
    rw [Shape.rowMajor_val_four, Shape.rowMajor_val_two]
    show r.val * d + l.val = ((i.val * b + j.val) * c + k.val) * d + l.val
    rw [hr])

/-! ## Broadcasts along unit axes -/

/-- A coordinate of an axis of extent n is itself, or zero when n = 1. -/
theorem val_eq_ite {n : Nat} (i : Fin n) : i.val = if n = 1 then 0 else i.val := by
  split
  · have := i.isLt; omega
  · rfl

/-- [a, b, c, 1] broadcast to [a, b, c, d]. -/
theorem bc_abc1_abcd {a b c d : Nat} (x : (⟨4, ![a, b, c, 1]⟩ : Shape).Idx → α)
    (h : (⟨4, ![a, b, c, 1]⟩ : Shape).Broadcasts ⟨4, ![a, b, c, d]⟩) (i : Fin a) (j : Fin b) (k : Fin c) (l : Fin d) :
    broadcastTo ⟨4, ![a, b, c, d]⟩ x h (ix4 i j k l) = x (ix4 i j k (0 : Fin 1)) := by
  refine broadcastTo_apply x h (ix4 i j k l) (ix4 i j k (0 : Fin 1)) fun ax => ?_
  match ax with
  | ⟨0, _⟩ => exact val_eq_ite i
  | ⟨1, _⟩ => exact val_eq_ite j
  | ⟨2, _⟩ => exact val_eq_ite k
  | ⟨3, _⟩ => rfl

/-- [1, 1, 1, d] broadcast to [a, b, c, d]. -/
theorem bc_111d_abcd {a b c d : Nat} (x : (⟨4, ![1, 1, 1, d]⟩ : Shape).Idx → α)
    (h : (⟨4, ![1, 1, 1, d]⟩ : Shape).Broadcasts ⟨4, ![a, b, c, d]⟩) (i : Fin a) (j : Fin b) (k : Fin c) (l : Fin d) :
    broadcastTo ⟨4, ![a, b, c, d]⟩ x h (ix4 i j k l) = x (ix4 (0 : Fin 1) (0 : Fin 1) (0 : Fin 1) l) := by
  refine broadcastTo_apply x h (ix4 i j k l) (ix4 (0 : Fin 1) (0 : Fin 1) (0 : Fin 1) l) fun ax => ?_
  match ax with
  | ⟨0, _⟩ => rfl
  | ⟨1, _⟩ => rfl
  | ⟨2, _⟩ => rfl
  | ⟨3, _⟩ => exact val_eq_ite l

/-- [a, b, 1, d] broadcast to [a, b, c, d]. -/
theorem bc_ab1d_abcd {a b c d : Nat} (x : (⟨4, ![a, b, 1, d]⟩ : Shape).Idx → α)
    (h : (⟨4, ![a, b, 1, d]⟩ : Shape).Broadcasts ⟨4, ![a, b, c, d]⟩) (i : Fin a) (j : Fin b) (k : Fin c) (l : Fin d) :
    broadcastTo ⟨4, ![a, b, c, d]⟩ x h (ix4 i j k l) = x (ix4 i j (0 : Fin 1) l) := by
  refine broadcastTo_apply x h (ix4 i j k l) (ix4 i j (0 : Fin 1) l) fun ax => ?_
  match ax with
  | ⟨0, _⟩ => exact val_eq_ite i
  | ⟨1, _⟩ => exact val_eq_ite j
  | ⟨2, _⟩ => rfl
  | ⟨3, _⟩ => exact val_eq_ite l

/-- [a, b, 1] broadcast to [a, b, d]. -/
theorem bc_ab1_abd {a b d : Nat} (x : (⟨3, ![a, b, 1]⟩ : Shape).Idx → α)
    (h : (⟨3, ![a, b, 1]⟩ : Shape).Broadcasts ⟨3, ![a, b, d]⟩) (i : Fin a) (j : Fin b) (l : Fin d) :
    broadcastTo ⟨3, ![a, b, d]⟩ x h (ix3 i j l) = x (ix3 i j (0 : Fin 1)) := by
  refine broadcastTo_apply x h (ix3 i j l) (ix3 i j (0 : Fin 1)) fun ax => ?_
  match ax with
  | ⟨0, _⟩ => exact val_eq_ite i
  | ⟨1, _⟩ => exact val_eq_ite j
  | ⟨2, _⟩ => rfl

/-- [1, 1, d] broadcast to [a, b, d]. -/
theorem bc_11d_abd {a b d : Nat} (x : (⟨3, ![1, 1, d]⟩ : Shape).Idx → α)
    (h : (⟨3, ![1, 1, d]⟩ : Shape).Broadcasts ⟨3, ![a, b, d]⟩) (i : Fin a) (j : Fin b) (l : Fin d) :
    broadcastTo ⟨3, ![a, b, d]⟩ x h (ix3 i j l) = x (ix3 (0 : Fin 1) (0 : Fin 1) l) := by
  refine broadcastTo_apply x h (ix3 i j l) (ix3 (0 : Fin 1) (0 : Fin 1) l) fun ax => ?_
  match ax with
  | ⟨0, _⟩ => rfl
  | ⟨1, _⟩ => rfl
  | ⟨2, _⟩ => exact val_eq_ite l

/-! ## One-axis sums at the ideal values -/

variable {φ : FTy}

/-- The sum of a rank-3 array over its last axis, at (i, j): the sum over k of the entries (i, j, k). -/
theorem sum_axis2_apply {a b c : Nat} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  refine Finset.sum_congr rfl fun k _ => congrArg src (funext fun ax => ?_)
  match ax with
  | ⟨0, _⟩ => rfl
  | ⟨1, _⟩ => rfl
  | ⟨2, _⟩ => rfl

/-- The sum of a matrix over its rows, at column l: the sum over r of the entries (r, l). -/
theorem sum_axis0_apply {n d : Nat} (src : FVec Ideal ⟨2, ![n, d]⟩ φ) (acc : BitVec φ.bits)
    (h : (⟨2, ![n, d]⟩ : Shape).Reduces [0] ⟨1, ![d]⟩) (hφ : FKind.Formats φ)
    (hacc : acc = FKind.add.neutral φ hφ) (l : Fin d) :
    multiReduction .add [0] ⟨1, ![d]⟩ src acc h hφ hacc (ix1 l) = ∑ r : Fin n, src (ix2 r l) := by
  refine (Ideal.multiReduction_add_single src acc h hφ hacc (ix1 l)).trans ?_
  refine Finset.sum_congr rfl fun r _ => congrArg src (funext fun ax => ?_)
  match ax with
  | ⟨0, _⟩ => rfl
  | ⟨1, _⟩ => rfl

/-! ## The point number -/

/-- The iota of a rank-3 array along its last axis reads the last coordinate. -/
theorem iota_axis2_apply {a b c w : Nat} (κ : Kind) (h : (⟨3, ![a, b, c]⟩ : Shape).Iotas κ w [2])
    (i : Fin a) (j : Fin b) (k : Fin c) :
    iota κ ⟨3, ![a, b, c]⟩ w [2] h (ix3 i j k) = BitVec.ofNat w k.val :=
  iota_single_apply κ _ w 2 h (ix3 i j k)

end Cert.Lib.UnitAxes
-- ==== Proof.LibBlockSum.lean ====
/-
  Regrouping a finite sum into consecutive blocks, in any commutative additive monoid (no cancellation and no
  finiteness is used, so it holds on the extended reals): a sum over `n * k` consecutive indices is the sum over the
  `n` blocks of the sums over the `k` places inside a block, place `e` of block `s` being index `e + k * s`.
-/
import Mathlib

namespace Cert.Lib.BlockSum

/-- Place `e` of block `s`, as an index below `n * k`: the natural `e + k * s`. -/
theorem place_val (n k : ℕ) (s : Fin n) (e : Fin k) : (finProdFinEquiv (s, e) : Fin (n * k)).val = e.val + k * s.val := rfl

/-- A sum over `Fin (n * k)` read block by block. -/
theorem sum_fin_mul_fin {M : Type*} [AddCommMonoid M] (n k : ℕ) (f : Fin (n * k) → M) :
    ∑ i : Fin (n * k), f i = ∑ s : Fin n, ∑ e : Fin k, f (finProdFinEquiv (s, e)) := by
  rw [← Fintype.sum_prod_type']
  exact (Equiv.sum_comp finProdFinEquiv f).symm

/-- The same with the summand a function of the natural under the index. -/
theorem sum_fin_mul {M : Type*} [AddCommMonoid M] (n k : ℕ) (f : ℕ → M) :
    ∑ i : Fin (n * k), f i.val = ∑ s : Fin n, ∑ e : Fin k, f (e.val + k * s.val) :=
  sum_fin_mul_fin n k fun i => f i.val

end Cert.Lib.BlockSum
-- ==== Proof.LibTileSum.lean ====
/-
  Re-blocking the three-axis sum over [4, 12000, 32]. The 12000 pillars are 60 tiles of 200; a sum over
  (batch, pillar, point) is the sum over tiles of the sums over (batch, pillar in tile, point), and the
  latter is the sum over the 25600 rows of the tile's row-major flattening, row (b * 200 + q) * 32 + m.
  Everything holds in any commutative additive monoid (so on the extended reals).
-/
import proofs.«172073_j52536039964809_2_alg».proof.Proof.LibBlockSum

namespace Cert.Lib.TileSum

open Cert.Lib.BlockSum

/-- Pillar q of tile t, as a pillar index: t * 200 + q. -/
def tileIdx (t : Fin 60) (q : Fin 200) : Fin 12000 := ⟨t.val * 200 + q.val, by omega⟩

/-- Row of (batch b, pillar-in-tile q, point m) in the tile's row-major flattening: (b * 200 + q) * 32 + m. -/
def flatIdx (b : Fin 4) (q : Fin 200) (m : Fin 32) : Fin 25600 := ⟨(b.val * 200 + q.val) * 32 + m.val, by omega⟩

@[simp] theorem tileIdx_val (t : Fin 60) (q : Fin 200) : (tileIdx t q).val = t.val * 200 + q.val := rfl

@[simp] theorem flatIdx_val (b : Fin 4) (q : Fin 200) (m : Fin 32) :
    (flatIdx b q m).val = (b.val * 200 + q.val) * 32 + m.val := rfl

/-- The batch of a flattened row. -/
theorem flatIdx_batch (b : Fin 4) (q : Fin 200) (m : Fin 32) : (flatIdx b q m).val / 6400 = b.val := by
  rw [flatIdx_val]; omega

/-- The pillar-in-tile of a flattened row. -/
theorem flatIdx_pillar (b : Fin 4) (q : Fin 200) (m : Fin 32) : (flatIdx b q m).val / 32 % 200 = q.val := by
  rw [flatIdx_val]; omega

/-- The point of a flattened row. -/
theorem flatIdx_point (b : Fin 4) (q : Fin 200) (m : Fin 32) : (flatIdx b q m).val % 32 = m.val := by
  rw [flatIdx_val]; omega

variable {M : Type*} [AddCommMonoid M]

/-- A sum over the 12000 pillars, tile by tile. -/
theorem sum_pillars (g : Fin 12000 → M) : ∑ p, g p = ∑ t : Fin 60, ∑ q : Fin 200, g (tileIdx t q) := by
  refine (sum_fin_mul_fin 60 200 (fun i : Fin (60 * 200) => g i)).trans ?_
  refine Finset.sum_congr rfl fun t _ => Finset.sum_congr rfl fun q _ => ?_
  exact congrArg g (Fin.ext (by rw [place_val, tileIdx_val]; omega))

/-- A sum over the 25600 rows of a flattened tile, as (batch, pillar-in-tile, point). -/
theorem sum_flat (g : Fin 25600 → M) :
    ∑ r, g r = ∑ b : Fin 4, ∑ q : Fin 200, ∑ m : Fin 32, g (flatIdx b q m) := by
  refine (sum_fin_mul_fin (4 * 200) 32 (fun i : Fin (4 * 200 * 32) => g i)).trans ?_
  refine (sum_fin_mul_fin 4 200 (fun s : Fin (4 * 200) =>
    ∑ e : Fin 32, g (finProdFinEquiv (s, e) : Fin (4 * 200 * 32)))).trans ?_
  refine Finset.sum_congr rfl fun b _ => Finset.sum_congr rfl fun q _ => Finset.sum_congr rfl fun m _ => ?_
  exact congrArg g (Fin.ext (by rw [place_val, place_val, flatIdx_val]; omega))

/-- The three-axis sum, tile by tile. -/
theorem sum_tiles (f : Fin 4 → Fin 12000 → Fin 32 → M) :
    ∑ b, ∑ p, ∑ m, f b p m = ∑ t : Fin 60, ∑ b : Fin 4, ∑ q : Fin 200, ∑ m : Fin 32, f b (tileIdx t q) m := by
  calc ∑ b, ∑ p, ∑ m, f b p m
      = ∑ b : Fin 4, ∑ t : Fin 60, ∑ q : Fin 200, ∑ m : Fin 32, f b (tileIdx t q) m :=
        Finset.sum_congr rfl fun b _ => sum_pillars fun p => ∑ m, f b p m
    _ = _ := Finset.sum_comm

/-- The three-axis sum as the sum over tiles of the sums over each tile's 25600 flattened rows: `g t` is the
    tile's flattened data, row (b * 200 + q) * 32 + m holding the entry (b, t * 200 + q, m). -/
theorem sum_tiles_flat (f : Fin 4 → Fin 12000 → Fin 32 → M) (g : Fin 60 → Fin 25600 → M)
    (hg : ∀ t b q m, g t (flatIdx b q m) = f b (tileIdx t q) m) :
    ∑ b, ∑ p, ∑ m, f b p m = ∑ t : Fin 60, ∑ r : Fin 25600, g t r := by
  rw [sum_tiles]
  refine Finset.sum_congr rfl fun t _ => ?_
  rw [sum_flat]
  exact Finset.sum_congr rfl fun b _ => Finset.sum_congr rfl fun q _ => Finset.sum_congr rfl fun m _ => (hg t b q m).symm

end Cert.Lib.TileSum
-- ==== Proof.KSpecRead.lean ====
/-
  The host functions around the kernels read at an index, at the exact values: the packed per-pillar
  array (centre x, centre y, point count as a number), the folded weight matrices row by row, the
  mean and one-pass variance from accumulated sums, and a tile's blocks as re-indexings of the whole
  arrays (pillar q of tile t is pillar 200·t + q).
-/
import proofs.«172073_j52536039964809_2_alg».proof.Proof.KSpec
import proofs.«172073_j52536039964809_2_alg».proof.Proof.LibUnitAxes
import proofs.«172073_j52536039964809_2_alg».proof.Proof.LibTileSum
import Idealize.ShloMosaic.Lib.IdealHost

noncomputable section

namespace Cert.Bridge

open Idealize.ShloMosaic Idealize.ShloMosaic.ValueIdx Cert.KernelIdeal Cert.KernelIdeal.Gen Cert.KernelIdeal.Spec
  Cert.Lib.UnitAxes
open Cert.Lib.TileSum (tileIdx flatIdx)

/-- [a, b, 1] cast to [a, b]. -/
theorem cast_ab1_ab {α : Type} {a b : Nat} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-! ## The packed per-pillar array -/

theorem ixF_apply (coords : IVec S4x12000x4 32) (b : Fin 4) (p : Fin 12000) :
    ixF (F := Ideal) coords (ix2 b p) = (((coords (ix3 b p 3)).toInt : ℝ) : EReal) := by
  unfold ixF
  rw [sitofp_apply, cast_ab1_ab, slice3_axis2_apply 3 coords _ b p (0 : Fin 1) (3 : Fin 4) rfl]
  rfl

theorem iyF_apply (coords : IVec S4x12000x4 32) (b : Fin 4) (p : Fin 12000) :
    iyF (F := Ideal) coords (ix2 b p) = (((coords (ix3 b p 2)).toInt : ℝ) : EReal) := by
  unfold iyF
  rw [sitofp_apply, cast_ab1_ab, slice3_axis2_apply 2 coords _ b p (0 : Fin 1) (2 : Fin 4) rfl]
  rfl

/-- The centre on the first grid axis: (column 3 + 1/2) · 0.16 + 0, the literals as the program states them. -/
theorem cxOf_apply (coords : IVec S4x12000x4 32) (b : Fin 4) (p : Fin 12000) :
    cxOf (F := Ideal) coords (ix2 b p)
      = ((((coords (ix3 b p 3)).toInt : ℝ) : EReal) + Ideal.ofBits .f32 0x3F000000#32) * Ideal.ofBits .f32 0x3E23D70A#32
        + Ideal.ofBits .f32 0x00000000#32 := by
  unfold cxOf halfB sizeB zeroB
  rw [addf_apply, mulf_apply, addf_apply, ixF_apply, broadcastInDim_scalar_apply, broadcastInDim_scalar_apply,
    broadcastInDim_scalar_apply]
  rfl

/-- The centre on the second grid axis: (column 2 + 1/2) · 0.16 − 39.68. -/
theorem cyOf_apply (coords : IVec S4x12000x4 32) (b : Fin 4) (p : Fin 12000) :
    cyOf (F := Ideal) coords (ix2 b p)
      = ((((coords (ix3 b p 2)).toInt : ℝ) : EReal) + Ideal.ofBits .f32 0x3F000000#32) * Ideal.ofBits .f32 0x3E23D70A#32
        + Ideal.ofBits .f32 0xC21EB852#32 := by
  unfold cyOf halfB sizeB offYB
  rw [addf_apply, mulf_apply, addf_apply, iyF_apply, broadcastInDim_scalar_apply, broadcastInDim_scalar_apply,
    broadcastInDim_scalar_apply]
  rfl

/-- A per-pillar array as one column reads the pillar's entry. -/
theorem col_apply {α : Type} (v : S4x12000.Idx → α) (b : Fin 4) (p : Fin 12000) :
    broadcastInDim S4x12000x1 ![0, 1] bcast_S4x12000_S4x12000x1_0_1 v (ix3 b p (0 : Fin 1)) = v (ix2 b p) :=
  broadcastInDim_apply _ _ _ _ _ (fun a => by match a with | ⟨0, _⟩ => rfl | ⟨1, _⟩ => rfl)

/-- The three columns the packed array is put together from. -/
abbrev auxPieces (coords : IVec S4x12000x4 32) (npts : IVec S4x12000 32) : List ((s : Shape) × (s.Idx → EReal)) :=
  [⟨S4x12000x1, broadcastInDim S4x12000x1 ![0, 1] bcast_S4x12000_S4x12000x1_0_1 (cxOf (F := Ideal) coords)⟩,
    ⟨S4x12000x1, broadcastInDim S4x12000x1 ![0, 1] bcast_S4x12000_S4x12000x1_0_1 (cyOf (F := Ideal) coords)⟩,
    ⟨S4x12000x1, broadcastInDim S4x12000x1 ![0, 1] bcast_S4x12000_S4x12000x1_0_1 (sitofp (F := Ideal) .f32 npts)⟩]

theorem auxOf_eq (coords : IVec S4x12000x4 32) (npts : IVec S4x12000 32) :
    auxOf (F := Ideal) coords npts
      = concatenate S4x12000x3 2 (auxPieces coords npts) concatenates_S4x12000x1_S4x12000x1_S4x12000x1_S4x12000x3_d2 := rfl

theorem auxOf_apply0 (coords : IVec S4x12000x4 32) (npts : IVec S4x12000 32) (b : Fin 4) (p : Fin 12000) :
    auxOf (F := Ideal) coords npts (ix3 b p 0)
      = ((((coords (ix3 b p 3)).toInt : ℝ) : EReal) + Ideal.ofBits .f32 0x3F000000#32) * Ideal.ofBits .f32 0x3E23D70A#32
        + Ideal.ofBits .f32 0x00000000#32 := by
  rw [auxOf_eq, ← cxOf_apply coords b p, ← col_apply (cxOf (F := Ideal) coords) b p]
  exact concatenate_apply_piece (2 : Fin S4x12000x3.rank) (auxPieces coords npts)
    concatenates_S4x12000x1_S4x12000x1_S4x12000x1_S4x12000x3_d2 _ 0 (by show (0 : ℕ) < 3; decide) S4x12000x1 _ rfl rfl 0 rfl
    (ix3 b p (0 : Fin 1)) (fun b' hb' => by
      match b', hb' with
      | ⟨0, _⟩, _ => rfl
      | ⟨1, _⟩, _ => rfl
      | ⟨2, _⟩, hb' => exact absurd rfl hb') rfl

theorem auxOf_apply1 (coords : IVec S4x12000x4 32) (npts : IVec S4x12000 32) (b : Fin 4) (p : Fin 12000) :
    auxOf (F := Ideal) coords npts (ix3 b p 1)
      = ((((coords (ix3 b p 2)).toInt : ℝ) : EReal) + Ideal.ofBits .f32 0x3F000000#32) * Ideal.ofBits .f32 0x3E23D70A#32
        + Ideal.ofBits .f32 0xC21EB852#32 := by
  rw [auxOf_eq, ← cyOf_apply coords b p, ← col_apply (cyOf (F := Ideal) coords) b p]
  exact concatenate_apply_piece (2 : Fin S4x12000x3.rank) (auxPieces coords npts)
    concatenates_S4x12000x1_S4x12000x1_S4x12000x1_S4x12000x3_d2 _ 1 (by show (1 : ℕ) < 3; decide) S4x12000x1 _ rfl rfl 1 rfl
    (ix3 b p (0 : Fin 1)) (fun b' hb' => by
      match b', hb' with
      | ⟨0, _⟩, _ => rfl
      | ⟨1, _⟩, _ => rfl
      | ⟨2, _⟩, hb' => exact absurd rfl hb') rfl

/-- The third packed entry is the pillar's point count, read signed, as a number. -/
theorem auxOf_apply2 (coords : IVec S4x12000x4 32) (npts : IVec S4x12000 32) (b : Fin 4) (p : Fin 12000) :
    auxOf (F := Ideal) coords npts (ix3 b p 2) = (((npts (ix2 b p)).toInt : ℝ) : EReal) := by
  have e : (((npts (ix2 b p)).toInt : ℝ) : EReal) = sitofp (F := Ideal) .f32 npts (ix2 b p) := rfl
  rw [auxOf_eq, e, ← col_apply (sitofp (F := Ideal) .f32 npts) b p]
  exact concatenate_apply_piece (2 : Fin S4x12000x3.rank) (auxPieces coords npts)
    concatenates_S4x12000x1_S4x12000x1_S4x12000x1_S4x12000x3_d2 _ 2 (by show (2 : ℕ) < 3; decide) S4x12000x1 _ rfl rfl 2 rfl
    (ix3 b p (0 : Fin 1)) (fun b' hb' => by
      match b', hb' with
      | ⟨0, _⟩, _ => rfl
      | ⟨1, _⟩, _ => rfl
      | ⟨2, _⟩, hb' => exact absurd rfl hb') rfl

/-! ## The folded weights -/

theorem row0_apply (w1 : FVec Ideal S9x64 .f32) (o : Fin 64) : row0 w1 (ix1 o) = w1 (ix2 (0 : Fin 9) o) := by
  unfold row0
  rw [shapeCast_1a_a_apply, slice2_axis0_apply 0 w1 _ (0 : Fin 1) o (0 : Fin 9) rfl]

theorem row1_apply (w1 : FVec Ideal S9x64 .f32) (o : Fin 64) : row1 w1 (ix1 o) = w1 (ix2 (1 : Fin 9) o) := by
  unfold row1
  rw [shapeCast_1a_a_apply, slice2_axis0_apply 1 w1 _ (0 : Fin 1) o (1 : Fin 9) rfl]

theorem row2_apply (w1 : FVec Ideal S9x64 .f32) (o : Fin 64) : row2 w1 (ix1 o) = w1 (ix2 (2 : Fin 9) o) := by
  unfold row2
  rw [shapeCast_1a_a_apply, slice2_axis0_apply 2 w1 _ (0 : Fin 1) o (2 : Fin 9) rfl]

theorem row3_apply (w1 : FVec Ideal S9x64 .f32) (o : Fin 64) : row3 w1 (ix1 o) = w1 (ix2 (3 : Fin 9) o) := by
  unfold row3
  rw [shapeCast_1a_a_apply, slice2_axis0_apply 3 w1 _ (0 : Fin 1) o (3 : Fin 9) rfl]

theorem row4_apply (w1 : FVec Ideal S9x64 .f32) (o : Fin 64) : row4 w1 (ix1 o) = w1 (ix2 (4 : Fin 9) o) := by
  unfold row4
  rw [shapeCast_1a_a_apply, slice2_axis0_apply 4 w1 _ (0 : Fin 1) o (4 : Fin 9) rfl]

theorem row5_apply (w1 : FVec Ideal S9x64 .f32) (o : Fin 64) : row5 w1 (ix1 o) = w1 (ix2 (5 : Fin 9) o) := by
  unfold row5
  rw [shapeCast_1a_a_apply, slice2_axis0_apply 5 w1 _ (0 : Fin 1) o (5 : Fin 9) rfl]

theorem row6_apply (w1 : FVec Ideal S9x64 .f32) (o : Fin 64) : row6 w1 (ix1 o) = w1 (ix2 (6 : Fin 9) o) := by
  unfold row6
  rw [shapeCast_1a_a_apply, slice2_axis0_apply 6 w1 _ (0 : Fin 1) o (6 : Fin 9) rfl]

theorem row7_apply (w1 : FVec Ideal S9x64 .f32) (o : Fin 64) : row7 w1 (ix1 o) = w1 (ix2 (7 : Fin 9) o) := by
  unfold row7
  rw [shapeCast_1a_a_apply, slice2_axis0_apply 7 w1 _ (0 : Fin 1) o (7 : Fin 9) rfl]

theorem row8_apply (w1 : FVec Ideal S9x64 .f32) (o : Fin 64) : row8 w1 (ix1 o) = w1 (ix2 (8 : Fin 9) o) := by
  unfold row8
  rw [shapeCast_1a_a_apply, slice2_axis0_apply 8 w1 _ (0 : Fin 1) o (8 : Fin 9) rfl]

theorem asRow_apply (v : FVec Ideal S64 .f32) (o : Fin 64) : asRow v (ix2 (0 : Fin 1) o) = v (ix1 o) := by
  unfold asRow
  exact broadcastInDim_apply _ _ _ _ _ (fun a => by match a with | ⟨0, _⟩ => rfl)

/-- The four rows the row-coefficient matrix is put together from. -/
abbrev aPieces (w1 : FVec Ideal S9x64 .f32) : List ((s : Shape) × (s.Idx → EReal)) :=
  [⟨S1x64, asRow (addf (row0 w1) (row4 w1))⟩, ⟨S1x64, asRow (addf (row1 w1) (row5 w1))⟩, ⟨S1x64, asRow (row2 w1)⟩,
    ⟨S1x64, asRow (row3 w1)⟩]

theorem amatOf_eq (w1 : FVec Ideal S9x64 .f32) :
    amatOf w1 = concatenate S4x64 0 (aPieces w1) concatenates_S1x64_S1x64_S1x64_S1x64_S4x64_d0 := rfl

theorem amatOf_row (w1 : FVec Ideal S9x64 .f32) (k : Fin 4) (v : FVec Ideal S64 .f32)
    (hv : (aPieces w1)[k.val]'(by have := k.isLt; show k.val < 4; omega) = ⟨S1x64, asRow v⟩) (o : Fin 64) :
    amatOf w1 (ix2 k o) = v (ix1 o) := by
  rw [amatOf_eq, ← asRow_apply v o]
  refine concatenate_apply_piece (0 : Fin S4x64.rank) (aPieces w1) concatenates_S1x64_S1x64_S1x64_S1x64_S4x64_d0 _
    k.val (by have := k.isLt; show k.val < 4; omega) S1x64 _ hv rfl k.val ?_ (ix2 (0 : Fin 1) o) (fun b' hb' => by
      match b', hb' with
      | ⟨0, _⟩, hb' => exact absurd rfl hb'
      | ⟨1, _⟩, _ => rfl) (Nat.add_zero _)
  have := k.isLt
  match k with
  | ⟨0, _⟩ => rfl
  | ⟨1, _⟩ => rfl
  | ⟨2, _⟩ => rfl
  | ⟨3, _⟩ => rfl

theorem amatOf_apply0 (w1 : FVec Ideal S9x64 .f32) (o : Fin 64) :
    amatOf w1 (ix2 (0 : Fin 4) o) = w1 (ix2 (0 : Fin 9) o) + w1 (ix2 (4 : Fin 9) o) := by
  rw [amatOf_row w1 0 _ rfl o, addf_apply, row0_apply, row4_apply]

theorem amatOf_apply1 (w1 : FVec Ideal S9x64 .f32) (o : Fin 64) :
    amatOf w1 (ix2 (1 : Fin 4) o) = w1 (ix2 (1 : Fin 9) o) + w1 (ix2 (5 : Fin 9) o) := by
  rw [amatOf_row w1 1 _ rfl o, addf_apply, row1_apply, row5_apply]

theorem amatOf_apply2 (w1 : FVec Ideal S9x64 .f32) (o : Fin 64) :
    amatOf w1 (ix2 (2 : Fin 4) o) = w1 (ix2 (2 : Fin 9) o) := by
  rw [amatOf_row w1 2 _ rfl o, row2_apply]

theorem amatOf_apply3 (w1 : FVec Ideal S9x64 .f32) (o : Fin 64) :
    amatOf w1 (ix2 (3 : Fin 4) o) = w1 (ix2 (3 : Fin 9) o) := by
  rw [amatOf_row w1 3 _ rfl o, row3_apply]

/-- The three rows the bias-coefficient matrix is put together from. -/
abbrev bPieces (w1 : FVec Ideal S9x64 .f32) : List ((s : Shape) × (s.Idx → EReal)) :=
  [⟨S1x64, asRow (subf (row6 w1) (row4 w1))⟩, ⟨S1x64, asRow (subf (row7 w1) (row5 w1))⟩, ⟨S1x64, asRow (row8 w1)⟩]

theorem bmatOf_eq (w1 : FVec Ideal S9x64 .f32) :
    bmatOf w1 = concatenate S3x64 0 (bPieces w1) concatenates_S1x64_S1x64_S1x64_S3x64_d0 := rfl

theorem bmatOf_row (w1 : FVec Ideal S9x64 .f32) (k : Fin 3) (v : FVec Ideal S64 .f32)
    (hv : (bPieces w1)[k.val]'(by have := k.isLt; show k.val < 3; omega) = ⟨S1x64, asRow v⟩) (o : Fin 64) :
    bmatOf w1 (ix2 k o) = v (ix1 o) := by
  rw [bmatOf_eq, ← asRow_apply v o]
  refine concatenate_apply_piece (0 : Fin S3x64.rank) (bPieces w1) concatenates_S1x64_S1x64_S1x64_S3x64_d0 _
    k.val (by have := k.isLt; show k.val < 3; omega) S1x64 _ hv rfl k.val ?_ (ix2 (0 : Fin 1) o) (fun b' hb' => by
      match b', hb' with
      | ⟨0, _⟩, hb' => exact absurd rfl hb'
      | ⟨1, _⟩, _ => rfl) (Nat.add_zero _)
  have := k.isLt
  match k with
  | ⟨0, _⟩ => rfl
  | ⟨1, _⟩ => rfl
  | ⟨2, _⟩ => rfl

theorem bmatOf_apply0 (w1 : FVec Ideal S9x64 .f32) (o : Fin 64) :
    bmatOf w1 (ix2 (0 : Fin 3) o) = w1 (ix2 (6 : Fin 9) o) - w1 (ix2 (4 : Fin 9) o) := by
  rw [bmatOf_row w1 0 _ rfl o, subf_apply, row6_apply, row4_apply]

theorem bmatOf_apply1 (w1 : FVec Ideal S9x64 .f32) (o : Fin 64) :
    bmatOf w1 (ix2 (1 : Fin 3) o) = w1 (ix2 (7 : Fin 9) o) - w1 (ix2 (5 : Fin 9) o) := by
  rw [bmatOf_row w1 1 _ rfl o, subf_apply, row7_apply, row5_apply]

theorem bmatOf_apply2 (w1 : FVec Ideal S9x64 .f32) (o : Fin 64) :
    bmatOf w1 (ix2 (2 : Fin 3) o) = w1 (ix2 (8 : Fin 9) o) := by
  rw [bmatOf_row w1 2 _ rfl o, row8_apply]

/-! ## Mean and one-pass variance from accumulated sums -/

theorem nB_apply (o : Fin 64) : nB (F := Ideal) (ix1 o) = Ideal.ofBits .f32 0x49BB8000#32 := by
  unfold nB
  rw [broadcastInDim_scalar_apply]
  rfl

theorem meanOf_apply (s : FVec Ideal S64 .f32) (o : Fin 64) :
    meanOf s (ix1 o) = Ideal.div (s (ix1 o)) (Ideal.ofBits .f32 0x49BB8000#32) := by
  unfold meanOf
  show Ideal.div (s (ix1 o)) (nB (F := Ideal) (ix1 o)) = _
  rw [nB_apply]

theorem varOf_apply (s q : FVec Ideal S64 .f32) (o : Fin 64) :
    varOf s q (ix1 o)
      = Ideal.div (q (ix1 o)) (Ideal.ofBits .f32 0x49BB8000#32) - meanOf s (ix1 o) * meanOf s (ix1 o) := by
  unfold varOf
  rw [subf_apply, mulf_apply]
  show Ideal.div (q (ix1 o)) (nB (F := Ideal) (ix1 o)) - _ = _
  rw [nB_apply]

/-! ## A tile's blocks -/

theorem voxIdx_ix4 (t : Fin 60) (b : Fin 4) (q : Fin 200) (p : Fin 32) (ch : Fin 4) :
    voxIdx t (ix4 b q p ch) = ix4 b (tileIdx t q) p ch :=
  funext fun a => Fin.ext (by match a with | ⟨0, _⟩ => rfl | ⟨1, _⟩ => rfl | ⟨2, _⟩ => rfl | ⟨3, _⟩ => rfl)

theorem auxIdx_ix3 (t : Fin 60) (b : Fin 4) (q : Fin 200) (k : Fin 3) :
    auxIdx t (ix3 b q k) = ix3 b (tileIdx t q) k :=
  funext fun a => Fin.ext (by match a with | ⟨0, _⟩ => rfl | ⟨1, _⟩ => rfl | ⟨2, _⟩ => rfl)

theorem blockVox_apply (a0 : FVec Ideal S4x12000x32x4 .f32) (t : Fin 60) (b : Fin 4) (q : Fin 200) (p : Fin 32)
    (ch : Fin 4) : blockVox a0 t (ix4 b q p ch) = a0 (ix4 b (tileIdx t q) p ch) := by
  unfold blockVox
  rw [voxIdx_ix4]

theorem blockAux_apply (aux : FVec Ideal S4x12000x3 .f32) (t : Fin 60) (b : Fin 4) (q : Fin 200) (k : Fin 3) :
    blockAux aux t (ix3 b q k) = aux (ix3 b (tileIdx t q) k) := by
  unfold blockAux
  rw [auxIdx_ix3]

end Cert.Bridge

end
-- ==== Proof.Tile0.lean ====
/-
  Kernel 0's tile read at an index, at the ideal values. Row (b * 200 + q) * 32 + p, channel o, of the flattened
  masked layer-1 pre-activation is the mask of point p times
  (x * A0 + y * A1 + z * A2 + e * A3) + (cx * B0 + cy * B1 + zc * B2), zc the mean of the pillar's z over its
  32 points; the two accumulators add the tile's column sums of it and of its square. The mask is 1 where the point
  number is below the pillar's count and 0 elsewhere.
-/
import proofs.«172073_j52536039964809_2_alg».proof.Proof.KTile
import proofs.«172073_j52536039964809_2_alg».proof.Proof.LibUnitAxes
import proofs.«172073_j52536039964809_2_alg».proof.Proof.LibTileSum

noncomputable section

namespace Cert.KernelIdeal.TileRead

open Idealize.ShloMosaic Idealize.ShloMosaic.ValueIdx Cert.KernelIdeal Cert.KernelIdeal.Tile Cert.Lib.UnitAxes
open Cert.Lib.TileSum (flatIdx)

/-! ## Pointwise integer operations at an index -/

theorem cmpi_apply {s : Shape} {w : Nat} (pr : CmpIPredicate) (x y : IVec s w) (i : s.Idx) :
    cmpi pr x y i = IntOp.cmpi pr (x i) (y i) := rfl

theorem fptosi_apply {s : Shape} {φ : FTy} (w : Nat) (x : FVec Ideal s φ) (i : s.Idx) :
    fptosi w x i = FloatOps.fptosi w (x i) := rfl

/-! ## The mask -/

/-- The 0/1 mask of point p against a count c: the count truncated to an integer word, the signed comparison
    p < count as a one-bit word, widened and converted back to a float. -/
def maskOf (p : Fin 32) (c : EReal) : EReal :=
  FloatOps.sitofp (F := Ideal) .f32
    (BitVec.setWidth 32 (IntOp.cmpi .slt (BitVec.ofNat 32 p.val) (FloatOps.fptosi (F := Ideal) (φ := .f32) 32 c)))

/-- Truncating the float value of a 32-bit integer word gives the word back. -/
theorem fptosi_of_int (n : BitVec 32) : FloatOps.fptosi (F := Ideal) (φ := .f32) 32 (((n.toInt : ℝ)) : EReal) = n := by
  show Ideal.fptosi 32 (((n.toInt : ℝ)) : EReal) = n
  unfold Ideal.fptosi
  rw [Ideal.toIntClamped_coe]
  have hfl : (if (0:ℝ) ≤ (n.toInt : ℝ) then ⌊(n.toInt : ℝ)⌋ else ⌈(n.toInt : ℝ)⌉) = n.toInt := by
    split <;> simp
  rw [hfl]
  have h1 := BitVec.toInt_lt (x := n)
  have h2 := BitVec.le_toInt (x := n)
  norm_num at h1 h2
  have a1 : ((2 ^ (32 - 1) : ℕ) : ℤ) = 2147483648 := by norm_num
  rw [a1, min_eq_right (by omega), max_eq_right (by omega)]
  exact BitVec.ofInt_toInt

/-- Against the float value of an integer word n the mask is 1 where p < n (signed) and 0 elsewhere. -/
theorem maskOf_int (p : Fin 32) (n : BitVec 32) :
    maskOf p (((n.toInt : ℝ)) : EReal) = (((if (p.val : ℤ) < n.toInt then (1 : ℝ) else 0) : ℝ) : EReal) := by
  unfold maskOf
  rw [fptosi_of_int]
  have hp : (BitVec.ofNat 32 p.val).toInt = (p.val : ℤ) := by
    have := p.isLt
    rw [BitVec.toInt_eq_toNat_cond, BitVec.toNat_ofNat]
    have e : p.val % 2 ^ 32 = p.val := Nat.mod_eq_of_lt (by omega)
    rw [e, if_pos (by omega)]
  by_cases h : (p.val : ℤ) < n.toInt
  · have hc : IntOp.cmpi .slt (BitVec.ofNat 32 p.val) n = 1#1 := IntOp.cmpi_slt.2 (by rw [hp]; exact h)
    rw [hc, if_pos h]
    show (((BitVec.setWidth 32 (1#1)).toInt : ℝ) : EReal) = _
    simp
  · have hc : IntOp.cmpi .slt (BitVec.ofNat 32 p.val) n = 0#1 :=
      eq_zero_of_ne_one (fun e => h (by rw [← hp]; exact IntOp.cmpi_slt.1 e))
    rw [hc, if_neg h]
    show (((BitVec.setWidth 32 (0#1)).toInt : ℝ) : EReal) = _
    simp

/-- The mask is a real, whatever the count. -/
theorem maskOf_real (p : Fin 32) (c : EReal) : ∃ r : ℝ, maskOf p c = (r : EReal) := ⟨_, rfl⟩

/-! ## The pieces of kernel 0's tile -/

section K0

variable (x0 : Vec Ideal S4x200x32x4 .f32) (x1 : Vec Ideal S4x200x3 .f32) (x2 : Vec Ideal S4x64 .f32)
  (x3 : Vec Ideal S3x64 .f32)

theorem k0_pay4_apply (b : Fin 4) (q : Fin 200) (p : Fin 32) :
    Gen.k0_pay4 (F := Ideal) x0 (ix3 b q p) = x0 (ix4 b q p (2 : Fin 4)) :=
  (cast_abc1_abc _ _ b q p).trans (slice4_axis3_apply 2 x0 _ b q p (0 : Fin 1) (2 : Fin 4) rfl)

theorem k0_pay5_apply (b : Fin 4) (q : Fin 200) (p : Fin 32) :
    Gen.k0_pay5 (F := Ideal) x0 (ix3 b q p) = x0 (ix4 b q p (3 : Fin 4)) :=
  (cast_abc1_abc _ _ b q p).trans (slice4_axis3_apply 3 x0 _ b q p (0 : Fin 1) (3 : Fin 4) rfl)

theorem k0_pay6_eq : Gen.k0_pay6 (F := Ideal) x1 = x1 := shapeCast_self _ _

theorem k0_pay7_apply (b : Fin 4) (q : Fin 200) :
    Gen.k0_pay7 (F := Ideal) x1 (ix3 b q (0 : Fin 1)) = x1 (ix3 b q (0 : Fin 3)) := by
  unfold Gen.k0_pay7
  rw [k0_pay6_eq]
  exact slice3_axis2_apply 0 x1 _ b q (0 : Fin 1) (0 : Fin 3) rfl

theorem k0_pay8_apply (b : Fin 4) (q : Fin 200) :
    Gen.k0_pay8 (F := Ideal) x1 (ix3 b q (0 : Fin 1)) = x1 (ix3 b q (1 : Fin 3)) := by
  unfold Gen.k0_pay8
  rw [k0_pay6_eq]
  exact slice3_axis2_apply 1 x1 _ b q (0 : Fin 1) (1 : Fin 3) rfl

theorem k0_pay9_apply (b : Fin 4) (q : Fin 200) :
    Gen.k0_pay9 (F := Ideal) x1 (ix3 b q (0 : Fin 1)) = x1 (ix3 b q (2 : Fin 3)) := by
  unfold Gen.k0_pay9
  rw [k0_pay6_eq]
  exact slice3_axis2_apply 2 x1 _ b q (0 : Fin 1) (2 : Fin 3) rfl

/-- The pillar's mean z: the sum of z over the 32 points divided by the literal 32.0. -/
theorem k0_pay10_apply (b : Fin 4) (q : Fin 200) :
    Gen.k0_pay10 (F := Ideal) x0 (ix3 b q (0 : Fin 1))
      = Ideal.div (∑ p : Fin 32, x0 (ix4 b q p (2 : Fin 4))) (Ideal.ofBits .f32 0x42000000#32) :=
  congrArg (fun t => Ideal.div t (Ideal.ofBits .f32 0x42000000#32))
    ((cast_ab_ab1 _ _ b q (0 : Fin 1)).trans ((sum_axis2_apply _ _ _ _ _ b q).trans
      (Finset.sum_congr rfl fun p _ => k0_pay4_apply x0 b q p)))

theorem k0_pay11_eq : Gen.k0_pay11 (F := Ideal) x2 = x2 := shapeCast_self _ _

theorem k0_pay12_eq : Gen.k0_pay12 (F := Ideal) x3 = x3 := shapeCast_self _ _

theorem k0_pay13_apply (b : Fin 4) (q : Fin 200) (p : Fin 32) (o : Fin 64) :
    Gen.k0_pay13 (F := Ideal) x0 x2 (ix4 b q p o)
      = x0 (ix4 b q p (0 : Fin 4)) * x2 (ix2 (0 : Fin 4) o) + x0 (ix4 b q p (1 : Fin 4)) * x2 (ix2 (1 : Fin 4) o) := by
  unfold Gen.k0_pay13
  try dsimp only
  rw [k0_pay11_eq]
  simp only [mulf_apply, addf_apply, bc_abc1_abcd, bc_111d_abcd, cast_abc_abc1, cast_abc1_abc, cast_a_111a,
    shapeCast_1a_a_apply,
    slice2_axis0_apply 0 x2 _ (0 : Fin 1) _ (0 : Fin 4) rfl,
    slice2_axis0_apply 1 x2 _ (0 : Fin 1) _ (1 : Fin 4) rfl,
    slice4_axis3_apply 0 x0 _ _ _ _ (0 : Fin 1) (0 : Fin 4) rfl,
    slice4_axis3_apply 1 x0 _ _ _ _ (0 : Fin 1) (1 : Fin 4) rfl]

theorem k0_pay14_apply (b : Fin 4) (q : Fin 200) (p : Fin 32) :
    Gen.k0_pay14 (F := Ideal) x0 (ix4 b q p (0 : Fin 1)) = x0 (ix4 b q p (2 : Fin 4)) :=
  (cast_abc_abc1 _ _ b q p (0 : Fin 1)).trans (k0_pay4_apply x0 b q p)

theorem k0_pay15_apply (o : Fin 64) : Gen.k0_pay15 (F := Ideal) x2 (ix1 o) = x2 (ix2 (2 : Fin 4) o) := by
  unfold Gen.k0_pay15
  try dsimp only
  rw [k0_pay11_eq]
  simp only [shapeCast_1a_a_apply, slice2_axis0_apply 2 x2 _ (0 : Fin 1) _ (2 : Fin 4) rfl]

/-- The flattened tile over arbitrary pieces. -/
theorem k0_pay16_apply (v11 : FVec Ideal S4x200x32 .f32) (v14 v15 v16 v20 : FVec Ideal S4x200x1 .f32)
    (v22 : FVec Ideal S4x64 .f32) (v24 : FVec Ideal S3x64 .f32) (v39 : FVec Ideal S4x200x32x64 .f32)
    (v40 : FVec Ideal S4x200x32x1 .f32) (v42 : FVec Ideal S64 .f32)
    (b : Fin 4) (q : Fin 200) (p : Fin 32) (o : Fin 64) :
    Gen.k0_pay16 (F := Ideal) v11 v14 v15 v16 v20 v22 v24 v39 v40 v42 (ix2 (flatIdx b q p) o)
      = maskOf p (v16 (ix3 b q (0 : Fin 1)))
        * (v39 (ix4 b q p o) + v40 (ix4 b q p (0 : Fin 1)) * v42 (ix1 o) + v11 (ix3 b q p) * v22 (ix2 (3 : Fin 4) o)
          + (v14 (ix3 b q (0 : Fin 1)) * v24 (ix2 (0 : Fin 3) o) + v15 (ix3 b q (0 : Fin 1)) * v24 (ix2 (1 : Fin 3) o)
            + v20 (ix3 b q (0 : Fin 1)) * v24 (ix2 (2 : Fin 3) o))) := by
  unfold Gen.k0_pay16
  dsimp only
  rw [cast_abcd_flat _ _ b q p o (flatIdx b q p) rfl]
  simp only [mulf_apply, addf_apply, bc_abc1_abcd, bc_111d_abcd, bc_ab1d_abcd, bc_ab1_abd, bc_11d_abd,
    cast_abc_abc1, cast_a_111a, cast_a_11a, cast_abc_ab1c, shapeCast_1a_a_apply,
    slice2_axis0_apply 3 v22 _ (0 : Fin 1) _ (3 : Fin 4) rfl,
    slice2_axis0_apply 0 v24 _ (0 : Fin 1) _ (0 : Fin 3) rfl,
    slice2_axis0_apply 1 v24 _ (0 : Fin 1) _ (1 : Fin 3) rfl,
    slice2_axis0_apply 2 v24 _ (0 : Fin 1) _ (2 : Fin 3) rfl,
    sitofp_apply, extui_apply, cmpi_apply, fptosi_apply]
  have hi : iota Kind.tc S4x200x32 32 [2] Gen.iota_S4x200x32_d2_w32 (ix3 b q p) = BitVec.ofNat 32 p.val :=
    iota_single_apply .tc S4x200x32 32 2 Gen.iota_S4x200x32_d2_w32 (ix3 b q p)
  rw [hi]
  rfl

/-- The masked layer-1 pre-activation of point p of pillar q of batch b, channel o, from the loaded blocks:
    mask * ((((x * A0 + y * A1) + z * A2) + e * A3) + ((cx * B0 + cy * B1) + zc * B2)). -/
def pre1 (b : Fin 4) (q : Fin 200) (p : Fin 32) (o : Fin 64) : EReal :=
  maskOf p (x1 (ix3 b q (2 : Fin 3)))
    * ((((x0 (ix4 b q p (0 : Fin 4)) * x2 (ix2 (0 : Fin 4) o) + x0 (ix4 b q p (1 : Fin 4)) * x2 (ix2 (1 : Fin 4) o))
          + x0 (ix4 b q p (2 : Fin 4)) * x2 (ix2 (2 : Fin 4) o))
        + x0 (ix4 b q p (3 : Fin 4)) * x2 (ix2 (3 : Fin 4) o))
      + ((x1 (ix3 b q (0 : Fin 3)) * x3 (ix2 (0 : Fin 3) o) + x1 (ix3 b q (1 : Fin 3)) * x3 (ix2 (1 : Fin 3) o))
        + Ideal.div (∑ p' : Fin 32, x0 (ix4 b q p' (2 : Fin 4))) (Ideal.ofBits .f32 0x42000000#32)
          * x3 (ix2 (2 : Fin 3) o)))

/-- Kernel 0's tile at row (b * 200 + q) * 32 + p, channel o. -/
theorem h1pre_apply (b : Fin 4) (q : Fin 200) (p : Fin 32) (o : Fin 64) :
    h1pre (F := Ideal) x0 x1 x2 x3 (ix2 (flatIdx b q p) o) = pre1 x0 x1 x2 x3 b q p o := by
  unfold h1pre pre1
  rw [k0_pay16_apply, k0_pay5_apply, k0_pay7_apply, k0_pay8_apply, k0_pay9_apply, k0_pay10_apply, k0_pay13_apply,
    k0_pay14_apply, k0_pay15_apply, k0_pay11_eq, k0_pay12_eq]

/-- The sum accumulator after a tile: what it held plus the tile's column sum. -/
theorem acc0_sum_apply (a : Vec Ideal S64 .f32) (o : Fin 64) :
    acc0_sum (F := Ideal) x0 x1 x2 x3 a (ix1 o)
      = a (ix1 o) + ∑ r : Fin 25600, h1pre (F := Ideal) x0 x1 x2 x3 (ix2 r o) := by
  unfold acc0_sum Gen.k0_pay17
  try dsimp only
  rw [addf_apply, shapeCast_self]
  exact congrArg (a (ix1 o) + ·) (sum_axis0_apply _ _ _ _ _ o)

/-- The sum-of-squares accumulator after a tile: what it held plus the tile's column sum of squares. -/
theorem acc0_sq_apply (a : Vec Ideal S64 .f32) (o : Fin 64) :
    acc0_sq (F := Ideal) x0 x1 x2 x3 a (ix1 o)
      = a (ix1 o) + ∑ r : Fin 25600, h1pre (F := Ideal) x0 x1 x2 x3 (ix2 r o) * h1pre (F := Ideal) x0 x1 x2 x3 (ix2 r o) := by
  unfold acc0_sq Gen.k0_pay1 Gen.k0_pay18 Gen.k0_pay19
  try dsimp only
  rw [addf_apply, shapeCast_self]
  exact congrArg (a (ix1 o) + ·) (sum_axis0_apply _ _ _ _ _ o)

/-- The accumulators are reset to zero. -/
theorem zero0_sum_apply (i : S64.Idx) : zero0_sum (F := Ideal) i = 0 := Ideal.ofBits_zero_f32

theorem zero0_sq_apply (i : S64.Idx) : zero0_sq (F := Ideal) i = 0 := Ideal.ofBits_zero_f32

end K0

end Cert.KernelIdeal.TileRead

end
-- ==== Proof.RefRead.lean ====
/-
  The stages of the reference network READ AT AN INDEX, at the exact (extended-real) values: each
  stage's element at coordinates (b, p, m, …) as an explicit formula over the elements of its
  inputs — slices and broadcasts as re-indexings, the linear layers as finite sums over the
  contracted coordinate, the batch statistics as sums over all points, the final reduction as a
  maximum over the points of a voxel. Float literals stay the words the program states.
-/
import proofs.«172073_j52536039964809_2_alg».proof.Proof.RefTerm
import Idealize.ShloMosaic.Lib.ValueIdx
import Idealize.ShloMosaic.Lib.IdealHost
import Idealize.ShloMosaic.Lib.Pipeline.Value
import Idealize.ShloMosaic.PureOps.Ideal.Laws
import Idealize.ShloMosaic.PureOps.Reduce

noncomputable section

open scoped BigOperators

namespace Cert.ReferenceIdeal.RefRead

open Cert.ReferenceIdeal Cert.ReferenceIdeal.Gen Cert.ReferenceIdeal.RefRun Idealize.ShloMosaic Idealize.ShloMosaic.ValueIdx

/-! ## Sums over a rank-4 index set -/

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun q := ix4 q.1 q.2.1 q.2.2.1 q.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-! ## Per-channel vectors and the batch statistics -/

/-- A per-channel vector repeated over the points reads the channel's entry. -/
theorem chanB_apply (v : FVec Ideal S64 .f32) (b : Fin 4) (p : Fin 12000) (m : Fin 32) (o : Fin 64) :
    chanB v (ix4 b p m o) = v (ix1 o) := by
  unfold chanB
  rw [broadcastInDim_apply _ _ _ (ix4 b p m o) (ix4 0 0 0 o) (fun a => by match a with | ⟨0, _⟩ => rfl | ⟨1, _⟩ => rfl | ⟨2, _⟩ => rfl | ⟨3, _⟩ => rfl),
    broadcastInDim_apply _ _ _ (ix4 0 0 0 o) (ix1 o) (fun a => by match a with | ⟨0, _⟩ => rfl)]

/-- The point count, at every channel: the literal 1 536 000. -/
theorem countB_apply (o : Fin 64) : countB (F := Ideal) (ix1 o) = Ideal.ofBits .f32 0x49BB8000#32 := by
  unfold countB
  rw [broadcastInDim_scalar_apply]
  rfl

/-- Which points reduce to channel `o`: those whose last coordinate is `o`. -/
theorem drop_eq_iff (h : S4x12000x32x64.ReducesTo [0, 1, 2] S64) (i : S4x12000x32x64.Idx) (o : Fin 64) :
    h.drop i = ix1 o ↔ i 3 = o := by
  have hv : (h.drop i 0 : Nat) = i 3 := h.drop_apply_val_of_eq i 0 3
  constructor
  · intro e
    exact Fin.ext (by rw [← hv, e])
  · intro e
    funext d
    match d with
    | ⟨0, _⟩ => exact Fin.ext (by rw [show ((h.drop i ⟨0, _⟩ : Fin _) : Nat) = i 3 from hv, e])

/-- The sum over all points, per channel, as a triple sum over voxel grid, voxel and point slot. -/
theorem chanSum_apply (x : FVec Ideal S4x12000x32x64 .f32) (o : Fin 64) :
    chanSum x (ix1 o) = ∑ b : Fin 4, ∑ p : Fin 12000, ∑ m : Fin 32, x (ix4 b p m o) := by
  unfold chanSum
  rw [hostReduceAdd_apply]
  unfold Ideal.hostReduceAdd
  rw [constant_apply, Ideal.ofBits_zero_f32, zero_add, Finset.sum_filter, sum_idx4]
  refine Finset.sum_congr rfl fun b _ => Finset.sum_congr rfl fun p _ => Finset.sum_congr rfl fun m _ => ?_
  rw [Finset.sum_eq_single o]
  · rw [if_pos ((drop_eq_iff _ _ o).2 rfl)]
  · intro o' _ hne
    rw [if_neg fun e => hne ((drop_eq_iff _ _ o).1 e)]
  · intro hno
    exact absurd (Finset.mem_univ o) hno

/-- The mean over all points, per channel. -/
theorem chanMean_apply (x : FVec Ideal S4x12000x32x64 .f32) (o : Fin 64) :
    chanMean x (ix1 o)
      = Ideal.div (∑ b : Fin 4, ∑ p : Fin 12000, ∑ m : Fin 32, x (ix4 b p m o)) (Ideal.ofBits .f32 0x49BB8000#32) := by
  unfold chanMean
  show Ideal.div (chanSum x (ix1 o)) (countB (F := Ideal) (ix1 o)) = _
  rw [chanSum_apply, countB_apply]

/-- The deviation from the channel's mean. -/
theorem chanDev_apply (x : FVec Ideal S4x12000x32x64 .f32) (b : Fin 4) (p : Fin 12000) (m : Fin 32) (o : Fin 64) :
    chanDev x (ix4 b p m o) = x (ix4 b p m o) - chanMean x (ix1 o) := by
  unfold chanDev
  rw [subf_apply, chanB_apply]

/-- The sum of squared deviations, per channel. -/
theorem chanSS_apply (x : FVec Ideal S4x12000x32x64 .f32) (o : Fin 64) :
    chanSS x (ix1 o)
      = ∑ b : Fin 4, ∑ p : Fin 12000, ∑ m : Fin 32,
          (x (ix4 b p m o) - chanMean x (ix1 o)) * (x (ix4 b p m o) - chanMean x (ix1 o)) := by
  unfold chanSS
  rw [chanSum_apply]
  refine Finset.sum_congr rfl fun b _ => Finset.sum_congr rfl fun p _ => Finset.sum_congr rfl fun m _ => ?_
  rw [mulf_apply, chanDev_apply]

/-- The variance over all points, per channel: the mean of squared deviations. -/
theorem chanVar_apply (x : FVec Ideal S4x12000x32x64 .f32) (o : Fin 64) :
    chanVar x (ix1 o)
      = Ideal.div
          (∑ b : Fin 4, ∑ p : Fin 12000, ∑ m : Fin 32,
            (x (ix4 b p m o) - chanMean x (ix1 o)) * (x (ix4 b p m o) - chanMean x (ix1 o)))
          (Ideal.ofBits .f32 0x49BB8000#32) := by
  unfold chanVar
  show Ideal.div (chanSS x (ix1 o)) (countB (F := Ideal) (ix1 o)) = _
  rw [chanSS_apply, countB_apply]

/-- Normalisation, scale, shift and rectification at a point and channel. -/
theorem normRelu_apply (x : FVec Ideal S4x12000x32x64 .f32) (mean var gamma beta : FVec Ideal S64 .f32)
    (b : Fin 4) (p : Fin 12000) (m : Fin 32) (o : Fin 64) :
    normRelu x mean var gamma beta (ix4 b p m o)
      = max
          ((x (ix4 b p m o) - mean (ix1 o)) * Ideal.rsqrt (var (ix1 o) + Ideal.ofBits .f32 0x3A83126F#32) * gamma (ix1 o)
            + beta (ix1 o))
          (Ideal.ofBits .f32 0x00000000#32) := by
  unfold normRelu
  rw [maximumf_apply, addf_apply, mulf_apply, mulf_apply, subf_apply, chanB_apply, chanB_apply, chanB_apply, chanB_apply,
    broadcastInDim_scalar_apply]
  show max (_ * Ideal.rsqrt (var (ix1 o) + (broadcastInDim S64 ![] bcast_S_S64 (constant (F := Ideal) S_ .f32 0x3A83126F#32)) (ix1 o)) * _ + _) _ = _
  rw [broadcastInDim_scalar_apply]
  rfl

/-- Batch normalisation with the batch's own statistics, then rectification, at a point and channel. -/
theorem bnRelu_apply (x : FVec Ideal S4x12000x32x64 .f32) (gamma beta : FVec Ideal S64 .f32)
    (b : Fin 4) (p : Fin 12000) (m : Fin 32) (o : Fin 64) :
    bnRelu x gamma beta (ix4 b p m o)
      = max
          ((x (ix4 b p m o) - chanMean x (ix1 o)) * Ideal.rsqrt (chanVar x (ix1 o) + Ideal.ofBits .f32 0x3A83126F#32)
              * gamma (ix1 o)
            + beta (ix1 o))
          (Ideal.ofBits .f32 0x00000000#32) := by
  unfold bnRelu
  rw [normRelu_apply]

/-! ## Elementwise host operations at an index (definitional) -/

theorem hostDivf_apply {s : Shape} {φ : FTy} (x y : FVec Ideal s φ) (i : s.Idx) :
    Host.divf x y i = Ideal.div (x i) (y i) := rfl

theorem uitofp_apply {s : Shape} {w : Nat} (x : IVec s w) (i : s.Idx) :
    (uitofp .f32 x : FVec Ideal s .f32) i = (((x i).toNat : ℝ) : EReal) := rfl

theorem cmpi_apply {s : Shape} {w : Nat} (q : CmpIPredicate) (x y : IVec s w) (i : s.Idx) :
    cmpi q x y i = IntOp.cmpi q (x i) (y i) := rfl

/-! ## Geometry -/

/-- A point's position coordinate `k` (x, y or z). -/
theorem xyz_apply (pts : FVec Ideal S4x12000x32x4 .f32) (b : Fin 4) (p : Fin 12000) (m : Fin 32) (k : Fin 3) :
    xyz pts (ix4 b p m k) = pts (ix4 b p m (k.castLE (by decide))) := by
  unfold xyz
  exact extractStridedSlice_apply _ _ _ _ _ (fun a => by match a with | ⟨0, _⟩ => exact (Nat.zero_add _).symm | ⟨1, _⟩ => exact (Nat.zero_add _).symm | ⟨2, _⟩ => exact (Nat.zero_add _).symm | ⟨3, _⟩ => exact (Nat.zero_add _).symm)

/-- A point's reflectance. -/
theorem refl_apply (pts : FVec Ideal S4x12000x32x4 .f32) (b : Fin 4) (p : Fin 12000) (m : Fin 32) :
    RefRun.refl pts (ix4 b p m 0) = pts (ix4 b p m 3) := by
  unfold RefRun.refl
  exact extractStridedSlice_apply _ _ _ _ _ (fun a => by match a with | ⟨0, _⟩ => exact (Nat.zero_add _).symm | ⟨1, _⟩ => exact (Nat.zero_add _).symm | ⟨2, _⟩ => exact (Nat.zero_add _).symm | ⟨3, _⟩ => rfl)

/-- The centre repeated for each point is the voxel's centre. -/
theorem centerB_apply (coords : IVec S4x12000x4 32) (b : Fin 4) (p : Fin 12000) (m : Fin 32) (k : Fin 2) :
    centerB (F := Ideal) coords (ix4 b p m k) = centers coords (ix3 b p k) := by
  unfold centerB
  rw [broadcastInDim_apply _ _ _ (ix4 b p m k) (ix4 b p 0 k) (fun a => by match a with | ⟨0, _⟩ => rfl | ⟨1, _⟩ => rfl | ⟨2, _⟩ => rfl | ⟨3, _⟩ => rfl),
    broadcastInDim_apply _ _ _ (ix4 b p 0 k) (ix3 b p k) (fun a => by match a with | ⟨0, _⟩ => rfl | ⟨1, _⟩ => rfl | ⟨2, _⟩ => rfl)]

/-- The horizontal offset of a point from its voxel's centre. -/
theorem offset_apply (pts : FVec Ideal S4x12000x32x4 .f32) (coords : IVec S4x12000x4 32)
    (b : Fin 4) (p : Fin 12000) (m : Fin 32) (k : Fin 2) :
    offset pts coords (ix4 b p m k) = pts (ix4 b p m (k.castLE (by decide))) - centers coords (ix3 b p k) := by
  unfold offset
  rw [subf_apply, centerB_apply,
    extractStridedSlice_apply _ (xyz pts) _ (ix4 b p m k) (ix4 b p m (k.castLE (by decide)))
      (fun a => by match a with | ⟨0, _⟩ => exact (Nat.zero_add _).symm | ⟨1, _⟩ => exact (Nat.zero_add _).symm | ⟨2, _⟩ => exact (Nat.zero_add _).symm | ⟨3, _⟩ => exact (Nat.zero_add _).symm),
    xyz_apply]
  rfl

/-- The height column of the positions, as a one-column array. -/
theorem zcol_apply (pts : FVec Ideal S4x12000x32x4 .f32) (b : Fin 4) (p : Fin 12000) (m : Fin 32) :
    extractStridedSlice S4x12000x32x1 ![0, 0, 0, 2] (xyz pts) slices_S4x12000x32x3_S4x12000x32x1_0_0_0_2 (ix4 b p m 0)
      = pts (ix4 b p m 2) := by
  rw [extractStridedSlice_apply _ (xyz pts) _ (ix4 b p m 0) (ix4 b p m 2)
      (fun a => by match a with | ⟨0, _⟩ => exact (Nat.zero_add _).symm | ⟨1, _⟩ => exact (Nat.zero_add _).symm | ⟨2, _⟩ => exact (Nat.zero_add _).symm | ⟨3, _⟩ => rfl),
    xyz_apply]
  rfl

/-- The mean height of a voxel's 32 point slots: their sum divided by the literal 32. -/
theorem zMean_apply (pts : FVec Ideal S4x12000x32x4 .f32) (b : Fin 4) (p : Fin 12000) (m : Fin 32) :
    zMean pts (ix4 b p m 0)
      = Ideal.div (∑ m' : Fin 32, pts (ix4 b p m' 2)) (Ideal.ofBits .f32 0x42000000#32) := by
  unfold zMean
  rw [broadcastInDim_apply _ _ _ (ix4 b p m 0) (ix4 b p 0 0) (fun a => by match a with | ⟨0, _⟩ => rfl | ⟨1, _⟩ => rfl | ⟨2, _⟩ => rfl | ⟨3, _⟩ => rfl),
    hostDivf_apply, broadcastInDim_scalar_apply, constant_apply,
    broadcastInDim_apply _ _ _ (ix4 b p 0 0) (ix3 b p 0) (fun a => by match a with | ⟨0, _⟩ => rfl | ⟨1, _⟩ => rfl | ⟨2, _⟩ => rfl),
    hostReduceAdd_apply, constant_apply,
    Ideal.hostReduceAdd_single _ (by decide : S4x12000x32x1.Reduces [2] S4x12000x1),
    Ideal.ofBits_zero_f32, zero_add]
  congr 1
  refine Finset.sum_congr rfl fun m' _ => ?_
  have hl : (by decide : S4x12000x32x1.Reduces [2] S4x12000x1).lift (ix3 b p 0) m' = ix4 b p m' 0 :=
    funext fun a => Fin.ext (by match a with | ⟨0, _⟩ => rfl | ⟨1, _⟩ => rfl | ⟨2, _⟩ => rfl | ⟨3, _⟩ => rfl)
  rw [hl]
  exact zcol_apply pts b p m'

/-- The five pieces the nine features are put together from, in order. -/
abbrev pieces (pts : FVec Ideal S4x12000x32x4 .f32) (coords : IVec S4x12000x4 32) :
    List ((s : Shape) × (s.Idx → EReal)) :=
  [⟨S4x12000x32x3, xyz pts⟩, ⟨S4x12000x32x1, RefRun.refl pts⟩, ⟨S4x12000x32x2, offset pts coords⟩,
    ⟨S4x12000x32x2, centerB (F := Ideal) coords⟩, ⟨S4x12000x32x1, zMean pts⟩]

theorem feat9_eq (pts : FVec Ideal S4x12000x32x4 .f32) (coords : IVec S4x12000x4 32) :
    feat9 pts coords
      = concatenate S4x12000x32x9 3 (pieces pts coords)
          concatenates_S4x12000x32x3_S4x12000x32x1_S4x12000x32x2_S4x12000x32x2_S4x12000x32x1_S4x12000x32x9_d3 := rfl

/-- The nine features: the first three are the position. -/
theorem feat9_xyz (pts : FVec Ideal S4x12000x32x4 .f32) (coords : IVec S4x12000x4 32)
    (b : Fin 4) (p : Fin 12000) (m : Fin 32) (k : Fin 3) :
    feat9 pts coords (ix4 b p m (k.castLE (by decide))) = xyz pts (ix4 b p m k) := by
  rw [feat9_eq]
  exact concatenate_apply_piece (3 : Fin S4x12000x32x9.rank) (pieces pts coords)
    concatenates_S4x12000x32x3_S4x12000x32x1_S4x12000x32x2_S4x12000x32x2_S4x12000x32x1_S4x12000x32x9_d3 _
    0 (by show (0 : ℕ) < 5; decide) S4x12000x32x3 (xyz pts) rfl rfl 0 rfl (ix4 b p m k)
    (fun b' hb' => by
      match b', hb' with
      | ⟨0, _⟩, _ => rfl
      | ⟨1, _⟩, _ => rfl
      | ⟨2, _⟩, _ => rfl
      | ⟨3, _⟩, hb' => exact absurd rfl hb')
    (Nat.zero_add _)

/-- The nine features: the fourth is the reflectance. -/
theorem feat9_refl (pts : FVec Ideal S4x12000x32x4 .f32) (coords : IVec S4x12000x4 32)
    (b : Fin 4) (p : Fin 12000) (m : Fin 32) :
    feat9 pts coords (ix4 b p m 3) = RefRun.refl pts (ix4 b p m 0) := by
  rw [feat9_eq]
  exact concatenate_apply_piece (3 : Fin S4x12000x32x9.rank) (pieces pts coords)
    concatenates_S4x12000x32x3_S4x12000x32x1_S4x12000x32x2_S4x12000x32x2_S4x12000x32x1_S4x12000x32x9_d3 _
    1 (by show (1 : ℕ) < 5; decide) S4x12000x32x1 (RefRun.refl pts) rfl rfl 3 rfl (ix4 b p m 0)
    (fun b' hb' => by
      match b', hb' with
      | ⟨0, _⟩, _ => rfl
      | ⟨1, _⟩, _ => rfl
      | ⟨2, _⟩, _ => rfl
      | ⟨3, _⟩, hb' => exact absurd rfl hb')
    rfl

/-- The nine features: the fifth and sixth are the offset from the centre. -/
theorem feat9_offset (pts : FVec Ideal S4x12000x32x4 .f32) (coords : IVec S4x12000x4 32)
    (b : Fin 4) (p : Fin 12000) (m : Fin 32) (k : Fin 2) :
    feat9 pts coords (ix4 b p m ⟨4 + k.val, by have := k.isLt; omega⟩) = offset pts coords (ix4 b p m k) := by
  rw [feat9_eq]
  exact concatenate_apply_piece (3 : Fin S4x12000x32x9.rank) (pieces pts coords)
    concatenates_S4x12000x32x3_S4x12000x32x1_S4x12000x32x2_S4x12000x32x2_S4x12000x32x1_S4x12000x32x9_d3 _
    2 (by show (2 : ℕ) < 5; decide) S4x12000x32x2 (offset pts coords) rfl rfl 4 rfl (ix4 b p m k)
    (fun b' hb' => by
      match b', hb' with
      | ⟨0, _⟩, _ => rfl
      | ⟨1, _⟩, _ => rfl
      | ⟨2, _⟩, _ => rfl
      | ⟨3, _⟩, hb' => exact absurd rfl hb')
    rfl

/-- The nine features: the seventh and eighth are the centre. -/
theorem feat9_center (pts : FVec Ideal S4x12000x32x4 .f32) (coords : IVec S4x12000x4 32)
    (b : Fin 4) (p : Fin 12000) (m : Fin 32) (k : Fin 2) :
    feat9 pts coords (ix4 b p m ⟨6 + k.val, by have := k.isLt; omega⟩) = centerB coords (ix4 b p m k) := by
  rw [feat9_eq]
  exact concatenate_apply_piece (3 : Fin S4x12000x32x9.rank) (pieces pts coords)
    concatenates_S4x12000x32x3_S4x12000x32x1_S4x12000x32x2_S4x12000x32x2_S4x12000x32x1_S4x12000x32x9_d3 _
    3 (by show (3 : ℕ) < 5; decide) S4x12000x32x2 (centerB (F := Ideal) coords) rfl rfl 6 rfl (ix4 b p m k)
    (fun b' hb' => by
      match b', hb' with
      | ⟨0, _⟩, _ => rfl
      | ⟨1, _⟩, _ => rfl
      | ⟨2, _⟩, _ => rfl
      | ⟨3, _⟩, hb' => exact absurd rfl hb')
    rfl

/-- The nine features: the ninth is the mean height. -/
theorem feat9_zMean (pts : FVec Ideal S4x12000x32x4 .f32) (coords : IVec S4x12000x4 32)
    (b : Fin 4) (p : Fin 12000) (m : Fin 32) :
    feat9 pts coords (ix4 b p m 8) = zMean pts (ix4 b p m 0) := by
  rw [feat9_eq]
  exact concatenate_apply_piece (3 : Fin S4x12000x32x9.rank) (pieces pts coords)
    concatenates_S4x12000x32x3_S4x12000x32x1_S4x12000x32x2_S4x12000x32x2_S4x12000x32x1_S4x12000x32x9_d3 _
    4 (by show (4 : ℕ) < 5; decide) S4x12000x32x1 (zMean pts) rfl rfl 8 rfl (ix4 b p m 0)
    (fun b' hb' => by
      match b', hb' with
      | ⟨0, _⟩, _ => rfl
      | ⟨1, _⟩, _ => rfl
      | ⟨2, _⟩, _ => rfl
      | ⟨3, _⟩, hb' => exact absurd rfl hb')
    rfl

/-! ## The mask -/

/-- The mask at a point slot: the word of "slot number < point count" (signed), as a number. -/
theorem mask_apply (npts : IVec S4x12000 32) (b : Fin 4) (p : Fin 12000) (m : Fin 32) :
    mask (F := Ideal) npts (ix4 b p m 0)
      = (((IntOp.cmpi .slt (BitVec.ofNat 32 m.val) (npts (ix2 b p))).toNat : ℝ) : EReal) := by
  unfold mask
  rw [uitofp_apply, cmpi_apply,
    broadcastInDim_apply _ _ _ (ix4 b p m 0) (ix4 0 0 m 0 : S1x1x32x1.Idx) (fun a => by match a with | ⟨0, _⟩ => rfl | ⟨1, _⟩ => rfl | ⟨2, _⟩ => rfl | ⟨3, _⟩ => rfl),
    broadcastInDim_apply _ _ _ (ix4 0 0 m 0 : S1x1x32x1.Idx) (ix1 m : S32.Idx) (fun a => by match a with | ⟨0, _⟩ => rfl),
    iotaInDim_apply,
    broadcastInDim_apply _ _ _ (ix4 b p m 0) (ix4 b p 0 0 : S4x12000x1x1.Idx) (fun a => by match a with | ⟨0, _⟩ => rfl | ⟨1, _⟩ => rfl | ⟨2, _⟩ => rfl | ⟨3, _⟩ => rfl),
    broadcastInDim_apply _ _ _ (ix4 b p 0 0 : S4x12000x1x1.Idx) (ix2 b p : S4x12000.Idx) (fun a => by match a with | ⟨0, _⟩ => rfl | ⟨1, _⟩ => rfl)]

/-- The mask is one where the slot number is below the point count (both read signed) and zero elsewhere. -/
theorem mask_eq_ite (npts : IVec S4x12000 32) (b : Fin 4) (p : Fin 12000) (m : Fin 32) :
    mask (F := Ideal) npts (ix4 b p m 0)
      = if (BitVec.ofNat 32 m.val).toInt < (npts (ix2 b p)).toInt then (1 : EReal) else 0 := by
  rw [mask_apply]
  by_cases h : IntOp.cmpi .slt (BitVec.ofNat 32 m.val) (npts (ix2 b p)) = 1#1
  · rw [h, if_pos (IntOp.cmpi_slt.1 h)]
    simp
  · rw [eq_zero_of_ne_one h, if_neg fun h' => h (IntOp.cmpi_slt.2 h')]
    simp

/-! ## The linear layers -/

/-- The first linear layer at a point and output channel: the sum over the nine masked features. -/
theorem lin1_apply (feats : FVec Ideal S4x12000x32x9 .f32) (npts : IVec S4x12000 32) (w1 : FVec Ideal S9x64 .f32)
    (b : Fin 4) (p : Fin 12000) (m : Fin 32) (o : Fin 64) :
    lin1 feats npts w1 (ix4 b p m o)
      = ∑ i : Fin 9, feats (ix4 b p m i) * mask npts (ix4 b p m 0) * w1 (ix2 i o) := by
  unfold lin1
  simp only [Host.dotGeneral]
  rw [Ideal.dotGeneral_apply, ← Equiv.sum_comp (contrEquiv1 dot_S4x12000x32x9_S9x64_S4x12000x32x64_3_0_012_1_n_n 9 rfl rfl).symm]
  refine Finset.sum_congr rfl fun i _ => ?_
  have hl : dot_S4x12000x32x9_S9x64_S4x12000x32x64_3_0_012_1_n_n.lhsIdx (ix4 b p m o) ((contrEquiv1 dot_S4x12000x32x9_S9x64_S4x12000x32x64_3_0_012_1_n_n 9 rfl rfl).symm i) = ix4 b p m i :=
    funext fun a => Fin.ext (by
      match a with
      | ⟨0, _⟩ => rfl
      | ⟨1, _⟩ => rfl
      | ⟨2, _⟩ => rfl
      | ⟨3, _⟩ => exact (dot_S4x12000x32x9_S9x64_S4x12000x32x64_3_0_012_1_n_n.lhsIdx_val_of_single rfl _ _).trans (contrEquiv1_symm_val dot_S4x12000x32x9_S9x64_S4x12000x32x64_3_0_012_1_n_n 9 rfl rfl i))
  have hr : dot_S4x12000x32x9_S9x64_S4x12000x32x64_3_0_012_1_n_n.rhsIdx (ix4 b p m o) ((contrEquiv1 dot_S4x12000x32x9_S9x64_S4x12000x32x64_3_0_012_1_n_n 9 rfl rfl).symm i) = ix2 i o :=
    funext fun a => Fin.ext (by
      match a with
      | ⟨0, _⟩ => exact (dot_S4x12000x32x9_S9x64_S4x12000x32x64_3_0_012_1_n_n.rhsIdx_val_of_single rfl _ _).trans (contrEquiv1_symm_val dot_S4x12000x32x9_S9x64_S4x12000x32x64_3_0_012_1_n_n 9 rfl rfl i)
      | ⟨1, _⟩ => rfl)
  rw [hl, hr, mulf_apply,
    broadcastInDim_apply _ _ _ (ix4 b p m i) (ix4 b p m 0 : S4x12000x32x1.Idx) (fun a => by match a with | ⟨0, _⟩ => rfl | ⟨1, _⟩ => rfl | ⟨2, _⟩ => rfl | ⟨3, _⟩ => rfl)]

/-- The second linear layer at a point and output channel: the sum over the 64 hidden channels. -/
theorem lin2_apply (h : FVec Ideal S4x12000x32x64 .f32) (w2 : FVec Ideal S64x64 .f32)
    (b : Fin 4) (p : Fin 12000) (m : Fin 32) (o : Fin 64) :
    lin2 h w2 (ix4 b p m o) = ∑ i : Fin 64, h (ix4 b p m i) * w2 (ix2 i o) := by
  unfold lin2
  simp only [Host.dotGeneral]
  rw [Ideal.dotGeneral_apply, ← Equiv.sum_comp (contrEquiv1 dot_S4x12000x32x64_S64x64_S4x12000x32x64_3_0_012_1_n_n 64 rfl rfl).symm]
  refine Finset.sum_congr rfl fun i _ => ?_
  have hl : dot_S4x12000x32x64_S64x64_S4x12000x32x64_3_0_012_1_n_n.lhsIdx (ix4 b p m o) ((contrEquiv1 dot_S4x12000x32x64_S64x64_S4x12000x32x64_3_0_012_1_n_n 64 rfl rfl).symm i) = ix4 b p m i :=
    funext fun a => Fin.ext (by
      match a with
      | ⟨0, _⟩ => rfl
      | ⟨1, _⟩ => rfl
      | ⟨2, _⟩ => rfl
      | ⟨3, _⟩ => exact (dot_S4x12000x32x64_S64x64_S4x12000x32x64_3_0_012_1_n_n.lhsIdx_val_of_single rfl _ _).trans (contrEquiv1_symm_val dot_S4x12000x32x64_S64x64_S4x12000x32x64_3_0_012_1_n_n 64 rfl rfl i))
  have hr : dot_S4x12000x32x64_S64x64_S4x12000x32x64_3_0_012_1_n_n.rhsIdx (ix4 b p m o) ((contrEquiv1 dot_S4x12000x32x64_S64x64_S4x12000x32x64_3_0_012_1_n_n 64 rfl rfl).symm i) = ix2 i o :=
    funext fun a => Fin.ext (by
      match a with
      | ⟨0, _⟩ => exact (dot_S4x12000x32x64_S64x64_S4x12000x32x64_3_0_012_1_n_n.rhsIdx_val_of_single rfl _ _).trans (contrEquiv1_symm_val dot_S4x12000x32x64_S64x64_S4x12000x32x64_3_0_012_1_n_n 64 rfl rfl i)
      | ⟨1, _⟩ => rfl)
  rw [hl, hr]

/-! ## The maximum over the points of a voxel -/

/-- The result at a voxel and channel: the maximum, from −∞, over the voxel's 32 point slots. -/
theorem maxPts_apply (x : FVec Ideal S4x12000x32x64 .f32) (b : Fin 4) (p : Fin 12000) (o : Fin 64) :
    maxPts x (ix3 b p o)
      = (Finset.univ : Finset (Fin 32)).fold max (Ideal.ofBits .f32 0xFF800000#32) (fun m => x (ix4 b p m o)) := by
  unfold maxPts
  rw [Host.reduce_eq_fold_single FloatOps.maximumf x _ _ (by decide : S4x12000x32x64.Reduces [2] S4x12000x64)]
  have hl : ∀ m : Fin 32, (by decide : S4x12000x32x64.Reduces [2] S4x12000x64).lift (ix3 b p o) m = ix4 b p m o :=
    fun m => funext fun a => Fin.ext (by match a with | ⟨0, _⟩ => rfl | ⟨1, _⟩ => rfl | ⟨2, _⟩ => rfl | ⟨3, _⟩ => rfl)
  have hf : (x ∘ (by decide : S4x12000x32x64.Reduces [2] S4x12000x64).lift (ix3 b p o)) = fun m : Fin 32 => x (ix4 b p m o) :=
    funext fun m => congrArg x (hl m)
  rw [hf]
  rfl

/-! ## The centres -/

/-- The first gathered coordinate column is column 3. -/
theorem gather_col0 (coords : IVec S4x12000x4 32) (b : Fin 4) (p : Fin 12000) :
    Host.gather gather_S4x12000x4_S2x1_S4x12000x2_01_2_n_n_2_1_4120001 coords gatherIdx (ix3 b p 0) = coords (ix3 b p 3) := by
  unfold Host.gather
  refine congrArg coords (funext fun a => Fin.ext ?_)
  match a with
  | ⟨0, _⟩ => exact (show 0 + 0 + b.val = b.val by omega)
  | ⟨1, _⟩ => exact (show 0 + 0 + p.val = p.val by omega)
  | ⟨2, _⟩ => rfl

/-- The second gathered coordinate column is column 2. -/
theorem gather_col1 (coords : IVec S4x12000x4 32) (b : Fin 4) (p : Fin 12000) :
    Host.gather gather_S4x12000x4_S2x1_S4x12000x2_01_2_n_n_2_1_4120001 coords gatherIdx (ix3 b p 1) = coords (ix3 b p 2) := by
  unfold Host.gather
  refine congrArg coords (funext fun a => Fin.ext ?_)
  match a with
  | ⟨0, _⟩ => exact (show 0 + 0 + b.val = b.val by omega)
  | ⟨1, _⟩ => exact (show 0 + 0 + p.val = p.val by omega)
  | ⟨2, _⟩ => rfl

/-- The voxel size at every centre coordinate: the literal 0.16. -/
theorem voxelSize_apply (b : Fin 4) (p : Fin 12000) (k : Fin 2) :
    voxelSize (F := Ideal) (ix3 b p k) = Ideal.ofBits .f32 0x3E23D70A#32 := by
  unfold voxelSize
  rw [broadcastInDim_apply _ _ _ (ix3 b p k) (ix3 0 0 k : S1x1x2.Idx) (fun a => by match a with | ⟨0, _⟩ => rfl | ⟨1, _⟩ => rfl | ⟨2, _⟩ => rfl),
    broadcastInDim_apply _ _ _ (ix3 0 0 k : S1x1x2.Idx) (ix1 k : S2.Idx) (fun a => by match a with | ⟨0, _⟩ => rfl)]
  rfl

/-- The grid origin at a centre coordinate: the literal table's entry. -/
theorem gridOrigin_apply (b : Fin 4) (p : Fin 12000) (k : Fin 2) :
    gridOrigin (F := Ideal) (ix3 b p k) = Ideal.ofBits .f32 (lit1 (S2.rowMajor (ix1 k))) := by
  unfold gridOrigin
  rw [broadcastInDim_apply _ _ _ (ix3 b p k) (ix3 0 0 k : S1x1x2.Idx) (fun a => by match a with | ⟨0, _⟩ => rfl | ⟨1, _⟩ => rfl | ⟨2, _⟩ => rfl),
    broadcastInDim_apply _ _ _ (ix3 0 0 k : S1x1x2.Idx) (ix1 k : S2.Idx) (fun a => by match a with | ⟨0, _⟩ => rfl)]
  rfl

/-- The first centre coordinate: (column 3 + 1/2) · 0.16 + 0, with the literals as the program states them. -/
theorem centers_apply0 (coords : IVec S4x12000x4 32) (b : Fin 4) (p : Fin 12000) :
    centers (F := Ideal) coords (ix3 b p 0)
      = ((((coords (ix3 b p 3)).toInt : ℝ) : EReal) + Ideal.ofBits .f32 0x3F000000#32) * Ideal.ofBits .f32 0x3E23D70A#32
        + Ideal.ofBits .f32 0x00000000#32 := by
  unfold centers
  rw [addf_apply, mulf_apply, addf_apply, sitofp_apply, gather_col0, voxelSize_apply, gridOrigin_apply,
    broadcastInDim_scalar_apply]
  rfl

/-- The second centre coordinate: (column 2 + 1/2) · 0.16 − 39.68, with the literals as the program states them. -/
theorem centers_apply1 (coords : IVec S4x12000x4 32) (b : Fin 4) (p : Fin 12000) :
    centers (F := Ideal) coords (ix3 b p 1)
      = ((((coords (ix3 b p 2)).toInt : ℝ) : EReal) + Ideal.ofBits .f32 0x3F000000#32) * Ideal.ofBits .f32 0x3E23D70A#32
        + Ideal.ofBits .f32 0xC21EB852#32 := by
  unfold centers
  rw [addf_apply, mulf_apply, addf_apply, sitofp_apply, gather_col1, voxelSize_apply, gridOrigin_apply,
    broadcastInDim_scalar_apply]
  rfl

/-! ## The nine features at their literal positions -/

theorem feat9_at0 (pts : FVec Ideal S4x12000x32x4 .f32) (coords : IVec S4x12000x4 32)
    (b : Fin 4) (p : Fin 12000) (m : Fin 32) :
    feat9 pts coords (ix4 b p m 0) = pts (ix4 b p m 0) :=
  (feat9_xyz pts coords b p m 0).trans (xyz_apply pts b p m 0)

theorem feat9_at1 (pts : FVec Ideal S4x12000x32x4 .f32) (coords : IVec S4x12000x4 32)
    (b : Fin 4) (p : Fin 12000) (m : Fin 32) :
    feat9 pts coords (ix4 b p m 1) = pts (ix4 b p m 1) :=
  (feat9_xyz pts coords b p m 1).trans (xyz_apply pts b p m 1)

theorem feat9_at2 (pts : FVec Ideal S4x12000x32x4 .f32) (coords : IVec S4x12000x4 32)
    (b : Fin 4) (p : Fin 12000) (m : Fin 32) :
    feat9 pts coords (ix4 b p m 2) = pts (ix4 b p m 2) :=
  (feat9_xyz pts coords b p m 2).trans (xyz_apply pts b p m 2)

theorem feat9_at3 (pts : FVec Ideal S4x12000x32x4 .f32) (coords : IVec S4x12000x4 32)
    (b : Fin 4) (p : Fin 12000) (m : Fin 32) :
    feat9 pts coords (ix4 b p m 3) = pts (ix4 b p m 3) :=
  (feat9_refl pts coords b p m).trans (refl_apply pts b p m)

theorem feat9_at4 (pts : FVec Ideal S4x12000x32x4 .f32) (coords : IVec S4x12000x4 32)
    (b : Fin 4) (p : Fin 12000) (m : Fin 32) :
    feat9 pts coords (ix4 b p m 4) = pts (ix4 b p m 0) - centers coords (ix3 b p 0) :=
  (feat9_offset pts coords b p m 0).trans (offset_apply pts coords b p m 0)

theorem feat9_at5 (pts : FVec Ideal S4x12000x32x4 .f32) (coords : IVec S4x12000x4 32)
    (b : Fin 4) (p : Fin 12000) (m : Fin 32) :
    feat9 pts coords (ix4 b p m 5) = pts (ix4 b p m 1) - centers coords (ix3 b p 1) :=
  (feat9_offset pts coords b p m 1).trans (offset_apply pts coords b p m 1)

theorem feat9_at6 (pts : FVec Ideal S4x12000x32x4 .f32) (coords : IVec S4x12000x4 32)
    (b : Fin 4) (p : Fin 12000) (m : Fin 32) :
    feat9 pts coords (ix4 b p m 6) = centers coords (ix3 b p 0) :=
  (feat9_center pts coords b p m 0).trans (centerB_apply coords b p m 0)

theorem feat9_at7 (pts : FVec Ideal S4x12000x32x4 .f32) (coords : IVec S4x12000x4 32)
    (b : Fin 4) (p : Fin 12000) (m : Fin 32) :
    feat9 pts coords (ix4 b p m 7) = centers coords (ix3 b p 1) :=
  (feat9_center pts coords b p m 1).trans (centerB_apply coords b p m 1)

theorem feat9_at8 (pts : FVec Ideal S4x12000x32x4 .f32) (coords : IVec S4x12000x4 32)
    (b : Fin 4) (p : Fin 12000) (m : Fin 32) :
    feat9 pts coords (ix4 b p m 8)
      = Ideal.div (∑ m' : Fin 32, pts (ix4 b p m' 2)) (Ideal.ofBits .f32 0x42000000#32) :=
  (feat9_zMean pts coords b p m).trans (zMean_apply pts b p m)

/-- A sum over nine terms, written out. -/
theorem sum_fin9 {M : Type*} [AddCommMonoid M] (f : Fin 9 → M) :
    ∑ i, f i = f 0 + f 1 + f 2 + f 3 + f 4 + f 5 + f 6 + f 7 + f 8 := by
  rw [Fin.sum_univ_castSucc, Fin.sum_univ_eight]
  rfl

/-! ## The layers, composed -/

/-- The first layer's pre-activation at a point and channel: the sum over the nine masked features. -/
theorem pre1_apply (pts : FVec Ideal S4x12000x32x4 .f32) (coords : IVec S4x12000x4 32)
    (b : Fin 4) (p : Fin 12000) (m : Fin 32) (npts : IVec S4x12000 32) (w1 : FVec Ideal S9x64 .f32) (o : Fin 64) :
    pre1 pts coords npts w1 (ix4 b p m o)
      = ∑ i : Fin 9, feat9 pts coords (ix4 b p m i) * mask npts (ix4 b p m 0) * w1 (ix2 i o) := by
  unfold pre1
  rw [lin1_apply]

/-- The same, with the nine features written out: position, reflectance, offset from the centre, the
    centre, the mean height — each times the mask times its row of the weight matrix. -/
theorem pre1_expand (pts : FVec Ideal S4x12000x32x4 .f32) (coords : IVec S4x12000x4 32)
    (b : Fin 4) (p : Fin 12000) (m : Fin 32) (npts : IVec S4x12000 32) (w1 : FVec Ideal S9x64 .f32) (o : Fin 64) :
    pre1 pts coords npts w1 (ix4 b p m o)
      = pts (ix4 b p m 0) * mask npts (ix4 b p m 0) * w1 (ix2 0 o)
        + pts (ix4 b p m 1) * mask npts (ix4 b p m 0) * w1 (ix2 1 o)
        + pts (ix4 b p m 2) * mask npts (ix4 b p m 0) * w1 (ix2 2 o)
        + pts (ix4 b p m 3) * mask npts (ix4 b p m 0) * w1 (ix2 3 o)
        + (pts (ix4 b p m 0) - centers coords (ix3 b p 0)) * mask npts (ix4 b p m 0) * w1 (ix2 4 o)
        + (pts (ix4 b p m 1) - centers coords (ix3 b p 1)) * mask npts (ix4 b p m 0) * w1 (ix2 5 o)
        + centers coords (ix3 b p 0) * mask npts (ix4 b p m 0) * w1 (ix2 6 o)
        + centers coords (ix3 b p 1) * mask npts (ix4 b p m 0) * w1 (ix2 7 o)
        + Ideal.div (∑ m' : Fin 32, pts (ix4 b p m' 2)) (Ideal.ofBits .f32 0x42000000#32)
            * mask npts (ix4 b p m 0) * w1 (ix2 8 o) := by
  rw [pre1_apply, sum_fin9, feat9_at0, feat9_at1, feat9_at2, feat9_at3, feat9_at4, feat9_at5, feat9_at6, feat9_at7,
    feat9_at8]

/-- The first layer's output at a point and channel. -/
theorem hid1_apply (pts : FVec Ideal S4x12000x32x4 .f32) (coords : IVec S4x12000x4 32)
    (b : Fin 4) (p : Fin 12000) (m : Fin 32) (npts : IVec S4x12000 32) (w1 : FVec Ideal S9x64 .f32) (g1 b1 : FVec Ideal S64 .f32)
    (o : Fin 64) :
    hid1 pts coords npts w1 g1 b1 (ix4 b p m o)
      = max
          ((pre1 pts coords npts w1 (ix4 b p m o) - chanMean (pre1 pts coords npts w1) (ix1 o))
              * Ideal.rsqrt (chanVar (pre1 pts coords npts w1) (ix1 o) + Ideal.ofBits .f32 0x3A83126F#32)
              * g1 (ix1 o)
            + b1 (ix1 o))
          (Ideal.ofBits .f32 0x00000000#32) := by
  unfold hid1
  rw [bnRelu_apply]

/-- The second layer's pre-activation at a point and channel: the sum over the 64 hidden channels. -/
theorem pre2_apply (pts : FVec Ideal S4x12000x32x4 .f32) (coords : IVec S4x12000x4 32)
    (b : Fin 4) (p : Fin 12000) (m : Fin 32) (npts : IVec S4x12000 32) (w1 : FVec Ideal S9x64 .f32) (g1 b1 : FVec Ideal S64 .f32)
    (w2 : FVec Ideal S64x64 .f32) (o : Fin 64) :
    pre2 pts coords npts w1 g1 b1 w2 (ix4 b p m o)
      = ∑ i : Fin 64, hid1 pts coords npts w1 g1 b1 (ix4 b p m i) * w2 (ix2 i o) := by
  unfold pre2
  rw [lin2_apply]

/-- The second layer's output at a point and channel. -/
theorem hid2_apply (pts : FVec Ideal S4x12000x32x4 .f32) (coords : IVec S4x12000x4 32)
    (b : Fin 4) (p : Fin 12000) (m : Fin 32) (npts : IVec S4x12000 32) (w1 : FVec Ideal S9x64 .f32) (g1 b1 : FVec Ideal S64 .f32)
    (w2 : FVec Ideal S64x64 .f32) (g2 b2 : FVec Ideal S64 .f32) (o : Fin 64) :
    hid2 pts coords npts w1 g1 b1 w2 g2 b2 (ix4 b p m o)
      = max
          ((pre2 pts coords npts w1 g1 b1 w2 (ix4 b p m o) - chanMean (pre2 pts coords npts w1 g1 b1 w2) (ix1 o))
              * Ideal.rsqrt (chanVar (pre2 pts coords npts w1 g1 b1 w2) (ix1 o) + Ideal.ofBits .f32 0x3A83126F#32)
              * g2 (ix1 o)
            + b2 (ix1 o))
          (Ideal.ofBits .f32 0x00000000#32) := by
  unfold hid2
  rw [bnRelu_apply]

/-- The network's result at a voxel and channel: the maximum, from −∞, of the second layer's output over
    the voxel's 32 point slots. -/
theorem refTerm_apply (pts : FVec Ideal S4x12000x32x4 .f32) (coords : IVec S4x12000x4 32) (npts : IVec S4x12000 32)
    (w1 : FVec Ideal S9x64 .f32) (g1 b1 : FVec Ideal S64 .f32) (w2 : FVec Ideal S64x64 .f32)
    (g2 b2 : FVec Ideal S64 .f32) (b : Fin 4) (p : Fin 12000) (o : Fin 64) :
    refTerm pts coords npts w1 g1 b1 w2 g2 b2 (ix3 b p o)
      = (Finset.univ : Finset (Fin 32)).fold max (Ideal.ofBits .f32 0xFF800000#32)
          (fun m => hid2 pts coords npts w1 g1 b1 w2 g2 b2 (ix4 b p m o)) := by
  unfold refTerm
  rw [maxPts_apply]

end Cert.ReferenceIdeal.RefRead

end
-- ==== Proof.LibFeatureFold.lean ====
/-
  The nine-feature fold. For real data, the contraction of the masked feature vector
  [x, y, z, e, x - cx, y - cy, cx, cy, zc] with nine real weights equals the mask times a five-term
  combination with folded weights (w0 + w4, w1 + w5, w6 - w4, w7 - w5) plus a per-pillar offset; both
  are the same real number. Also: extended reals that are reals are closed under +, -, *, negation,
  max, min and finite sums, and the coercion of a finite real sum is the sum of the coercions.
-/
import Idealize.ShloMosaic.PureOps.Ideal
import Mathlib.Algebra.BigOperators.Fin
import Mathlib.Tactic.Ring

noncomputable section

namespace Cert.Lib.FeatureFold

open Idealize.ShloMosaic

/-! ### Extended reals that are reals -/

/-- An extended real that is (the coercion of) a real. -/
def IsReal (a : EReal) : Prop := ∃ r : ℝ, a = (r : EReal)

theorem isReal_coe (r : ℝ) : IsReal (r : EReal) := ⟨r, rfl⟩

theorem isReal_zero : IsReal 0 := ⟨0, rfl⟩

theorem isReal_one : IsReal 1 := ⟨1, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.neg {a : EReal} (ha : IsReal a) : IsReal (-a) := by
  obtain ⟨r, rfl⟩ := ha; exact ⟨-r, (EReal.coe_neg r).symm⟩

theorem IsReal.max {a b : EReal} (ha : IsReal a) (hb : IsReal b) : IsReal (max a b) := by
  rcases max_choice a b with h | h <;> rw [h] <;> assumption

theorem IsReal.min {a b : EReal} (ha : IsReal a) (hb : IsReal b) : IsReal (min a b) := by
  rcases min_choice a b with h | h <;> rw [h] <;> assumption

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- Division of a real by a nonzero real is a real. -/
theorem IsReal.div_coe {a : EReal} (ha : IsReal a) {n : ℝ} (hn : n ≠ 0) : IsReal (Ideal.div a (n : EReal)) := by
  rw [Ideal.div_coe hn]; exact ha.mul (isReal_coe _)

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A contraction of two real vectors, read on the extended reals, is the real contraction. -/
theorem coe_sum_mul {ι : Type*} (s : Finset ι) (f g : ι → ℝ) :
    (∑ i ∈ s, (f i : EReal) * (g i : EReal)) = ((∑ i ∈ s, f i * g i : ℝ) : EReal) := by
  simp only [← EReal.coe_mul, ← coe_sum]

/-! ### The fold -/

/-- A sum over nine indices, written out. -/
theorem sum_fin9 {M : Type*} [AddCommMonoid M] (g : Fin 9 → M) :
    ∑ i, g i = g 0 + g 1 + g 2 + g 3 + g 4 + g 5 + g 6 + g 7 + g 8 := by
  rw [Fin.sum_univ_castSucc, Fin.sum_univ_eight]
  rfl

/-- The folded form as a real: mask times (five folded terms plus the per-pillar offset). -/
def foldR (x y z e cx cy zc mk : ℝ) (w : Fin 9 → ℝ) : ℝ :=
  mk * ((((x * (w 0 + w 4) + y * (w 1 + w 5)) + z * w 2) + e * w 3)
    + ((cx * (w 6 - w 4) + cy * (w 7 - w 5)) + zc * w 8))

/-- The nine-term contraction of the masked features with the weights, over the reals. -/
theorem concat_real (x y z e cx cy zc mk : ℝ) (w : Fin 9 → ℝ) :
    (∑ i : Fin 9, ((![x, y, z, e, x - cx, y - cy, cx, cy, zc] : Fin 9 → ℝ) i * mk) * w i)
      = foldR x y z e cx cy zc mk w := by
  rw [sum_fin9]
  show (x * mk) * w 0 + (y * mk) * w 1 + (z * mk) * w 2 + (e * mk) * w 3 + ((x - cx) * mk) * w 4
      + ((y - cy) * mk) * w 5 + (cx * mk) * w 6 + (cy * mk) * w 7 + (zc * mk) * w 8 = _
  unfold foldR
  ring

/-- The nine-term contraction on the extended reals is the real folded value. -/
theorem concat_ereal (x y z e cx cy zc mk : ℝ) (w : Fin 9 → ℝ) :
    (∑ i : Fin 9, ((![(x : EReal), (y : EReal), (z : EReal), (e : EReal), (x : EReal) - (cx : EReal),
        (y : EReal) - (cy : EReal), (cx : EReal), (cy : EReal), (zc : EReal)] : Fin 9 → EReal) i * (mk : EReal))
        * (w i : EReal))
      = ((foldR x y z e cx cy zc mk w : ℝ) : EReal) := by
  rw [sum_fin9]
  show ((x : EReal) * (mk : EReal)) * (w 0 : EReal) + ((y : EReal) * (mk : EReal)) * (w 1 : EReal)
      + ((z : EReal) * (mk : EReal)) * (w 2 : EReal) + ((e : EReal) * (mk : EReal)) * (w 3 : EReal)
      + (((x : EReal) - (cx : EReal)) * (mk : EReal)) * (w 4 : EReal)
      + (((y : EReal) - (cy : EReal)) * (mk : EReal)) * (w 5 : EReal)
      + ((cx : EReal) * (mk : EReal)) * (w 6 : EReal) + ((cy : EReal) * (mk : EReal)) * (w 7 : EReal)
      + ((zc : EReal) * (mk : EReal)) * (w 8 : EReal) = _
  simp only [← EReal.coe_mul, ← EReal.coe_add, ← EReal.coe_sub]
  exact congrArg _ (by unfold foldR; ring)

/-- The folded spelling on the extended reals is the same real. -/
theorem folded_ereal (x y z e cx cy zc mk : ℝ) (w : Fin 9 → ℝ) :
    (mk : EReal) * (((((x : EReal) * ((w 0 : EReal) + (w 4 : EReal)) + (y : EReal) * ((w 1 : EReal) + (w 5 : EReal)))
        + (z : EReal) * (w 2 : EReal)) + (e : EReal) * (w 3 : EReal))
      + (((cx : EReal) * ((w 6 : EReal) - (w 4 : EReal)) + (cy : EReal) * ((w 7 : EReal) - (w 5 : EReal)))
        + (zc : EReal) * (w 8 : EReal)))
      = ((foldR x y z e cx cy zc mk w : ℝ) : EReal) := by
  simp only [← EReal.coe_mul, ← EReal.coe_add, ← EReal.coe_sub]
  rfl

/-- The fold: the nine-term contraction equals the folded spelling, on the extended reals. -/
theorem concat_eq_folded (x y z e cx cy zc mk : ℝ) (w : Fin 9 → ℝ) :
    (∑ i : Fin 9, ((![(x : EReal), (y : EReal), (z : EReal), (e : EReal), (x : EReal) - (cx : EReal),
        (y : EReal) - (cy : EReal), (cx : EReal), (cy : EReal), (zc : EReal)] : Fin 9 → EReal) i * (mk : EReal))
        * (w i : EReal))
      = (mk : EReal) * (((((x : EReal) * ((w 0 : EReal) + (w 4 : EReal)) + (y : EReal) * ((w 1 : EReal) + (w 5 : EReal)))
        + (z : EReal) * (w 2 : EReal)) + (e : EReal) * (w 3 : EReal))
      + (((cx : EReal) * ((w 6 : EReal) - (w 4 : EReal)) + (cy : EReal) * ((w 7 : EReal) - (w 5 : EReal)))
        + (zc : EReal) * (w 8 : EReal))) :=
  (concat_ereal x y z e cx cy zc mk w).trans (folded_ereal x y z e cx cy zc mk w).symm

/-- The folded value is a real. -/
theorem concat_isReal (x y z e cx cy zc mk : ℝ) (w : Fin 9 → ℝ) :
    IsReal (∑ i : Fin 9, ((![(x : EReal), (y : EReal), (z : EReal), (e : EReal), (x : EReal) - (cx : EReal),
        (y : EReal) - (cy : EReal), (cx : EReal), (cy : EReal), (zc : EReal)] : Fin 9 → EReal) i * (mk : EReal))
        * (w i : EReal)) :=
  ⟨_, concat_ereal x y z e cx cy zc mk w⟩

end Cert.Lib.FeatureFold

end
-- ==== Proof.LibBatchMoments.lean ====
/-
  Batch statistics on the extended reals.

  A batch-normalisation layer needs the mean and the variance of a column of finite numbers.  Two spellings of
  the variance occur side by side: the one-pass form, (sum of squares)/n - mean^2, which a streaming kernel
  accumulates, and the two-pass form, (sum of squared deviations from the mean)/n, which a textbook program
  computes.  On real data they are the same number; on the extended reals the identity needs every entry to be
  a real (a single infinity breaks distributivity), so it is stated for coerced real data.  Division is the
  ideal instance's division `Ideal.div`, which for a nonzero real divisor is multiplication by the reciprocal.

  Also here: the straight-through spelling `x + (sign x - x)` of the sign of a real, and the sign written with
  two selections (`if 0 < |x| then (if x < 0 then -1 else 1) else x`), both equal to `Ideal.sign x`.
-/
import Idealize.ShloMosaic.PureOps.Ideal
import Mathlib.Algebra.BigOperators.Field
import Mathlib.Tactic.FieldSimp
import Mathlib.Tactic.Ring

noncomputable section

namespace Cert.Lib.BatchMoments

open Idealize.ShloMosaic

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Ideal division of a real by a nonzero real is the real quotient. -/
theorem div_coe_coe (x n : ℝ) (hn : n ≠ 0) : Ideal.div (x : EReal) (n : EReal) = ((x / n : ℝ) : EReal) := by
  rw [Ideal.div_coe hn, ← EReal.coe_mul, mul_one_div]

/-- One-pass and two-pass variance agree on real data: with `S = ∑ h` and `n` the number of entries,
    `(∑ h²)/n - (S/n)² = (∑ (h - S/n)²)/n`. -/
theorem real_var {ι : Type*} [Fintype ι] (h : ι → ℝ) (n : ℝ) (hn : n ≠ 0) (hc : (Fintype.card ι : ℝ) = n) :
    (∑ i, h i * h i) / n - ((∑ i, h i) / n) * ((∑ i, h i) / n)
      = (∑ i, (h i - (∑ j, h j) / n) * (h i - (∑ j, h j) / n)) / n := by
  set S := ∑ i, h i with hS
  have e : ∀ i, (h i - S / n) * (h i - S / n) = h i * h i - 2 * (S / n) * h i + (S / n) * (S / n) := by
    intro i; ring
  simp_rw [e, Finset.sum_add_distrib, Finset.sum_sub_distrib, ← Finset.mul_sum, Finset.sum_const,
    Finset.card_univ, nsmul_eq_mul, hc, ← hS]
  field_simp
  ring

/-- The same on the extended reals, for coerced real data, in the ideal instance's operations: the one-pass
    variance `div (∑ h·h) n - div S n · div S n` is the two-pass variance `div (∑ (h - μ)·(h - μ)) n`,
    `μ = div S n`. -/
theorem ereal_var {ι : Type*} [Fintype ι] (h : ι → ℝ) (n : ℝ) (hn : n ≠ 0) (hc : (Fintype.card ι : ℝ) = n) :
    Ideal.div (∑ i, (h i : EReal) * (h i : EReal)) (n : EReal)
        - Ideal.div (∑ i, (h i : EReal)) (n : EReal) * Ideal.div (∑ i, (h i : EReal)) (n : EReal)
      = Ideal.div (∑ i, ((h i : EReal) - Ideal.div (∑ j, (h j : EReal)) (n : EReal))
            * ((h i : EReal) - Ideal.div (∑ j, (h j : EReal)) (n : EReal))) (n : EReal) := by
  simp only [← EReal.coe_mul, ← coe_sum, div_coe_coe _ _ hn, ← EReal.coe_sub]
  exact congrArg _ (real_var h n hn hc)

/-- The mean of coerced real data is a real: `div (∑ h) n = ((∑ h)/n : ℝ)`. -/
theorem ereal_mean {ι : Type*} [Fintype ι] (h : ι → ℝ) (n : ℝ) (hn : n ≠ 0) :
    Ideal.div (∑ i, (h i : EReal)) (n : EReal) = (((∑ i, h i) / n : ℝ) : EReal) := by
  rw [← coe_sum, div_coe_coe _ _ hn]

/-- The straight-through spelling of a function's value at a real: `x + (s - x) = s` for reals `x`, `s`. -/
theorem straight_through (x s : ℝ) : (x : EReal) + ((s : EReal) - (x : EReal)) = (s : EReal) := by
  rw [← EReal.coe_sub, ← EReal.coe_add]
  exact congrArg _ (by ring)

/-- The straight-through sign of a real is its sign. -/
theorem straight_through_sign (x : ℝ) :
    (x : EReal) + (Ideal.sign (x : EReal) - (x : EReal)) = Ideal.sign (x : EReal) := by
  rw [Ideal.sign_coe]
  exact straight_through x _

/-- The sign of an extended real written with two selections: where `0 < |x|` it is `-1` below zero and `1`
    above, and elsewhere (only at `0`) it is `x` itself. -/
theorem sign_by_selects (x : EReal) :
    (if 0 < max x (-x) then (if x < 0 then (-1 : EReal) else 1) else x) = Ideal.sign x := by
  induction x using EReal.rec with
  | bot => rw [Ideal.sign_bot]; simp
  | top => rw [Ideal.sign_top]; simp
  | coe r =>
    rw [Ideal.sign_coe]
    rcases lt_trichotomy r 0 with hr | hr | hr
    · have h1 : (0 : EReal) < max (r : EReal) (-(r : EReal)) := by
        rw [lt_max_iff]; right; rw [← EReal.coe_neg]; exact_mod_cast neg_pos.mpr hr
      have h2 : (r : EReal) < 0 := by exact_mod_cast hr
      rw [if_pos h1, if_pos h2, sign_neg hr]; simp
    · subst hr; simp
    · have h1 : (0 : EReal) < max (r : EReal) (-(r : EReal)) := by
        rw [lt_max_iff]; left; exact_mod_cast hr
      have h2 : ¬ (r : EReal) < 0 := by
        rw [not_lt]; exact_mod_cast hr.le
      rw [if_pos h1, if_neg h2, sign_pos hr]; simp

end Cert.Lib.BatchMoments

end
-- ==== Proof.LibMoments.lean ====
/-
  Mean and variance of finite real data, read on the extended reals: the mean and the (one-pass or two-pass)
  biased variance are reals, the variance is nonnegative, and the reciprocal square root of
  variance + eps is a real for every real eps > 0.
-/
import proofs.«172073_j52536039964809_2_alg».proof.Proof.LibBatchMoments

noncomputable section

namespace Cert.Lib.Moments

open Idealize.ShloMosaic Cert.Lib.BatchMoments

variable {ι : Type*} [Fintype ι]

/-- The real mean of the data. -/
def rmean (x : ι → ℝ) (n : ℝ) : ℝ := (∑ i, x i) / n

/-- The real biased variance of the data, in its two-pass form: the mean of the squared deviations. -/
def rvar (x : ι → ℝ) (n : ℝ) : ℝ := (∑ i, (x i - rmean x n) * (x i - rmean x n)) / n

/-- A nonzero real that is the cardinality of a finite type is positive. -/
theorem pos_of_card {n : ℝ} (hn : n ≠ 0) (hc : (Fintype.card ι : ℝ) = n) : 0 < n := by
  have h0 : (0 : ℝ) ≤ (Fintype.card ι : ℝ) := Nat.cast_nonneg _
  rw [hc] at h0
  exact lt_of_le_of_ne h0 hn.symm

/-- The variance is nonnegative (a mean of squares over a positive count). -/
theorem rvar_nonneg (x : ι → ℝ) {n : ℝ} (hn : 0 < n) : 0 ≤ rvar x n :=
  div_nonneg (Finset.sum_nonneg fun i _ => mul_self_nonneg _) hn.le

/-- The sum of the coerced data is the coerced real sum. -/
theorem esum (x : ι → ℝ) : (∑ i, (x i : EReal)) = ((∑ i, x i : ℝ) : EReal) := (coe_sum _ _).symm

/-- The sum of the coerced squares is the coerced real sum of squares. -/
theorem esumsq (x : ι → ℝ) : (∑ i, (x i : EReal) * (x i : EReal)) = ((∑ i, x i * x i : ℝ) : EReal) := by
  simp only [← EReal.coe_mul, ← coe_sum]

/-- The mean on the extended reals is the real mean. -/
theorem emean (x : ι → ℝ) {n : ℝ} (hn : n ≠ 0) :
    Ideal.div (∑ i, (x i : EReal)) (n : EReal) = ((rmean x n : ℝ) : EReal) := ereal_mean x n hn

/-- The two-pass variance on the extended reals is the real variance. -/
theorem evar_two_pass (x : ι → ℝ) {n : ℝ} (hn : n ≠ 0) :
    Ideal.div (∑ i, ((x i : EReal) - Ideal.div (∑ j, (x j : EReal)) (n : EReal))
        * ((x i : EReal) - Ideal.div (∑ j, (x j : EReal)) (n : EReal))) (n : EReal) = ((rvar x n : ℝ) : EReal) := by
  simp only [← EReal.coe_mul, ← coe_sum, div_coe_coe _ _ hn, ← EReal.coe_sub]
  rfl

/-- The one-pass variance (mean of squares minus squared mean) on the extended reals is the real variance. -/
theorem evar_one_pass (x : ι → ℝ) {n : ℝ} (hn : n ≠ 0) (hc : (Fintype.card ι : ℝ) = n) :
    Ideal.div (∑ i, (x i : EReal) * (x i : EReal)) (n : EReal)
        - Ideal.div (∑ i, (x i : EReal)) (n : EReal) * Ideal.div (∑ i, (x i : EReal)) (n : EReal)
      = ((rvar x n : ℝ) : EReal) :=
  (ereal_var x n hn hc).trans (evar_two_pass x hn)

/-- The reciprocal square root of a positive real is the real reciprocal of the real square root. -/
theorem rsqrt_pos {v : ℝ} (hv : 0 < v) : Ideal.rsqrt (v : EReal) = (((Real.sqrt v)⁻¹ : ℝ) : EReal) := by
  rw [Ideal.rsqrt_coe, if_neg (not_lt.2 hv.le), if_neg hv.ne']

/-- The reciprocal square root of (nonnegative real + positive real) is a real. -/
theorem rsqrt_add_eps {v eps : ℝ} (hv : 0 ≤ v) (he : 0 < eps) :
    Ideal.rsqrt ((v : EReal) + (eps : EReal)) = (((Real.sqrt (v + eps))⁻¹ : ℝ) : EReal) := by
  rw [← EReal.coe_add]
  exact rsqrt_pos (add_pos_of_nonneg_of_pos hv he)

/-- The normalising factor of the data: rsqrt (variance + eps) is a real, for the one-pass variance. -/
theorem rsqrt_evar_one_pass (x : ι → ℝ) {n eps : ℝ} (hn : n ≠ 0) (hc : (Fintype.card ι : ℝ) = n) (he : 0 < eps) :
    Ideal.rsqrt ((Ideal.div (∑ i, (x i : EReal) * (x i : EReal)) (n : EReal)
        - Ideal.div (∑ i, (x i : EReal)) (n : EReal) * Ideal.div (∑ i, (x i : EReal)) (n : EReal)) + (eps : EReal))
      = (((Real.sqrt (rvar x n + eps))⁻¹ : ℝ) : EReal) := by
  rw [evar_one_pass x hn hc]
  exact rsqrt_add_eps (rvar_nonneg x (pos_of_card hn hc)) he

/-- The same for the two-pass variance. -/
theorem rsqrt_evar_two_pass (x : ι → ℝ) {n eps : ℝ} (hn : n ≠ 0) (hc : (Fintype.card ι : ℝ) = n) (he : 0 < eps) :
    Ideal.rsqrt (Ideal.div (∑ i, ((x i : EReal) - Ideal.div (∑ j, (x j : EReal)) (n : EReal))
        * ((x i : EReal) - Ideal.div (∑ j, (x j : EReal)) (n : EReal))) (n : EReal) + (eps : EReal))
      = (((Real.sqrt (rvar x n + eps))⁻¹ : ℝ) : EReal) := by
  rw [evar_two_pass x hn]
  exact rsqrt_add_eps (rvar_nonneg x (pos_of_card hn hc)) he

end Cert.Lib.Moments

end
-- ==== Proof.Bridge1.lean ====
/-
  Layer 1 of the kernel's specification against the reference's: entry by entry the kernel's folded,
  masked pre-activation of a tile is the reference's nine-feature pre-activation at the same pillar
  (for real inputs, where the fold is an identity of real numbers), hence the running sums over the
  sixty tiles are the reference's sums over all points, and the mean and the one-pass variance the
  kernel derives from them are the reference's mean and two-pass variance.
-/
import proofs.«172073_j52536039964809_2_alg».proof.Proof.KSpecRead
import proofs.«172073_j52536039964809_2_alg».proof.Proof.Tile0
import proofs.«172073_j52536039964809_2_alg».proof.Proof.RefRead
import proofs.«172073_j52536039964809_2_alg».proof.Proof.LibFeatureFold
import proofs.«172073_j52536039964809_2_alg».proof.Proof.LibMoments

noncomputable section

open scoped BigOperators

namespace Cert.Bridge

open Idealize.ShloMosaic Idealize.ShloMosaic.ValueIdx Cert.KernelIdeal Cert.KernelIdeal.Spec
open Cert.Lib.TileSum (tileIdx flatIdx)
open Cert.Lib.FeatureFold (IsReal isReal_coe isReal_zero)

/-! ## The float literals as real numbers -/

theorem ofBits_half : Ideal.ofBits .f32 0x3F000000#32 = (((1 : ℝ) / 2 : ℝ) : EReal) := by
  simp [Ideal.ofBits, Ideal.ieee, -EReal.coe_mul]; norm_num
theorem ofBits_32 : Ideal.ofBits .f32 0x42000000#32 = ((32 : ℝ) : EReal) := by
  simp [Ideal.ofBits, Ideal.ieee, -EReal.coe_mul]; norm_num
theorem ofBits_count : Ideal.ofBits .f32 0x49BB8000#32 = ((1536000 : ℝ) : EReal) := by
  simp [Ideal.ofBits, Ideal.ieee, -EReal.coe_mul]; norm_num
theorem ofBits_size : Ideal.ofBits .f32 0x3E23D70A#32 = (((10737418 : ℝ) / 67108864 : ℝ) : EReal) := by
  simp [Ideal.ofBits, Ideal.ieee, -EReal.coe_mul]; norm_num
theorem ofBits_offy : Ideal.ofBits .f32 0xC21EB852#32 = ((-((10401874 : ℝ) / 262144) : ℝ) : EReal) := by
  simp [Ideal.ofBits, Ideal.ieee, -EReal.coe_mul, -EReal.coe_neg]; norm_num
theorem ofBits_eps : Ideal.ofBits .f32 0x3A83126F#32 = (((8589935 : ℝ) / 8589934592 : ℝ) : EReal) := by
  simp [Ideal.ofBits, Ideal.ieee, -EReal.coe_mul]; norm_num

/-- The statistics run over 4 · 12000 · 32 = 1 536 000 points. -/
theorem card_points : (Fintype.card (Fin 4 × Fin 12000 × Fin 32) : ℝ) = 1536000 := by
  simp only [Fintype.card_prod, Fintype.card_fin]; norm_num

/-! ## The mask, the centres, the mean height -/

theorem toInt_ofNat_slot (p : Fin 32) : (BitVec.ofNat 32 p.val).toInt = (p.val : ℤ) := by
  have := p.isLt
  rw [BitVec.toInt_eq_toNat_cond, BitVec.toNat_ofNat]
  have e : p.val % 2 ^ 32 = p.val := Nat.mod_eq_of_lt (by omega)
  rw [e, if_pos (by omega)]

/-- The reference's mask as the coercion of a real 0 or 1. -/
theorem mask_coe (npts : IVec S4x12000 32) (b : Fin 4) (P : Fin 12000) (p : Fin 32) :
    Cert.ReferenceIdeal.RefRun.mask (F := Ideal) npts (ix4 b P p 0)
      = (((if (p.val : ℤ) < (npts (ix2 b P)).toInt then (1 : ℝ) else 0 : ℝ)) : EReal) := by
  rw [Cert.ReferenceIdeal.RefRead.mask_eq_ite, toInt_ofNat_slot]
  split <;> simp

theorem centers_real0 (coords : IVec S4x12000x4 32) (b : Fin 4) (P : Fin 12000) :
    IsReal (Cert.ReferenceIdeal.RefRun.centers (F := Ideal) coords (ix3 b P 0)) := by
  rw [Cert.ReferenceIdeal.RefRead.centers_apply0, ofBits_half, ofBits_size, Ideal.ofBits_zero_f32]
  exact (((isReal_coe _).add (isReal_coe _)).mul (isReal_coe _)).add isReal_zero

theorem centers_real1 (coords : IVec S4x12000x4 32) (b : Fin 4) (P : Fin 12000) :
    IsReal (Cert.ReferenceIdeal.RefRun.centers (F := Ideal) coords (ix3 b P 1)) := by
  rw [Cert.ReferenceIdeal.RefRead.centers_apply1, ofBits_half, ofBits_size, ofBits_offy]
  exact (((isReal_coe _).add (isReal_coe _)).mul (isReal_coe _)).add (isReal_coe _)

theorem aux0_eq (coords : IVec S4x12000x4 32) (npts : IVec S4x12000 32) (b : Fin 4) (P : Fin 12000) :
    auxOf (F := Ideal) coords npts (ix3 b P 0) = Cert.ReferenceIdeal.RefRun.centers (F := Ideal) coords (ix3 b P 0) :=
  (auxOf_apply0 coords npts b P).trans (Cert.ReferenceIdeal.RefRead.centers_apply0 coords b P).symm

theorem aux1_eq (coords : IVec S4x12000x4 32) (npts : IVec S4x12000 32) (b : Fin 4) (P : Fin 12000) :
    auxOf (F := Ideal) coords npts (ix3 b P 1) = Cert.ReferenceIdeal.RefRun.centers (F := Ideal) coords (ix3 b P 1) :=
  (auxOf_apply1 coords npts b P).trans (Cert.ReferenceIdeal.RefRead.centers_apply1 coords b P).symm

theorem zmean_real (a0 : FVec Ideal S4x12000x32x4 .f32) (ha0 : ∀ i, ∃ r : ℝ, a0 i = (r : EReal)) (b : Fin 4)
    (P : Fin 12000) :
    IsReal (Ideal.div (∑ p' : Fin 32, a0 (ix4 b P p' 2)) (Ideal.ofBits .f32 0x42000000#32)) := by
  rw [ofBits_32]
  exact (IsReal.sum _ _ fun p' _ => ha0 _).div_coe (by norm_num)

/-! ## One entry of a tile -/

/-- The kernel's folded masked pre-activation at point p of pillar q of tile t is the reference's at pillar
    200·t + q, and it is a real. -/
theorem entry1 (a0 : FVec Ideal S4x12000x32x4 .f32) (coords : IVec S4x12000x4 32) (npts : IVec S4x12000 32)
    (w1 : FVec Ideal S9x64 .f32) (ha0 : ∀ i, ∃ r : ℝ, a0 i = (r : EReal)) (hw1 : ∀ i, ∃ r : ℝ, w1 i = (r : EReal))
    (t : Fin 60) (b : Fin 4) (q : Fin 200) (p : Fin 32) (o : Fin 64) :
    Cert.KernelIdeal.TileRead.pre1 (blockVox a0 t) (blockAux (auxOf (F := Ideal) coords npts) t) (amatOf w1) (bmatOf w1) b q p o = Cert.ReferenceIdeal.RefRun.pre1 a0 coords npts w1 (ix4 b (tileIdx t q) p o)
      ∧ IsReal (Cert.ReferenceIdeal.RefRun.pre1 a0 coords npts w1 (ix4 b (tileIdx t q) p o)) := by
  obtain ⟨x, hx⟩ := ha0 (ix4 b (tileIdx t q) p 0)
  obtain ⟨y, hy⟩ := ha0 (ix4 b (tileIdx t q) p 1)
  obtain ⟨z, hz⟩ := ha0 (ix4 b (tileIdx t q) p 2)
  obtain ⟨e, he⟩ := ha0 (ix4 b (tileIdx t q) p 3)
  obtain ⟨cx, hcx⟩ := centers_real0 coords b (tileIdx t q)
  obtain ⟨cy, hcy⟩ := centers_real1 coords b (tileIdx t q)
  obtain ⟨zc, hzc⟩ := zmean_real a0 ha0 b (tileIdx t q)
  choose w hw using fun i : Fin 9 => hw1 (ix2 i o)
  have hk : Cert.KernelIdeal.TileRead.pre1 (blockVox a0 t) (blockAux (auxOf (F := Ideal) coords npts) t) (amatOf w1) (bmatOf w1) b q p o
      = ((if (p.val : ℤ) < (npts (ix2 b (tileIdx t q))).toInt then (1 : ℝ) else 0 : ℝ) : EReal)
        * (((((x : EReal) * ((w 0 : EReal) + (w 4 : EReal)) + (y : EReal) * ((w 1 : EReal) + (w 5 : EReal)))
            + (z : EReal) * (w 2 : EReal)) + (e : EReal) * (w 3 : EReal))
          + (((cx : EReal) * ((w 6 : EReal) - (w 4 : EReal)) + (cy : EReal) * ((w 7 : EReal) - (w 5 : EReal)))
            + (zc : EReal) * (w 8 : EReal))) := by
    unfold Cert.KernelIdeal.TileRead.pre1
    simp only [blockVox_apply, blockAux_apply, auxOf_apply2, aux0_eq, aux1_eq, amatOf_apply0, amatOf_apply1,
      amatOf_apply2, amatOf_apply3, bmatOf_apply0, bmatOf_apply1, bmatOf_apply2]
    rw [hzc, hx, hy, hz, he, hcx, hcy, hw 0, hw 1, hw 2, hw 3, hw 4, hw 5, hw 6, hw 7, hw 8, Cert.KernelIdeal.TileRead.maskOf_int]
  have hr : Cert.ReferenceIdeal.RefRun.pre1 a0 coords npts w1 (ix4 b (tileIdx t q) p o)
      = ∑ i : Fin 9, ((![(x : EReal), (y : EReal), (z : EReal), (e : EReal), (x : EReal) - (cx : EReal),
          (y : EReal) - (cy : EReal), (cx : EReal), (cy : EReal), (zc : EReal)] : Fin 9 → EReal) i
            * ((if (p.val : ℤ) < (npts (ix2 b (tileIdx t q))).toInt then (1 : ℝ) else 0 : ℝ) : EReal))
          * (w i : EReal) := by
    rw [Cert.ReferenceIdeal.RefRead.pre1_expand, mask_coe, hzc, hx, hy, hz, he, hcx, hcy, hw 0, hw 1, hw 2, hw 3, hw 4, hw 5, hw 6, hw 7,
      hw 8, Cert.Lib.FeatureFold.sum_fin9]
    rfl
  refine ⟨hk.trans ((Cert.Lib.FeatureFold.concat_eq_folded x y z e cx cy zc _ w).symm.trans hr.symm), ?_⟩
  rw [hr]
  exact Cert.Lib.FeatureFold.concat_isReal x y z e cx cy zc _ w

/-- The reference's layer-1 pre-activation is a real at every point and channel. -/
theorem pre1_real (a0 : FVec Ideal S4x12000x32x4 .f32) (coords : IVec S4x12000x4 32) (npts : IVec S4x12000 32)
    (w1 : FVec Ideal S9x64 .f32) (ha0 : ∀ i, ∃ r : ℝ, a0 i = (r : EReal)) (hw1 : ∀ i, ∃ r : ℝ, w1 i = (r : EReal))
    (b : Fin 4) (P : Fin 12000) (p : Fin 32) (o : Fin 64) :
    IsReal (Cert.ReferenceIdeal.RefRun.pre1 a0 coords npts w1 (ix4 b P p o)) := by
  obtain ⟨x, hx⟩ := ha0 (ix4 b P p 0)
  obtain ⟨y, hy⟩ := ha0 (ix4 b P p 1)
  obtain ⟨z, hz⟩ := ha0 (ix4 b P p 2)
  obtain ⟨e, he⟩ := ha0 (ix4 b P p 3)
  obtain ⟨cx, hcx⟩ := centers_real0 coords b P
  obtain ⟨cy, hcy⟩ := centers_real1 coords b P
  obtain ⟨zc, hzc⟩ := zmean_real a0 ha0 b P
  choose w hw using fun i : Fin 9 => hw1 (ix2 i o)
  have hr : Cert.ReferenceIdeal.RefRun.pre1 a0 coords npts w1 (ix4 b P p o)
      = ∑ i : Fin 9, ((![(x : EReal), (y : EReal), (z : EReal), (e : EReal), (x : EReal) - (cx : EReal),
          (y : EReal) - (cy : EReal), (cx : EReal), (cy : EReal), (zc : EReal)] : Fin 9 → EReal) i
            * ((if (p.val : ℤ) < (npts (ix2 b P)).toInt then (1 : ℝ) else 0 : ℝ) : EReal))
          * (w i : EReal) := by
    rw [Cert.ReferenceIdeal.RefRead.pre1_expand, mask_coe, hzc, hx, hy, hz, he, hcx, hcy, hw 0, hw 1, hw 2, hw 3, hw 4, hw 5, hw 6, hw 7,
      hw 8, Cert.Lib.FeatureFold.sum_fin9]
    rfl
  rw [hr]
  exact Cert.Lib.FeatureFold.concat_isReal x y z e cx cy zc _ w

/-- The same at every index. -/
theorem pre1_real_all (a0 : FVec Ideal S4x12000x32x4 .f32) (coords : IVec S4x12000x4 32) (npts : IVec S4x12000 32)
    (w1 : FVec Ideal S9x64 .f32) (ha0 : ∀ i, ∃ r : ℝ, a0 i = (r : EReal)) (hw1 : ∀ i, ∃ r : ℝ, w1 i = (r : EReal)) :
    ∀ i, ∃ r : ℝ, Cert.ReferenceIdeal.RefRun.pre1 a0 coords npts w1 i = (r : EReal) := fun i => by
  rw [eq_ix4 i]
  exact pre1_real a0 coords npts w1 ha0 hw1 _ _ _ _

/-- Kernel 0's tile entry at row (b · 200 + q) · 32 + p, channel o, is the reference's pre-activation at
    pillar 200·t + q. -/
theorem h1pre_entry (a0 : FVec Ideal S4x12000x32x4 .f32) (coords : IVec S4x12000x4 32) (npts : IVec S4x12000 32)
    (w1 : FVec Ideal S9x64 .f32) (ha0 : ∀ i, ∃ r : ℝ, a0 i = (r : EReal)) (hw1 : ∀ i, ∃ r : ℝ, w1 i = (r : EReal))
    (t : Fin 60) (b : Fin 4) (q : Fin 200) (p : Fin 32) (o : Fin 64) :
    Cert.KernelIdeal.Tile.h1pre (F := Ideal) (blockVox a0 t) (blockAux (auxOf (F := Ideal) coords npts) t) (amatOf w1) (bmatOf w1) (ix2 (flatIdx b q p) o) = Cert.ReferenceIdeal.RefRun.pre1 a0 coords npts w1 (ix4 b (tileIdx t q) p o) :=
  (Cert.KernelIdeal.TileRead.h1pre_apply _ _ _ _ b q p o).trans (entry1 a0 coords npts w1 ha0 hw1 t b q p o).1

end Cert.Bridge

end
-- ==== Proof.Tile1.lean ====
/-
  Kernel 1's tile read at an index, at the ideal values. The layer-1 activation of point (b, q, p), channel k, is
  max (((pre1 - mean1) * rsqrt (var1 + eps)) * g1 + b1) 0; row (b * 200 + q) * 32 + p, channel o, of the flattened
  layer-2 pre-activation is the sum over k of that activation times W2 (k, o); the two accumulators add the tile's
  column sums of it and of its square.
-/
import proofs.«172073_j52536039964809_2_alg».proof.Proof.Tile0

noncomputable section

namespace Cert.KernelIdeal.TileRead

open Idealize.ShloMosaic Idealize.ShloMosaic.ValueIdx Cert.KernelIdeal Cert.KernelIdeal.Tile Cert.Lib.UnitAxes
open Cert.Lib.TileSum (flatIdx)

theorem rsqrt_apply {s : Shape} {φ : FTy} (x : FVec Ideal s φ) (i : s.Idx) : rsqrt x i = Ideal.rsqrt (x i) := rfl

/-! ## The 64-channel product -/

/-- At output (r, o) and contraction coordinate i the left operand is read at (r, i). -/
theorem dot_lhsIdx (r : Fin 25600) (o : Fin 64) (i : Fin 64) :
    dot_S25600x64_S64x64_S25600x64_1_0_0_1_n_n.lhsIdx (ix2 r o)
      ((contrEquiv1 dot_S25600x64_S64x64_S25600x64_1_0_0_1_n_n 64 rfl rfl).symm i) = ix2 r i := by
  funext a
  match a with
  | ⟨0, _⟩ => exact Fin.ext rfl
  | ⟨1, _⟩ => exact Fin.ext rfl

/-- At output (r, o) and contraction coordinate i the right operand is read at (i, o). -/
theorem dot_rhsIdx (r : Fin 25600) (o : Fin 64) (i : Fin 64) :
    dot_S25600x64_S64x64_S25600x64_1_0_0_1_n_n.rhsIdx (ix2 r o)
      ((contrEquiv1 dot_S25600x64_S64x64_S25600x64_1_0_0_1_n_n 64 rfl rfl).symm i) = ix2 i o := by
  funext a
  match a with
  | ⟨0, _⟩ => exact Fin.ext rfl
  | ⟨1, _⟩ => exact Fin.ext rfl

/-- The product into a zero accumulator at (r, o): the sum over k of lhs (r, k) * rhs (k, o). -/
theorem matmul64_apply {φ₁ φ₂ : FTy} (lhs : FVec Ideal S25600x64 φ₁) (rhs : FVec Ideal S64x64 φ₂) (r : Fin 25600)
    (o : Fin 64) :
    matmul dot_S25600x64_S64x64_S25600x64_1_0_0_1_n_n none lhs rhs (constant S25600x64 .f32 0x00000000#32) (ix2 r o)
      = ∑ k : Fin 64, lhs (ix2 r k) * rhs (ix2 k o) := by
  refine (Ideal.matmul_constant_zero_apply _ none lhs rhs (ix2 r o)).trans ?_
  refine (Equiv.sum_comp (contrEquiv1 dot_S25600x64_S64x64_S25600x64_1_0_0_1_n_n 64 rfl rfl).symm _).symm.trans ?_
  refine Finset.sum_congr rfl fun k _ => ?_
  rw [dot_lhsIdx, dot_rhsIdx]

/-! ## The pieces of kernel 1's tile -/

/-- The layer-2 pre-activation over arbitrary pieces: v96 the centred layer-1 pre-activation, v91 the variance,
    v97 the eps vector, v92 and v93 the scale and shift, v113 the weights. -/
theorem k1_pay1_apply (v91 : FVec Ideal S64 .f32) (v92 v93 : Vec Ideal S64 .f32) (v96 : FVec Ideal S4x200x32x64 .f32)
    (v97 : FVec Ideal S64 .f32) (v113 : Vec Ideal S64x64 .f32) (b : Fin 4) (q : Fin 200) (p : Fin 32) (o : Fin 64) :
    Gen.k1_pay1 (F := Ideal) v91 v92 v93 v96 v97 v113 (ix2 (flatIdx b q p) o)
      = ∑ k : Fin 64,
          max (v96 (ix4 b q p k) * Ideal.rsqrt (v91 (ix1 k) + v97 (ix1 k)) * v92 (ix1 k) + v93 (ix1 k))
              (Ideal.ofBits .f32 0x00000000#32)
            * v113 (ix2 k o) := by
  unfold Gen.k1_pay1
  try dsimp only
  rw [shapeCast_shapeCast, matmul64_apply]
  simp only [truncf_apply, cast_abcd_flat _ _ b q p _ (flatIdx b q p) rfl, maximumf_apply, addf_apply, mulf_apply,
    bc_111d_abcd, cast_a_111a, broadcast_apply, rsqrt_apply]
  rfl

/-- The centred layer-1 pre-activation over arbitrary pieces: kernel 0's value minus the mean. -/
theorem k1_pay19_apply (v11 : FVec Ideal S4x200x32 .f32) (v14 v15 v16 v20 : FVec Ideal S4x200x1 .f32)
    (v22 : FVec Ideal S4x64 .f32) (v24 : FVec Ideal S3x64 .f32) (v39 : FVec Ideal S4x200x32x64 .f32)
    (v40 : FVec Ideal S4x200x32x1 .f32) (v42 : FVec Ideal S64 .f32) (v88 : Vec Ideal S64 .f32)
    (b : Fin 4) (q : Fin 200) (p : Fin 32) (o : Fin 64) :
    Gen.k1_pay19 (F := Ideal) v11 v14 v15 v16 v20 v22 v24 v39 v40 v42 v88 (ix4 b q p o)
      = maskOf p (v16 (ix3 b q (0 : Fin 1)))
        * (v39 (ix4 b q p o) + v40 (ix4 b q p (0 : Fin 1)) * v42 (ix1 o) + v11 (ix3 b q p) * v22 (ix2 (3 : Fin 4) o)
          + (v14 (ix3 b q (0 : Fin 1)) * v24 (ix2 (0 : Fin 3) o) + v15 (ix3 b q (0 : Fin 1)) * v24 (ix2 (1 : Fin 3) o)
            + v20 (ix3 b q (0 : Fin 1)) * v24 (ix2 (2 : Fin 3) o)))
        - v88 (ix1 o) := by
  unfold Gen.k1_pay19
  try dsimp only
  rw [shapeCast_self]
  simp only [subf_apply, mulf_apply, addf_apply, bc_abc1_abcd, bc_111d_abcd, bc_ab1d_abcd, bc_ab1_abd, bc_11d_abd,
    cast_abc_abc1, cast_a_111a, cast_a_11a, cast_abc_ab1c, shapeCast_1a_a_apply,
    slice2_axis0_apply 3 v22 _ (0 : Fin 1) _ (3 : Fin 4) rfl,
    slice2_axis0_apply 0 v24 _ (0 : Fin 1) _ (0 : Fin 3) rfl,
    slice2_axis0_apply 1 v24 _ (0 : Fin 1) _ (1 : Fin 3) rfl,
    slice2_axis0_apply 2 v24 _ (0 : Fin 1) _ (2 : Fin 3) rfl,
    sitofp_apply, extui_apply, cmpi_apply, fptosi_apply]
  have hi : iota Kind.tc S4x200x32 32 [2] Gen.iota_S4x200x32_d2_w32 (ix3 b q p) = BitVec.ofNat 32 p.val :=
    iota_single_apply .tc S4x200x32 32 2 Gen.iota_S4x200x32_d2_w32 (ix3 b q p)
  rw [hi]
  rfl

section K1

variable (x0 : Vec Ideal S4x200x32x4 .f32) (x1 : Vec Ideal S4x200x3 .f32) (x2 : Vec Ideal S4x64 .f32)
  (x3 : Vec Ideal S3x64 .f32) (x4 x5 x6 x7 : Vec Ideal S64 .f32) (x8 : Vec Ideal S64x64 .f32)

/-- The centred layer-1 pre-activation from the loaded blocks: pre1 minus the mean. -/
theorem centered1_apply (b : Fin 4) (q : Fin 200) (p : Fin 32) (o : Fin 64) :
    Gen.k1_pay19 (F := Ideal) (Gen.k1_pay7 x0) (Gen.k1_pay9 x1) (Gen.k1_pay10 x1) (Gen.k1_pay11 x1) (Gen.k1_pay12 x0)
        (Gen.k1_pay13 x2) (Gen.k1_pay14 x3) (Gen.k1_pay15 x0 x2) (Gen.k1_pay16 x0) (Gen.k1_pay17 x2) x6 (ix4 b q p o)
      = pre1 x0 x1 x2 x3 b q p o - x6 (ix1 o) := by
  show Gen.k1_pay19 (F := Ideal) (Gen.k0_pay5 x0) (Gen.k0_pay7 x1) (Gen.k0_pay8 x1) (Gen.k0_pay9 x1) (Gen.k0_pay10 x0)
        (Gen.k0_pay11 x2) (Gen.k0_pay12 x3) (Gen.k0_pay13 x0 x2) (Gen.k0_pay14 x0) (Gen.k0_pay15 x2) x6 (ix4 b q p o) = _
  unfold pre1
  rw [k1_pay19_apply, k0_pay5_apply, k0_pay7_apply, k0_pay8_apply, k0_pay9_apply, k0_pay10_apply, k0_pay13_apply,
    k0_pay14_apply, k0_pay15_apply, k0_pay11_eq, k0_pay12_eq]

/-- The layer-1 activation of point (b, q, p), channel k: the centred pre-activation normalised by
    rsqrt (var1 + eps), scaled by g1, shifted by b1, clamped below at zero. x4 = g1, x5 = b1, x6 = mean1, x7 = var1. -/
def act1 (b : Fin 4) (q : Fin 200) (p : Fin 32) (k : Fin 64) : EReal :=
  max ((pre1 x0 x1 x2 x3 b q p k - x6 (ix1 k)) * Ideal.rsqrt (x7 (ix1 k) + Ideal.ofBits .f32 0x3A83126F#32) * x4 (ix1 k)
        + x5 (ix1 k))
    (Ideal.ofBits .f32 0x00000000#32)

theorem k1_pay18_eq : Gen.k1_pay18 (F := Ideal) x7 = x7 := shapeCast_self _ _

/-- Kernel 1's tile at row (b * 200 + q) * 32 + p, channel o. -/
theorem h2pre_apply (b : Fin 4) (q : Fin 200) (p : Fin 32) (o : Fin 64) :
    h2pre (F := Ideal) x0 x1 x2 x3 x4 x5 x6 x7 x8 (ix2 (flatIdx b q p) o)
      = ∑ k : Fin 64, act1 x0 x1 x2 x3 x4 x5 x6 x7 b q p k * x8 (ix2 k o) := by
  unfold h2pre
  rw [k1_pay1_apply]
  refine Finset.sum_congr rfl fun k _ => ?_
  rw [centered1_apply, k1_pay18_eq]
  rfl

/-- The sum accumulator after a tile: what it held plus the tile's column sum. -/
theorem acc1_sum_apply (a : Vec Ideal S64 .f32) (o : Fin 64) :
    acc1_sum (F := Ideal) x0 x1 x2 x3 x4 x5 x6 x7 x8 a (ix1 o)
      = a (ix1 o) + ∑ r : Fin 25600, h2pre (F := Ideal) x0 x1 x2 x3 x4 x5 x6 x7 x8 (ix2 r o) := by
  unfold acc1_sum Gen.k1_pay2
  try dsimp only
  rw [addf_apply, shapeCast_self]
  exact congrArg (a (ix1 o) + ·) (sum_axis0_apply _ _ _ _ _ o)

/-- The sum-of-squares accumulator after a tile: what it held plus the tile's column sum of squares. -/
theorem acc1_sq_apply (a : Vec Ideal S64 .f32) (o : Fin 64) :
    acc1_sq (F := Ideal) x0 x1 x2 x3 x4 x5 x6 x7 x8 a (ix1 o)
      = a (ix1 o) + ∑ r : Fin 25600, h2pre (F := Ideal) x0 x1 x2 x3 x4 x5 x6 x7 x8 (ix2 r o)
          * h2pre (F := Ideal) x0 x1 x2 x3 x4 x5 x6 x7 x8 (ix2 r o) := by
  unfold acc1_sq Gen.k1_pay3
  try dsimp only
  rw [addf_apply, shapeCast_self]
  exact congrArg (a (ix1 o) + ·) (sum_axis0_apply _ _ _ _ _ o)

/-- The accumulators are reset to zero. -/
theorem zero1_sum_apply (i : S64.Idx) : zero1_sum (F := Ideal) i = 0 := Ideal.ofBits_zero_f32

theorem zero1_sq_apply (i : S64.Idx) : zero1_sq (F := Ideal) i = 0 := Ideal.ofBits_zero_f32

end K1

end Cert.KernelIdeal.TileRead

end
-- ==== Proof.Bridge2.lean ====
/-
  Layer 2 of the kernel's specification against the reference's, entry by entry: given that the
  statistics the kernel hands to its second call are the reference's channel mean and variance of the
  layer-1 pre-activation, the kernel's layer-1 activation of a tile is the reference's first-layer
  output at the same pillar, and the tile's layer-2 pre-activation is the reference's. Normalised,
  scaled, shifted and rectified real data with real statistics stays real.
-/
import proofs.«172073_j52536039964809_2_alg».proof.Proof.Bridge1
import proofs.«172073_j52536039964809_2_alg».proof.Proof.Tile1

noncomputable section

open scoped BigOperators

namespace Cert.Bridge

open Idealize.ShloMosaic Idealize.ShloMosaic.ValueIdx Cert.KernelIdeal Cert.KernelIdeal.Spec
open Cert.Lib.TileSum (tileIdx flatIdx)
open Cert.Lib.FeatureFold (IsReal isReal_coe isReal_zero)

/-- Batch normalisation and rectification of real data, with real scale and shift, a real mean and a real
    normalising factor, is real at every point and channel. -/
theorem bnRelu_real (x : FVec Ideal Cert.ReferenceIdeal.S4x12000x32x64 .f32) (gamma beta : FVec Ideal S64 .f32)
    (hx : ∀ i, ∃ r : ℝ, x i = (r : EReal)) (hg : ∀ i, ∃ r : ℝ, gamma i = (r : EReal))
    (hb : ∀ i, ∃ r : ℝ, beta i = (r : EReal))
    (hmean : ∀ o : Fin 64, IsReal (Cert.ReferenceIdeal.RefRun.chanMean x (ix1 o)))
    (hrs : ∀ o : Fin 64, IsReal (Ideal.rsqrt (Cert.ReferenceIdeal.RefRun.chanVar x (ix1 o) + Ideal.ofBits .f32 0x3A83126F#32)))
    (b : Fin 4) (P : Fin 12000) (p : Fin 32) (o : Fin 64) :
    IsReal (Cert.ReferenceIdeal.RefRun.bnRelu x gamma beta (ix4 b P p o)) := by
  rw [Cert.ReferenceIdeal.RefRead.bnRelu_apply, Ideal.ofBits_zero_f32]
  exact IsReal.max (IsReal.add (IsReal.mul (IsReal.mul (IsReal.sub (hx _) (hmean o)) (hrs o)) (hg _)) (hb _)) isReal_zero

/-- The same at every index. -/
theorem bnRelu_real_all (x : FVec Ideal Cert.ReferenceIdeal.S4x12000x32x64 .f32) (gamma beta : FVec Ideal S64 .f32)
    (hx : ∀ i, ∃ r : ℝ, x i = (r : EReal)) (hg : ∀ i, ∃ r : ℝ, gamma i = (r : EReal))
    (hb : ∀ i, ∃ r : ℝ, beta i = (r : EReal))
    (hmean : ∀ o : Fin 64, IsReal (Cert.ReferenceIdeal.RefRun.chanMean x (ix1 o)))
    (hrs : ∀ o : Fin 64, IsReal (Ideal.rsqrt (Cert.ReferenceIdeal.RefRun.chanVar x (ix1 o) + Ideal.ofBits .f32 0x3A83126F#32))) :
    ∀ i, ∃ r : ℝ, Cert.ReferenceIdeal.RefRun.bnRelu x gamma beta i = (r : EReal) := fun i => by
  rw [eq_ix4 i]
  exact bnRelu_real x gamma beta hx hg hb hmean hrs _ _ _ _

/-- A 64-channel linear layer of real data with real weights is real at every index. -/
theorem lin2_real_all (h : FVec Ideal Cert.ReferenceIdeal.S4x12000x32x64 .f32) (w2 : FVec Ideal S64x64 .f32)
    (hh : ∀ i, ∃ r : ℝ, h i = (r : EReal)) (hw2 : ∀ i, ∃ r : ℝ, w2 i = (r : EReal)) :
    ∀ i, ∃ r : ℝ, Cert.ReferenceIdeal.RefRun.lin2 h w2 i = (r : EReal) := fun i => by
  obtain ⟨b, P, p, o, rfl⟩ : ∃ (b : Fin 4) (P : Fin 12000) (p : Fin 32) (o : Fin 64), i = ix4 b P p o :=
    ⟨i 0, i 1, i 2, i 3, eq_ix4 i⟩
  rw [Cert.ReferenceIdeal.RefRead.lin2_apply]
  exact IsReal.sum _ _ fun k _ => IsReal.mul (hh _) (hw2 _)

/-- The kernel's layer-1 activation at point p of pillar q of tile t, channel k, is the reference's first-layer
    output at pillar 200·t + q. -/
theorem act1_entry (a0 : FVec Ideal S4x12000x32x4 .f32) (coords : IVec S4x12000x4 32) (npts : IVec S4x12000 32)
    (w1 : FVec Ideal S9x64 .f32) (g1 b1 : FVec Ideal S64 .f32) (w2 : FVec Ideal S64x64 .f32) (ha0 : ∀ i, ∃ r : ℝ, a0 i = (r : EReal)) (hw1 : ∀ i, ∃ r : ℝ, w1 i = (r : EReal))
    (hm1 : kMean1 (F := Ideal) a0 coords npts w1 = Cert.ReferenceIdeal.RefRun.chanMean (Cert.ReferenceIdeal.RefRun.pre1 a0 coords npts w1))
    (hv1 : kVar1 (F := Ideal) a0 coords npts w1 = Cert.ReferenceIdeal.RefRun.chanVar (Cert.ReferenceIdeal.RefRun.pre1 a0 coords npts w1))
    (t : Fin 60) (b : Fin 4) (q : Fin 200) (p : Fin 32) (k : Fin 64) :
    Cert.KernelIdeal.TileRead.act1 (blockVox a0 t) (blockAux (auxOf (F := Ideal) coords npts) t) (amatOf w1) (bmatOf w1) g1 b1 (kMean1 (F := Ideal) a0 coords npts w1) (kVar1 (F := Ideal) a0 coords npts w1) b q p k
      = Cert.ReferenceIdeal.RefRun.hid1 a0 coords npts w1 g1 b1 (ix4 b (tileIdx t q) p k) := by
  unfold Cert.KernelIdeal.TileRead.act1
  rw [(entry1 a0 coords npts w1 ha0 hw1 t b q p k).1, hm1, hv1, Cert.ReferenceIdeal.RefRead.hid1_apply]

/-- Kernel 1's tile entry at row (b · 200 + q) · 32 + p, channel o, is the reference's layer-2 pre-activation at
    pillar 200·t + q. -/
theorem h2pre_entry (a0 : FVec Ideal S4x12000x32x4 .f32) (coords : IVec S4x12000x4 32) (npts : IVec S4x12000 32)
    (w1 : FVec Ideal S9x64 .f32) (g1 b1 : FVec Ideal S64 .f32) (w2 : FVec Ideal S64x64 .f32) (ha0 : ∀ i, ∃ r : ℝ, a0 i = (r : EReal)) (hw1 : ∀ i, ∃ r : ℝ, w1 i = (r : EReal))
    (hm1 : kMean1 (F := Ideal) a0 coords npts w1 = Cert.ReferenceIdeal.RefRun.chanMean (Cert.ReferenceIdeal.RefRun.pre1 a0 coords npts w1))
    (hv1 : kVar1 (F := Ideal) a0 coords npts w1 = Cert.ReferenceIdeal.RefRun.chanVar (Cert.ReferenceIdeal.RefRun.pre1 a0 coords npts w1))
    (t : Fin 60) (b : Fin 4) (q : Fin 200) (p : Fin 32) (o : Fin 64) :
    Cert.KernelIdeal.Tile.h2pre (F := Ideal) (blockVox a0 t) (blockAux (auxOf (F := Ideal) coords npts) t) (amatOf w1) (bmatOf w1) g1 b1 (kMean1 (F := Ideal) a0 coords npts w1) (kVar1 (F := Ideal) a0 coords npts w1) w2 (ix2 (flatIdx b q p) o)
      = Cert.ReferenceIdeal.RefRun.pre2 a0 coords npts w1 g1 b1 w2 (ix4 b (tileIdx t q) p o) := by
  rw [Cert.KernelIdeal.TileRead.h2pre_apply, Cert.ReferenceIdeal.RefRead.pre2_apply]
  exact Finset.sum_congr rfl fun k _ => by rw [act1_entry a0 coords npts w1 g1 b1 w2 ha0 hw1 hm1 hv1 t b q p k]

end Cert.Bridge

end
-- ==== Proof.Tile2.lean ====
/-
  Kernel 2's tile read at an index, at the ideal values. The output block at (b, q, o) is the maximum over the pillar's
  32 points p, taken from minus infinity, of max (((h2 - mean2) * rsqrt (var2 + eps)) * g2 + b2) 0, where h2 is the
  sum over k of the layer-1 activation of (b, q, p), channel k, times W2 (k, o).
-/
import proofs.«172073_j52536039964809_2_alg».proof.Proof.Tile1

noncomputable section

namespace Cert.KernelIdeal.TileRead

open Idealize.ShloMosaic Idealize.ShloMosaic.ValueIdx Cert.KernelIdeal Cert.KernelIdeal.Tile Cert.Lib.UnitAxes
open Cert.Lib.TileSum (flatIdx)

/-- The maximum of a rank-4 array over its third axis, at (i, j, l): the fold of max, from the initial value, over k of
    the entries (i, j, k, l). -/
theorem max_axis2_apply {φ : FTy} {a b c d : Nat} (src : FVec Ideal ⟨4, ![a, b, c, d]⟩ φ) (acc : BitVec φ.bits)
    (h : (⟨4, ![a, b, c, d]⟩ : Shape).Reduces [2] ⟨3, ![a, b, d]⟩) (hφ : FKind.Formats φ)
    (hacc : acc = FKind.maximumf.neutral φ hφ) (i : Fin a) (j : Fin b) (l : Fin d) :
    multiReduction .maximumf [2] ⟨3, ![a, b, d]⟩ src acc h hφ hacc (ix3 i j l)
      = (Finset.univ : Finset (Fin c)).fold max (Ideal.ofBits φ acc) (fun k => src (ix4 i j k l)) := by
  refine (Ideal.multiReduction_maximumf_single src acc h hφ hacc (ix3 i j l)).trans ?_
  refine congrArg (fun f => Finset.fold max (Ideal.ofBits φ acc) f (Finset.univ : Finset (Fin c))) (funext fun k => ?_)
  refine congrArg src (funext fun ax => ?_)
  match ax with
  | ⟨0, _⟩ => rfl
  | ⟨1, _⟩ => rfl
  | ⟨2, _⟩ => rfl
  | ⟨3, _⟩ => rfl

/-! ## The pieces of kernel 2's tile -/

/-- The normalised layer-1 pre-activation over arbitrary pieces. -/
theorem k2_pay12_apply (v11 v12 v13 v17 : FVec Ideal S4x200x1 .f32) (v19 : FVec Ideal S4x64 .f32)
    (v21 : FVec Ideal S3x64 .f32) (v44 : FVec Ideal S4x200x32x64 .f32) (v45 : FVec Ideal S4x200x32x1 .f32)
    (v85 v87 : Vec Ideal S64 .f32) (b : Fin 4) (q : Fin 200) (p : Fin 32) (o : Fin 64) :
    Gen.k2_pay12 (F := Ideal) v11 v12 v13 v17 v19 v21 v44 v45 v85 v87 (ix4 b q p o)
      = (maskOf p (v13 (ix3 b q (0 : Fin 1)))
          * (v44 (ix4 b q p o) + v45 (ix4 b q p (0 : Fin 1)) * v19 (ix2 (3 : Fin 4) o)
            + (v11 (ix3 b q (0 : Fin 1)) * v21 (ix2 (0 : Fin 3) o) + v12 (ix3 b q (0 : Fin 1)) * v21 (ix2 (1 : Fin 3) o)
              + v17 (ix3 b q (0 : Fin 1)) * v21 (ix2 (2 : Fin 3) o)))
          - v85 (ix1 o))
        * Ideal.rsqrt (v87 (ix1 o) + Ideal.ofBits .f32 0x3A83126F#32) := by
  unfold Gen.k2_pay12
  try dsimp only
  simp only [shapeCast_self, subf_apply, mulf_apply, addf_apply, rsqrt_apply, broadcast_apply,
    bc_abc1_abcd, bc_111d_abcd, bc_ab1d_abcd, bc_ab1_abd, bc_11d_abd,
    cast_abc_abc1, cast_a_111a, cast_a_11a, cast_abc_ab1c, shapeCast_1a_a_apply,
    slice2_axis0_apply 3 v19 _ (0 : Fin 1) _ (3 : Fin 4) rfl,
    slice2_axis0_apply 0 v21 _ (0 : Fin 1) _ (0 : Fin 3) rfl,
    slice2_axis0_apply 1 v21 _ (0 : Fin 1) _ (1 : Fin 3) rfl,
    slice2_axis0_apply 2 v21 _ (0 : Fin 1) _ (2 : Fin 3) rfl,
    sitofp_apply, extui_apply, cmpi_apply, fptosi_apply]
  have hi : iota Kind.tc S4x200x32 32 [2] Gen.iota_S4x200x32_d2_w32 (ix3 b q p) = BitVec.ofNat 32 p.val :=
    iota_single_apply .tc S4x200x32 32 2 Gen.iota_S4x200x32_d2_w32 (ix3 b q p)
  rw [hi]
  rfl

/-- The output block over arbitrary pieces: v99 the normalised layer-1 pre-activation, v100 and v90 the layer-1
    scale and shift, v110 the weights, v114 and v116 the layer-2 mean and variance, v118 and v119 its scale and shift. -/
theorem k2_pay1_apply (v90 : Vec Ideal S64 .f32) (v99 : FVec Ideal S4x200x32x64 .f32) (v100 : FVec Ideal S1x1x1x64 .f32)
    (v110 : Vec Ideal S64x64 .f32) (v114 v116 v118 v119 : Vec Ideal S64 .f32) (b : Fin 4) (q : Fin 200) (o : Fin 64) :
    Gen.k2_pay1 (F := Ideal) v90 v99 v100 v110 v114 v116 v118 v119 (ix3 b q o)
      = (Finset.univ : Finset (Fin 32)).fold max (Ideal.ofBits .f32 0xFF800000#32) (fun p =>
          max (((∑ k : Fin 64,
                    max (v99 (ix4 b q p k) * v100 (ix4 (0 : Fin 1) (0 : Fin 1) (0 : Fin 1) k) + v90 (ix1 k))
                        (Ideal.ofBits .f32 0x00000000#32)
                      * v110 (ix2 k o))
                  - v114 (ix1 o))
                * Ideal.rsqrt (v116 (ix1 o) + Ideal.ofBits .f32 0x3A83126F#32) * v118 (ix1 o)
              + v119 (ix1 o))
            (Ideal.ofBits .f32 0x00000000#32)) := by
  unfold Gen.k2_pay1
  try dsimp only
  refine (max_axis2_apply _ _ _ _ _ b q o).trans ?_
  refine congrArg (fun f => Finset.fold max (Ideal.ofBits .f32 0xFF800000#32) f (Finset.univ : Finset (Fin 32)))
    (funext fun p => ?_)
  simp only [shapeCast_self, maximumf_apply, addf_apply, mulf_apply, subf_apply, rsqrt_apply, broadcast_apply,
    bc_111d_abcd, cast_a_111a, cast_flat_abcd _ _ b q p _ (flatIdx b q p) rfl, matmul64_apply, truncf_apply,
    cast_abcd_flat _ _ b q p _ (flatIdx b q p) rfl]
  rfl

section K2

variable (x0 : Vec Ideal S4x200x32x4 .f32) (x1 : Vec Ideal S4x200x3 .f32) (x2 : Vec Ideal S4x64 .f32)
  (x3 : Vec Ideal S3x64 .f32) (x4 x5 x6 x7 : Vec Ideal S64 .f32) (x8 : Vec Ideal S64x64 .f32)
  (x9 x10 x11 x12 : Vec Ideal S64 .f32)

theorem k2_pay2_apply (b : Fin 4) (q : Fin 200) (p : Fin 32) :
    Gen.k2_pay2 (F := Ideal) x0 (ix3 b q p) = x0 (ix4 b q p (2 : Fin 4)) := k0_pay4_apply x0 b q p

theorem k2_pay4_apply (b : Fin 4) (q : Fin 200) :
    Gen.k2_pay4 (F := Ideal) x1 (ix3 b q (0 : Fin 1)) = x1 (ix3 b q (0 : Fin 3)) := k0_pay7_apply x1 b q

theorem k2_pay5_apply (b : Fin 4) (q : Fin 200) :
    Gen.k2_pay5 (F := Ideal) x1 (ix3 b q (0 : Fin 1)) = x1 (ix3 b q (1 : Fin 3)) := k0_pay8_apply x1 b q

theorem k2_pay6_apply (b : Fin 4) (q : Fin 200) :
    Gen.k2_pay6 (F := Ideal) x1 (ix3 b q (0 : Fin 1)) = x1 (ix3 b q (2 : Fin 3)) := k0_pay9_apply x1 b q

theorem k2_pay7_apply (b : Fin 4) (q : Fin 200) :
    Gen.k2_pay7 (F := Ideal) x0 (ix3 b q (0 : Fin 1))
      = Ideal.div (∑ p : Fin 32, x0 (ix4 b q p (2 : Fin 4))) (Ideal.ofBits .f32 0x42000000#32) :=
  k0_pay10_apply x0 b q

theorem k2_pay8_eq : Gen.k2_pay8 (F := Ideal) x2 = x2 := shapeCast_self _ _

theorem k2_pay9_eq : Gen.k2_pay9 (F := Ideal) x3 = x3 := shapeCast_self _ _

theorem k2_pay10_apply (b : Fin 4) (q : Fin 200) (p : Fin 32) (o : Fin 64) :
    Gen.k2_pay10 (F := Ideal) x0 x2 (ix4 b q p o)
      = (x0 (ix4 b q p (0 : Fin 4)) * x2 (ix2 (0 : Fin 4) o) + x0 (ix4 b q p (1 : Fin 4)) * x2 (ix2 (1 : Fin 4) o))
        + x0 (ix4 b q p (2 : Fin 4)) * x2 (ix2 (2 : Fin 4) o) := by
  unfold Gen.k2_pay10
  try dsimp only
  rw [k2_pay8_eq]
  simp only [mulf_apply, addf_apply, bc_abc1_abcd, bc_111d_abcd, cast_abc_abc1, cast_abc1_abc, cast_a_111a,
    shapeCast_1a_a_apply, k2_pay2_apply,
    slice2_axis0_apply 0 x2 _ (0 : Fin 1) _ (0 : Fin 4) rfl,
    slice2_axis0_apply 1 x2 _ (0 : Fin 1) _ (1 : Fin 4) rfl,
    slice2_axis0_apply 2 x2 _ (0 : Fin 1) _ (2 : Fin 4) rfl,
    slice4_axis3_apply 0 x0 _ _ _ _ (0 : Fin 1) (0 : Fin 4) rfl,
    slice4_axis3_apply 1 x0 _ _ _ _ (0 : Fin 1) (1 : Fin 4) rfl]

theorem k2_pay11_apply (b : Fin 4) (q : Fin 200) (p : Fin 32) :
    Gen.k2_pay11 (F := Ideal) x0 (ix4 b q p (0 : Fin 1)) = x0 (ix4 b q p (3 : Fin 4)) := by
  unfold Gen.k2_pay11
  try dsimp only
  simp only [cast_abc_abc1, cast_abc1_abc, slice4_axis3_apply 3 x0 _ _ _ _ (0 : Fin 1) (3 : Fin 4) rfl]

theorem k2_pay13_apply (u0 u1 u2 : Fin 1) (k : Fin 64) :
    Gen.k2_pay13 (F := Ideal) x4 (ix4 u0 u1 u2 k) = x4 (ix1 k) := cast_a_111a _ _ u0 u1 u2 k

/-- The normalised layer-1 pre-activation from the loaded blocks. -/
theorem normalized1_apply (b : Fin 4) (q : Fin 200) (p : Fin 32) (o : Fin 64) :
    Gen.k2_pay12 (F := Ideal) (Gen.k2_pay4 x1) (Gen.k2_pay5 x1) (Gen.k2_pay6 x1) (Gen.k2_pay7 x0) (Gen.k2_pay8 x2)
        (Gen.k2_pay9 x3) (Gen.k2_pay10 x0 x2) (Gen.k2_pay11 x0) x6 x7 (ix4 b q p o)
      = (pre1 x0 x1 x2 x3 b q p o - x6 (ix1 o)) * Ideal.rsqrt (x7 (ix1 o) + Ideal.ofBits .f32 0x3A83126F#32) := by
  unfold pre1
  rw [k2_pay12_apply, k2_pay4_apply, k2_pay5_apply, k2_pay6_apply, k2_pay7_apply, k2_pay10_apply, k2_pay11_apply,
    k2_pay8_eq, k2_pay9_eq]

/-- The layer-2 activation of point (b, q, p), channel o: the layer-2 pre-activation normalised by
    rsqrt (var2 + eps), scaled by g2, shifted by b2, clamped below at zero. x9 = g2, x10 = b2, x11 = mean2, x12 = var2. -/
def act2 (b : Fin 4) (q : Fin 200) (p : Fin 32) (o : Fin 64) : EReal :=
  max (((∑ k : Fin 64, act1 x0 x1 x2 x3 x4 x5 x6 x7 b q p k * x8 (ix2 k o)) - x11 (ix1 o))
        * Ideal.rsqrt (x12 (ix1 o) + Ideal.ofBits .f32 0x3A83126F#32) * x9 (ix1 o)
      + x10 (ix1 o))
    (Ideal.ofBits .f32 0x00000000#32)

/-- Kernel 2's output block at (b, q, o): the maximum over the 32 points, from minus infinity, of the layer-2
    activation. -/
theorem out2_apply (b : Fin 4) (q : Fin 200) (o : Fin 64) :
    out2 (F := Ideal) x0 x1 x2 x3 x4 x5 x6 x7 x8 x9 x10 x11 x12 (ix3 b q o)
      = (Finset.univ : Finset (Fin 32)).fold max (Ideal.ofBits .f32 0xFF800000#32)
          (fun p => act2 x0 x1 x2 x3 x4 x5 x6 x7 x8 x9 x10 x11 x12 b q p o) := by
  unfold out2
  rw [k2_pay1_apply]
  refine congrArg (fun f => Finset.fold max (Ideal.ofBits .f32 0xFF800000#32) f (Finset.univ : Finset (Fin 32)))
    (funext fun p => ?_)
  simp only [normalized1_apply, k2_pay13_apply]
  rfl

/-- The initial value of the maximum is minus infinity. -/
theorem ofBits_neg_inf : Ideal.ofBits .f32 0xFF800000#32 = (⊥ : EReal) := by
  simp [Ideal.ofBits, Ideal.ieee]

end K2

end Cert.KernelIdeal.TileRead

end
-- ==== Proof.Bridge3.lean ====
/-
  The kernel's specification is the reference network: the last call's tile, entry by entry, is the
  reference's second-layer output maximised over a pillar's points — given that the statistics the
  kernel hands to its calls are the reference's channel means and variances — and every pillar lies
  in exactly one tile, so the kernel's whole result is the reference's term.
-/
import proofs.«172073_j52536039964809_2_alg».proof.Proof.Bridge2
import proofs.«172073_j52536039964809_2_alg».proof.Proof.Tile2

noncomputable section

open scoped BigOperators

namespace Cert.Bridge

open Idealize.ShloMosaic Idealize.ShloMosaic.ValueIdx Cert.KernelIdeal Cert.KernelIdeal.Spec
open Cert.Lib.TileSum (tileIdx flatIdx)

/-- The kernel's layer-2 activation at point p of pillar q of tile t, channel o, is the reference's second-layer
    output at pillar 200·t + q. -/
theorem act2_entry (a0 : FVec Ideal S4x12000x32x4 .f32) (coords : IVec S4x12000x4 32) (npts : IVec S4x12000 32)
    (w1 : FVec Ideal S9x64 .f32) (g1 b1 : FVec Ideal S64 .f32) (w2 : FVec Ideal S64x64 .f32)
    (g2 b2 : FVec Ideal S64 .f32) (ha0 : ∀ i, ∃ r : ℝ, a0 i = (r : EReal)) (hw1 : ∀ i, ∃ r : ℝ, w1 i = (r : EReal))
    (hm1 : kMean1 (F := Ideal) a0 coords npts w1 = Cert.ReferenceIdeal.RefRun.chanMean (Cert.ReferenceIdeal.RefRun.pre1 a0 coords npts w1))
    (hv1 : kVar1 (F := Ideal) a0 coords npts w1 = Cert.ReferenceIdeal.RefRun.chanVar (Cert.ReferenceIdeal.RefRun.pre1 a0 coords npts w1))
    (hm2 : kMean2 (F := Ideal) a0 coords npts w1 g1 b1 w2 = Cert.ReferenceIdeal.RefRun.chanMean (Cert.ReferenceIdeal.RefRun.pre2 a0 coords npts w1 g1 b1 w2))
    (hv2 : kVar2 (F := Ideal) a0 coords npts w1 g1 b1 w2 = Cert.ReferenceIdeal.RefRun.chanVar (Cert.ReferenceIdeal.RefRun.pre2 a0 coords npts w1 g1 b1 w2))
    (t : Fin 60) (b : Fin 4) (q : Fin 200) (p : Fin 32) (o : Fin 64) :
    Cert.KernelIdeal.TileRead.act2 (blockVox a0 t) (blockAux (auxOf (F := Ideal) coords npts) t) (amatOf w1) (bmatOf w1) g1 b1 (kMean1 (F := Ideal) a0 coords npts w1) (kVar1 (F := Ideal) a0 coords npts w1) w2 g2 b2 (kMean2 (F := Ideal) a0 coords npts w1 g1 b1 w2) (kVar2 (F := Ideal) a0 coords npts w1 g1 b1 w2) b q p o
      = Cert.ReferenceIdeal.RefRun.hid2 a0 coords npts w1 g1 b1 w2 g2 b2 (ix4 b (tileIdx t q) p o) := by
  unfold Cert.KernelIdeal.TileRead.act2
  rw [Cert.ReferenceIdeal.RefRead.hid2_apply, Cert.ReferenceIdeal.RefRead.pre2_apply, hm2, hv2]
  simp only [act1_entry a0 coords npts w1 g1 b1 w2 ha0 hw1 hm1 hv1 t b q p]

/-- The last call's tile at pillar q, channel o, is the reference's result at pillar 200·t + q. -/
theorem out2_entry (a0 : FVec Ideal S4x12000x32x4 .f32) (coords : IVec S4x12000x4 32) (npts : IVec S4x12000 32)
    (w1 : FVec Ideal S9x64 .f32) (g1 b1 : FVec Ideal S64 .f32) (w2 : FVec Ideal S64x64 .f32)
    (g2 b2 : FVec Ideal S64 .f32) (ha0 : ∀ i, ∃ r : ℝ, a0 i = (r : EReal)) (hw1 : ∀ i, ∃ r : ℝ, w1 i = (r : EReal))
    (hm1 : kMean1 (F := Ideal) a0 coords npts w1 = Cert.ReferenceIdeal.RefRun.chanMean (Cert.ReferenceIdeal.RefRun.pre1 a0 coords npts w1))
    (hv1 : kVar1 (F := Ideal) a0 coords npts w1 = Cert.ReferenceIdeal.RefRun.chanVar (Cert.ReferenceIdeal.RefRun.pre1 a0 coords npts w1))
    (hm2 : kMean2 (F := Ideal) a0 coords npts w1 g1 b1 w2 = Cert.ReferenceIdeal.RefRun.chanMean (Cert.ReferenceIdeal.RefRun.pre2 a0 coords npts w1 g1 b1 w2))
    (hv2 : kVar2 (F := Ideal) a0 coords npts w1 g1 b1 w2 = Cert.ReferenceIdeal.RefRun.chanVar (Cert.ReferenceIdeal.RefRun.pre2 a0 coords npts w1 g1 b1 w2))
    (t : Fin 60) (b : Fin 4) (q : Fin 200) (o : Fin 64) :
    Cert.KernelIdeal.Tile.out2 (F := Ideal) (blockVox a0 t) (blockAux (auxOf (F := Ideal) coords npts) t) (amatOf w1) (bmatOf w1) g1 b1 (kMean1 (F := Ideal) a0 coords npts w1) (kVar1 (F := Ideal) a0 coords npts w1) w2 g2 b2 (kMean2 (F := Ideal) a0 coords npts w1 g1 b1 w2) (kVar2 (F := Ideal) a0 coords npts w1 g1 b1 w2) (ix3 b q o)
      = Cert.ReferenceIdeal.RefRun.refTerm a0 coords npts w1 g1 b1 w2 g2 b2 (ix3 b (tileIdx t q) o) := by
  rw [Cert.KernelIdeal.TileRead.out2_apply, Cert.ReferenceIdeal.RefRead.refTerm_apply]
  refine congrArg (fun f => Finset.fold max (Ideal.ofBits .f32 0xFF800000#32) f (Finset.univ : Finset (Fin 32)))
    (funext fun p => ?_)
  exact act2_entry a0 coords npts w1 g1 b1 w2 g2 b2 ha0 hw1 hm1 hv1 hm2 hv2 t b q p o

/-! ## Every pillar lies in one tile -/

/-- Pillar P's place inside its tile. -/
def inTile (P : Fin 12000) : Fin 200 := ⟨P.val % 200, Nat.mod_lt _ (by decide)⟩

theorem local60_ix3 (b : Fin 4) (P : Fin 12000) (o : Fin 64) :
    local60 (ix3 b P o) = ix3 b (inTile P) o :=
  funext fun a => Fin.ext (by match a with | ⟨0, _⟩ => rfl | ⟨1, _⟩ => rfl | ⟨2, _⟩ => rfl)

theorem tileIdx_tile60 (b : Fin 4) (P : Fin 12000) (o : Fin 64) :
    tileIdx (tile60 (ix3 b P o)) (inTile P) = P :=
  Fin.ext (by
    show P.val / 200 * 200 + P.val % 200 = P.val
    omega)

/-- THE BRIDGE, given the statistics: if the means and variances the kernel derives from its running sums are the
    reference's channel means and variances of the two pre-activations, the kernel's result is the reference's. -/
theorem kerOut_eq_ref_of (a0 : FVec Ideal S4x12000x32x4 .f32) (coords : IVec S4x12000x4 32) (npts : IVec S4x12000 32)
    (w1 : FVec Ideal S9x64 .f32) (g1 b1 : FVec Ideal S64 .f32) (w2 : FVec Ideal S64x64 .f32)
    (g2 b2 : FVec Ideal S64 .f32) (ha0 : ∀ i, ∃ r : ℝ, a0 i = (r : EReal)) (hw1 : ∀ i, ∃ r : ℝ, w1 i = (r : EReal))
    (hm1 : kMean1 (F := Ideal) a0 coords npts w1 = Cert.ReferenceIdeal.RefRun.chanMean (Cert.ReferenceIdeal.RefRun.pre1 a0 coords npts w1))
    (hv1 : kVar1 (F := Ideal) a0 coords npts w1 = Cert.ReferenceIdeal.RefRun.chanVar (Cert.ReferenceIdeal.RefRun.pre1 a0 coords npts w1))
    (hm2 : kMean2 (F := Ideal) a0 coords npts w1 g1 b1 w2 = Cert.ReferenceIdeal.RefRun.chanMean (Cert.ReferenceIdeal.RefRun.pre2 a0 coords npts w1 g1 b1 w2))
    (hv2 : kVar2 (F := Ideal) a0 coords npts w1 g1 b1 w2 = Cert.ReferenceIdeal.RefRun.chanVar (Cert.ReferenceIdeal.RefRun.pre2 a0 coords npts w1 g1 b1 w2)) :
    kerOut (F := Ideal) a0 coords npts w1 g1 b1 w2 g2 b2 = Cert.ReferenceIdeal.RefRun.refTerm a0 coords npts w1 g1 b1 w2 g2 b2 := by
  funext i
  obtain ⟨b, P, o, rfl⟩ : ∃ (b : Fin 4) (P : Fin 12000) (o : Fin 64), i = ix3 b P o := ⟨i 0, i 1, i 2, eq_ix3 i⟩
  show kTile (F := Ideal) a0 coords npts w1 g1 b1 w2 g2 b2 (tile60 (ix3 b P o)) (local60 (ix3 b P o)) = _
  rw [local60_ix3]
  unfold kTile
  rw [out2_entry a0 coords npts w1 g1 b1 w2 g2 b2 ha0 hw1 hm1 hv1 hm2 hv2 (tile60 (ix3 b P o)) b (inTile P) o,
    tileIdx_tile60]

end Cert.Bridge

end
-- ==== Proof.BridgeSums.lean ====
/-
  From tile accumulators to channel statistics. The chain of 60 tiles leaves in the two accumulators the sums over
  all tiles of the tiles' column sums and column sums of squares; re-blocked, these are the sums over
  (batch, pillar, point) of the per-entry values and of their squares. Divided by N = 1536000 the first is the
  channel mean, and for real data the one-pass variance (mean of squares minus squared mean) is the two-pass
  variance (mean of squared deviations). Mean and variance are reals, the variance is nonnegative, and the
  reciprocal square root of variance + eps is a real.
-/
import proofs.«172073_j52536039964809_2_alg».proof.Proof.KSpecRead
import proofs.«172073_j52536039964809_2_alg».proof.Proof.RefRead
import proofs.«172073_j52536039964809_2_alg».proof.Proof.Tile1
import proofs.«172073_j52536039964809_2_alg».proof.Proof.LibMoments

noncomputable section

namespace Cert.Bridge

open Idealize.ShloMosaic Idealize.ShloMosaic.ValueIdx
open Cert.KernelIdeal Cert.KernelIdeal.Tile Cert.KernelIdeal.Spec Cert.KernelIdeal.TileRead
open Cert.ReferenceIdeal.RefRun (chanMean chanVar)
open Cert.ReferenceIdeal.RefRead (chanMean_apply chanVar_apply)
open Cert.Lib.TileSum (tileIdx flatIdx sum_tiles_flat)
open Cert.Lib.Moments Cert.Lib.BatchMoments

/-! ## The two literals -/

/-- The count word denotes N = 1536000. -/
theorem count_eq : Ideal.ofBits .f32 0x49BB8000#32 = ((1536000 : ℝ) : EReal) := by
  simp [Ideal.ofBits, Ideal.ieee]
  norm_num
  rw [← EReal.coe_mul]
  norm_num

/-- The eps word denotes the real 8589935 / 2^33. -/
theorem eps_eq : Ideal.ofBits .f32 0x3A83126F#32 = (((8589935 : ℝ) / 8589934592 : ℝ) : EReal) := by
  simp [Ideal.ofBits, Ideal.ieee]
  norm_num
  rw [← EReal.coe_mul]
  norm_num

theorem eps_pos : (0 : ℝ) < (8589935 : ℝ) / 8589934592 := by norm_num

/-- There are N = 4 * 12000 * 32 entries per channel. -/
theorem card3 : (Fintype.card (Fin 4 × Fin 12000 × Fin 32) : ℝ) = 1536000 := by
  simp [Fintype.card_prod]

/-! ## Moments of real data indexed by (batch, pillar, point) -/

/-- A triple sum is the sum over the product index set. -/
theorem sum3 {M : Type*} [AddCommMonoid M] (F : Fin 4 → Fin 12000 → Fin 32 → M) :
    ∑ b, ∑ p, ∑ m, F b p m = ∑ i : Fin 4 × Fin 12000 × Fin 32, F i.1 i.2.1 i.2.2 := by
  rw [Fintype.sum_prod_type]
  refine Finset.sum_congr rfl fun b _ => ?_
  rw [Fintype.sum_prod_type]

section Moments3

variable (y : Fin 4 → Fin 12000 → Fin 32 → EReal)

/-- One-pass variance = two-pass variance, for real data over N entries, in the word spelling of N. -/
theorem var3 (hy : ∀ b p m, ∃ r : ℝ, y b p m = (r : EReal)) :
    Ideal.div (∑ b, ∑ p, ∑ m, y b p m * y b p m) (Ideal.ofBits .f32 0x49BB8000#32)
        - Ideal.div (∑ b, ∑ p, ∑ m, y b p m) (Ideal.ofBits .f32 0x49BB8000#32)
          * Ideal.div (∑ b, ∑ p, ∑ m, y b p m) (Ideal.ofBits .f32 0x49BB8000#32)
      = Ideal.div (∑ b, ∑ p, ∑ m,
            (y b p m - Ideal.div (∑ b, ∑ p, ∑ m, y b p m) (Ideal.ofBits .f32 0x49BB8000#32))
              * (y b p m - Ideal.div (∑ b, ∑ p, ∑ m, y b p m) (Ideal.ofBits .f32 0x49BB8000#32)))
          (Ideal.ofBits .f32 0x49BB8000#32) := by
  choose yr hyr using hy
  have e1 : ∑ b, ∑ p, ∑ m, y b p m = ∑ i : Fin 4 × Fin 12000 × Fin 32, ((yr i.1 i.2.1 i.2.2 : ℝ) : EReal) := by
    rw [sum3 y]; exact Finset.sum_congr rfl fun i _ => hyr _ _ _
  have e2 : ∑ b, ∑ p, ∑ m, y b p m * y b p m
      = ∑ i : Fin 4 × Fin 12000 × Fin 32, ((yr i.1 i.2.1 i.2.2 : ℝ) : EReal) * ((yr i.1 i.2.1 i.2.2 : ℝ) : EReal) := by
    rw [sum3 (fun b p m => y b p m * y b p m)]; exact Finset.sum_congr rfl fun i _ => by rw [hyr]
  have e3 : ∀ c : EReal, ∑ b, ∑ p, ∑ m, (y b p m - c) * (y b p m - c)
      = ∑ i : Fin 4 × Fin 12000 × Fin 32, (((yr i.1 i.2.1 i.2.2 : ℝ) : EReal) - c) * (((yr i.1 i.2.1 i.2.2 : ℝ) : EReal) - c) :=
    fun c => by rw [sum3 (fun b p m => (y b p m - c) * (y b p m - c))]; exact Finset.sum_congr rfl fun i _ => by rw [hyr]
  rw [e3, e2, e1, count_eq]
  exact ereal_var (fun i : Fin 4 × Fin 12000 × Fin 32 => yr i.1 i.2.1 i.2.2) 1536000 (by norm_num) card3

/-- Mean and two-pass variance of real data are reals, the variance nonnegative. -/
theorem stats3 (hy : ∀ b p m, ∃ r : ℝ, y b p m = (r : EReal)) :
    ∃ μ v : ℝ, 0 ≤ v
      ∧ Ideal.div (∑ b, ∑ p, ∑ m, y b p m) (Ideal.ofBits .f32 0x49BB8000#32) = (μ : EReal)
      ∧ Ideal.div (∑ b, ∑ p, ∑ m,
            (y b p m - Ideal.div (∑ b, ∑ p, ∑ m, y b p m) (Ideal.ofBits .f32 0x49BB8000#32))
              * (y b p m - Ideal.div (∑ b, ∑ p, ∑ m, y b p m) (Ideal.ofBits .f32 0x49BB8000#32)))
          (Ideal.ofBits .f32 0x49BB8000#32) = (v : EReal) := by
  choose yr hyr using hy
  have e1 : ∑ b, ∑ p, ∑ m, y b p m = ∑ i : Fin 4 × Fin 12000 × Fin 32, ((yr i.1 i.2.1 i.2.2 : ℝ) : EReal) := by
    rw [sum3 y]; exact Finset.sum_congr rfl fun i _ => hyr _ _ _
  have e3 : ∀ c : EReal, ∑ b, ∑ p, ∑ m, (y b p m - c) * (y b p m - c)
      = ∑ i : Fin 4 × Fin 12000 × Fin 32, (((yr i.1 i.2.1 i.2.2 : ℝ) : EReal) - c) * (((yr i.1 i.2.1 i.2.2 : ℝ) : EReal) - c) :=
    fun c => by rw [sum3 (fun b p m => (y b p m - c) * (y b p m - c))]; exact Finset.sum_congr rfl fun i _ => by rw [hyr]
  have hn : (1536000 : ℝ) ≠ 0 := by norm_num
  refine ⟨rmean (fun i : Fin 4 × Fin 12000 × Fin 32 => yr i.1 i.2.1 i.2.2) 1536000,
    rvar (fun i : Fin 4 × Fin 12000 × Fin 32 => yr i.1 i.2.1 i.2.2) 1536000,
    rvar_nonneg _ (by norm_num), ?_, ?_⟩
  · rw [e1, count_eq]; exact emean _ hn
  · rw [e3, e1, count_eq]; exact evar_two_pass _ hn

end Moments3

/-! ## Tile sums against the reference's channel statistics -/

section Bridge

variable (x : FVec Ideal Cert.ReferenceIdeal.S4x12000x32x64 .f32) (o : Fin 64) (g : Fin 60 → Fin 25600 → EReal)

/-- The mean of the tile values is the channel mean. -/
theorem mean_bridge (hg : ∀ t b q m, g t (flatIdx b q m) = x (ix4 b (tileIdx t q) m o)) :
    Ideal.div (∑ t, ∑ r, g t r) (Ideal.ofBits .f32 0x49BB8000#32) = chanMean x (ix1 o) := by
  rw [chanMean_apply, sum_tiles_flat (fun b p m => x (ix4 b p m o)) g hg]

/-- The one-pass variance of the tile values is the (two-pass) channel variance, for real data. -/
theorem var_bridge (hx : ∀ i, ∃ r : ℝ, x i = (r : EReal))
    (hg : ∀ t b q m, g t (flatIdx b q m) = x (ix4 b (tileIdx t q) m o)) :
    Ideal.div (∑ t, ∑ r, g t r * g t r) (Ideal.ofBits .f32 0x49BB8000#32) - chanMean x (ix1 o) * chanMean x (ix1 o)
      = chanVar x (ix1 o) := by
  have e : ∑ t, ∑ r, g t r * g t r = ∑ b, ∑ p, ∑ m, x (ix4 b p m o) * x (ix4 b p m o) :=
    (sum_tiles_flat (fun b p m => x (ix4 b p m o) * x (ix4 b p m o)) (fun t r => g t r * g t r)
      (fun t b q m => by simp only [hg])).symm
  rw [chanVar_apply, chanMean_apply, e]
  exact var3 (fun b p m => x (ix4 b p m o)) (fun b p m => hx _)

/-- The channel mean of real data is a real. -/
theorem chanMean_real (hx : ∀ i, ∃ r : ℝ, x i = (r : EReal)) : ∃ μ : ℝ, chanMean x (ix1 o) = (μ : EReal) := by
  obtain ⟨μ, v, _, hμ, _⟩ := stats3 (fun b p m => x (ix4 b p m o)) (fun b p m => hx _)
  exact ⟨μ, by rw [chanMean_apply]; exact hμ⟩

/-- The channel variance of real data is a nonnegative real. -/
theorem chanVar_real (hx : ∀ i, ∃ r : ℝ, x i = (r : EReal)) : ∃ v : ℝ, 0 ≤ v ∧ chanVar x (ix1 o) = (v : EReal) := by
  obtain ⟨μ, v, hv, _, hvar⟩ := stats3 (fun b p m => x (ix4 b p m o)) (fun b p m => hx _)
  exact ⟨v, hv, by rw [chanVar_apply, chanMean_apply]; exact hvar⟩

/-- The normalising factor rsqrt (variance + eps) of real data is a real. -/
theorem rsqrt_chanVar_real (hx : ∀ i, ∃ r : ℝ, x i = (r : EReal)) :
    ∃ s : ℝ, Ideal.rsqrt (chanVar x (ix1 o) + Ideal.ofBits .f32 0x3A83126F#32) = (s : EReal) := by
  obtain ⟨v, hv, hvar⟩ := chanVar_real x o hx
  exact ⟨_, by rw [hvar, eps_eq]; exact rsqrt_add_eps hv eps_pos⟩

end Bridge

/-! ## The chains of tiles -/

section Layer1

variable (a0 : FVec Ideal S4x12000x32x4 .f32) (aux : FVec Ideal S4x12000x3 .f32) (am : FVec Ideal S4x64 .f32)
  (bm : FVec Ideal S3x64 .f32)

/-- Tile t's column sum of channel o of the layer-1 pre-activation (zero past the last tile). -/
def tileSum1 (o : Fin 64) (t : ℕ) : EReal :=
  if h : t < 60 then ∑ r : Fin 25600, h1pre (F := Ideal) (blockVox a0 ⟨t, h⟩) (blockAux aux ⟨t, h⟩) am bm (ix2 r o) else 0

/-- Tile t's column sum of squares of channel o. -/
def tileSq1 (o : Fin 64) (t : ℕ) : EReal :=
  if h : t < 60 then ∑ r : Fin 25600, h1pre (F := Ideal) (blockVox a0 ⟨t, h⟩) (blockAux aux ⟨t, h⟩) am bm (ix2 r o)
    * h1pre (F := Ideal) (blockVox a0 ⟨t, h⟩) (blockAux aux ⟨t, h⟩) am bm (ix2 r o) else 0

theorem tileSum1_of_lt (o : Fin 64) (t : ℕ) (h : t < 60) :
    tileSum1 a0 aux am bm o t
      = ∑ r : Fin 25600, h1pre (F := Ideal) (blockVox a0 ⟨t, h⟩) (blockAux aux ⟨t, h⟩) am bm (ix2 r o) := dif_pos h

theorem tileSq1_of_lt (o : Fin 64) (t : ℕ) (h : t < 60) :
    tileSq1 a0 aux am bm o t
      = ∑ r : Fin 25600, h1pre (F := Ideal) (blockVox a0 ⟨t, h⟩) (blockAux aux ⟨t, h⟩) am bm (ix2 r o)
          * h1pre (F := Ideal) (blockVox a0 ⟨t, h⟩) (blockAux aux ⟨t, h⟩) am bm (ix2 r o) := dif_pos h

/-- After tile n the sum accumulator holds the column sums of tiles 0 … n. -/
theorem sums0_fst (o : Fin 64) : ∀ (n : ℕ) (h : n < 60),
    (sums0 a0 aux am bm n h).1 (ix1 o) = ∑ t ∈ Finset.range (n + 1), tileSum1 a0 aux am bm o t
  | 0, h => by
    rw [sums0]
    dsimp only
    rw [acc0_sum_apply, zero0_sum_apply, zero_add, Finset.sum_range_one, tileSum1_of_lt a0 aux am bm o 0 h]
  | n + 1, h => by
    show acc0_sum (F := Ideal) (blockVox a0 ⟨n + 1, h⟩) (blockAux aux ⟨n + 1, h⟩) am bm
        (sums0 a0 aux am bm n (Nat.lt_of_succ_lt h)).1 (ix1 o) = _
    rw [acc0_sum_apply, sums0_fst o n (Nat.lt_of_succ_lt h), Finset.sum_range_succ _ (n + 1),
      tileSum1_of_lt a0 aux am bm o (n + 1) h]

/-- After tile n the sum-of-squares accumulator holds the column sums of squares of tiles 0 … n. -/
theorem sums0_snd (o : Fin 64) : ∀ (n : ℕ) (h : n < 60),
    (sums0 a0 aux am bm n h).2 (ix1 o) = ∑ t ∈ Finset.range (n + 1), tileSq1 a0 aux am bm o t
  | 0, h => by
    rw [sums0]
    dsimp only
    rw [acc0_sq_apply, zero0_sq_apply, zero_add, Finset.sum_range_one, tileSq1_of_lt a0 aux am bm o 0 h]
  | n + 1, h => by
    show acc0_sq (F := Ideal) (blockVox a0 ⟨n + 1, h⟩) (blockAux aux ⟨n + 1, h⟩) am bm
        (sums0 a0 aux am bm n (Nat.lt_of_succ_lt h)).2 (ix1 o) = _
    rw [acc0_sq_apply, sums0_snd o n (Nat.lt_of_succ_lt h), Finset.sum_range_succ _ (n + 1),
      tileSq1_of_lt a0 aux am bm o (n + 1) h]

/-- After the last tile: the sum over all 60 tiles of their column sums. -/
theorem sums0_fst_all (o : Fin 64) :
    (sums0 a0 aux am bm 59 (by decide)).1 (ix1 o)
      = ∑ t : Fin 60, ∑ r : Fin 25600, h1pre (F := Ideal) (blockVox a0 t) (blockAux aux t) am bm (ix2 r o) := by
  rw [sums0_fst, Finset.sum_range]
  exact Finset.sum_congr rfl fun t _ => tileSum1_of_lt a0 aux am bm o t.val t.isLt

theorem sums0_snd_all (o : Fin 64) :
    (sums0 a0 aux am bm 59 (by decide)).2 (ix1 o)
      = ∑ t : Fin 60, ∑ r : Fin 25600, h1pre (F := Ideal) (blockVox a0 t) (blockAux aux t) am bm (ix2 r o)
          * h1pre (F := Ideal) (blockVox a0 t) (blockAux aux t) am bm (ix2 r o) := by
  rw [sums0_snd, Finset.sum_range]
  exact Finset.sum_congr rfl fun t _ => tileSq1_of_lt a0 aux am bm o t.val t.isLt

variable (x : FVec Ideal Cert.ReferenceIdeal.S4x12000x32x64 .f32)

/-- The kernel's mean of layer 1 is the reference's channel mean of x, when every tile entry is the matching entry of x. -/
theorem meanOf_sums0 (hpre : ∀ (t : Fin 60) (b : Fin 4) (q : Fin 200) (p : Fin 32) (o : Fin 64),
      h1pre (F := Ideal) (blockVox a0 t) (blockAux aux t) am bm (ix2 (flatIdx b q p) o) = x (ix4 b (tileIdx t q) p o)) :
    meanOf (sums0 a0 aux am bm 59 (by decide)).1 = chanMean x := by
  funext i
  obtain ⟨o, rfl⟩ : ∃ o : Fin 64, i = ix1 o := ⟨i 0, eq_ix1 i⟩
  rw [meanOf_apply, sums0_fst_all]
  exact mean_bridge x o (fun t r => h1pre (F := Ideal) (blockVox a0 t) (blockAux aux t) am bm (ix2 r o))
    (fun t b q m => hpre t b q m o)

/-- The kernel's one-pass variance of layer 1 is the reference's two-pass channel variance of x, for real x. -/
theorem varOf_sums0 (hx : ∀ i, ∃ r : ℝ, x i = (r : EReal))
    (hpre : ∀ (t : Fin 60) (b : Fin 4) (q : Fin 200) (p : Fin 32) (o : Fin 64),
      h1pre (F := Ideal) (blockVox a0 t) (blockAux aux t) am bm (ix2 (flatIdx b q p) o) = x (ix4 b (tileIdx t q) p o)) :
    varOf (sums0 a0 aux am bm 59 (by decide)).1 (sums0 a0 aux am bm 59 (by decide)).2 = chanVar x := by
  funext i
  obtain ⟨o, rfl⟩ : ∃ o : Fin 64, i = ix1 o := ⟨i 0, eq_ix1 i⟩
  rw [varOf_apply, congrFun (meanOf_sums0 a0 aux am bm x hpre) (ix1 o), sums0_snd_all]
  exact var_bridge x o (fun t r => h1pre (F := Ideal) (blockVox a0 t) (blockAux aux t) am bm (ix2 r o))
    hx (fun t b q m => hpre t b q m o)

end Layer1

section Layer2

variable (a0 : FVec Ideal S4x12000x32x4 .f32) (aux : FVec Ideal S4x12000x3 .f32) (am : FVec Ideal S4x64 .f32)
  (bm : FVec Ideal S3x64 .f32)
  (g1 b1 mean1 var1 : FVec Ideal S64 .f32) (w2 : FVec Ideal S64x64 .f32)

/-- Tile t's column sum of channel o of the layer-2 pre-activation (zero past the last tile). -/
def tileSum2 (o : Fin 64) (t : ℕ) : EReal :=
  if h : t < 60 then ∑ r : Fin 25600, h2pre (F := Ideal) (blockVox a0 ⟨t, h⟩) (blockAux aux ⟨t, h⟩) am bm g1 b1 mean1 var1 w2 (ix2 r o) else 0

/-- Tile t's column sum of squares of channel o. -/
def tileSq2 (o : Fin 64) (t : ℕ) : EReal :=
  if h : t < 60 then ∑ r : Fin 25600, h2pre (F := Ideal) (blockVox a0 ⟨t, h⟩) (blockAux aux ⟨t, h⟩) am bm g1 b1 mean1 var1 w2 (ix2 r o)
    * h2pre (F := Ideal) (blockVox a0 ⟨t, h⟩) (blockAux aux ⟨t, h⟩) am bm g1 b1 mean1 var1 w2 (ix2 r o) else 0

theorem tileSum2_of_lt (o : Fin 64) (t : ℕ) (h : t < 60) :
    tileSum2 a0 aux am bm g1 b1 mean1 var1 w2 o t
      = ∑ r : Fin 25600, h2pre (F := Ideal) (blockVox a0 ⟨t, h⟩) (blockAux aux ⟨t, h⟩) am bm g1 b1 mean1 var1 w2 (ix2 r o) := dif_pos h

theorem tileSq2_of_lt (o : Fin 64) (t : ℕ) (h : t < 60) :
    tileSq2 a0 aux am bm g1 b1 mean1 var1 w2 o t
      = ∑ r : Fin 25600, h2pre (F := Ideal) (blockVox a0 ⟨t, h⟩) (blockAux aux ⟨t, h⟩) am bm g1 b1 mean1 var1 w2 (ix2 r o)
          * h2pre (F := Ideal) (blockVox a0 ⟨t, h⟩) (blockAux aux ⟨t, h⟩) am bm g1 b1 mean1 var1 w2 (ix2 r o) := dif_pos h

/-- After tile n the sum accumulator holds the column sums of tiles 0 … n. -/
theorem sums1_fst (o : Fin 64) : ∀ (n : ℕ) (h : n < 60),
    (sums1 a0 aux am bm g1 b1 mean1 var1 w2 n h).1 (ix1 o) = ∑ t ∈ Finset.range (n + 1), tileSum2 a0 aux am bm g1 b1 mean1 var1 w2 o t
  | 0, h => by
    rw [sums1]
    dsimp only
    rw [acc1_sum_apply, zero1_sum_apply, zero_add, Finset.sum_range_one, tileSum2_of_lt a0 aux am bm g1 b1 mean1 var1 w2 o 0 h]
  | n + 1, h => by
    show acc1_sum (F := Ideal) (blockVox a0 ⟨n + 1, h⟩) (blockAux aux ⟨n + 1, h⟩) am bm g1 b1 mean1 var1 w2
        (sums1 a0 aux am bm g1 b1 mean1 var1 w2 n (Nat.lt_of_succ_lt h)).1 (ix1 o) = _
    rw [acc1_sum_apply, sums1_fst o n (Nat.lt_of_succ_lt h), Finset.sum_range_succ _ (n + 1),
      tileSum2_of_lt a0 aux am bm g1 b1 mean1 var1 w2 o (n + 1) h]

/-- After tile n the sum-of-squares accumulator holds the column sums of squares of tiles 0 … n. -/
theorem sums1_snd (o : Fin 64) : ∀ (n : ℕ) (h : n < 60),
    (sums1 a0 aux am bm g1 b1 mean1 var1 w2 n h).2 (ix1 o) = ∑ t ∈ Finset.range (n + 1), tileSq2 a0 aux am bm g1 b1 mean1 var1 w2 o t
  | 0, h => by
    rw [sums1]
    dsimp only
    rw [acc1_sq_apply, zero1_sq_apply, zero_add, Finset.sum_range_one, tileSq2_of_lt a0 aux am bm g1 b1 mean1 var1 w2 o 0 h]
  | n + 1, h => by
    show acc1_sq (F := Ideal) (blockVox a0 ⟨n + 1, h⟩) (blockAux aux ⟨n + 1, h⟩) am bm g1 b1 mean1 var1 w2
        (sums1 a0 aux am bm g1 b1 mean1 var1 w2 n (Nat.lt_of_succ_lt h)).2 (ix1 o) = _
    rw [acc1_sq_apply, sums1_snd o n (Nat.lt_of_succ_lt h), Finset.sum_range_succ _ (n + 1),
      tileSq2_of_lt a0 aux am bm g1 b1 mean1 var1 w2 o (n + 1) h]

/-- After the last tile: the sum over all 60 tiles of their column sums. -/
theorem sums1_fst_all (o : Fin 64) :
    (sums1 a0 aux am bm g1 b1 mean1 var1 w2 59 (by decide)).1 (ix1 o)
      = ∑ t : Fin 60, ∑ r : Fin 25600, h2pre (F := Ideal) (blockVox a0 t) (blockAux aux t) am bm g1 b1 mean1 var1 w2 (ix2 r o) := by
  rw [sums1_fst, Finset.sum_range]
  exact Finset.sum_congr rfl fun t _ => tileSum2_of_lt a0 aux am bm g1 b1 mean1 var1 w2 o t.val t.isLt

theorem sums1_snd_all (o : Fin 64) :
    (sums1 a0 aux am bm g1 b1 mean1 var1 w2 59 (by decide)).2 (ix1 o)
      = ∑ t : Fin 60, ∑ r : Fin 25600, h2pre (F := Ideal) (blockVox a0 t) (blockAux aux t) am bm g1 b1 mean1 var1 w2 (ix2 r o)
          * h2pre (F := Ideal) (blockVox a0 t) (blockAux aux t) am bm g1 b1 mean1 var1 w2 (ix2 r o) := by
  rw [sums1_snd, Finset.sum_range]
  exact Finset.sum_congr rfl fun t _ => tileSq2_of_lt a0 aux am bm g1 b1 mean1 var1 w2 o t.val t.isLt

variable (x : FVec Ideal Cert.ReferenceIdeal.S4x12000x32x64 .f32)

/-- The kernel's mean of layer 2 is the reference's channel mean of x, when every tile entry is the matching entry of x. -/
theorem meanOf_sums1 (hpre : ∀ (t : Fin 60) (b : Fin 4) (q : Fin 200) (p : Fin 32) (o : Fin 64),
      h2pre (F := Ideal) (blockVox a0 t) (blockAux aux t) am bm g1 b1 mean1 var1 w2 (ix2 (flatIdx b q p) o) = x (ix4 b (tileIdx t q) p o)) :
    meanOf (sums1 a0 aux am bm g1 b1 mean1 var1 w2 59 (by decide)).1 = chanMean x := by
  funext i
  obtain ⟨o, rfl⟩ : ∃ o : Fin 64, i = ix1 o := ⟨i 0, eq_ix1 i⟩
  rw [meanOf_apply, sums1_fst_all]
  exact mean_bridge x o (fun t r => h2pre (F := Ideal) (blockVox a0 t) (blockAux aux t) am bm g1 b1 mean1 var1 w2 (ix2 r o))
    (fun t b q m => hpre t b q m o)

/-- The kernel's one-pass variance of layer 2 is the reference's two-pass channel variance of x, for real x. -/
theorem varOf_sums1 (hx : ∀ i, ∃ r : ℝ, x i = (r : EReal))
    (hpre : ∀ (t : Fin 60) (b : Fin 4) (q : Fin 200) (p : Fin 32) (o : Fin 64),
      h2pre (F := Ideal) (blockVox a0 t) (blockAux aux t) am bm g1 b1 mean1 var1 w2 (ix2 (flatIdx b q p) o) = x (ix4 b (tileIdx t q) p o)) :
    varOf (sums1 a0 aux am bm g1 b1 mean1 var1 w2 59 (by decide)).1 (sums1 a0 aux am bm g1 b1 mean1 var1 w2 59 (by decide)).2 = chanVar x := by
  funext i
  obtain ⟨o, rfl⟩ : ∃ o : Fin 64, i = ix1 o := ⟨i 0, eq_ix1 i⟩
  rw [varOf_apply, congrFun (meanOf_sums1 a0 aux am bm g1 b1 mean1 var1 w2 x hpre) (ix1 o), sums1_snd_all]
  exact var_bridge x o (fun t r => h2pre (F := Ideal) (blockVox a0 t) (blockAux aux t) am bm g1 b1 mean1 var1 w2 (ix2 r o))
    hx (fun t b q m => hpre t b q m o)

end Layer2

end Cert.Bridge

end
-- ==== Proof.BridgeFinal.lean ====
/-
  THE BRIDGE: for real inputs the kernel's specification is the reference network. The statistics the
  kernel derives from its running sums over the sixty tiles are the reference's channel means and
  variances (the tiles' entries are the reference's pre-activations, which are real, so the one-pass
  variance is the two-pass one), first for layer 1, then — the first layer's output being real — for
  layer 2; with them the last call's tiles are the reference's result.
-/
import proofs.«172073_j52536039964809_2_alg».proof.Proof.Bridge3
import proofs.«172073_j52536039964809_2_alg».proof.Proof.BridgeSums

noncomputable section

namespace Cert.Bridge

open Idealize.ShloMosaic Idealize.ShloMosaic.ValueIdx Cert.KernelIdeal Cert.KernelIdeal.Spec
open Cert.Lib.FeatureFold (IsReal)

/-- The kernel's result equals the reference's term, for inputs whose float entries are all reals. -/
theorem kerOut_eq_ref (a0 : FVec Ideal S4x12000x32x4 .f32) (coords : IVec S4x12000x4 32) (npts : IVec S4x12000 32)
    (w1 : FVec Ideal S9x64 .f32) (g1 b1 : FVec Ideal S64 .f32) (w2 : FVec Ideal S64x64 .f32)
    (g2 b2 : FVec Ideal S64 .f32)
    (ha0 : ∀ i, ∃ r : ℝ, a0 i = (r : EReal)) (hw1 : ∀ i, ∃ r : ℝ, w1 i = (r : EReal)) (hg1 : ∀ i, ∃ r : ℝ, g1 i = (r : EReal)) (hb1 : ∀ i, ∃ r : ℝ, b1 i = (r : EReal))
    (hw2 : ∀ i, ∃ r : ℝ, w2 i = (r : EReal)) (hg2 : ∀ i, ∃ r : ℝ, g2 i = (r : EReal)) (hb2 : ∀ i, ∃ r : ℝ, b2 i = (r : EReal)) :
    kerOut (F := Ideal) a0 coords npts w1 g1 b1 w2 g2 b2
      = Cert.ReferenceIdeal.RefRun.refTerm (F := Ideal) a0 coords npts w1 g1 b1 w2 g2 b2 := by
  have hx1 := pre1_real_all a0 coords npts w1 ha0 hw1
  have hpre1 := h1pre_entry a0 coords npts w1 ha0 hw1
  have hm1 : kMean1 (F := Ideal) a0 coords npts w1 = Cert.ReferenceIdeal.RefRun.chanMean (Cert.ReferenceIdeal.RefRun.pre1 a0 coords npts w1) :=
    meanOf_sums0 a0 (auxOf (F := Ideal) coords npts) (amatOf w1) (bmatOf w1) (Cert.ReferenceIdeal.RefRun.pre1 a0 coords npts w1) hpre1
  have hv1 : kVar1 (F := Ideal) a0 coords npts w1 = Cert.ReferenceIdeal.RefRun.chanVar (Cert.ReferenceIdeal.RefRun.pre1 a0 coords npts w1) :=
    varOf_sums0 a0 (auxOf (F := Ideal) coords npts) (amatOf w1) (bmatOf w1) (Cert.ReferenceIdeal.RefRun.pre1 a0 coords npts w1) hx1 hpre1
  have hmean1 : ∀ o : Fin 64, IsReal (Cert.ReferenceIdeal.RefRun.chanMean (Cert.ReferenceIdeal.RefRun.pre1 a0 coords npts w1) (ix1 o)) := fun o => chanMean_real (Cert.ReferenceIdeal.RefRun.pre1 a0 coords npts w1) o hx1
  have hrs1 : ∀ o : Fin 64, IsReal (Ideal.rsqrt (Cert.ReferenceIdeal.RefRun.chanVar (Cert.ReferenceIdeal.RefRun.pre1 a0 coords npts w1) (ix1 o) + Ideal.ofBits .f32 0x3A83126F#32)) :=
    fun o => rsqrt_chanVar_real (Cert.ReferenceIdeal.RefRun.pre1 a0 coords npts w1) o hx1
  have hx2 : ∀ i, ∃ r : ℝ, Cert.ReferenceIdeal.RefRun.pre2 a0 coords npts w1 g1 b1 w2 i = (r : EReal) :=
    lin2_real_all _ w2 (bnRelu_real_all (Cert.ReferenceIdeal.RefRun.pre1 a0 coords npts w1) g1 b1 hx1 hg1 hb1 hmean1 hrs1) hw2
  have hpre2 := h2pre_entry a0 coords npts w1 g1 b1 w2 ha0 hw1 hm1 hv1
  have hm2 : kMean2 (F := Ideal) a0 coords npts w1 g1 b1 w2 = Cert.ReferenceIdeal.RefRun.chanMean (Cert.ReferenceIdeal.RefRun.pre2 a0 coords npts w1 g1 b1 w2) :=
    meanOf_sums1 a0 (auxOf (F := Ideal) coords npts) (amatOf w1) (bmatOf w1) g1 b1 (kMean1 (F := Ideal) a0 coords npts w1) (kVar1 (F := Ideal) a0 coords npts w1) w2 (Cert.ReferenceIdeal.RefRun.pre2 a0 coords npts w1 g1 b1 w2) hpre2
  have hv2 : kVar2 (F := Ideal) a0 coords npts w1 g1 b1 w2 = Cert.ReferenceIdeal.RefRun.chanVar (Cert.ReferenceIdeal.RefRun.pre2 a0 coords npts w1 g1 b1 w2) :=
    varOf_sums1 a0 (auxOf (F := Ideal) coords npts) (amatOf w1) (bmatOf w1) g1 b1 (kMean1 (F := Ideal) a0 coords npts w1) (kVar1 (F := Ideal) a0 coords npts w1) w2 (Cert.ReferenceIdeal.RefRun.pre2 a0 coords npts w1 g1 b1 w2) hx2 hpre2
  exact kerOut_eq_ref_of a0 coords npts w1 g1 b1 w2 g2 b2 ha0 hw1 hm1 hv1 hm2 hv2

end Cert.Bridge

end
-- ==== Proof.lean ====
/-
  The proof of the claim: a pillar feature network (two linear layers, each followed by batch normalisation over all
  points and a clamp at zero, then the maximum over a pillar's points) computed by three pallas calls over 60 tiles of
  200 pillars, against its direct jnp formulation.

  The frames. The kernel program is three host stretches, each followed by a pallas call. Each call's body is run
  symbolically once per case (the statistics calls reset their accumulators at the first tile and add at every tile);
  the pipeline library then gives the whole run, and no stretch or call writes an argument. The same text serves the
  word-level program and its idealization. The reference is a straight line of host operations.

  The values, over the extended reals. The kernel folds the nine layer-1 features — x, y, z, extra, x − cx, y − cy,
  cx, cy, mean z, all times a 0/1 mask — against the weights into four row coefficients and three bias coefficients;
  over real data that is distributivity. It accumulates per-channel sums and sums of squares tile by tile and forms the
  variance as E[h²] − (E h)², where the reference forms E[(h − E h)²]; over real data these agree, and sums may be
  taken in any order and grouping. The point count is read back through a float, exactly. With the statistics equal
  the two layers agree entry by entry, and so does the maximum over points. Finiteness of the float inputs is what
  makes every quantity a real number.
-/
import proofs.«172073_j52536039964809_2_alg».proof.Defs
import proofs.«172073_j52536039964809_2_alg».proof.Proof.Gen.Kernel
import proofs.«172073_j52536039964809_2_alg».proof.Proof.Gen.KernelIdeal
import proofs.«172073_j52536039964809_2_alg».proof.Proof.Gen.ReferenceIdeal
import proofs.«172073_j52536039964809_2_alg».proof.Proof.Gen.Pre_finite_inputs
import proofs.«172073_j52536039964809_2_alg».proof.Proof.BMain
import proofs.«172073_j52536039964809_2_alg».proof.Proof.KOut
import proofs.«172073_j52536039964809_2_alg».proof.Proof.RefRun
import proofs.«172073_j52536039964809_2_alg».proof.Proof.Finite
import proofs.«172073_j52536039964809_2_alg».proof.Proof.BridgeFinal

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := Cert.ReferenceIdeal.RefRun.frame

/-- The ideal pass rewrote nothing: the idealization is the program's own text read over the extended reals. -/
theorem preserves : Cert.preserves_Kernel_KernelIdeal := trivial

/-- Both programs run; the kernel's result is its specification of the arguments, the reference's its composed term of
    the same arguments; under finite float inputs these are one function. -/
theorem algebraic : Cert.algebraic_KernelIdeal_ReferenceIdeal := by
  intro m ρ m' ρ' hpre hagree
  refine ⟨_, Cert.KernelIdeal.Hand.run_spec (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8⟩ := hagree c
  rw [e0, e1, e2, e3, e4, e5, e6, e7, e8]
  obtain ⟨h0, h3, h4, h5, h6, h7, h8⟩ := Cert.Proof.Finite.finite_of_pre _ _ _ _ _ _ _ _ _ (hpre c)
  exact (Cert.Bridge.kerOut_eq_ref _ _ _ _ _ _ _ _ _ h0 h3 h4 h5 h6 h7 h8).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
